-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x160x256 : Shape := ⟨3, ![8, 160, 256]⟩
abbrev S512x256 : Shape := ⟨2, ![512, 256]⟩
abbrev S256 : Shape := ⟨1, ![256]⟩
abbrev S_ : Shape := ⟨0, ![]⟩

class Facts : Prop where
  bcast_S_S8x160x256 : S_.BroadcastsInDim S8x160x256 (![] : Fin 0 → Fin S8x160x256.rank)
  reducesTo_S8x160x256_S_d0_1_2 : S8x160x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8x160x256 .f32) (main_arg1 : FVec F S512x256 .f32) (main_arg2 : FVec F S256 .f32) : IVec S_ 1 :=
  let main_v0 : FVec F S8x160x256 .f32 := Host.absf main_arg0
  let main_cst : FVec F S_ .f32 := constant S_ .f32 0x7F800000#32
  let main_v1 : FVec F S8x160x256 .f32 := broadcastInDim S8x160x256 ![] bcast_S_S8x160x256 main_cst
  let main_v2 : IVec S8x160x256 1 := cmpf .olt main_v0 main_v1
  let main_c : IVec S_ 1 := constantI S_ 1 1#1
  let main_v3 : IVec S_ 1 := (fun x v => Host.reduce IntOp.andi x v reducesTo_S8x160x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8x160x256 : Shape := ⟨3, ![8, 160, 256]⟩
abbrev S512x256 : Shape := ⟨2, ![512, 256]⟩
abbrev S256 : Shape := ⟨1, ![256]⟩
abbrev S256x256 : Shape := ⟨2, ![256, 256]⟩
abbrev S8x12720x256 : Shape := ⟨3, ![8, 12720, 256]⟩
abbrev S1x160x256 : Shape := ⟨3, ![1, 160, 256]⟩
abbrev S1x12720x256 : Shape := ⟨3, ![1, 12720, 256]⟩
abbrev S160x256 : Shape := ⟨2, ![160, 256]⟩
abbrev S1x256 : Shape := ⟨2, ![1, 256]⟩
abbrev S159x256 : Shape := ⟨2, ![159, 256]⟩
abbrev S1x159x256 : Shape := ⟨3, ![1, 159, 256]⟩
abbrev S158x256 : Shape := ⟨2, ![158, 256]⟩
abbrev S1x158x256 : Shape := ⟨3, ![1, 158, 256]⟩
abbrev S157x256 : Shape := ⟨2, ![157, 256]⟩
abbrev S1x157x256 : Shape := ⟨3, ![1, 157, 256]⟩
abbrev S156x256 : Shape := ⟨2, ![156, 256]⟩
abbrev S1x156x256 : Shape := ⟨3, ![1, 156, 256]⟩
abbrev S155x256 : Shape := ⟨2, ![155, 256]⟩
abbrev S1x155x256 : Shape := ⟨3, ![1, 155, 256]⟩
abbrev S154x256 : Shape := ⟨2, ![154, 256]⟩
abbrev S1x154x256 : Shape := ⟨3, ![1, 154, 256]⟩
abbrev S153x256 : Shape := ⟨2, ![153, 256]⟩
abbrev S1x153x256 : Shape := ⟨3, ![1, 153, 256]⟩
abbrev S152x256 : Shape := ⟨2, ![152, 256]⟩
abbrev S1x152x256 : Shape := ⟨3, ![1, 152, 256]⟩
abbrev S151x256 : Shape := ⟨2, ![151, 256]⟩
abbrev S1x151x256 : Shape := ⟨3, ![1, 151, 256]⟩
abbrev S150x256 : Shape := ⟨2, ![150, 256]⟩
abbrev S1x150x256 : Shape := ⟨3, ![1, 150, 256]⟩
abbrev S149x256 : Shape := ⟨2, ![149, 256]⟩
abbrev S1x149x256 : Shape := ⟨3, ![1, 149, 256]⟩
abbrev S148x256 : Shape := ⟨2, ![148, 256]⟩
abbrev S1x148x256 : Shape := ⟨3, ![1, 148, 256]⟩
abbrev S147x256 : Shape := ⟨2, ![147, 256]⟩
abbrev S1x147x256 : Shape := ⟨3, ![1, 147, 256]⟩
abbrev S146x256 : Shape := ⟨2, ![146, 256]⟩
abbrev S1x146x256 : Shape := ⟨3, ![1, 146, 256]⟩
abbrev S145x256 : Shape := ⟨2, ![145, 256]⟩
abbrev S1x145x256 : Shape := ⟨3, ![1, 145, 256]⟩
abbrev S144x256 : Shape := ⟨2, ![144, 256]⟩
abbrev S1x144x256 : Shape := ⟨3, ![1, 144, 256]⟩
abbrev S143x256 : Shape := ⟨2, ![143, 256]⟩
abbrev S1x143x256 : Shape := ⟨3, ![1, 143, 256]⟩
abbrev S142x256 : Shape := ⟨2, ![142, 256]⟩
abbrev S1x142x256 : Shape := ⟨3, ![1, 142, 256]⟩
abbrev S141x256 : Shape := ⟨2, ![141, 256]⟩
abbrev S1x141x256 : Shape := ⟨3, ![1, 141, 256]⟩
abbrev S140x256 : Shape := ⟨2, ![140, 256]⟩
abbrev S1x140x256 : Shape := ⟨3, ![1, 140, 256]⟩
abbrev S139x256 : Shape := ⟨2, ![139, 256]⟩
abbrev S1x139x256 : Shape := ⟨3, ![1, 139, 256]⟩
abbrev S138x256 : Shape := ⟨2, ![138, 256]⟩
abbrev S1x138x256 : Shape := ⟨3, ![1, 138, 256]⟩
abbrev S137x256 : Shape := ⟨2, ![137, 256]⟩
abbrev S1x137x256 : Shape := ⟨3, ![1, 137, 256]⟩
abbrev S136x256 : Shape := ⟨2, ![136, 256]⟩
abbrev S1x136x256 : Shape := ⟨3, ![1, 136, 256]⟩
abbrev S135x256 : Shape := ⟨2, ![135, 256]⟩
abbrev S1x135x256 : Shape := ⟨3, ![1, 135, 256]⟩
abbrev S134x256 : Shape := ⟨2, ![134, 256]⟩
abbrev S1x134x256 : Shape := ⟨3, ![1, 134, 256]⟩
abbrev S133x256 : Shape := ⟨2, ![133, 256]⟩
abbrev S1x133x256 : Shape := ⟨3, ![1, 133, 256]⟩
abbrev S132x256 : Shape := ⟨2, ![132, 256]⟩
abbrev S1x132x256 : Shape := ⟨3, ![1, 132, 256]⟩
abbrev S131x256 : Shape := ⟨2, ![131, 256]⟩
abbrev S1x131x256 : Shape := ⟨3, ![1, 131, 256]⟩
abbrev S130x256 : Shape := ⟨2, ![130, 256]⟩
abbrev S1x130x256 : Shape := ⟨3, ![1, 130, 256]⟩
abbrev S129x256 : Shape := ⟨2, ![129, 256]⟩
abbrev S1x129x256 : Shape := ⟨3, ![1, 129, 256]⟩
abbrev S128x256 : Shape := ⟨2, ![128, 256]⟩
abbrev S1x128x256 : Shape := ⟨3, ![1, 128, 256]⟩
abbrev S127x256 : Shape := ⟨2, ![127, 256]⟩
abbrev S1x127x256 : Shape := ⟨3, ![1, 127, 256]⟩
abbrev S126x256 : Shape := ⟨2, ![126, 256]⟩
abbrev S1x126x256 : Shape := ⟨3, ![1, 126, 256]⟩
abbrev S125x256 : Shape := ⟨2, ![125, 256]⟩
abbrev S1x125x256 : Shape := ⟨3, ![1, 125, 256]⟩
abbrev S124x256 : Shape := ⟨2, ![124, 256]⟩
abbrev S1x124x256 : Shape := ⟨3, ![1, 124, 256]⟩
abbrev S123x256 : Shape := ⟨2, ![123, 256]⟩
abbrev S1x123x256 : Shape := ⟨3, ![1, 123, 256]⟩
abbrev S122x256 : Shape := ⟨2, ![122, 256]⟩
abbrev S1x122x256 : Shape := ⟨3, ![1, 122, 256]⟩
abbrev S121x256 : Shape := ⟨2, ![121, 256]⟩
abbrev S1x121x256 : Shape := ⟨3, ![1, 121, 256]⟩
abbrev S120x256 : Shape := ⟨2, ![120, 256]⟩
abbrev S1x120x256 : Shape := ⟨3, ![1, 120, 256]⟩
abbrev S119x256 : Shape := ⟨2, ![119, 256]⟩
abbrev S1x119x256 : Shape := ⟨3, ![1, 119, 256]⟩
abbrev S118x256 : Shape := ⟨2, ![118, 256]⟩
abbrev S1x118x256 : Shape := ⟨3, ![1, 118, 256]⟩
abbrev S117x256 : Shape := ⟨2, ![117, 256]⟩
abbrev S1x117x256 : Shape := ⟨3, ![1, 117, 256]⟩
abbrev S116x256 : Shape := ⟨2, ![116, 256]⟩
abbrev S1x116x256 : Shape := ⟨3, ![1, 116, 256]⟩
abbrev S115x256 : Shape := ⟨2, ![115, 256]⟩
abbrev S1x115x256 : Shape := ⟨3, ![1, 115, 256]⟩
abbrev S114x256 : Shape := ⟨2, ![114, 256]⟩
abbrev S1x114x256 : Shape := ⟨3, ![1, 114, 256]⟩
abbrev S113x256 : Shape := ⟨2, ![113, 256]⟩
abbrev S1x113x256 : Shape := ⟨3, ![1, 113, 256]⟩
abbrev S112x256 : Shape := ⟨2, ![112, 256]⟩
abbrev S1x112x256 : Shape := ⟨3, ![1, 112, 256]⟩
abbrev S111x256 : Shape := ⟨2, ![111, 256]⟩
abbrev S1x111x256 : Shape := ⟨3, ![1, 111, 256]⟩
abbrev S110x256 : Shape := ⟨2, ![110, 256]⟩
abbrev S1x110x256 : Shape := ⟨3, ![1, 110, 256]⟩
abbrev S109x256 : Shape := ⟨2, ![109, 256]⟩
abbrev S1x109x256 : Shape := ⟨3, ![1, 109, 256]⟩
abbrev S108x256 : Shape := ⟨2, ![108, 256]⟩
abbrev S1x108x256 : Shape := ⟨3, ![1, 108, 256]⟩
abbrev S107x256 : Shape := ⟨2, ![107, 256]⟩
abbrev S1x107x256 : Shape := ⟨3, ![1, 107, 256]⟩
abbrev S106x256 : Shape := ⟨2, ![106, 256]⟩
abbrev S1x106x256 : Shape := ⟨3, ![1, 106, 256]⟩
abbrev S105x256 : Shape := ⟨2, ![105, 256]⟩
abbrev S1x105x256 : Shape := ⟨3, ![1, 105, 256]⟩
abbrev S104x256 : Shape := ⟨2, ![104, 256]⟩
abbrev S1x104x256 : Shape := ⟨3, ![1, 104, 256]⟩
abbrev S103x256 : Shape := ⟨2, ![103, 256]⟩
abbrev S1x103x256 : Shape := ⟨3, ![1, 103, 256]⟩
abbrev S102x256 : Shape := ⟨2, ![102, 256]⟩
abbrev S1x102x256 : Shape := ⟨3, ![1, 102, 256]⟩
abbrev S101x256 : Shape := ⟨2, ![101, 256]⟩
abbrev S1x101x256 : Shape := ⟨3, ![1, 101, 256]⟩
abbrev S100x256 : Shape := ⟨2, ![100, 256]⟩
abbrev S1x100x256 : Shape := ⟨3, ![1, 100, 256]⟩
abbrev S99x256 : Shape := ⟨2, ![99, 256]⟩
abbrev S1x99x256 : Shape := ⟨3, ![1, 99, 256]⟩
abbrev S98x256 : Shape := ⟨2, ![98, 256]⟩
abbrev S1x98x256 : Shape := ⟨3, ![1, 98, 256]⟩
abbrev S97x256 : Shape := ⟨2, ![97, 256]⟩
abbrev S1x97x256 : Shape := ⟨3, ![1, 97, 256]⟩
abbrev S96x256 : Shape := ⟨2, ![96, 256]⟩
abbrev S1x96x256 : Shape := ⟨3, ![1, 96, 256]⟩
abbrev S95x256 : Shape := ⟨2, ![95, 256]⟩
abbrev S1x95x256 : Shape := ⟨3, ![1, 95, 256]⟩
abbrev S94x256 : Shape := ⟨2, ![94, 256]⟩
abbrev S1x94x256 : Shape := ⟨3, ![1, 94, 256]⟩
abbrev S93x256 : Shape := ⟨2, ![93, 256]⟩
abbrev S1x93x256 : Shape := ⟨3, ![1, 93, 256]⟩
abbrev S92x256 : Shape := ⟨2, ![92, 256]⟩
abbrev S1x92x256 : Shape := ⟨3, ![1, 92, 256]⟩
abbrev S91x256 : Shape := ⟨2, ![91, 256]⟩
abbrev S1x91x256 : Shape := ⟨3, ![1, 91, 256]⟩
abbrev S90x256 : Shape := ⟨2, ![90, 256]⟩
abbrev S1x90x256 : Shape := ⟨3, ![1, 90, 256]⟩
abbrev S89x256 : Shape := ⟨2, ![89, 256]⟩
abbrev S1x89x256 : Shape := ⟨3, ![1, 89, 256]⟩
abbrev S88x256 : Shape := ⟨2, ![88, 256]⟩
abbrev S1x88x256 : Shape := ⟨3, ![1, 88, 256]⟩
abbrev S87x256 : Shape := ⟨2, ![87, 256]⟩
abbrev S1x87x256 : Shape := ⟨3, ![1, 87, 256]⟩
abbrev S86x256 : Shape := ⟨2, ![86, 256]⟩
abbrev S1x86x256 : Shape := ⟨3, ![1, 86, 256]⟩
abbrev S85x256 : Shape := ⟨2, ![85, 256]⟩
abbrev S1x85x256 : Shape := ⟨3, ![1, 85, 256]⟩
abbrev S84x256 : Shape := ⟨2, ![84, 256]⟩
abbrev S1x84x256 : Shape := ⟨3, ![1, 84, 256]⟩
abbrev S83x256 : Shape := ⟨2, ![83, 256]⟩
abbrev S1x83x256 : Shape := ⟨3, ![1, 83, 256]⟩
abbrev S82x256 : Shape := ⟨2, ![82, 256]⟩
abbrev S1x82x256 : Shape := ⟨3, ![1, 82, 256]⟩
abbrev S81x256 : Shape := ⟨2, ![81, 256]⟩
abbrev S1x81x256 : Shape := ⟨3, ![1, 81, 256]⟩
abbrev S80x256 : Shape := ⟨2, ![80, 256]⟩
abbrev S1x80x256 : Shape := ⟨3, ![1, 80, 256]⟩
abbrev S79x256 : Shape := ⟨2, ![79, 256]⟩
abbrev S1x79x256 : Shape := ⟨3, ![1, 79, 256]⟩
abbrev S78x256 : Shape := ⟨2, ![78, 256]⟩
abbrev S1x78x256 : Shape := ⟨3, ![1, 78, 256]⟩
abbrev S77x256 : Shape := ⟨2, ![77, 256]⟩
abbrev S1x77x256 : Shape := ⟨3, ![1, 77, 256]⟩
abbrev S76x256 : Shape := ⟨2, ![76, 256]⟩
abbrev S1x76x256 : Shape := ⟨3, ![1, 76, 256]⟩
abbrev S75x256 : Shape := ⟨2, ![75, 256]⟩
abbrev S1x75x256 : Shape := ⟨3, ![1, 75, 256]⟩
abbrev S74x256 : Shape := ⟨2, ![74, 256]⟩
abbrev S1x74x256 : Shape := ⟨3, ![1, 74, 256]⟩
abbrev S73x256 : Shape := ⟨2, ![73, 256]⟩
abbrev S1x73x256 : Shape := ⟨3, ![1, 73, 256]⟩
abbrev S72x256 : Shape := ⟨2, ![72, 256]⟩
abbrev S1x72x256 : Shape := ⟨3, ![1, 72, 256]⟩
abbrev S71x256 : Shape := ⟨2, ![71, 256]⟩
abbrev S1x71x256 : Shape := ⟨3, ![1, 71, 256]⟩
abbrev S70x256 : Shape := ⟨2, ![70, 256]⟩
abbrev S1x70x256 : Shape := ⟨3, ![1, 70, 256]⟩
abbrev S69x256 : Shape := ⟨2, ![69, 256]⟩
abbrev S1x69x256 : Shape := ⟨3, ![1, 69, 256]⟩
abbrev S68x256 : Shape := ⟨2, ![68, 256]⟩
abbrev S1x68x256 : Shape := ⟨3, ![1, 68, 256]⟩
abbrev S67x256 : Shape := ⟨2, ![67, 256]⟩
abbrev S1x67x256 : Shape := ⟨3, ![1, 67, 256]⟩
abbrev S66x256 : Shape := ⟨2, ![66, 256]⟩
abbrev S1x66x256 : Shape := ⟨3, ![1, 66, 256]⟩
abbrev S65x256 : Shape := ⟨2, ![65, 256]⟩
abbrev S1x65x256 : Shape := ⟨3, ![1, 65, 256]⟩
abbrev S64x256 : Shape := ⟨2, ![64, 256]⟩
abbrev S1x64x256 : Shape := ⟨3, ![1, 64, 256]⟩
abbrev S63x256 : Shape := ⟨2, ![63, 256]⟩
abbrev S1x63x256 : Shape := ⟨3, ![1, 63, 256]⟩
abbrev S62x256 : Shape := ⟨2, ![62, 256]⟩
abbrev S1x62x256 : Shape := ⟨3, ![1, 62, 256]⟩
abbrev S61x256 : Shape := ⟨2, ![61, 256]⟩
abbrev S1x61x256 : Shape := ⟨3, ![1, 61, 256]⟩
abbrev S60x256 : Shape := ⟨2, ![60, 256]⟩
abbrev S1x60x256 : Shape := ⟨3, ![1, 60, 256]⟩
abbrev S59x256 : Shape := ⟨2, ![59, 256]⟩
abbrev S1x59x256 : Shape := ⟨3, ![1, 59, 256]⟩
abbrev S58x256 : Shape := ⟨2, ![58, 256]⟩
abbrev S1x58x256 : Shape := ⟨3, ![1, 58, 256]⟩
abbrev S57x256 : Shape := ⟨2, ![57, 256]⟩
abbrev S1x57x256 : Shape := ⟨3, ![1, 57, 256]⟩
abbrev S56x256 : Shape := ⟨2, ![56, 256]⟩
abbrev S1x56x256 : Shape := ⟨3, ![1, 56, 256]⟩
abbrev S55x256 : Shape := ⟨2, ![55, 256]⟩
abbrev S1x55x256 : Shape := ⟨3, ![1, 55, 256]⟩
abbrev S54x256 : Shape := ⟨2, ![54, 256]⟩
abbrev S1x54x256 : Shape := ⟨3, ![1, 54, 256]⟩
abbrev S53x256 : Shape := ⟨2, ![53, 256]⟩
abbrev S1x53x256 : Shape := ⟨3, ![1, 53, 256]⟩
abbrev S52x256 : Shape := ⟨2, ![52, 256]⟩
abbrev S1x52x256 : Shape := ⟨3, ![1, 52, 256]⟩
abbrev S51x256 : Shape := ⟨2, ![51, 256]⟩
abbrev S1x51x256 : Shape := ⟨3, ![1, 51, 256]⟩
abbrev S50x256 : Shape := ⟨2, ![50, 256]⟩
abbrev S1x50x256 : Shape := ⟨3, ![1, 50, 256]⟩
abbrev S49x256 : Shape := ⟨2, ![49, 256]⟩
abbrev S1x49x256 : Shape := ⟨3, ![1, 49, 256]⟩
abbrev S48x256 : Shape := ⟨2, ![48, 256]⟩
abbrev S1x48x256 : Shape := ⟨3, ![1, 48, 256]⟩
abbrev S47x256 : Shape := ⟨2, ![47, 256]⟩
abbrev S1x47x256 : Shape := ⟨3, ![1, 47, 256]⟩
abbrev S46x256 : Shape := ⟨2, ![46, 256]⟩
abbrev S1x46x256 : Shape := ⟨3, ![1, 46, 256]⟩
abbrev S45x256 : Shape := ⟨2, ![45, 256]⟩
abbrev S1x45x256 : Shape := ⟨3, ![1, 45, 256]⟩
abbrev S44x256 : Shape := ⟨2, ![44, 256]⟩
abbrev S1x44x256 : Shape := ⟨3, ![1, 44, 256]⟩
abbrev S43x256 : Shape := ⟨2, ![43, 256]⟩
abbrev S1x43x256 : Shape := ⟨3, ![1, 43, 256]⟩
abbrev S42x256 : Shape := ⟨2, ![42, 256]⟩
abbrev S1x42x256 : Shape := ⟨3, ![1, 42, 256]⟩
abbrev S41x256 : Shape := ⟨2, ![41, 256]⟩
abbrev S1x41x256 : Shape := ⟨3, ![1, 41, 256]⟩
abbrev S40x256 : Shape := ⟨2, ![40, 256]⟩
abbrev S1x40x256 : Shape := ⟨3, ![1, 40, 256]⟩
abbrev S39x256 : Shape := ⟨2, ![39, 256]⟩
abbrev S1x39x256 : Shape := ⟨3, ![1, 39, 256]⟩
abbrev S38x256 : Shape := ⟨2, ![38, 256]⟩
abbrev S1x38x256 : Shape := ⟨3, ![1, 38, 256]⟩
abbrev S37x256 : Shape := ⟨2, ![37, 256]⟩
abbrev S1x37x256 : Shape := ⟨3, ![1, 37, 256]⟩
abbrev S36x256 : Shape := ⟨2, ![36, 256]⟩
abbrev S1x36x256 : Shape := ⟨3, ![1, 36, 256]⟩
abbrev S35x256 : Shape := ⟨2, ![35, 256]⟩
abbrev S1x35x256 : Shape := ⟨3, ![1, 35, 256]⟩
abbrev S34x256 : Shape := ⟨2, ![34, 256]⟩
abbrev S1x34x256 : Shape := ⟨3, ![1, 34, 256]⟩
abbrev S33x256 : Shape := ⟨2, ![33, 256]⟩
abbrev S1x33x256 : Shape := ⟨3, ![1, 33, 256]⟩
abbrev S32x256 : Shape := ⟨2, ![32, 256]⟩
abbrev S1x32x256 : Shape := ⟨3, ![1, 32, 256]⟩
abbrev S31x256 : Shape := ⟨2, ![31, 256]⟩
abbrev S1x31x256 : Shape := ⟨3, ![1, 31, 256]⟩
abbrev S30x256 : Shape := ⟨2, ![30, 256]⟩
abbrev S1x30x256 : Shape := ⟨3, ![1, 30, 256]⟩
abbrev S29x256 : Shape := ⟨2, ![29, 256]⟩
abbrev S1x29x256 : Shape := ⟨3, ![1, 29, 256]⟩
abbrev S28x256 : Shape := ⟨2, ![28, 256]⟩
abbrev S1x28x256 : Shape := ⟨3, ![1, 28, 256]⟩
abbrev S27x256 : Shape := ⟨2, ![27, 256]⟩
abbrev S1x27x256 : Shape := ⟨3, ![1, 27, 256]⟩
abbrev S26x256 : Shape := ⟨2, ![26, 256]⟩
abbrev S1x26x256 : Shape := ⟨3, ![1, 26, 256]⟩
abbrev S25x256 : Shape := ⟨2, ![25, 256]⟩
abbrev S1x25x256 : Shape := ⟨3, ![1, 25, 256]⟩
abbrev S24x256 : Shape := ⟨2, ![24, 256]⟩
abbrev S1x24x256 : Shape := ⟨3, ![1, 24, 256]⟩
abbrev S23x256 : Shape := ⟨2, ![23, 256]⟩
abbrev S1x23x256 : Shape := ⟨3, ![1, 23, 256]⟩
abbrev S22x256 : Shape := ⟨2, ![22, 256]⟩
abbrev S1x22x256 : Shape := ⟨3, ![1, 22, 256]⟩
abbrev S21x256 : Shape := ⟨2, ![21, 256]⟩
abbrev S1x21x256 : Shape := ⟨3, ![1, 21, 256]⟩
abbrev S20x256 : Shape := ⟨2, ![20, 256]⟩
abbrev S1x20x256 : Shape := ⟨3, ![1, 20, 256]⟩
abbrev S19x256 : Shape := ⟨2, ![19, 256]⟩
abbrev S1x19x256 : Shape := ⟨3, ![1, 19, 256]⟩
abbrev S18x256 : Shape := ⟨2, ![18, 256]⟩
abbrev S1x18x256 : Shape := ⟨3, ![1, 18, 256]⟩
abbrev S17x256 : Shape := ⟨2, ![17, 256]⟩
abbrev S1x17x256 : Shape := ⟨3, ![1, 17, 256]⟩
abbrev S16x256 : Shape := ⟨2, ![16, 256]⟩
abbrev S1x16x256 : Shape := ⟨3, ![1, 16, 256]⟩
abbrev S15x256 : Shape := ⟨2, ![15, 256]⟩
abbrev S1x15x256 : Shape := ⟨3, ![1, 15, 256]⟩
abbrev S14x256 : Shape := ⟨2, ![14, 256]⟩
abbrev S1x14x256 : Shape := ⟨3, ![1, 14, 256]⟩
abbrev S13x256 : Shape := ⟨2, ![13, 256]⟩
abbrev S1x13x256 : Shape := ⟨3, ![1, 13, 256]⟩
abbrev S12x256 : Shape := ⟨2, ![12, 256]⟩
abbrev S1x12x256 : Shape := ⟨3, ![1, 12, 256]⟩
abbrev S11x256 : Shape := ⟨2, ![11, 256]⟩
abbrev S1x11x256 : Shape := ⟨3, ![1, 11, 256]⟩
abbrev S10x256 : Shape := ⟨2, ![10, 256]⟩
abbrev S1x10x256 : Shape := ⟨3, ![1, 10, 256]⟩
abbrev S9x256 : Shape := ⟨2, ![9, 256]⟩
abbrev S1x9x256 : Shape := ⟨3, ![1, 9, 256]⟩
abbrev S8x256 : Shape := ⟨2, ![8, 256]⟩
abbrev S1x8x256 : Shape := ⟨3, ![1, 8, 256]⟩
abbrev S7x256 : Shape := ⟨2, ![7, 256]⟩
abbrev S1x7x256 : Shape := ⟨3, ![1, 7, 256]⟩
abbrev S6x256 : Shape := ⟨2, ![6, 256]⟩
abbrev S1x6x256 : Shape := ⟨3, ![1, 6, 256]⟩
abbrev S5x256 : Shape := ⟨2, ![5, 256]⟩
abbrev S1x5x256 : Shape := ⟨3, ![1, 5, 256]⟩
abbrev S4x256 : Shape := ⟨2, ![4, 256]⟩
abbrev S1x4x256 : Shape := ⟨3, ![1, 4, 256]⟩
abbrev S3x256 : Shape := ⟨2, ![3, 256]⟩
abbrev S1x3x256 : Shape := ⟨3, ![1, 3, 256]⟩
abbrev S2x256 : Shape := ⟨2, ![2, 256]⟩
abbrev S1x2x256 : Shape := ⟨3, ![1, 2, 256]⟩
abbrev S1x1x256 : Shape := ⟨3, ![1, 1, 256]⟩

abbrev nBuf : Space → Nat
  | .hbm => 6
  | .vmem => 7
  | .smem => 0
  | _ => 0

abbrev bufTy : (tb : Table) → Fin (tcTables nBuf tb) → BufTy
  | .hbm, ⟨0, _⟩ => ⟨S8x160x256, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S8x12720x256, .f32⟩
  | .local _ .vmem, ⟨0, _⟩ => ⟨S1x160x256, .f32⟩
  | .local _ .vmem, ⟨1, _⟩ => ⟨S1x160x256, .f32⟩
  | .local _ .vmem, ⟨2, _⟩ => ⟨S256x256, .f32⟩
  | .local _ .vmem, ⟨3, _⟩ => ⟨S256x256, .f32⟩
  | .local _ .vmem, ⟨4, _⟩ => ⟨S256, .f32⟩
  | .local _ .vmem, ⟨5, _⟩ => ⟨S1x12720x256, .f32⟩
  | .local _ .vmem, ⟨6, _⟩ => ⟨S1x12720x256, .f32⟩
  | _, _ => ⟨S8x160x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x160x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x12720x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x160x256.size a ≤ S8x160x256.size a
  hwx0_0 : ∀ i : grid0.Coords, EltTy.bits .f32 = 32 ∨ (Rect.block (s := S8x160x256) S1x160x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12720x256.size a ≤ S8x12720x256.size a
  hwx0_4 : ∀ i : grid0.Coords, EltTy.bits .f32 = 32 ∨ (Rect.block (s := S8x12720x256) S1x12720x256.size (cc0_transform_4 i) (hinb0_4 i)).WholeWords (EltTy.packing .f32)

class Shapes1.Facts₀ : Prop where
  slices_S512x256_S256x256_0_0 : S512x256.Slices ![0, 0] S256x256
  slices_S512x256_S256x256_256_0 : S512x256.Slices ![256, 0] S256x256
  inb_S1x160x256_S1x160x256_0_0_0 : ∀ a, (![0, 0, 0] : Fin 3 → Nat) a + S1x160x256.size a ≤ S1x160x256.size a
  h_S1x160x256 : 0 < S1x160x256.numel
  shapeCasts_S1x160x256_S160x256 : S1x160x256.ShapeCasts S160x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  slices_S160x256_o1_0_S159x256 : S160x256.Slices ![1, 0] S159x256
  slices_S160x256_o0_0_S1x256 : S160x256.Slices ![0, 0] S1x256
  broadcasts_S1x256_S159x256 : S1x256.Broadcasts S159x256
  inb_S1x12720x256_S1x159x256_0_0_0 : ∀ a, (![0, 0, 0] : Fin 3 → Nat) a + S1x159x256.size a ≤ S1x12720x256.size a
  h_S1x159x256 : 0 < S1x159x256.numel
  shapeCasts_S1x159x256_S159x256 : S1x159x256.ShapeCasts S159x256
  shapeCasts_S159x256_S1x159x256 : S159x256.ShapeCasts S1x159x256
  slices_S160x256_o2_0_S158x256 : S160x256.Slices ![2, 0] S158x256
  slices_S160x256_o1_0_S1x256 : S160x256.Slices ![1, 0] S1x256
  broadcasts_S1x256_S158x256 : S1x256.Broadcasts S158x256
  inb_S1x12720x256_S1x158x256_0_159_0 : ∀ a, (![0, 159, 0] : Fin 3 → Nat) a + S1x158x256.size a ≤ S1x12720x256.size a
  h_S1x158x256 : 0 < S1x158x256.numel
  shapeCasts_S1x158x256_S158x256 : S1x158x256.ShapeCasts S158x256
  shapeCasts_S158x256_S1x158x256 : S158x256.ShapeCasts S1x158x256
  slices_S160x256_o3_0_S157x256 : S160x256.Slices ![3, 0] S157x256
  slices_S160x256_o2_0_S1x256 : S160x256.Slices ![2, 0] S1x256
  broadcasts_S1x256_S157x256 : S1x256.Broadcasts S157x256
  inb_S1x12720x256_S1x157x256_0_317_0 : ∀ a, (![0, 317, 0] : Fin 3 → Nat) a + S1x157x256.size a ≤ S1x12720x256.size a
  h_S1x157x256 : 0 < S1x157x256.numel
  shapeCasts_S1x157x256_S157x256 : S1x157x256.ShapeCasts S157x256
  shapeCasts_S157x256_S1x157x256 : S157x256.ShapeCasts S1x157x256
  slices_S160x256_o4_0_S156x256 : S160x256.Slices ![4, 0] S156x256
  slices_S160x256_o3_0_S1x256 : S160x256.Slices ![3, 0] S1x256
  broadcasts_S1x256_S156x256 : S1x256.Broadcasts S156x256
  inb_S1x12720x256_S1x156x256_0_474_0 : ∀ a, (![0, 474, 0] : Fin 3 → Nat) a + S1x156x256.size a ≤ S1x12720x256.size a
  h_S1x156x256 : 0 < S1x156x256.numel
  shapeCasts_S1x156x256_S156x256 : S1x156x256.ShapeCasts S156x256
  shapeCasts_S156x256_S1x156x256 : S156x256.ShapeCasts S1x156x256
  slices_S160x256_o5_0_S155x256 : S160x256.Slices ![5, 0] S155x256
  slices_S160x256_o4_0_S1x256 : S160x256.Slices ![4, 0] S1x256
  broadcasts_S1x256_S155x256 : S1x256.Broadcasts S155x256
  inb_S1x12720x256_S1x155x256_0_630_0 : ∀ a, (![0, 630, 0] : Fin 3 → Nat) a + S1x155x256.size a ≤ S1x12720x256.size a
  h_S1x155x256 : 0 < S1x155x256.numel
  shapeCasts_S1x155x256_S155x256 : S1x155x256.ShapeCasts S155x256
  shapeCasts_S155x256_S1x155x256 : S155x256.ShapeCasts S1x155x256
  slices_S160x256_o6_0_S154x256 : S160x256.Slices ![6, 0] S154x256
  slices_S160x256_o5_0_S1x256 : S160x256.Slices ![5, 0] S1x256
  broadcasts_S1x256_S154x256 : S1x256.Broadcasts S154x256
  inb_S1x12720x256_S1x154x256_0_785_0 : ∀ a, (![0, 785, 0] : Fin 3 → Nat) a + S1x154x256.size a ≤ S1x12720x256.size a
  h_S1x154x256 : 0 < S1x154x256.numel
  shapeCasts_S1x154x256_S154x256 : S1x154x256.ShapeCasts S154x256
  shapeCasts_S154x256_S1x154x256 : S154x256.ShapeCasts S1x154x256
  slices_S160x256_o7_0_S153x256 : S160x256.Slices ![7, 0] S153x256
  slices_S160x256_o6_0_S1x256 : S160x256.Slices ![6, 0] S1x256
  broadcasts_S1x256_S153x256 : S1x256.Broadcasts S153x256
  inb_S1x12720x256_S1x153x256_0_939_0 : ∀ a, (![0, 939, 0] : Fin 3 → Nat) a + S1x153x256.size a ≤ S1x12720x256.size a
  h_S1x153x256 : 0 < S1x153x256.numel
  shapeCasts_S1x153x256_S153x256 : S1x153x256.ShapeCasts S153x256
  shapeCasts_S153x256_S1x153x256 : S153x256.ShapeCasts S1x153x256
  slices_S160x256_o8_0_S152x256 : S160x256.Slices ![8, 0] S152x256
  slices_S160x256_o7_0_S1x256 : S160x256.Slices ![7, 0] S1x256
  broadcasts_S1x256_S152x256 : S1x256.Broadcasts S152x256
  inb_S1x12720x256_S1x152x256_0_1092_0 : ∀ a, (![0, 1092, 0] : Fin 3 → Nat) a + S1x152x256.size a ≤ S1x12720x256.size a
  h_S1x152x256 : 0 < S1x152x256.numel
  shapeCasts_S1x152x256_S152x256 : S1x152x256.ShapeCasts S152x256
  shapeCasts_S152x256_S1x152x256 : S152x256.ShapeCasts S1x152x256
  slices_S160x256_o9_0_S151x256 : S160x256.Slices ![9, 0] S151x256
  slices_S160x256_o8_0_S1x256 : S160x256.Slices ![8, 0] S1x256
  broadcasts_S1x256_S151x256 : S1x256.Broadcasts S151x256
  inb_S1x12720x256_S1x151x256_0_1244_0 : ∀ a, (![0, 1244, 0] : Fin 3 → Nat) a + S1x151x256.size a ≤ S1x12720x256.size a
  h_S1x151x256 : 0 < S1x151x256.numel
  shapeCasts_S1x151x256_S151x256 : S1x151x256.ShapeCasts S151x256
  shapeCasts_S151x256_S1x151x256 : S151x256.ShapeCasts S1x151x256
  slices_S160x256_o10_0_S150x256 : S160x256.Slices ![10, 0] S150x256
  slices_S160x256_o9_0_S1x256 : S160x256.Slices ![9, 0] S1x256
  broadcasts_S1x256_S150x256 : S1x256.Broadcasts S150x256
  inb_S1x12720x256_S1x150x256_0_1395_0 : ∀ a, (![0, 1395, 0] : Fin 3 → Nat) a + S1x150x256.size a ≤ S1x12720x256.size a
  h_S1x150x256 : 0 < S1x150x256.numel
  shapeCasts_S1x150x256_S150x256 : S1x150x256.ShapeCasts S150x256
  shapeCasts_S150x256_S1x150x256 : S150x256.ShapeCasts S1x150x256
  slices_S160x256_o11_0_S149x256 : S160x256.Slices ![11, 0] S149x256
  slices_S160x256_o10_0_S1x256 : S160x256.Slices ![10, 0] S1x256
  broadcasts_S1x256_S149x256 : S1x256.Broadcasts S149x256
  inb_S1x12720x256_S1x149x256_0_1545_0 : ∀ a, (![0, 1545, 0] : Fin 3 → Nat) a + S1x149x256.size a ≤ S1x12720x256.size a
  h_S1x149x256 : 0 < S1x149x256.numel
  shapeCasts_S1x149x256_S149x256 : S1x149x256.ShapeCasts S149x256
  shapeCasts_S149x256_S1x149x256 : S149x256.ShapeCasts S1x149x256
  slices_S160x256_o12_0_S148x256 : S160x256.Slices ![12, 0] S148x256
  slices_S160x256_o11_0_S1x256 : S160x256.Slices ![11, 0] S1x256
  broadcasts_S1x256_S148x256 : S1x256.Broadcasts S148x256
  inb_S1x12720x256_S1x148x256_0_1694_0 : ∀ a, (![0, 1694, 0] : Fin 3 → Nat) a + S1x148x256.size a ≤ S1x12720x256.size a
  h_S1x148x256 : 0 < S1x148x256.numel
  shapeCasts_S1x148x256_S148x256 : S1x148x256.ShapeCasts S148x256
  shapeCasts_S148x256_S1x148x256 : S148x256.ShapeCasts S1x148x256
  slices_S160x256_o13_0_S147x256 : S160x256.Slices ![13, 0] S147x256
  slices_S160x256_o12_0_S1x256 : S160x256.Slices ![12, 0] S1x256
  broadcasts_S1x256_S147x256 : S1x256.Broadcasts S147x256
  inb_S1x12720x256_S1x147x256_0_1842_0 : ∀ a, (![0, 1842, 0] : Fin 3 → Nat) a + S1x147x256.size a ≤ S1x12720x256.size a
  h_S1x147x256 : 0 < S1x147x256.numel
  shapeCasts_S1x147x256_S147x256 : S1x147x256.ShapeCasts S147x256
  shapeCasts_S147x256_S1x147x256 : S147x256.ShapeCasts S1x147x256
  slices_S160x256_o14_0_S146x256 : S160x256.Slices ![14, 0] S146x256
  slices_S160x256_o13_0_S1x256 : S160x256.Slices ![13, 0] S1x256
  broadcasts_S1x256_S146x256 : S1x256.Broadcasts S146x256
  inb_S1x12720x256_S1x146x256_0_1989_0 : ∀ a, (![0, 1989, 0] : Fin 3 → Nat) a + S1x146x256.size a ≤ S1x12720x256.size a
  h_S1x146x256 : 0 < S1x146x256.numel
  shapeCasts_S1x146x256_S146x256 : S1x146x256.ShapeCasts S146x256
  shapeCasts_S146x256_S1x146x256 : S146x256.ShapeCasts S1x146x256
  slices_S160x256_o15_0_S145x256 : S160x256.Slices ![15, 0] S145x256
  slices_S160x256_o14_0_S1x256 : S160x256.Slices ![14, 0] S1x256
  broadcasts_S1x256_S145x256 : S1x256.Broadcasts S145x256
  inb_S1x12720x256_S1x145x256_0_2135_0 : ∀ a, (![0, 2135, 0] : Fin 3 → Nat) a + S1x145x256.size a ≤ S1x12720x256.size a
  h_S1x145x256 : 0 < S1x145x256.numel
  shapeCasts_S1x145x256_S145x256 : S1x145x256.ShapeCasts S145x256
  shapeCasts_S145x256_S1x145x256 : S145x256.ShapeCasts S1x145x256
  slices_S160x256_o16_0_S144x256 : S160x256.Slices ![16, 0] S144x256
  slices_S160x256_o15_0_S1x256 : S160x256.Slices ![15, 0] S1x256
  broadcasts_S1x256_S144x256 : S1x256.Broadcasts S144x256
  inb_S1x12720x256_S1x144x256_0_2280_0 : ∀ a, (![0, 2280, 0] : Fin 3 → Nat) a + S1x144x256.size a ≤ S1x12720x256.size a
  h_S1x144x256 : 0 < S1x144x256.numel
  shapeCasts_S1x144x256_S144x256 : S1x144x256.ShapeCasts S144x256
  shapeCasts_S144x256_S1x144x256 : S144x256.ShapeCasts S1x144x256
  slices_S160x256_o17_0_S143x256 : S160x256.Slices ![17, 0] S143x256
  slices_S160x256_o16_0_S1x256 : S160x256.Slices ![16, 0] S1x256
  broadcasts_S1x256_S143x256 : S1x256.Broadcasts S143x256
  inb_S1x12720x256_S1x143x256_0_2424_0 : ∀ a, (![0, 2424, 0] : Fin 3 → Nat) a + S1x143x256.size a ≤ S1x12720x256.size a
  h_S1x143x256 : 0 < S1x143x256.numel
  shapeCasts_S1x143x256_S143x256 : S1x143x256.ShapeCasts S143x256
  shapeCasts_S143x256_S1x143x256 : S143x256.ShapeCasts S1x143x256
  slices_S160x256_o18_0_S142x256 : S160x256.Slices ![18, 0] S142x256
  slices_S160x256_o17_0_S1x256 : S160x256.Slices ![17, 0] S1x256
  broadcasts_S1x256_S142x256 : S1x256.Broadcasts S142x256
  inb_S1x12720x256_S1x142x256_0_2567_0 : ∀ a, (![0, 2567, 0] : Fin 3 → Nat) a + S1x142x256.size a ≤ S1x12720x256.size a
  h_S1x142x256 : 0 < S1x142x256.numel
  shapeCasts_S1x142x256_S142x256 : S1x142x256.ShapeCasts S142x256
  shapeCasts_S142x256_S1x142x256 : S142x256.ShapeCasts S1x142x256
  slices_S160x256_o19_0_S141x256 : S160x256.Slices ![19, 0] S141x256
  slices_S160x256_o18_0_S1x256 : S160x256.Slices ![18, 0] S1x256
  broadcasts_S1x256_S141x256 : S1x256.Broadcasts S141x256
  inb_S1x12720x256_S1x141x256_0_2709_0 : ∀ a, (![0, 2709, 0] : Fin 3 → Nat) a + S1x141x256.size a ≤ S1x12720x256.size a
  h_S1x141x256 : 0 < S1x141x256.numel
  shapeCasts_S1x141x256_S141x256 : S1x141x256.ShapeCasts S141x256
  shapeCasts_S141x256_S1x141x256 : S141x256.ShapeCasts S1x141x256
  slices_S160x256_o20_0_S140x256 : S160x256.Slices ![20, 0] S140x256
  slices_S160x256_o19_0_S1x256 : S160x256.Slices ![19, 0] S1x256
  broadcasts_S1x256_S140x256 : S1x256.Broadcasts S140x256
  inb_S1x12720x256_S1x140x256_0_2850_0 : ∀ a, (![0, 2850, 0] : Fin 3 → Nat) a + S1x140x256.size a ≤ S1x12720x256.size a
  h_S1x140x256 : 0 < S1x140x256.numel
  shapeCasts_S1x140x256_S140x256 : S1x140x256.ShapeCasts S140x256
  shapeCasts_S140x256_S1x140x256 : S140x256.ShapeCasts S1x140x256
  slices_S160x256_o21_0_S139x256 : S160x256.Slices ![21, 0] S139x256
  slices_S160x256_o20_0_S1x256 : S160x256.Slices ![20, 0] S1x256
  broadcasts_S1x256_S139x256 : S1x256.Broadcasts S139x256
  inb_S1x12720x256_S1x139x256_0_2990_0 : ∀ a, (![0, 2990, 0] : Fin 3 → Nat) a + S1x139x256.size a ≤ S1x12720x256.size a
  h_S1x139x256 : 0 < S1x139x256.numel
  shapeCasts_S1x139x256_S139x256 : S1x139x256.ShapeCasts S139x256
  shapeCasts_S139x256_S1x139x256 : S139x256.ShapeCasts S1x139x256
  slices_S160x256_o22_0_S138x256 : S160x256.Slices ![22, 0] S138x256
  slices_S160x256_o21_0_S1x256 : S160x256.Slices ![21, 0] S1x256
  broadcasts_S1x256_S138x256 : S1x256.Broadcasts S138x256
  inb_S1x12720x256_S1x138x256_0_3129_0 : ∀ a, (![0, 3129, 0] : Fin 3 → Nat) a + S1x138x256.size a ≤ S1x12720x256.size a
  h_S1x138x256 : 0 < S1x138x256.numel
  shapeCasts_S1x138x256_S138x256 : S1x138x256.ShapeCasts S138x256
  shapeCasts_S138x256_S1x138x256 : S138x256.ShapeCasts S1x138x256
  slices_S160x256_o23_0_S137x256 : S160x256.Slices ![23, 0] S137x256
  slices_S160x256_o22_0_S1x256 : S160x256.Slices ![22, 0] S1x256
  broadcasts_S1x256_S137x256 : S1x256.Broadcasts S137x256
  inb_S1x12720x256_S1x137x256_0_3267_0 : ∀ a, (![0, 3267, 0] : Fin 3 → Nat) a + S1x137x256.size a ≤ S1x12720x256.size a
  h_S1x137x256 : 0 < S1x137x256.numel
  shapeCasts_S1x137x256_S137x256 : S1x137x256.ShapeCasts S137x256
  shapeCasts_S137x256_S1x137x256 : S137x256.ShapeCasts S1x137x256
  slices_S160x256_o24_0_S136x256 : S160x256.Slices ![24, 0] S136x256
  slices_S160x256_o23_0_S1x256 : S160x256.Slices ![23, 0] S1x256
  broadcasts_S1x256_S136x256 : S1x256.Broadcasts S136x256
  inb_S1x12720x256_S1x136x256_0_3404_0 : ∀ a, (![0, 3404, 0] : Fin 3 → Nat) a + S1x136x256.size a ≤ S1x12720x256.size a
  h_S1x136x256 : 0 < S1x136x256.numel
  shapeCasts_S1x136x256_S136x256 : S1x136x256.ShapeCasts S136x256
  shapeCasts_S136x256_S1x136x256 : S136x256.ShapeCasts S1x136x256
  slices_S160x256_o25_0_S135x256 : S160x256.Slices ![25, 0] S135x256
  slices_S160x256_o24_0_S1x256 : S160x256.Slices ![24, 0] S1x256
  broadcasts_S1x256_S135x256 : S1x256.Broadcasts S135x256
  inb_S1x12720x256_S1x135x256_0_3540_0 : ∀ a, (![0, 3540, 0] : Fin 3 → Nat) a + S1x135x256.size a ≤ S1x12720x256.size a
  h_S1x135x256 : 0 < S1x135x256.numel
  shapeCasts_S1x135x256_S135x256 : S1x135x256.ShapeCasts S135x256
  shapeCasts_S135x256_S1x135x256 : S135x256.ShapeCasts S1x135x256
  slices_S160x256_o26_0_S134x256 : S160x256.Slices ![26, 0] S134x256
  slices_S160x256_o25_0_S1x256 : S160x256.Slices ![25, 0] S1x256
  broadcasts_S1x256_S134x256 : S1x256.Broadcasts S134x256
  inb_S1x12720x256_S1x134x256_0_3675_0 : ∀ a, (![0, 3675, 0] : Fin 3 → Nat) a + S1x134x256.size a ≤ S1x12720x256.size a
  h_S1x134x256 : 0 < S1x134x256.numel
  shapeCasts_S1x134x256_S134x256 : S1x134x256.ShapeCasts S134x256
  shapeCasts_S134x256_S1x134x256 : S134x256.ShapeCasts S1x134x256
  slices_S160x256_o27_0_S133x256 : S160x256.Slices ![27, 0] S133x256
  slices_S160x256_o26_0_S1x256 : S160x256.Slices ![26, 0] S1x256
  broadcasts_S1x256_S133x256 : S1x256.Broadcasts S133x256
  inb_S1x12720x256_S1x133x256_0_3809_0 : ∀ a, (![0, 3809, 0] : Fin 3 → Nat) a + S1x133x256.size a ≤ S1x12720x256.size a
  h_S1x133x256 : 0 < S1x133x256.numel
  shapeCasts_S1x133x256_S133x256 : S1x133x256.ShapeCasts S133x256
  shapeCasts_S133x256_S1x133x256 : S133x256.ShapeCasts S1x133x256
  slices_S160x256_o28_0_S132x256 : S160x256.Slices ![28, 0] S132x256
  slices_S160x256_o27_0_S1x256 : S160x256.Slices ![27, 0] S1x256
  broadcasts_S1x256_S132x256 : S1x256.Broadcasts S132x256
  inb_S1x12720x256_S1x132x256_0_3942_0 : ∀ a, (![0, 3942, 0] : Fin 3 → Nat) a + S1x132x256.size a ≤ S1x12720x256.size a
  h_S1x132x256 : 0 < S1x132x256.numel
  shapeCasts_S1x132x256_S132x256 : S1x132x256.ShapeCasts S132x256
  shapeCasts_S132x256_S1x132x256 : S132x256.ShapeCasts S1x132x256
  slices_S160x256_o29_0_S131x256 : S160x256.Slices ![29, 0] S131x256
  slices_S160x256_o28_0_S1x256 : S160x256.Slices ![28, 0] S1x256
  broadcasts_S1x256_S131x256 : S1x256.Broadcasts S131x256
  inb_S1x12720x256_S1x131x256_0_4074_0 : ∀ a, (![0, 4074, 0] : Fin 3 → Nat) a + S1x131x256.size a ≤ S1x12720x256.size a
  h_S1x131x256 : 0 < S1x131x256.numel
  shapeCasts_S1x131x256_S131x256 : S1x131x256.ShapeCasts S131x256
  shapeCasts_S131x256_S1x131x256 : S131x256.ShapeCasts S1x131x256
  slices_S160x256_o30_0_S130x256 : S160x256.Slices ![30, 0] S130x256
  slices_S160x256_o29_0_S1x256 : S160x256.Slices ![29, 0] S1x256
  broadcasts_S1x256_S130x256 : S1x256.Broadcasts S130x256
  inb_S1x12720x256_S1x130x256_0_4205_0 : ∀ a, (![0, 4205, 0] : Fin 3 → Nat) a + S1x130x256.size a ≤ S1x12720x256.size a
  h_S1x130x256 : 0 < S1x130x256.numel
  shapeCasts_S1x130x256_S130x256 : S1x130x256.ShapeCasts S130x256
  shapeCasts_S130x256_S1x130x256 : S130x256.ShapeCasts S1x130x256
  slices_S160x256_o31_0_S129x256 : S160x256.Slices ![31, 0] S129x256
  slices_S160x256_o30_0_S1x256 : S160x256.Slices ![30, 0] S1x256
  broadcasts_S1x256_S129x256 : S1x256.Broadcasts S129x256
  inb_S1x12720x256_S1x129x256_0_4335_0 : ∀ a, (![0, 4335, 0] : Fin 3 → Nat) a + S1x129x256.size a ≤ S1x12720x256.size a
  h_S1x129x256 : 0 < S1x129x256.numel
  shapeCasts_S1x129x256_S129x256 : S1x129x256.ShapeCasts S129x256
  shapeCasts_S129x256_S1x129x256 : S129x256.ShapeCasts S1x129x256
  slices_S160x256_o32_0_S128x256 : S160x256.Slices ![32, 0] S128x256
  slices_S160x256_o31_0_S1x256 : S160x256.Slices ![31, 0] S1x256
  broadcasts_S1x256_S128x256 : S1x256.Broadcasts S128x256
  inb_S1x12720x256_S1x128x256_0_4464_0 : ∀ a, (![0, 4464, 0] : Fin 3 → Nat) a + S1x128x256.size a ≤ S1x12720x256.size a
  h_S1x128x256 : 0 < S1x128x256.numel
  shapeCasts_S1x128x256_S128x256 : S1x128x256.ShapeCasts S128x256
  shapeCasts_S128x256_S1x128x256 : S128x256.ShapeCasts S1x128x256
  slices_S160x256_o33_0_S127x256 : S160x256.Slices ![33, 0] S127x256
  slices_S160x256_o32_0_S1x256 : S160x256.Slices ![32, 0] S1x256
  broadcasts_S1x256_S127x256 : S1x256.Broadcasts S127x256
  inb_S1x12720x256_S1x127x256_0_4592_0 : ∀ a, (![0, 4592, 0] : Fin 3 → Nat) a + S1x127x256.size a ≤ S1x12720x256.size a
  h_S1x127x256 : 0 < S1x127x256.numel
  shapeCasts_S1x127x256_S127x256 : S1x127x256.ShapeCasts S127x256
  shapeCasts_S127x256_S1x127x256 : S127x256.ShapeCasts S1x127x256
  slices_S160x256_o34_0_S126x256 : S160x256.Slices ![34, 0] S126x256
  slices_S160x256_o33_0_S1x256 : S160x256.Slices ![33, 0] S1x256
  broadcasts_S1x256_S126x256 : S1x256.Broadcasts S126x256
  inb_S1x12720x256_S1x126x256_0_4719_0 : ∀ a, (![0, 4719, 0] : Fin 3 → Nat) a + S1x126x256.size a ≤ S1x12720x256.size a
  h_S1x126x256 : 0 < S1x126x256.numel
  shapeCasts_S1x126x256_S126x256 : S1x126x256.ShapeCasts S126x256
  shapeCasts_S126x256_S1x126x256 : S126x256.ShapeCasts S1x126x256
  slices_S160x256_o35_0_S125x256 : S160x256.Slices ![35, 0] S125x256
  slices_S160x256_o34_0_S1x256 : S160x256.Slices ![34, 0] S1x256
  broadcasts_S1x256_S125x256 : S1x256.Broadcasts S125x256
  inb_S1x12720x256_S1x125x256_0_4845_0 : ∀ a, (![0, 4845, 0] : Fin 3 → Nat) a + S1x125x256.size a ≤ S1x12720x256.size a
  h_S1x125x256 : 0 < S1x125x256.numel
  shapeCasts_S1x125x256_S125x256 : S1x125x256.ShapeCasts S125x256
  shapeCasts_S125x256_S1x125x256 : S125x256.ShapeCasts S1x125x256
  slices_S160x256_o36_0_S124x256 : S160x256.Slices ![36, 0] S124x256
  slices_S160x256_o35_0_S1x256 : S160x256.Slices ![35, 0] S1x256
  broadcasts_S1x256_S124x256 : S1x256.Broadcasts S124x256
  inb_S1x12720x256_S1x124x256_0_4970_0 : ∀ a, (![0, 4970, 0] : Fin 3 → Nat) a + S1x124x256.size a ≤ S1x12720x256.size a
  h_S1x124x256 : 0 < S1x124x256.numel
  shapeCasts_S1x124x256_S124x256 : S1x124x256.ShapeCasts S124x256
  shapeCasts_S124x256_S1x124x256 : S124x256.ShapeCasts S1x124x256
  slices_S160x256_o37_0_S123x256 : S160x256.Slices ![37, 0] S123x256
  slices_S160x256_o36_0_S1x256 : S160x256.Slices ![36, 0] S1x256
  broadcasts_S1x256_S123x256 : S1x256.Broadcasts S123x256
  inb_S1x12720x256_S1x123x256_0_5094_0 : ∀ a, (![0, 5094, 0] : Fin 3 → Nat) a + S1x123x256.size a ≤ S1x12720x256.size a
  h_S1x123x256 : 0 < S1x123x256.numel
  shapeCasts_S1x123x256_S123x256 : S1x123x256.ShapeCasts S123x256
  shapeCasts_S123x256_S1x123x256 : S123x256.ShapeCasts S1x123x256
  slices_S160x256_o38_0_S122x256 : S160x256.Slices ![38, 0] S122x256
  slices_S160x256_o37_0_S1x256 : S160x256.Slices ![37, 0] S1x256
  broadcasts_S1x256_S122x256 : S1x256.Broadcasts S122x256
  inb_S1x12720x256_S1x122x256_0_5217_0 : ∀ a, (![0, 5217, 0] : Fin 3 → Nat) a + S1x122x256.size a ≤ S1x12720x256.size a
  h_S1x122x256 : 0 < S1x122x256.numel
  shapeCasts_S1x122x256_S122x256 : S1x122x256.ShapeCasts S122x256
  shapeCasts_S122x256_S1x122x256 : S122x256.ShapeCasts S1x122x256
  slices_S160x256_o39_0_S121x256 : S160x256.Slices ![39, 0] S121x256
  slices_S160x256_o38_0_S1x256 : S160x256.Slices ![38, 0] S1x256
  broadcasts_S1x256_S121x256 : S1x256.Broadcasts S121x256
  inb_S1x12720x256_S1x121x256_0_5339_0 : ∀ a, (![0, 5339, 0] : Fin 3 → Nat) a + S1x121x256.size a ≤ S1x12720x256.size a
  h_S1x121x256 : 0 < S1x121x256.numel
  shapeCasts_S1x121x256_S121x256 : S1x121x256.ShapeCasts S121x256
  shapeCasts_S121x256_S1x121x256 : S121x256.ShapeCasts S1x121x256
  slices_S160x256_o40_0_S120x256 : S160x256.Slices ![40, 0] S120x256
  slices_S160x256_o39_0_S1x256 : S160x256.Slices ![39, 0] S1x256
  broadcasts_S1x256_S120x256 : S1x256.Broadcasts S120x256
  inb_S1x12720x256_S1x120x256_0_5460_0 : ∀ a, (![0, 5460, 0] : Fin 3 → Nat) a + S1x120x256.size a ≤ S1x12720x256.size a
  h_S1x120x256 : 0 < S1x120x256.numel
  shapeCasts_S1x120x256_S120x256 : S1x120x256.ShapeCasts S120x256
  shapeCasts_S120x256_S1x120x256 : S120x256.ShapeCasts S1x120x256
  slices_S160x256_o41_0_S119x256 : S160x256.Slices ![41, 0] S119x256
  slices_S160x256_o40_0_S1x256 : S160x256.Slices ![40, 0] S1x256
  broadcasts_S1x256_S119x256 : S1x256.Broadcasts S119x256
  inb_S1x12720x256_S1x119x256_0_5580_0 : ∀ a, (![0, 5580, 0] : Fin 3 → Nat) a + S1x119x256.size a ≤ S1x12720x256.size a
  h_S1x119x256 : 0 < S1x119x256.numel
  shapeCasts_S1x119x256_S119x256 : S1x119x256.ShapeCasts S119x256
  shapeCasts_S119x256_S1x119x256 : S119x256.ShapeCasts S1x119x256
  slices_S160x256_o42_0_S118x256 : S160x256.Slices ![42, 0] S118x256
  slices_S160x256_o41_0_S1x256 : S160x256.Slices ![41, 0] S1x256
  broadcasts_S1x256_S118x256 : S1x256.Broadcasts S118x256
  inb_S1x12720x256_S1x118x256_0_5699_0 : ∀ a, (![0, 5699, 0] : Fin 3 → Nat) a + S1x118x256.size a ≤ S1x12720x256.size a
  h_S1x118x256 : 0 < S1x118x256.numel
  shapeCasts_S1x118x256_S118x256 : S1x118x256.ShapeCasts S118x256
  shapeCasts_S118x256_S1x118x256 : S118x256.ShapeCasts S1x118x256
  slices_S160x256_o43_0_S117x256 : S160x256.Slices ![43, 0] S117x256
  slices_S160x256_o42_0_S1x256 : S160x256.Slices ![42, 0] S1x256
  broadcasts_S1x256_S117x256 : S1x256.Broadcasts S117x256
  inb_S1x12720x256_S1x117x256_0_5817_0 : ∀ a, (![0, 5817, 0] : Fin 3 → Nat) a + S1x117x256.size a ≤ S1x12720x256.size a
  h_S1x117x256 : 0 < S1x117x256.numel
  shapeCasts_S1x117x256_S117x256 : S1x117x256.ShapeCasts S117x256
  shapeCasts_S117x256_S1x117x256 : S117x256.ShapeCasts S1x117x256
  slices_S160x256_o44_0_S116x256 : S160x256.Slices ![44, 0] S116x256
  slices_S160x256_o43_0_S1x256 : S160x256.Slices ![43, 0] S1x256
  broadcasts_S1x256_S116x256 : S1x256.Broadcasts S116x256
  inb_S1x12720x256_S1x116x256_0_5934_0 : ∀ a, (![0, 5934, 0] : Fin 3 → Nat) a + S1x116x256.size a ≤ S1x12720x256.size a
  h_S1x116x256 : 0 < S1x116x256.numel
  shapeCasts_S1x116x256_S116x256 : S1x116x256.ShapeCasts S116x256
  shapeCasts_S116x256_S1x116x256 : S116x256.ShapeCasts S1x116x256
  slices_S160x256_o45_0_S115x256 : S160x256.Slices ![45, 0] S115x256
  slices_S160x256_o44_0_S1x256 : S160x256.Slices ![44, 0] S1x256
  broadcasts_S1x256_S115x256 : S1x256.Broadcasts S115x256
  inb_S1x12720x256_S1x115x256_0_6050_0 : ∀ a, (![0, 6050, 0] : Fin 3 → Nat) a + S1x115x256.size a ≤ S1x12720x256.size a
  h_S1x115x256 : 0 < S1x115x256.numel
  shapeCasts_S1x115x256_S115x256 : S1x115x256.ShapeCasts S115x256
  shapeCasts_S115x256_S1x115x256 : S115x256.ShapeCasts S1x115x256
  slices_S160x256_o46_0_S114x256 : S160x256.Slices ![46, 0] S114x256
  slices_S160x256_o45_0_S1x256 : S160x256.Slices ![45, 0] S1x256
  broadcasts_S1x256_S114x256 : S1x256.Broadcasts S114x256
  inb_S1x12720x256_S1x114x256_0_6165_0 : ∀ a, (![0, 6165, 0] : Fin 3 → Nat) a + S1x114x256.size a ≤ S1x12720x256.size a
  h_S1x114x256 : 0 < S1x114x256.numel
  shapeCasts_S1x114x256_S114x256 : S1x114x256.ShapeCasts S114x256
  shapeCasts_S114x256_S1x114x256 : S114x256.ShapeCasts S1x114x256
  slices_S160x256_o47_0_S113x256 : S160x256.Slices ![47, 0] S113x256
  slices_S160x256_o46_0_S1x256 : S160x256.Slices ![46, 0] S1x256
  broadcasts_S1x256_S113x256 : S1x256.Broadcasts S113x256
  inb_S1x12720x256_S1x113x256_0_6279_0 : ∀ a, (![0, 6279, 0] : Fin 3 → Nat) a + S1x113x256.size a ≤ S1x12720x256.size a
  h_S1x113x256 : 0 < S1x113x256.numel
  shapeCasts_S1x113x256_S113x256 : S1x113x256.ShapeCasts S113x256
  shapeCasts_S113x256_S1x113x256 : S113x256.ShapeCasts S1x113x256
  slices_S160x256_o48_0_S112x256 : S160x256.Slices ![48, 0] S112x256
  slices_S160x256_o47_0_S1x256 : S160x256.Slices ![47, 0] S1x256
  broadcasts_S1x256_S112x256 : S1x256.Broadcasts S112x256
  inb_S1x12720x256_S1x112x256_0_6392_0 : ∀ a, (![0, 6392, 0] : Fin 3 → Nat) a + S1x112x256.size a ≤ S1x12720x256.size a
  h_S1x112x256 : 0 < S1x112x256.numel
  shapeCasts_S1x112x256_S112x256 : S1x112x256.ShapeCasts S112x256
  shapeCasts_S112x256_S1x112x256 : S112x256.ShapeCasts S1x112x256
  slices_S160x256_o49_0_S111x256 : S160x256.Slices ![49, 0] S111x256
  slices_S160x256_o48_0_S1x256 : S160x256.Slices ![48, 0] S1x256
  broadcasts_S1x256_S111x256 : S1x256.Broadcasts S111x256
  inb_S1x12720x256_S1x111x256_0_6504_0 : ∀ a, (![0, 6504, 0] : Fin 3 → Nat) a + S1x111x256.size a ≤ S1x12720x256.size a
  h_S1x111x256 : 0 < S1x111x256.numel
  shapeCasts_S1x111x256_S111x256 : S1x111x256.ShapeCasts S111x256
  shapeCasts_S111x256_S1x111x256 : S111x256.ShapeCasts S1x111x256
  slices_S160x256_o50_0_S110x256 : S160x256.Slices ![50, 0] S110x256
  slices_S160x256_o49_0_S1x256 : S160x256.Slices ![49, 0] S1x256
  broadcasts_S1x256_S110x256 : S1x256.Broadcasts S110x256
  inb_S1x12720x256_S1x110x256_0_6615_0 : ∀ a, (![0, 6615, 0] : Fin 3 → Nat) a + S1x110x256.size a ≤ S1x12720x256.size a
  h_S1x110x256 : 0 < S1x110x256.numel
  shapeCasts_S1x110x256_S110x256 : S1x110x256.ShapeCasts S110x256
  shapeCasts_S110x256_S1x110x256 : S110x256.ShapeCasts S1x110x256
  slices_S160x256_o51_0_S109x256 : S160x256.Slices ![51, 0] S109x256
  slices_S160x256_o50_0_S1x256 : S160x256.Slices ![50, 0] S1x256
  broadcasts_S1x256_S109x256 : S1x256.Broadcasts S109x256
  inb_S1x12720x256_S1x109x256_0_6725_0 : ∀ a, (![0, 6725, 0] : Fin 3 → Nat) a + S1x109x256.size a ≤ S1x12720x256.size a
  h_S1x109x256 : 0 < S1x109x256.numel
  shapeCasts_S1x109x256_S109x256 : S1x109x256.ShapeCasts S109x256
  shapeCasts_S109x256_S1x109x256 : S109x256.ShapeCasts S1x109x256
  slices_S160x256_o52_0_S108x256 : S160x256.Slices ![52, 0] S108x256
  slices_S160x256_o51_0_S1x256 : S160x256.Slices ![51, 0] S1x256
  broadcasts_S1x256_S108x256 : S1x256.Broadcasts S108x256
  inb_S1x12720x256_S1x108x256_0_6834_0 : ∀ a, (![0, 6834, 0] : Fin 3 → Nat) a + S1x108x256.size a ≤ S1x12720x256.size a
  h_S1x108x256 : 0 < S1x108x256.numel
  shapeCasts_S1x108x256_S108x256 : S1x108x256.ShapeCasts S108x256
  shapeCasts_S108x256_S1x108x256 : S108x256.ShapeCasts S1x108x256
  slices_S160x256_o53_0_S107x256 : S160x256.Slices ![53, 0] S107x256
  slices_S160x256_o52_0_S1x256 : S160x256.Slices ![52, 0] S1x256
  broadcasts_S1x256_S107x256 : S1x256.Broadcasts S107x256
  inb_S1x12720x256_S1x107x256_0_6942_0 : ∀ a, (![0, 6942, 0] : Fin 3 → Nat) a + S1x107x256.size a ≤ S1x12720x256.size a
  h_S1x107x256 : 0 < S1x107x256.numel
  shapeCasts_S1x107x256_S107x256 : S1x107x256.ShapeCasts S107x256
  shapeCasts_S107x256_S1x107x256 : S107x256.ShapeCasts S1x107x256
  slices_S160x256_o54_0_S106x256 : S160x256.Slices ![54, 0] S106x256
  slices_S160x256_o53_0_S1x256 : S160x256.Slices ![53, 0] S1x256
  broadcasts_S1x256_S106x256 : S1x256.Broadcasts S106x256
  inb_S1x12720x256_S1x106x256_0_7049_0 : ∀ a, (![0, 7049, 0] : Fin 3 → Nat) a + S1x106x256.size a ≤ S1x12720x256.size a
  h_S1x106x256 : 0 < S1x106x256.numel
  shapeCasts_S1x106x256_S106x256 : S1x106x256.ShapeCasts S106x256
  shapeCasts_S106x256_S1x106x256 : S106x256.ShapeCasts S1x106x256
  slices_S160x256_o55_0_S105x256 : S160x256.Slices ![55, 0] S105x256
  slices_S160x256_o54_0_S1x256 : S160x256.Slices ![54, 0] S1x256
  broadcasts_S1x256_S105x256 : S1x256.Broadcasts S105x256
  inb_S1x12720x256_S1x105x256_0_7155_0 : ∀ a, (![0, 7155, 0] : Fin 3 → Nat) a + S1x105x256.size a ≤ S1x12720x256.size a
  h_S1x105x256 : 0 < S1x105x256.numel
  shapeCasts_S1x105x256_S105x256 : S1x105x256.ShapeCasts S105x256
  shapeCasts_S105x256_S1x105x256 : S105x256.ShapeCasts S1x105x256
  slices_S160x256_o56_0_S104x256 : S160x256.Slices ![56, 0] S104x256
  slices_S160x256_o55_0_S1x256 : S160x256.Slices ![55, 0] S1x256
  broadcasts_S1x256_S104x256 : S1x256.Broadcasts S104x256
  inb_S1x12720x256_S1x104x256_0_7260_0 : ∀ a, (![0, 7260, 0] : Fin 3 → Nat) a + S1x104x256.size a ≤ S1x12720x256.size a
  h_S1x104x256 : 0 < S1x104x256.numel
  shapeCasts_S1x104x256_S104x256 : S1x104x256.ShapeCasts S104x256
  shapeCasts_S104x256_S1x104x256 : S104x256.ShapeCasts S1x104x256
  slices_S160x256_o57_0_S103x256 : S160x256.Slices ![57, 0] S103x256
  slices_S160x256_o56_0_S1x256 : S160x256.Slices ![56, 0] S1x256
  broadcasts_S1x256_S103x256 : S1x256.Broadcasts S103x256
  inb_S1x12720x256_S1x103x256_0_7364_0 : ∀ a, (![0, 7364, 0] : Fin 3 → Nat) a + S1x103x256.size a ≤ S1x12720x256.size a
  h_S1x103x256 : 0 < S1x103x256.numel
  shapeCasts_S1x103x256_S103x256 : S1x103x256.ShapeCasts S103x256
  shapeCasts_S103x256_S1x103x256 : S103x256.ShapeCasts S1x103x256
  slices_S160x256_o58_0_S102x256 : S160x256.Slices ![58, 0] S102x256
  slices_S160x256_o57_0_S1x256 : S160x256.Slices ![57, 0] S1x256
  broadcasts_S1x256_S102x256 : S1x256.Broadcasts S102x256
  inb_S1x12720x256_S1x102x256_0_7467_0 : ∀ a, (![0, 7467, 0] : Fin 3 → Nat) a + S1x102x256.size a ≤ S1x12720x256.size a
  h_S1x102x256 : 0 < S1x102x256.numel
  shapeCasts_S1x102x256_S102x256 : S1x102x256.ShapeCasts S102x256
  shapeCasts_S102x256_S1x102x256 : S102x256.ShapeCasts S1x102x256
  slices_S160x256_o59_0_S101x256 : S160x256.Slices ![59, 0] S101x256
  slices_S160x256_o58_0_S1x256 : S160x256.Slices ![58, 0] S1x256
  broadcasts_S1x256_S101x256 : S1x256.Broadcasts S101x256
  inb_S1x12720x256_S1x101x256_0_7569_0 : ∀ a, (![0, 7569, 0] : Fin 3 → Nat) a + S1x101x256.size a ≤ S1x12720x256.size a
  h_S1x101x256 : 0 < S1x101x256.numel
  shapeCasts_S1x101x256_S101x256 : S1x101x256.ShapeCasts S101x256
  shapeCasts_S101x256_S1x101x256 : S101x256.ShapeCasts S1x101x256
  slices_S160x256_o60_0_S100x256 : S160x256.Slices ![60, 0] S100x256
  slices_S160x256_o59_0_S1x256 : S160x256.Slices ![59, 0] S1x256
  broadcasts_S1x256_S100x256 : S1x256.Broadcasts S100x256
  inb_S1x12720x256_S1x100x256_0_7670_0 : ∀ a, (![0, 7670, 0] : Fin 3 → Nat) a + S1x100x256.size a ≤ S1x12720x256.size a
  h_S1x100x256 : 0 < S1x100x256.numel
  shapeCasts_S1x100x256_S100x256 : S1x100x256.ShapeCasts S100x256
  shapeCasts_S100x256_S1x100x256 : S100x256.ShapeCasts S1x100x256
  slices_S160x256_o61_0_S99x256 : S160x256.Slices ![61, 0] S99x256
  slices_S160x256_o60_0_S1x256 : S160x256.Slices ![60, 0] S1x256
  broadcasts_S1x256_S99x256 : S1x256.Broadcasts S99x256
  inb_S1x12720x256_S1x99x256_0_7770_0 : ∀ a, (![0, 7770, 0] : Fin 3 → Nat) a + S1x99x256.size a ≤ S1x12720x256.size a
  h_S1x99x256 : 0 < S1x99x256.numel
  shapeCasts_S1x99x256_S99x256 : S1x99x256.ShapeCasts S99x256
  shapeCasts_S99x256_S1x99x256 : S99x256.ShapeCasts S1x99x256
  slices_S160x256_o62_0_S98x256 : S160x256.Slices ![62, 0] S98x256
  slices_S160x256_o61_0_S1x256 : S160x256.Slices ![61, 0] S1x256
  broadcasts_S1x256_S98x256 : S1x256.Broadcasts S98x256
  inb_S1x12720x256_S1x98x256_0_7869_0 : ∀ a, (![0, 7869, 0] : Fin 3 → Nat) a + S1x98x256.size a ≤ S1x12720x256.size a
  h_S1x98x256 : 0 < S1x98x256.numel
  shapeCasts_S1x98x256_S98x256 : S1x98x256.ShapeCasts S98x256
  shapeCasts_S98x256_S1x98x256 : S98x256.ShapeCasts S1x98x256
  slices_S160x256_o63_0_S97x256 : S160x256.Slices ![63, 0] S97x256
  slices_S160x256_o62_0_S1x256 : S160x256.Slices ![62, 0] S1x256
  broadcasts_S1x256_S97x256 : S1x256.Broadcasts S97x256
  inb_S1x12720x256_S1x97x256_0_7967_0 : ∀ a, (![0, 7967, 0] : Fin 3 → Nat) a + S1x97x256.size a ≤ S1x12720x256.size a
  h_S1x97x256 : 0 < S1x97x256.numel
  shapeCasts_S1x97x256_S97x256 : S1x97x256.ShapeCasts S97x256
  shapeCasts_S97x256_S1x97x256 : S97x256.ShapeCasts S1x97x256
  slices_S160x256_o64_0_S96x256 : S160x256.Slices ![64, 0] S96x256
  slices_S160x256_o63_0_S1x256 : S160x256.Slices ![63, 0] S1x256
  broadcasts_S1x256_S96x256 : S1x256.Broadcasts S96x256
  inb_S1x12720x256_S1x96x256_0_8064_0 : ∀ a, (![0, 8064, 0] : Fin 3 → Nat) a + S1x96x256.size a ≤ S1x12720x256.size a
  h_S1x96x256 : 0 < S1x96x256.numel
  shapeCasts_S1x96x256_S96x256 : S1x96x256.ShapeCasts S96x256
  shapeCasts_S96x256_S1x96x256 : S96x256.ShapeCasts S1x96x256
  slices_S160x256_o65_0_S95x256 : S160x256.Slices ![65, 0] S95x256
  slices_S160x256_o64_0_S1x256 : S160x256.Slices ![64, 0] S1x256
  broadcasts_S1x256_S95x256 : S1x256.Broadcasts S95x256
  inb_S1x12720x256_S1x95x256_0_8160_0 : ∀ a, (![0, 8160, 0] : Fin 3 → Nat) a + S1x95x256.size a ≤ S1x12720x256.size a
  h_S1x95x256 : 0 < S1x95x256.numel
  shapeCasts_S1x95x256_S95x256 : S1x95x256.ShapeCasts S95x256
  shapeCasts_S95x256_S1x95x256 : S95x256.ShapeCasts S1x95x256
  slices_S160x256_o66_0_S94x256 : S160x256.Slices ![66, 0] S94x256
  slices_S160x256_o65_0_S1x256 : S160x256.Slices ![65, 0] S1x256
  broadcasts_S1x256_S94x256 : S1x256.Broadcasts S94x256
  inb_S1x12720x256_S1x94x256_0_8255_0 : ∀ a, (![0, 8255, 0] : Fin 3 → Nat) a + S1x94x256.size a ≤ S1x12720x256.size a
  h_S1x94x256 : 0 < S1x94x256.numel
  shapeCasts_S1x94x256_S94x256 : S1x94x256.ShapeCasts S94x256
  shapeCasts_S94x256_S1x94x256 : S94x256.ShapeCasts S1x94x256
  slices_S160x256_o67_0_S93x256 : S160x256.Slices ![67, 0] S93x256
  slices_S160x256_o66_0_S1x256 : S160x256.Slices ![66, 0] S1x256
  broadcasts_S1x256_S93x256 : S1x256.Broadcasts S93x256
  inb_S1x12720x256_S1x93x256_0_8349_0 : ∀ a, (![0, 8349, 0] : Fin 3 → Nat) a + S1x93x256.size a ≤ S1x12720x256.size a
  h_S1x93x256 : 0 < S1x93x256.numel
  shapeCasts_S1x93x256_S93x256 : S1x93x256.ShapeCasts S93x256
  shapeCasts_S93x256_S1x93x256 : S93x256.ShapeCasts S1x93x256
  slices_S160x256_o68_0_S92x256 : S160x256.Slices ![68, 0] S92x256
  slices_S160x256_o67_0_S1x256 : S160x256.Slices ![67, 0] S1x256
  broadcasts_S1x256_S92x256 : S1x256.Broadcasts S92x256
  inb_S1x12720x256_S1x92x256_0_8442_0 : ∀ a, (![0, 8442, 0] : Fin 3 → Nat) a + S1x92x256.size a ≤ S1x12720x256.size a
  h_S1x92x256 : 0 < S1x92x256.numel
  shapeCasts_S1x92x256_S92x256 : S1x92x256.ShapeCasts S92x256
  shapeCasts_S92x256_S1x92x256 : S92x256.ShapeCasts S1x92x256
  slices_S160x256_o69_0_S91x256 : S160x256.Slices ![69, 0] S91x256
  slices_S160x256_o68_0_S1x256 : S160x256.Slices ![68, 0] S1x256
  broadcasts_S1x256_S91x256 : S1x256.Broadcasts S91x256
  inb_S1x12720x256_S1x91x256_0_8534_0 : ∀ a, (![0, 8534, 0] : Fin 3 → Nat) a + S1x91x256.size a ≤ S1x12720x256.size a
  h_S1x91x256 : 0 < S1x91x256.numel
  shapeCasts_S1x91x256_S91x256 : S1x91x256.ShapeCasts S91x256
  shapeCasts_S91x256_S1x91x256 : S91x256.ShapeCasts S1x91x256
  slices_S160x256_o70_0_S90x256 : S160x256.Slices ![70, 0] S90x256
  slices_S160x256_o69_0_S1x256 : S160x256.Slices ![69, 0] S1x256
  broadcasts_S1x256_S90x256 : S1x256.Broadcasts S90x256
  inb_S1x12720x256_S1x90x256_0_8625_0 : ∀ a, (![0, 8625, 0] : Fin 3 → Nat) a + S1x90x256.size a ≤ S1x12720x256.size a
  h_S1x90x256 : 0 < S1x90x256.numel
  shapeCasts_S1x90x256_S90x256 : S1x90x256.ShapeCasts S90x256
  shapeCasts_S90x256_S1x90x256 : S90x256.ShapeCasts S1x90x256
  slices_S160x256_o71_0_S89x256 : S160x256.Slices ![71, 0] S89x256
  slices_S160x256_o70_0_S1x256 : S160x256.Slices ![70, 0] S1x256
  broadcasts_S1x256_S89x256 : S1x256.Broadcasts S89x256
  inb_S1x12720x256_S1x89x256_0_8715_0 : ∀ a, (![0, 8715, 0] : Fin 3 → Nat) a + S1x89x256.size a ≤ S1x12720x256.size a
  h_S1x89x256 : 0 < S1x89x256.numel
  shapeCasts_S1x89x256_S89x256 : S1x89x256.ShapeCasts S89x256
  shapeCasts_S89x256_S1x89x256 : S89x256.ShapeCasts S1x89x256
  slices_S160x256_o72_0_S88x256 : S160x256.Slices ![72, 0] S88x256
  slices_S160x256_o71_0_S1x256 : S160x256.Slices ![71, 0] S1x256
  broadcasts_S1x256_S88x256 : S1x256.Broadcasts S88x256
  inb_S1x12720x256_S1x88x256_0_8804_0 : ∀ a, (![0, 8804, 0] : Fin 3 → Nat) a + S1x88x256.size a ≤ S1x12720x256.size a
  h_S1x88x256 : 0 < S1x88x256.numel
  shapeCasts_S1x88x256_S88x256 : S1x88x256.ShapeCasts S88x256
  shapeCasts_S88x256_S1x88x256 : S88x256.ShapeCasts S1x88x256
  slices_S160x256_o73_0_S87x256 : S160x256.Slices ![73, 0] S87x256
  slices_S160x256_o72_0_S1x256 : S160x256.Slices ![72, 0] S1x256
  broadcasts_S1x256_S87x256 : S1x256.Broadcasts S87x256
  inb_S1x12720x256_S1x87x256_0_8892_0 : ∀ a, (![0, 8892, 0] : Fin 3 → Nat) a + S1x87x256.size a ≤ S1x12720x256.size a
  h_S1x87x256 : 0 < S1x87x256.numel
  shapeCasts_S1x87x256_S87x256 : S1x87x256.ShapeCasts S87x256
  shapeCasts_S87x256_S1x87x256 : S87x256.ShapeCasts S1x87x256
  slices_S160x256_o74_0_S86x256 : S160x256.Slices ![74, 0] S86x256
  slices_S160x256_o73_0_S1x256 : S160x256.Slices ![73, 0] S1x256
  broadcasts_S1x256_S86x256 : S1x256.Broadcasts S86x256
  inb_S1x12720x256_S1x86x256_0_8979_0 : ∀ a, (![0, 8979, 0] : Fin 3 → Nat) a + S1x86x256.size a ≤ S1x12720x256.size a
  h_S1x86x256 : 0 < S1x86x256.numel
  shapeCasts_S1x86x256_S86x256 : S1x86x256.ShapeCasts S86x256
  shapeCasts_S86x256_S1x86x256 : S86x256.ShapeCasts S1x86x256
  slices_S160x256_o75_0_S85x256 : S160x256.Slices ![75, 0] S85x256
  slices_S160x256_o74_0_S1x256 : S160x256.Slices ![74, 0] S1x256
  broadcasts_S1x256_S85x256 : S1x256.Broadcasts S85x256
  inb_S1x12720x256_S1x85x256_0_9065_0 : ∀ a, (![0, 9065, 0] : Fin 3 → Nat) a + S1x85x256.size a ≤ S1x12720x256.size a
  h_S1x85x256 : 0 < S1x85x256.numel
  shapeCasts_S1x85x256_S85x256 : S1x85x256.ShapeCasts S85x256
  shapeCasts_S85x256_S1x85x256 : S85x256.ShapeCasts S1x85x256
  slices_S160x256_o76_0_S84x256 : S160x256.Slices ![76, 0] S84x256
  slices_S160x256_o75_0_S1x256 : S160x256.Slices ![75, 0] S1x256
  broadcasts_S1x256_S84x256 : S1x256.Broadcasts S84x256
  inb_S1x12720x256_S1x84x256_0_9150_0 : ∀ a, (![0, 9150, 0] : Fin 3 → Nat) a + S1x84x256.size a ≤ S1x12720x256.size a
  h_S1x84x256 : 0 < S1x84x256.numel
  shapeCasts_S1x84x256_S84x256 : S1x84x256.ShapeCasts S84x256
  shapeCasts_S84x256_S1x84x256 : S84x256.ShapeCasts S1x84x256
  slices_S160x256_o77_0_S83x256 : S160x256.Slices ![77, 0] S83x256
  slices_S160x256_o76_0_S1x256 : S160x256.Slices ![76, 0] S1x256
  broadcasts_S1x256_S83x256 : S1x256.Broadcasts S83x256
  inb_S1x12720x256_S1x83x256_0_9234_0 : ∀ a, (![0, 9234, 0] : Fin 3 → Nat) a + S1x83x256.size a ≤ S1x12720x256.size a
  h_S1x83x256 : 0 < S1x83x256.numel
  shapeCasts_S1x83x256_S83x256 : S1x83x256.ShapeCasts S83x256
  shapeCasts_S83x256_S1x83x256 : S83x256.ShapeCasts S1x83x256
  slices_S160x256_o78_0_S82x256 : S160x256.Slices ![78, 0] S82x256
  slices_S160x256_o77_0_S1x256 : S160x256.Slices ![77, 0] S1x256
  broadcasts_S1x256_S82x256 : S1x256.Broadcasts S82x256
  inb_S1x12720x256_S1x82x256_0_9317_0 : ∀ a, (![0, 9317, 0] : Fin 3 → Nat) a + S1x82x256.size a ≤ S1x12720x256.size a
  h_S1x82x256 : 0 < S1x82x256.numel
  shapeCasts_S1x82x256_S82x256 : S1x82x256.ShapeCasts S82x256
  shapeCasts_S82x256_S1x82x256 : S82x256.ShapeCasts S1x82x256
  slices_S160x256_o79_0_S81x256 : S160x256.Slices ![79, 0] S81x256
  slices_S160x256_o78_0_S1x256 : S160x256.Slices ![78, 0] S1x256
  broadcasts_S1x256_S81x256 : S1x256.Broadcasts S81x256
  inb_S1x12720x256_S1x81x256_0_9399_0 : ∀ a, (![0, 9399, 0] : Fin 3 → Nat) a + S1x81x256.size a ≤ S1x12720x256.size a
  h_S1x81x256 : 0 < S1x81x256.numel
  shapeCasts_S1x81x256_S81x256 : S1x81x256.ShapeCasts S81x256
  shapeCasts_S81x256_S1x81x256 : S81x256.ShapeCasts S1x81x256
  slices_S160x256_o80_0_S80x256 : S160x256.Slices ![80, 0] S80x256
  slices_S160x256_o79_0_S1x256 : S160x256.Slices ![79, 0] S1x256
  broadcasts_S1x256_S80x256 : S1x256.Broadcasts S80x256
  inb_S1x12720x256_S1x80x256_0_9480_0 : ∀ a, (![0, 9480, 0] : Fin 3 → Nat) a + S1x80x256.size a ≤ S1x12720x256.size a
  h_S1x80x256 : 0 < S1x80x256.numel
  shapeCasts_S1x80x256_S80x256 : S1x80x256.ShapeCasts S80x256
  shapeCasts_S80x256_S1x80x256 : S80x256.ShapeCasts S1x80x256
  slices_S160x256_o81_0_S79x256 : S160x256.Slices ![81, 0] S79x256
  slices_S160x256_o80_0_S1x256 : S160x256.Slices ![80, 0] S1x256
  broadcasts_S1x256_S79x256 : S1x256.Broadcasts S79x256
  inb_S1x12720x256_S1x79x256_0_9560_0 : ∀ a, (![0, 9560, 0] : Fin 3 → Nat) a + S1x79x256.size a ≤ S1x12720x256.size a
  h_S1x79x256 : 0 < S1x79x256.numel
  shapeCasts_S1x79x256_S79x256 : S1x79x256.ShapeCasts S79x256
  shapeCasts_S79x256_S1x79x256 : S79x256.ShapeCasts S1x79x256
  slices_S160x256_o82_0_S78x256 : S160x256.Slices ![82, 0] S78x256
  slices_S160x256_o81_0_S1x256 : S160x256.Slices ![81, 0] S1x256
  broadcasts_S1x256_S78x256 : S1x256.Broadcasts S78x256
  inb_S1x12720x256_S1x78x256_0_9639_0 : ∀ a, (![0, 9639, 0] : Fin 3 → Nat) a + S1x78x256.size a ≤ S1x12720x256.size a
  h_S1x78x256 : 0 < S1x78x256.numel
  shapeCasts_S1x78x256_S78x256 : S1x78x256.ShapeCasts S78x256
  shapeCasts_S78x256_S1x78x256 : S78x256.ShapeCasts S1x78x256
  slices_S160x256_o83_0_S77x256 : S160x256.Slices ![83, 0] S77x256
  slices_S160x256_o82_0_S1x256 : S160x256.Slices ![82, 0] S1x256
  broadcasts_S1x256_S77x256 : S1x256.Broadcasts S77x256
  inb_S1x12720x256_S1x77x256_0_9717_0 : ∀ a, (![0, 9717, 0] : Fin 3 → Nat) a + S1x77x256.size a ≤ S1x12720x256.size a
  h_S1x77x256 : 0 < S1x77x256.numel
  shapeCasts_S1x77x256_S77x256 : S1x77x256.ShapeCasts S77x256
  shapeCasts_S77x256_S1x77x256 : S77x256.ShapeCasts S1x77x256
  slices_S160x256_o84_0_S76x256 : S160x256.Slices ![84, 0] S76x256
  slices_S160x256_o83_0_S1x256 : S160x256.Slices ![83, 0] S1x256
  broadcasts_S1x256_S76x256 : S1x256.Broadcasts S76x256
  inb_S1x12720x256_S1x76x256_0_9794_0 : ∀ a, (![0, 9794, 0] : Fin 3 → Nat) a + S1x76x256.size a ≤ S1x12720x256.size a
  h_S1x76x256 : 0 < S1x76x256.numel
  shapeCasts_S1x76x256_S76x256 : S1x76x256.ShapeCasts S76x256
  shapeCasts_S76x256_S1x76x256 : S76x256.ShapeCasts S1x76x256
  slices_S160x256_o85_0_S75x256 : S160x256.Slices ![85, 0] S75x256
  slices_S160x256_o84_0_S1x256 : S160x256.Slices ![84, 0] S1x256
  broadcasts_S1x256_S75x256 : S1x256.Broadcasts S75x256
  inb_S1x12720x256_S1x75x256_0_9870_0 : ∀ a, (![0, 9870, 0] : Fin 3 → Nat) a + S1x75x256.size a ≤ S1x12720x256.size a
  h_S1x75x256 : 0 < S1x75x256.numel
  shapeCasts_S1x75x256_S75x256 : S1x75x256.ShapeCasts S75x256
  shapeCasts_S75x256_S1x75x256 : S75x256.ShapeCasts S1x75x256
  slices_S160x256_o86_0_S74x256 : S160x256.Slices ![86, 0] S74x256
  slices_S160x256_o85_0_S1x256 : S160x256.Slices ![85, 0] S1x256
  broadcasts_S1x256_S74x256 : S1x256.Broadcasts S74x256
  inb_S1x12720x256_S1x74x256_0_9945_0 : ∀ a, (![0, 9945, 0] : Fin 3 → Nat) a + S1x74x256.size a ≤ S1x12720x256.size a
  h_S1x74x256 : 0 < S1x74x256.numel
  shapeCasts_S1x74x256_S74x256 : S1x74x256.ShapeCasts S74x256
  shapeCasts_S74x256_S1x74x256 : S74x256.ShapeCasts S1x74x256
  slices_S160x256_o87_0_S73x256 : S160x256.Slices ![87, 0] S73x256
  slices_S160x256_o86_0_S1x256 : S160x256.Slices ![86, 0] S1x256
  broadcasts_S1x256_S73x256 : S1x256.Broadcasts S73x256
  inb_S1x12720x256_S1x73x256_0_10019_0 : ∀ a, (![0, 10019, 0] : Fin 3 → Nat) a + S1x73x256.size a ≤ S1x12720x256.size a
  h_S1x73x256 : 0 < S1x73x256.numel
  shapeCasts_S1x73x256_S73x256 : S1x73x256.ShapeCasts S73x256
  shapeCasts_S73x256_S1x73x256 : S73x256.ShapeCasts S1x73x256
  slices_S160x256_o88_0_S72x256 : S160x256.Slices ![88, 0] S72x256
  slices_S160x256_o87_0_S1x256 : S160x256.Slices ![87, 0] S1x256
  broadcasts_S1x256_S72x256 : S1x256.Broadcasts S72x256
  inb_S1x12720x256_S1x72x256_0_10092_0 : ∀ a, (![0, 10092, 0] : Fin 3 → Nat) a + S1x72x256.size a ≤ S1x12720x256.size a
  h_S1x72x256 : 0 < S1x72x256.numel
  shapeCasts_S1x72x256_S72x256 : S1x72x256.ShapeCasts S72x256
  shapeCasts_S72x256_S1x72x256 : S72x256.ShapeCasts S1x72x256
  slices_S160x256_o89_0_S71x256 : S160x256.Slices ![89, 0] S71x256
  slices_S160x256_o88_0_S1x256 : S160x256.Slices ![88, 0] S1x256
  broadcasts_S1x256_S71x256 : S1x256.Broadcasts S71x256
  inb_S1x12720x256_S1x71x256_0_10164_0 : ∀ a, (![0, 10164, 0] : Fin 3 → Nat) a + S1x71x256.size a ≤ S1x12720x256.size a
  h_S1x71x256 : 0 < S1x71x256.numel
  shapeCasts_S1x71x256_S71x256 : S1x71x256.ShapeCasts S71x256
  shapeCasts_S71x256_S1x71x256 : S71x256.ShapeCasts S1x71x256
  slices_S160x256_o90_0_S70x256 : S160x256.Slices ![90, 0] S70x256
  slices_S160x256_o89_0_S1x256 : S160x256.Slices ![89, 0] S1x256
  broadcasts_S1x256_S70x256 : S1x256.Broadcasts S70x256
  inb_S1x12720x256_S1x70x256_0_10235_0 : ∀ a, (![0, 10235, 0] : Fin 3 → Nat) a + S1x70x256.size a ≤ S1x12720x256.size a
  h_S1x70x256 : 0 < S1x70x256.numel
  shapeCasts_S1x70x256_S70x256 : S1x70x256.ShapeCasts S70x256
  shapeCasts_S70x256_S1x70x256 : S70x256.ShapeCasts S1x70x256
  slices_S160x256_o91_0_S69x256 : S160x256.Slices ![91, 0] S69x256
  slices_S160x256_o90_0_S1x256 : S160x256.Slices ![90, 0] S1x256
  broadcasts_S1x256_S69x256 : S1x256.Broadcasts S69x256
  inb_S1x12720x256_S1x69x256_0_10305_0 : ∀ a, (![0, 10305, 0] : Fin 3 → Nat) a + S1x69x256.size a ≤ S1x12720x256.size a
  h_S1x69x256 : 0 < S1x69x256.numel
  shapeCasts_S1x69x256_S69x256 : S1x69x256.ShapeCasts S69x256
  shapeCasts_S69x256_S1x69x256 : S69x256.ShapeCasts S1x69x256
  slices_S160x256_o92_0_S68x256 : S160x256.Slices ![92, 0] S68x256
  slices_S160x256_o91_0_S1x256 : S160x256.Slices ![91, 0] S1x256
  broadcasts_S1x256_S68x256 : S1x256.Broadcasts S68x256
  inb_S1x12720x256_S1x68x256_0_10374_0 : ∀ a, (![0, 10374, 0] : Fin 3 → Nat) a + S1x68x256.size a ≤ S1x12720x256.size a
  h_S1x68x256 : 0 < S1x68x256.numel
  shapeCasts_S1x68x256_S68x256 : S1x68x256.ShapeCasts S68x256
  shapeCasts_S68x256_S1x68x256 : S68x256.ShapeCasts S1x68x256
  slices_S160x256_o93_0_S67x256 : S160x256.Slices ![93, 0] S67x256
  slices_S160x256_o92_0_S1x256 : S160x256.Slices ![92, 0] S1x256
  broadcasts_S1x256_S67x256 : S1x256.Broadcasts S67x256
  inb_S1x12720x256_S1x67x256_0_10442_0 : ∀ a, (![0, 10442, 0] : Fin 3 → Nat) a + S1x67x256.size a ≤ S1x12720x256.size a
  h_S1x67x256 : 0 < S1x67x256.numel
  shapeCasts_S1x67x256_S67x256 : S1x67x256.ShapeCasts S67x256
  shapeCasts_S67x256_S1x67x256 : S67x256.ShapeCasts S1x67x256
  slices_S160x256_o94_0_S66x256 : S160x256.Slices ![94, 0] S66x256
  slices_S160x256_o93_0_S1x256 : S160x256.Slices ![93, 0] S1x256
  broadcasts_S1x256_S66x256 : S1x256.Broadcasts S66x256
  inb_S1x12720x256_S1x66x256_0_10509_0 : ∀ a, (![0, 10509, 0] : Fin 3 → Nat) a + S1x66x256.size a ≤ S1x12720x256.size a
  h_S1x66x256 : 0 < S1x66x256.numel
  shapeCasts_S1x66x256_S66x256 : S1x66x256.ShapeCasts S66x256
  shapeCasts_S66x256_S1x66x256 : S66x256.ShapeCasts S1x66x256
  slices_S160x256_o95_0_S65x256 : S160x256.Slices ![95, 0] S65x256
  slices_S160x256_o94_0_S1x256 : S160x256.Slices ![94, 0] S1x256
  broadcasts_S1x256_S65x256 : S1x256.Broadcasts S65x256
  inb_S1x12720x256_S1x65x256_0_10575_0 : ∀ a, (![0, 10575, 0] : Fin 3 → Nat) a + S1x65x256.size a ≤ S1x12720x256.size a
  h_S1x65x256 : 0 < S1x65x256.numel
  shapeCasts_S1x65x256_S65x256 : S1x65x256.ShapeCasts S65x256
  shapeCasts_S65x256_S1x65x256 : S65x256.ShapeCasts S1x65x256
  slices_S160x256_o96_0_S64x256 : S160x256.Slices ![96, 0] S64x256
  slices_S160x256_o95_0_S1x256 : S160x256.Slices ![95, 0] S1x256
  broadcasts_S1x256_S64x256 : S1x256.Broadcasts S64x256
  inb_S1x12720x256_S1x64x256_0_10640_0 : ∀ a, (![0, 10640, 0] : Fin 3 → Nat) a + S1x64x256.size a ≤ S1x12720x256.size a
  h_S1x64x256 : 0 < S1x64x256.numel
  shapeCasts_S1x64x256_S64x256 : S1x64x256.ShapeCasts S64x256
  shapeCasts_S64x256_S1x64x256 : S64x256.ShapeCasts S1x64x256
  slices_S160x256_o97_0_S63x256 : S160x256.Slices ![97, 0] S63x256
  slices_S160x256_o96_0_S1x256 : S160x256.Slices ![96, 0] S1x256
  broadcasts_S1x256_S63x256 : S1x256.Broadcasts S63x256
  inb_S1x12720x256_S1x63x256_0_10704_0 : ∀ a, (![0, 10704, 0] : Fin 3 → Nat) a + S1x63x256.size a ≤ S1x12720x256.size a
  h_S1x63x256 : 0 < S1x63x256.numel
  shapeCasts_S1x63x256_S63x256 : S1x63x256.ShapeCasts S63x256
  shapeCasts_S63x256_S1x63x256 : S63x256.ShapeCasts S1x63x256
  slices_S160x256_o98_0_S62x256 : S160x256.Slices ![98, 0] S62x256
  slices_S160x256_o97_0_S1x256 : S160x256.Slices ![97, 0] S1x256
  broadcasts_S1x256_S62x256 : S1x256.Broadcasts S62x256
  inb_S1x12720x256_S1x62x256_0_10767_0 : ∀ a, (![0, 10767, 0] : Fin 3 → Nat) a + S1x62x256.size a ≤ S1x12720x256.size a
  h_S1x62x256 : 0 < S1x62x256.numel
  shapeCasts_S1x62x256_S62x256 : S1x62x256.ShapeCasts S62x256
  shapeCasts_S62x256_S1x62x256 : S62x256.ShapeCasts S1x62x256
  slices_S160x256_o99_0_S61x256 : S160x256.Slices ![99, 0] S61x256
  slices_S160x256_o98_0_S1x256 : S160x256.Slices ![98, 0] S1x256
  broadcasts_S1x256_S61x256 : S1x256.Broadcasts S61x256
  inb_S1x12720x256_S1x61x256_0_10829_0 : ∀ a, (![0, 10829, 0] : Fin 3 → Nat) a + S1x61x256.size a ≤ S1x12720x256.size a
  h_S1x61x256 : 0 < S1x61x256.numel
  shapeCasts_S1x61x256_S61x256 : S1x61x256.ShapeCasts S61x256
  shapeCasts_S61x256_S1x61x256 : S61x256.ShapeCasts S1x61x256
  slices_S160x256_o100_0_S60x256 : S160x256.Slices ![100, 0] S60x256
  slices_S160x256_o99_0_S1x256 : S160x256.Slices ![99, 0] S1x256
  broadcasts_S1x256_S60x256 : S1x256.Broadcasts S60x256
  inb_S1x12720x256_S1x60x256_0_10890_0 : ∀ a, (![0, 10890, 0] : Fin 3 → Nat) a + S1x60x256.size a ≤ S1x12720x256.size a
  h_S1x60x256 : 0 < S1x60x256.numel
  shapeCasts_S1x60x256_S60x256 : S1x60x256.ShapeCasts S60x256
  shapeCasts_S60x256_S1x60x256 : S60x256.ShapeCasts S1x60x256
  slices_S160x256_o101_0_S59x256 : S160x256.Slices ![101, 0] S59x256
  slices_S160x256_o100_0_S1x256 : S160x256.Slices ![100, 0] S1x256
  broadcasts_S1x256_S59x256 : S1x256.Broadcasts S59x256
  inb_S1x12720x256_S1x59x256_0_10950_0 : ∀ a, (![0, 10950, 0] : Fin 3 → Nat) a + S1x59x256.size a ≤ S1x12720x256.size a
  h_S1x59x256 : 0 < S1x59x256.numel
  shapeCasts_S1x59x256_S59x256 : S1x59x256.ShapeCasts S59x256
  shapeCasts_S59x256_S1x59x256 : S59x256.ShapeCasts S1x59x256
  slices_S160x256_o102_0_S58x256 : S160x256.Slices ![102, 0] S58x256
  slices_S160x256_o101_0_S1x256 : S160x256.Slices ![101, 0] S1x256
  broadcasts_S1x256_S58x256 : S1x256.Broadcasts S58x256
  inb_S1x12720x256_S1x58x256_0_11009_0 : ∀ a, (![0, 11009, 0] : Fin 3 → Nat) a + S1x58x256.size a ≤ S1x12720x256.size a
  h_S1x58x256 : 0 < S1x58x256.numel
  shapeCasts_S1x58x256_S58x256 : S1x58x256.ShapeCasts S58x256
  shapeCasts_S58x256_S1x58x256 : S58x256.ShapeCasts S1x58x256
  slices_S160x256_o103_0_S57x256 : S160x256.Slices ![103, 0] S57x256
  slices_S160x256_o102_0_S1x256 : S160x256.Slices ![102, 0] S1x256
  broadcasts_S1x256_S57x256 : S1x256.Broadcasts S57x256
  inb_S1x12720x256_S1x57x256_0_11067_0 : ∀ a, (![0, 11067, 0] : Fin 3 → Nat) a + S1x57x256.size a ≤ S1x12720x256.size a
  h_S1x57x256 : 0 < S1x57x256.numel
  shapeCasts_S1x57x256_S57x256 : S1x57x256.ShapeCasts S57x256
  shapeCasts_S57x256_S1x57x256 : S57x256.ShapeCasts S1x57x256
  slices_S160x256_o104_0_S56x256 : S160x256.Slices ![104, 0] S56x256
  slices_S160x256_o103_0_S1x256 : S160x256.Slices ![103, 0] S1x256
  broadcasts_S1x256_S56x256 : S1x256.Broadcasts S56x256
  inb_S1x12720x256_S1x56x256_0_11124_0 : ∀ a, (![0, 11124, 0] : Fin 3 → Nat) a + S1x56x256.size a ≤ S1x12720x256.size a
  h_S1x56x256 : 0 < S1x56x256.numel
  shapeCasts_S1x56x256_S56x256 : S1x56x256.ShapeCasts S56x256
  shapeCasts_S56x256_S1x56x256 : S56x256.ShapeCasts S1x56x256
  slices_S160x256_o105_0_S55x256 : S160x256.Slices ![105, 0] S55x256
  slices_S160x256_o104_0_S1x256 : S160x256.Slices ![104, 0] S1x256
  broadcasts_S1x256_S55x256 : S1x256.Broadcasts S55x256
  inb_S1x12720x256_S1x55x256_0_11180_0 : ∀ a, (![0, 11180, 0] : Fin 3 → Nat) a + S1x55x256.size a ≤ S1x12720x256.size a
  h_S1x55x256 : 0 < S1x55x256.numel
  shapeCasts_S1x55x256_S55x256 : S1x55x256.ShapeCasts S55x256
  shapeCasts_S55x256_S1x55x256 : S55x256.ShapeCasts S1x55x256
  slices_S160x256_o106_0_S54x256 : S160x256.Slices ![106, 0] S54x256
  slices_S160x256_o105_0_S1x256 : S160x256.Slices ![105, 0] S1x256
  broadcasts_S1x256_S54x256 : S1x256.Broadcasts S54x256
  inb_S1x12720x256_S1x54x256_0_11235_0 : ∀ a, (![0, 11235, 0] : Fin 3 → Nat) a + S1x54x256.size a ≤ S1x12720x256.size a
  h_S1x54x256 : 0 < S1x54x256.numel
  shapeCasts_S1x54x256_S54x256 : S1x54x256.ShapeCasts S54x256
  shapeCasts_S54x256_S1x54x256 : S54x256.ShapeCasts S1x54x256
  slices_S160x256_o107_0_S53x256 : S160x256.Slices ![107, 0] S53x256
  slices_S160x256_o106_0_S1x256 : S160x256.Slices ![106, 0] S1x256
  broadcasts_S1x256_S53x256 : S1x256.Broadcasts S53x256
  inb_S1x12720x256_S1x53x256_0_11289_0 : ∀ a, (![0, 11289, 0] : Fin 3 → Nat) a + S1x53x256.size a ≤ S1x12720x256.size a
  h_S1x53x256 : 0 < S1x53x256.numel
  shapeCasts_S1x53x256_S53x256 : S1x53x256.ShapeCasts S53x256
  shapeCasts_S53x256_S1x53x256 : S53x256.ShapeCasts S1x53x256
  slices_S160x256_o108_0_S52x256 : S160x256.Slices ![108, 0] S52x256
  slices_S160x256_o107_0_S1x256 : S160x256.Slices ![107, 0] S1x256
  broadcasts_S1x256_S52x256 : S1x256.Broadcasts S52x256
  inb_S1x12720x256_S1x52x256_0_11342_0 : ∀ a, (![0, 11342, 0] : Fin 3 → Nat) a + S1x52x256.size a ≤ S1x12720x256.size a
  h_S1x52x256 : 0 < S1x52x256.numel
  shapeCasts_S1x52x256_S52x256 : S1x52x256.ShapeCasts S52x256
  shapeCasts_S52x256_S1x52x256 : S52x256.ShapeCasts S1x52x256
  slices_S160x256_o109_0_S51x256 : S160x256.Slices ![109, 0] S51x256
  slices_S160x256_o108_0_S1x256 : S160x256.Slices ![108, 0] S1x256
  broadcasts_S1x256_S51x256 : S1x256.Broadcasts S51x256
  inb_S1x12720x256_S1x51x256_0_11394_0 : ∀ a, (![0, 11394, 0] : Fin 3 → Nat) a + S1x51x256.size a ≤ S1x12720x256.size a
  h_S1x51x256 : 0 < S1x51x256.numel
  shapeCasts_S1x51x256_S51x256 : S1x51x256.ShapeCasts S51x256
  shapeCasts_S51x256_S1x51x256 : S51x256.ShapeCasts S1x51x256
  slices_S160x256_o110_0_S50x256 : S160x256.Slices ![110, 0] S50x256
  slices_S160x256_o109_0_S1x256 : S160x256.Slices ![109, 0] S1x256
  broadcasts_S1x256_S50x256 : S1x256.Broadcasts S50x256
  inb_S1x12720x256_S1x50x256_0_11445_0 : ∀ a, (![0, 11445, 0] : Fin 3 → Nat) a + S1x50x256.size a ≤ S1x12720x256.size a
  h_S1x50x256 : 0 < S1x50x256.numel
  shapeCasts_S1x50x256_S50x256 : S1x50x256.ShapeCasts S50x256
  shapeCasts_S50x256_S1x50x256 : S50x256.ShapeCasts S1x50x256
  slices_S160x256_o111_0_S49x256 : S160x256.Slices ![111, 0] S49x256
  slices_S160x256_o110_0_S1x256 : S160x256.Slices ![110, 0] S1x256
  broadcasts_S1x256_S49x256 : S1x256.Broadcasts S49x256
  inb_S1x12720x256_S1x49x256_0_11495_0 : ∀ a, (![0, 11495, 0] : Fin 3 → Nat) a + S1x49x256.size a ≤ S1x12720x256.size a
  h_S1x49x256 : 0 < S1x49x256.numel
  shapeCasts_S1x49x256_S49x256 : S1x49x256.ShapeCasts S49x256
  shapeCasts_S49x256_S1x49x256 : S49x256.ShapeCasts S1x49x256
  slices_S160x256_o112_0_S48x256 : S160x256.Slices ![112, 0] S48x256
  slices_S160x256_o111_0_S1x256 : S160x256.Slices ![111, 0] S1x256
  broadcasts_S1x256_S48x256 : S1x256.Broadcasts S48x256
  inb_S1x12720x256_S1x48x256_0_11544_0 : ∀ a, (![0, 11544, 0] : Fin 3 → Nat) a + S1x48x256.size a ≤ S1x12720x256.size a
  h_S1x48x256 : 0 < S1x48x256.numel
  shapeCasts_S1x48x256_S48x256 : S1x48x256.ShapeCasts S48x256
  shapeCasts_S48x256_S1x48x256 : S48x256.ShapeCasts S1x48x256
  slices_S160x256_o113_0_S47x256 : S160x256.Slices ![113, 0] S47x256
  slices_S160x256_o112_0_S1x256 : S160x256.Slices ![112, 0] S1x256
  broadcasts_S1x256_S47x256 : S1x256.Broadcasts S47x256
  inb_S1x12720x256_S1x47x256_0_11592_0 : ∀ a, (![0, 11592, 0] : Fin 3 → Nat) a + S1x47x256.size a ≤ S1x12720x256.size a
  h_S1x47x256 : 0 < S1x47x256.numel
  shapeCasts_S1x47x256_S47x256 : S1x47x256.ShapeCasts S47x256
  shapeCasts_S47x256_S1x47x256 : S47x256.ShapeCasts S1x47x256
  slices_S160x256_o114_0_S46x256 : S160x256.Slices ![114, 0] S46x256
  slices_S160x256_o113_0_S1x256 : S160x256.Slices ![113, 0] S1x256
  broadcasts_S1x256_S46x256 : S1x256.Broadcasts S46x256
  inb_S1x12720x256_S1x46x256_0_11639_0 : ∀ a, (![0, 11639, 0] : Fin 3 → Nat) a + S1x46x256.size a ≤ S1x12720x256.size a
  h_S1x46x256 : 0 < S1x46x256.numel
  shapeCasts_S1x46x256_S46x256 : S1x46x256.ShapeCasts S46x256
  shapeCasts_S46x256_S1x46x256 : S46x256.ShapeCasts S1x46x256
  slices_S160x256_o115_0_S45x256 : S160x256.Slices ![115, 0] S45x256
  slices_S160x256_o114_0_S1x256 : S160x256.Slices ![114, 0] S1x256
  broadcasts_S1x256_S45x256 : S1x256.Broadcasts S45x256
  inb_S1x12720x256_S1x45x256_0_11685_0 : ∀ a, (![0, 11685, 0] : Fin 3 → Nat) a + S1x45x256.size a ≤ S1x12720x256.size a
  h_S1x45x256 : 0 < S1x45x256.numel
  shapeCasts_S1x45x256_S45x256 : S1x45x256.ShapeCasts S45x256
  shapeCasts_S45x256_S1x45x256 : S45x256.ShapeCasts S1x45x256
  slices_S160x256_o116_0_S44x256 : S160x256.Slices ![116, 0] S44x256
  slices_S160x256_o115_0_S1x256 : S160x256.Slices ![115, 0] S1x256
  broadcasts_S1x256_S44x256 : S1x256.Broadcasts S44x256
  inb_S1x12720x256_S1x44x256_0_11730_0 : ∀ a, (![0, 11730, 0] : Fin 3 → Nat) a + S1x44x256.size a ≤ S1x12720x256.size a
  h_S1x44x256 : 0 < S1x44x256.numel
  shapeCasts_S1x44x256_S44x256 : S1x44x256.ShapeCasts S44x256
  shapeCasts_S44x256_S1x44x256 : S44x256.ShapeCasts S1x44x256
  slices_S160x256_o117_0_S43x256 : S160x256.Slices ![117, 0] S43x256
  slices_S160x256_o116_0_S1x256 : S160x256.Slices ![116, 0] S1x256
  broadcasts_S1x256_S43x256 : S1x256.Broadcasts S43x256
  inb_S1x12720x256_S1x43x256_0_11774_0 : ∀ a, (![0, 11774, 0] : Fin 3 → Nat) a + S1x43x256.size a ≤ S1x12720x256.size a
  h_S1x43x256 : 0 < S1x43x256.numel
  shapeCasts_S1x43x256_S43x256 : S1x43x256.ShapeCasts S43x256
  shapeCasts_S43x256_S1x43x256 : S43x256.ShapeCasts S1x43x256
  slices_S160x256_o118_0_S42x256 : S160x256.Slices ![118, 0] S42x256
  slices_S160x256_o117_0_S1x256 : S160x256.Slices ![117, 0] S1x256
  broadcasts_S1x256_S42x256 : S1x256.Broadcasts S42x256
  inb_S1x12720x256_S1x42x256_0_11817_0 : ∀ a, (![0, 11817, 0] : Fin 3 → Nat) a + S1x42x256.size a ≤ S1x12720x256.size a
  h_S1x42x256 : 0 < S1x42x256.numel
  shapeCasts_S1x42x256_S42x256 : S1x42x256.ShapeCasts S42x256
  shapeCasts_S42x256_S1x42x256 : S42x256.ShapeCasts S1x42x256
  slices_S160x256_o119_0_S41x256 : S160x256.Slices ![119, 0] S41x256
  slices_S160x256_o118_0_S1x256 : S160x256.Slices ![118, 0] S1x256
  broadcasts_S1x256_S41x256 : S1x256.Broadcasts S41x256
  inb_S1x12720x256_S1x41x256_0_11859_0 : ∀ a, (![0, 11859, 0] : Fin 3 → Nat) a + S1x41x256.size a ≤ S1x12720x256.size a
  h_S1x41x256 : 0 < S1x41x256.numel
  shapeCasts_S1x41x256_S41x256 : S1x41x256.ShapeCasts S41x256
  shapeCasts_S41x256_S1x41x256 : S41x256.ShapeCasts S1x41x256
  slices_S160x256_o120_0_S40x256 : S160x256.Slices ![120, 0] S40x256
  slices_S160x256_o119_0_S1x256 : S160x256.Slices ![119, 0] S1x256
  broadcasts_S1x256_S40x256 : S1x256.Broadcasts S40x256
  inb_S1x12720x256_S1x40x256_0_11900_0 : ∀ a, (![0, 11900, 0] : Fin 3 → Nat) a + S1x40x256.size a ≤ S1x12720x256.size a
  h_S1x40x256 : 0 < S1x40x256.numel
  shapeCasts_S1x40x256_S40x256 : S1x40x256.ShapeCasts S40x256
  shapeCasts_S40x256_S1x40x256 : S40x256.ShapeCasts S1x40x256
  slices_S160x256_o121_0_S39x256 : S160x256.Slices ![121, 0] S39x256
  slices_S160x256_o120_0_S1x256 : S160x256.Slices ![120, 0] S1x256
  broadcasts_S1x256_S39x256 : S1x256.Broadcasts S39x256
  inb_S1x12720x256_S1x39x256_0_11940_0 : ∀ a, (![0, 11940, 0] : Fin 3 → Nat) a + S1x39x256.size a ≤ S1x12720x256.size a
  h_S1x39x256 : 0 < S1x39x256.numel
  shapeCasts_S1x39x256_S39x256 : S1x39x256.ShapeCasts S39x256
  shapeCasts_S39x256_S1x39x256 : S39x256.ShapeCasts S1x39x256
  slices_S160x256_o122_0_S38x256 : S160x256.Slices ![122, 0] S38x256
  slices_S160x256_o121_0_S1x256 : S160x256.Slices ![121, 0] S1x256
  broadcasts_S1x256_S38x256 : S1x256.Broadcasts S38x256
  inb_S1x12720x256_S1x38x256_0_11979_0 : ∀ a, (![0, 11979, 0] : Fin 3 → Nat) a + S1x38x256.size a ≤ S1x12720x256.size a
  h_S1x38x256 : 0 < S1x38x256.numel
  shapeCasts_S1x38x256_S38x256 : S1x38x256.ShapeCasts S38x256
  shapeCasts_S38x256_S1x38x256 : S38x256.ShapeCasts S1x38x256
  slices_S160x256_o123_0_S37x256 : S160x256.Slices ![123, 0] S37x256
  slices_S160x256_o122_0_S1x256 : S160x256.Slices ![122, 0] S1x256
  broadcasts_S1x256_S37x256 : S1x256.Broadcasts S37x256
  inb_S1x12720x256_S1x37x256_0_12017_0 : ∀ a, (![0, 12017, 0] : Fin 3 → Nat) a + S1x37x256.size a ≤ S1x12720x256.size a
  h_S1x37x256 : 0 < S1x37x256.numel
  shapeCasts_S1x37x256_S37x256 : S1x37x256.ShapeCasts S37x256
  shapeCasts_S37x256_S1x37x256 : S37x256.ShapeCasts S1x37x256
  slices_S160x256_o124_0_S36x256 : S160x256.Slices ![124, 0] S36x256
  slices_S160x256_o123_0_S1x256 : S160x256.Slices ![123, 0] S1x256
  broadcasts_S1x256_S36x256 : S1x256.Broadcasts S36x256
  inb_S1x12720x256_S1x36x256_0_12054_0 : ∀ a, (![0, 12054, 0] : Fin 3 → Nat) a + S1x36x256.size a ≤ S1x12720x256.size a
  h_S1x36x256 : 0 < S1x36x256.numel
  shapeCasts_S1x36x256_S36x256 : S1x36x256.ShapeCasts S36x256
  shapeCasts_S36x256_S1x36x256 : S36x256.ShapeCasts S1x36x256
  slices_S160x256_o125_0_S35x256 : S160x256.Slices ![125, 0] S35x256
  slices_S160x256_o124_0_S1x256 : S160x256.Slices ![124, 0] S1x256
  broadcasts_S1x256_S35x256 : S1x256.Broadcasts S35x256
  inb_S1x12720x256_S1x35x256_0_12090_0 : ∀ a, (![0, 12090, 0] : Fin 3 → Nat) a + S1x35x256.size a ≤ S1x12720x256.size a
  h_S1x35x256 : 0 < S1x35x256.numel
  shapeCasts_S1x35x256_S35x256 : S1x35x256.ShapeCasts S35x256
  shapeCasts_S35x256_S1x35x256 : S35x256.ShapeCasts S1x35x256
  slices_S160x256_o126_0_S34x256 : S160x256.Slices ![126, 0] S34x256
  slices_S160x256_o125_0_S1x256 : S160x256.Slices ![125, 0] S1x256
  broadcasts_S1x256_S34x256 : S1x256.Broadcasts S34x256
  inb_S1x12720x256_S1x34x256_0_12125_0 : ∀ a, (![0, 12125, 0] : Fin 3 → Nat) a + S1x34x256.size a ≤ S1x12720x256.size a
  h_S1x34x256 : 0 < S1x34x256.numel
  shapeCasts_S1x34x256_S34x256 : S1x34x256.ShapeCasts S34x256
  shapeCasts_S34x256_S1x34x256 : S34x256.ShapeCasts S1x34x256
  slices_S160x256_o127_0_S33x256 : S160x256.Slices ![127, 0] S33x256
  slices_S160x256_o126_0_S1x256 : S160x256.Slices ![126, 0] S1x256
  broadcasts_S1x256_S33x256 : S1x256.Broadcasts S33x256
  inb_S1x12720x256_S1x33x256_0_12159_0 : ∀ a, (![0, 12159, 0] : Fin 3 → Nat) a + S1x33x256.size a ≤ S1x12720x256.size a
  h_S1x33x256 : 0 < S1x33x256.numel
  shapeCasts_S1x33x256_S33x256 : S1x33x256.ShapeCasts S33x256
  shapeCasts_S33x256_S1x33x256 : S33x256.ShapeCasts S1x33x256
  slices_S160x256_o128_0_S32x256 : S160x256.Slices ![128, 0] S32x256
  slices_S160x256_o127_0_S1x256 : S160x256.Slices ![127, 0] S1x256
  broadcasts_S1x256_S32x256 : S1x256.Broadcasts S32x256
  inb_S1x12720x256_S1x32x256_0_12192_0 : ∀ a, (![0, 12192, 0] : Fin 3 → Nat) a + S1x32x256.size a ≤ S1x12720x256.size a
  h_S1x32x256 : 0 < S1x32x256.numel
  shapeCasts_S1x32x256_S32x256 : S1x32x256.ShapeCasts S32x256
  shapeCasts_S32x256_S1x32x256 : S32x256.ShapeCasts S1x32x256
  slices_S160x256_o129_0_S31x256 : S160x256.Slices ![129, 0] S31x256
  slices_S160x256_o128_0_S1x256 : S160x256.Slices ![128, 0] S1x256
  broadcasts_S1x256_S31x256 : S1x256.Broadcasts S31x256
  inb_S1x12720x256_S1x31x256_0_12224_0 : ∀ a, (![0, 12224, 0] : Fin 3 → Nat) a + S1x31x256.size a ≤ S1x12720x256.size a
  h_S1x31x256 : 0 < S1x31x256.numel
  shapeCasts_S1x31x256_S31x256 : S1x31x256.ShapeCasts S31x256
  shapeCasts_S31x256_S1x31x256 : S31x256.ShapeCasts S1x31x256
  slices_S160x256_o130_0_S30x256 : S160x256.Slices ![130, 0] S30x256
  slices_S160x256_o129_0_S1x256 : S160x256.Slices ![129, 0] S1x256
  broadcasts_S1x256_S30x256 : S1x256.Broadcasts S30x256
  inb_S1x12720x256_S1x30x256_0_12255_0 : ∀ a, (![0, 12255, 0] : Fin 3 → Nat) a + S1x30x256.size a ≤ S1x12720x256.size a
  h_S1x30x256 : 0 < S1x30x256.numel
  shapeCasts_S1x30x256_S30x256 : S1x30x256.ShapeCasts S30x256
  shapeCasts_S30x256_S1x30x256 : S30x256.ShapeCasts S1x30x256
  slices_S160x256_o131_0_S29x256 : S160x256.Slices ![131, 0] S29x256
  slices_S160x256_o130_0_S1x256 : S160x256.Slices ![130, 0] S1x256
  broadcasts_S1x256_S29x256 : S1x256.Broadcasts S29x256
  inb_S1x12720x256_S1x29x256_0_12285_0 : ∀ a, (![0, 12285, 0] : Fin 3 → Nat) a + S1x29x256.size a ≤ S1x12720x256.size a
  h_S1x29x256 : 0 < S1x29x256.numel
  shapeCasts_S1x29x256_S29x256 : S1x29x256.ShapeCasts S29x256
  shapeCasts_S29x256_S1x29x256 : S29x256.ShapeCasts S1x29x256
  slices_S160x256_o132_0_S28x256 : S160x256.Slices ![132, 0] S28x256
  slices_S160x256_o131_0_S1x256 : S160x256.Slices ![131, 0] S1x256
  broadcasts_S1x256_S28x256 : S1x256.Broadcasts S28x256
  inb_S1x12720x256_S1x28x256_0_12314_0 : ∀ a, (![0, 12314, 0] : Fin 3 → Nat) a + S1x28x256.size a ≤ S1x12720x256.size a
  h_S1x28x256 : 0 < S1x28x256.numel
  shapeCasts_S1x28x256_S28x256 : S1x28x256.ShapeCasts S28x256
  shapeCasts_S28x256_S1x28x256 : S28x256.ShapeCasts S1x28x256
  slices_S160x256_o133_0_S27x256 : S160x256.Slices ![133, 0] S27x256
  slices_S160x256_o132_0_S1x256 : S160x256.Slices ![132, 0] S1x256
  broadcasts_S1x256_S27x256 : S1x256.Broadcasts S27x256
  inb_S1x12720x256_S1x27x256_0_12342_0 : ∀ a, (![0, 12342, 0] : Fin 3 → Nat) a + S1x27x256.size a ≤ S1x12720x256.size a
  h_S1x27x256 : 0 < S1x27x256.numel
  shapeCasts_S1x27x256_S27x256 : S1x27x256.ShapeCasts S27x256
  shapeCasts_S27x256_S1x27x256 : S27x256.ShapeCasts S1x27x256
  slices_S160x256_o134_0_S26x256 : S160x256.Slices ![134, 0] S26x256
  slices_S160x256_o133_0_S1x256 : S160x256.Slices ![133, 0] S1x256
  broadcasts_S1x256_S26x256 : S1x256.Broadcasts S26x256
  inb_S1x12720x256_S1x26x256_0_12369_0 : ∀ a, (![0, 12369, 0] : Fin 3 → Nat) a + S1x26x256.size a ≤ S1x12720x256.size a
  h_S1x26x256 : 0 < S1x26x256.numel
  shapeCasts_S1x26x256_S26x256 : S1x26x256.ShapeCasts S26x256
  shapeCasts_S26x256_S1x26x256 : S26x256.ShapeCasts S1x26x256
  slices_S160x256_o135_0_S25x256 : S160x256.Slices ![135, 0] S25x256
  slices_S160x256_o134_0_S1x256 : S160x256.Slices ![134, 0] S1x256
  broadcasts_S1x256_S25x256 : S1x256.Broadcasts S25x256
  inb_S1x12720x256_S1x25x256_0_12395_0 : ∀ a, (![0, 12395, 0] : Fin 3 → Nat) a + S1x25x256.size a ≤ S1x12720x256.size a
  h_S1x25x256 : 0 < S1x25x256.numel
  shapeCasts_S1x25x256_S25x256 : S1x25x256.ShapeCasts S25x256
  shapeCasts_S25x256_S1x25x256 : S25x256.ShapeCasts S1x25x256
  slices_S160x256_o136_0_S24x256 : S160x256.Slices ![136, 0] S24x256
  slices_S160x256_o135_0_S1x256 : S160x256.Slices ![135, 0] S1x256
  broadcasts_S1x256_S24x256 : S1x256.Broadcasts S24x256
  inb_S1x12720x256_S1x24x256_0_12420_0 : ∀ a, (![0, 12420, 0] : Fin 3 → Nat) a + S1x24x256.size a ≤ S1x12720x256.size a
  h_S1x24x256 : 0 < S1x24x256.numel
  shapeCasts_S1x24x256_S24x256 : S1x24x256.ShapeCasts S24x256
  shapeCasts_S24x256_S1x24x256 : S24x256.ShapeCasts S1x24x256
  slices_S160x256_o137_0_S23x256 : S160x256.Slices ![137, 0] S23x256
  slices_S160x256_o136_0_S1x256 : S160x256.Slices ![136, 0] S1x256
  broadcasts_S1x256_S23x256 : S1x256.Broadcasts S23x256
  inb_S1x12720x256_S1x23x256_0_12444_0 : ∀ a, (![0, 12444, 0] : Fin 3 → Nat) a + S1x23x256.size a ≤ S1x12720x256.size a
  h_S1x23x256 : 0 < S1x23x256.numel
  shapeCasts_S1x23x256_S23x256 : S1x23x256.ShapeCasts S23x256
  shapeCasts_S23x256_S1x23x256 : S23x256.ShapeCasts S1x23x256
  slices_S160x256_o138_0_S22x256 : S160x256.Slices ![138, 0] S22x256
  slices_S160x256_o137_0_S1x256 : S160x256.Slices ![137, 0] S1x256
  broadcasts_S1x256_S22x256 : S1x256.Broadcasts S22x256
  inb_S1x12720x256_S1x22x256_0_12467_0 : ∀ a, (![0, 12467, 0] : Fin 3 → Nat) a + S1x22x256.size a ≤ S1x12720x256.size a
  h_S1x22x256 : 0 < S1x22x256.numel
  shapeCasts_S1x22x256_S22x256 : S1x22x256.ShapeCasts S22x256
  shapeCasts_S22x256_S1x22x256 : S22x256.ShapeCasts S1x22x256
  slices_S160x256_o139_0_S21x256 : S160x256.Slices ![139, 0] S21x256
  slices_S160x256_o138_0_S1x256 : S160x256.Slices ![138, 0] S1x256
  broadcasts_S1x256_S21x256 : S1x256.Broadcasts S21x256
  inb_S1x12720x256_S1x21x256_0_12489_0 : ∀ a, (![0, 12489, 0] : Fin 3 → Nat) a + S1x21x256.size a ≤ S1x12720x256.size a
  h_S1x21x256 : 0 < S1x21x256.numel
  shapeCasts_S1x21x256_S21x256 : S1x21x256.ShapeCasts S21x256
  shapeCasts_S21x256_S1x21x256 : S21x256.ShapeCasts S1x21x256
  slices_S160x256_o140_0_S20x256 : S160x256.Slices ![140, 0] S20x256
  slices_S160x256_o139_0_S1x256 : S160x256.Slices ![139, 0] S1x256
  broadcasts_S1x256_S20x256 : S1x256.Broadcasts S20x256
  inb_S1x12720x256_S1x20x256_0_12510_0 : ∀ a, (![0, 12510, 0] : Fin 3 → Nat) a + S1x20x256.size a ≤ S1x12720x256.size a
  h_S1x20x256 : 0 < S1x20x256.numel
  shapeCasts_S1x20x256_S20x256 : S1x20x256.ShapeCasts S20x256
  shapeCasts_S20x256_S1x20x256 : S20x256.ShapeCasts S1x20x256
  slices_S160x256_o141_0_S19x256 : S160x256.Slices ![141, 0] S19x256
  slices_S160x256_o140_0_S1x256 : S160x256.Slices ![140, 0] S1x256
  broadcasts_S1x256_S19x256 : S1x256.Broadcasts S19x256
  inb_S1x12720x256_S1x19x256_0_12530_0 : ∀ a, (![0, 12530, 0] : Fin 3 → Nat) a + S1x19x256.size a ≤ S1x12720x256.size a
  h_S1x19x256 : 0 < S1x19x256.numel
  shapeCasts_S1x19x256_S19x256 : S1x19x256.ShapeCasts S19x256
  shapeCasts_S19x256_S1x19x256 : S19x256.ShapeCasts S1x19x256
  slices_S160x256_o142_0_S18x256 : S160x256.Slices ![142, 0] S18x256
  slices_S160x256_o141_0_S1x256 : S160x256.Slices ![141, 0] S1x256

class Shapes2.Facts₀ : Prop where
  broadcasts_S1x256_S18x256 : S1x256.Broadcasts S18x256
  inb_S1x12720x256_S1x18x256_0_12549_0 : ∀ a, (![0, 12549, 0] : Fin 3 → Nat) a + S1x18x256.size a ≤ S1x12720x256.size a
  h_S1x18x256 : 0 < S1x18x256.numel
  shapeCasts_S1x18x256_S18x256 : S1x18x256.ShapeCasts S18x256
  shapeCasts_S18x256_S1x18x256 : S18x256.ShapeCasts S1x18x256
  slices_S160x256_o143_0_S17x256 : S160x256.Slices ![143, 0] S17x256
  slices_S160x256_o142_0_S1x256 : S160x256.Slices ![142, 0] S1x256
  broadcasts_S1x256_S17x256 : S1x256.Broadcasts S17x256
  inb_S1x12720x256_S1x17x256_0_12567_0 : ∀ a, (![0, 12567, 0] : Fin 3 → Nat) a + S1x17x256.size a ≤ S1x12720x256.size a
  h_S1x17x256 : 0 < S1x17x256.numel
  shapeCasts_S1x17x256_S17x256 : S1x17x256.ShapeCasts S17x256
  shapeCasts_S17x256_S1x17x256 : S17x256.ShapeCasts S1x17x256
  slices_S160x256_o144_0_S16x256 : S160x256.Slices ![144, 0] S16x256
  slices_S160x256_o143_0_S1x256 : S160x256.Slices ![143, 0] S1x256
  broadcasts_S1x256_S16x256 : S1x256.Broadcasts S16x256
  inb_S1x12720x256_S1x16x256_0_12584_0 : ∀ a, (![0, 12584, 0] : Fin 3 → Nat) a + S1x16x256.size a ≤ S1x12720x256.size a
  h_S1x16x256 : 0 < S1x16x256.numel
  shapeCasts_S1x16x256_S16x256 : S1x16x256.ShapeCasts S16x256
  shapeCasts_S16x256_S1x16x256 : S16x256.ShapeCasts S1x16x256
  slices_S160x256_o145_0_S15x256 : S160x256.Slices ![145, 0] S15x256
  slices_S160x256_o144_0_S1x256 : S160x256.Slices ![144, 0] S1x256
  broadcasts_S1x256_S15x256 : S1x256.Broadcasts S15x256
  inb_S1x12720x256_S1x15x256_0_12600_0 : ∀ a, (![0, 12600, 0] : Fin 3 → Nat) a + S1x15x256.size a ≤ S1x12720x256.size a
  h_S1x15x256 : 0 < S1x15x256.numel
  shapeCasts_S1x15x256_S15x256 : S1x15x256.ShapeCasts S15x256
  shapeCasts_S15x256_S1x15x256 : S15x256.ShapeCasts S1x15x256
  slices_S160x256_o146_0_S14x256 : S160x256.Slices ![146, 0] S14x256
  slices_S160x256_o145_0_S1x256 : S160x256.Slices ![145, 0] S1x256
  broadcasts_S1x256_S14x256 : S1x256.Broadcasts S14x256
  inb_S1x12720x256_S1x14x256_0_12615_0 : ∀ a, (![0, 12615, 0] : Fin 3 → Nat) a + S1x14x256.size a ≤ S1x12720x256.size a
  h_S1x14x256 : 0 < S1x14x256.numel
  shapeCasts_S1x14x256_S14x256 : S1x14x256.ShapeCasts S14x256
  shapeCasts_S14x256_S1x14x256 : S14x256.ShapeCasts S1x14x256
  slices_S160x256_o147_0_S13x256 : S160x256.Slices ![147, 0] S13x256
  slices_S160x256_o146_0_S1x256 : S160x256.Slices ![146, 0] S1x256
  broadcasts_S1x256_S13x256 : S1x256.Broadcasts S13x256
  inb_S1x12720x256_S1x13x256_0_12629_0 : ∀ a, (![0, 12629, 0] : Fin 3 → Nat) a + S1x13x256.size a ≤ S1x12720x256.size a
  h_S1x13x256 : 0 < S1x13x256.numel
  shapeCasts_S1x13x256_S13x256 : S1x13x256.ShapeCasts S13x256
  shapeCasts_S13x256_S1x13x256 : S13x256.ShapeCasts S1x13x256
  slices_S160x256_o148_0_S12x256 : S160x256.Slices ![148, 0] S12x256
  slices_S160x256_o147_0_S1x256 : S160x256.Slices ![147, 0] S1x256
  broadcasts_S1x256_S12x256 : S1x256.Broadcasts S12x256
  inb_S1x12720x256_S1x12x256_0_12642_0 : ∀ a, (![0, 12642, 0] : Fin 3 → Nat) a + S1x12x256.size a ≤ S1x12720x256.size a
  h_S1x12x256 : 0 < S1x12x256.numel
  shapeCasts_S1x12x256_S12x256 : S1x12x256.ShapeCasts S12x256
  shapeCasts_S12x256_S1x12x256 : S12x256.ShapeCasts S1x12x256
  slices_S160x256_o149_0_S11x256 : S160x256.Slices ![149, 0] S11x256
  slices_S160x256_o148_0_S1x256 : S160x256.Slices ![148, 0] S1x256
  broadcasts_S1x256_S11x256 : S1x256.Broadcasts S11x256
  inb_S1x12720x256_S1x11x256_0_12654_0 : ∀ a, (![0, 12654, 0] : Fin 3 → Nat) a + S1x11x256.size a ≤ S1x12720x256.size a
  h_S1x11x256 : 0 < S1x11x256.numel
  shapeCasts_S1x11x256_S11x256 : S1x11x256.ShapeCasts S11x256
  shapeCasts_S11x256_S1x11x256 : S11x256.ShapeCasts S1x11x256
  slices_S160x256_o150_0_S10x256 : S160x256.Slices ![150, 0] S10x256
  slices_S160x256_o149_0_S1x256 : S160x256.Slices ![149, 0] S1x256
  broadcasts_S1x256_S10x256 : S1x256.Broadcasts S10x256
  inb_S1x12720x256_S1x10x256_0_12665_0 : ∀ a, (![0, 12665, 0] : Fin 3 → Nat) a + S1x10x256.size a ≤ S1x12720x256.size a
  h_S1x10x256 : 0 < S1x10x256.numel
  shapeCasts_S1x10x256_S10x256 : S1x10x256.ShapeCasts S10x256
  shapeCasts_S10x256_S1x10x256 : S10x256.ShapeCasts S1x10x256
  slices_S160x256_o151_0_S9x256 : S160x256.Slices ![151, 0] S9x256
  slices_S160x256_o150_0_S1x256 : S160x256.Slices ![150, 0] S1x256
  broadcasts_S1x256_S9x256 : S1x256.Broadcasts S9x256
  inb_S1x12720x256_S1x9x256_0_12675_0 : ∀ a, (![0, 12675, 0] : Fin 3 → Nat) a + S1x9x256.size a ≤ S1x12720x256.size a
  h_S1x9x256 : 0 < S1x9x256.numel
  shapeCasts_S1x9x256_S9x256 : S1x9x256.ShapeCasts S9x256
  shapeCasts_S9x256_S1x9x256 : S9x256.ShapeCasts S1x9x256
  slices_S160x256_o152_0_S8x256 : S160x256.Slices ![152, 0] S8x256
  slices_S160x256_o151_0_S1x256 : S160x256.Slices ![151, 0] S1x256
  broadcasts_S1x256_S8x256 : S1x256.Broadcasts S8x256
  inb_S1x12720x256_S1x8x256_0_12684_0 : ∀ a, (![0, 12684, 0] : Fin 3 → Nat) a + S1x8x256.size a ≤ S1x12720x256.size a
  h_S1x8x256 : 0 < S1x8x256.numel
  shapeCasts_S1x8x256_S8x256 : S1x8x256.ShapeCasts S8x256
  shapeCasts_S8x256_S1x8x256 : S8x256.ShapeCasts S1x8x256
  slices_S160x256_o153_0_S7x256 : S160x256.Slices ![153, 0] S7x256
  slices_S160x256_o152_0_S1x256 : S160x256.Slices ![152, 0] S1x256
  broadcasts_S1x256_S7x256 : S1x256.Broadcasts S7x256
  inb_S1x12720x256_S1x7x256_0_12692_0 : ∀ a, (![0, 12692, 0] : Fin 3 → Nat) a + S1x7x256.size a ≤ S1x12720x256.size a
  h_S1x7x256 : 0 < S1x7x256.numel
  shapeCasts_S1x7x256_S7x256 : S1x7x256.ShapeCasts S7x256
  shapeCasts_S7x256_S1x7x256 : S7x256.ShapeCasts S1x7x256
  slices_S160x256_o154_0_S6x256 : S160x256.Slices ![154, 0] S6x256
  slices_S160x256_o153_0_S1x256 : S160x256.Slices ![153, 0] S1x256
  broadcasts_S1x256_S6x256 : S1x256.Broadcasts S6x256
  inb_S1x12720x256_S1x6x256_0_12699_0 : ∀ a, (![0, 12699, 0] : Fin 3 → Nat) a + S1x6x256.size a ≤ S1x12720x256.size a
  h_S1x6x256 : 0 < S1x6x256.numel
  shapeCasts_S1x6x256_S6x256 : S1x6x256.ShapeCasts S6x256
  shapeCasts_S6x256_S1x6x256 : S6x256.ShapeCasts S1x6x256
  slices_S160x256_o155_0_S5x256 : S160x256.Slices ![155, 0] S5x256
  slices_S160x256_o154_0_S1x256 : S160x256.Slices ![154, 0] S1x256
  broadcasts_S1x256_S5x256 : S1x256.Broadcasts S5x256
  inb_S1x12720x256_S1x5x256_0_12705_0 : ∀ a, (![0, 12705, 0] : Fin 3 → Nat) a + S1x5x256.size a ≤ S1x12720x256.size a
  h_S1x5x256 : 0 < S1x5x256.numel
  shapeCasts_S1x5x256_S5x256 : S1x5x256.ShapeCasts S5x256
  shapeCasts_S5x256_S1x5x256 : S5x256.ShapeCasts S1x5x256
  slices_S160x256_o156_0_S4x256 : S160x256.Slices ![156, 0] S4x256
  slices_S160x256_o155_0_S1x256 : S160x256.Slices ![155, 0] S1x256
  broadcasts_S1x256_S4x256 : S1x256.Broadcasts S4x256
  inb_S1x12720x256_S1x4x256_0_12710_0 : ∀ a, (![0, 12710, 0] : Fin 3 → Nat) a + S1x4x256.size a ≤ S1x12720x256.size a
  h_S1x4x256 : 0 < S1x4x256.numel
  shapeCasts_S1x4x256_S4x256 : S1x4x256.ShapeCasts S4x256
  shapeCasts_S4x256_S1x4x256 : S4x256.ShapeCasts S1x4x256
  slices_S160x256_o157_0_S3x256 : S160x256.Slices ![157, 0] S3x256
  slices_S160x256_o156_0_S1x256 : S160x256.Slices ![156, 0] S1x256
  broadcasts_S1x256_S3x256 : S1x256.Broadcasts S3x256
  inb_S1x12720x256_S1x3x256_0_12714_0 : ∀ a, (![0, 12714, 0] : Fin 3 → Nat) a + S1x3x256.size a ≤ S1x12720x256.size a
  h_S1x3x256 : 0 < S1x3x256.numel
  shapeCasts_S1x3x256_S3x256 : S1x3x256.ShapeCasts S3x256
  shapeCasts_S3x256_S1x3x256 : S3x256.ShapeCasts S1x3x256
  slices_S160x256_o158_0_S2x256 : S160x256.Slices ![158, 0] S2x256
  slices_S160x256_o157_0_S1x256 : S160x256.Slices ![157, 0] S1x256
  broadcasts_S1x256_S2x256 : S1x256.Broadcasts S2x256
  inb_S1x12720x256_S1x2x256_0_12717_0 : ∀ a, (![0, 12717, 0] : Fin 3 → Nat) a + S1x2x256.size a ≤ S1x12720x256.size a
  h_S1x2x256 : 0 < S1x2x256.numel
  shapeCasts_S1x2x256_S2x256 : S1x2x256.ShapeCasts S2x256
  shapeCasts_S2x256_S1x2x256 : S2x256.ShapeCasts S1x2x256
  slices_S160x256_o159_0_S1x256 : S160x256.Slices ![159, 0] S1x256
  slices_S160x256_o158_0_S1x256 : S160x256.Slices ![158, 0] S1x256
  inb_S1x12720x256_S1x1x256_0_12719_0 : ∀ a, (![0, 12719, 0] : Fin 3 → Nat) a + S1x1x256.size a ≤ S1x12720x256.size a
  h_S1x1x256 : 0 < S1x1x256.numel
  shapeCasts_S1x1x256_S1x256 : S1x1x256.ShapeCasts S1x256
  shapeCasts_S1x256_S1x1x256 : S1x256.ShapeCasts S1x1x256
  dot_S160x256_S256x256_S160x256_1_0_0_1_n_n_wf : DotDims.WF S160x256 S256x256 S160x256 [1] [0] [0] [1] [] []

class Facts₀ : Prop where
  k0 : K0.Facts₀
  shapes1 : Shapes1.Facts₀
  shapes2 : Shapes2.Facts₀
attribute [instance] Facts₀.k0 Facts₀.shapes1 Facts₀.shapes2

variable [Facts₀]

def dot_S160x256_S256x256_S160x256_1_0_0_1_n_n : DotDims S160x256 S256x256 S160x256 where
  lhsContracting := [1]
  rhsContracting := [0]
  lhsNonContracting := [0]
  rhsNonContracting := [1]
  lhsBatch := []
  rhsBatch := []
  wf := dot_S160x256_S256x256_S160x256_1_0_0_1_n_n_wf

abbrev win0_0 : Pipeline.Window sig grid0 :=
  Pipeline.Window.ofSpec (Memref.whole main_arg0) S1x160x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x12720x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x160x256 : Shape := ⟨3, ![8, 160, 256]⟩
abbrev S512x256 : Shape := ⟨2, ![512, 256]⟩
abbrev S256 : Shape := ⟨1, ![256]⟩
abbrev S_ : Shape := ⟨0, ![]⟩
abbrev S160x160 : Shape := ⟨2, ![160, 160]⟩
abbrev S25600 : Shape := ⟨1, ![25600]⟩
abbrev S12720 : Shape := ⟨1, ![12720]⟩
abbrev S25600x1 : Shape := ⟨2, ![25600, 1]⟩
abbrev S256x256 : Shape := ⟨2, ![256, 256]⟩
abbrev S12720x1 : Shape := ⟨2, ![12720, 1]⟩
abbrev S8x12720x256 : Shape := ⟨3, ![8, 12720, 256]⟩
abbrev S1x1x256 : Shape := ⟨3, ![1, 1, 256]⟩

abbrev nBuf : Space → Nat
  | .hbm => 146
  | .vmem => 0
  | .smem => 0
  | _ => 0

abbrev hbmTy0_0 (i : Nat) : BufTy := match i % 128 with
  | 0 => ⟨S8x160x256, .f32⟩
  | 1 => ⟨S512x256, .f32⟩
  | 2 => ⟨S256, .f32⟩
  | 3 => ⟨S_, .f32⟩
  | 4 => ⟨S160x160, .f32⟩
  | 5 => ⟨S160x160, .i32⟩
  | 6 => ⟨S_, .i32⟩
  | 7 => ⟨S160x160, .i32⟩
  | 8 => ⟨S160x160, .i32⟩
  | 9 => ⟨S160x160, .i32⟩
  | 10 => ⟨S160x160, .i1⟩
  | 11 => ⟨S_, .f32⟩
  | 12 => ⟨S160x160, .f32⟩
  | 13 => ⟨S160x160, .f32⟩
  | 14 => ⟨S_, .f32⟩
  | 15 => ⟨S160x160, .f32⟩
  | 16 => ⟨S160x160, .i1⟩
  | 17 => ⟨S25600, .i1⟩
  | 18 => ⟨S25600, .i32⟩
  | 19 => ⟨S_, .i32⟩
  | 20 => ⟨S_, .i32⟩
  | 21 => ⟨S25600, .i32⟩
  | 22 => ⟨S_, .i32⟩
  | 23 => ⟨S12720, .i32⟩
  | 24 => ⟨S_, .i32⟩
  | 25 => ⟨S_, .i32⟩
  | 26 => ⟨S25600, .i32⟩
  | 27 => ⟨S25600, .i32⟩
  | 28 => ⟨S_, .i32⟩
  | 29 => ⟨S25600, .i32⟩
  | 30 => ⟨S25600, .i1⟩
  | 31 => ⟨S_, .i32⟩
  | 32 => ⟨S25600, .i32⟩
  | 33 => ⟨S25600, .i32⟩
  | 34 => ⟨S25600, .i32⟩
  | 35 => ⟨S25600x1, .i32⟩
  | 36 => ⟨S_, .i32⟩
  | 37 => ⟨S25600, .i32⟩
  | 38 => ⟨S12720, .i32⟩
  | 39 => ⟨S_, .i32⟩
  | 40 => ⟨S_, .i32⟩
  | 41 => ⟨S12720, .i32⟩
  | 42 => ⟨S_, .i32⟩
  | 43 => ⟨S12720, .i32⟩
  | 44 => ⟨S12720, .i32⟩
  | 45 => ⟨S12720, .i32⟩
  | 46 => ⟨S_, .i32⟩
  | 47 => ⟨S12720, .i32⟩
  | 48 => ⟨S12720, .i1⟩
  | 49 => ⟨S12720, .i32⟩
  | 50 => ⟨S12720, .i32⟩
  | 51 => ⟨S_, .i32⟩
  | 52 => ⟨S12720, .i32⟩
  | 53 => ⟨S12720, .i1⟩
  | 54 => ⟨S12720, .i1⟩
  | 55 => ⟨S_, .i32⟩
  | 56 => ⟨S12720, .i32⟩
  | 57 => ⟨S12720, .i32⟩
  | 58 => ⟨S12720, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S12720, .i32⟩
  | 66 => ⟨S12720, .i32⟩
  | 67 => ⟨S_, .i32⟩
  | 68 => ⟨S12720, .i32⟩
  | 69 => ⟨S12720, .i1⟩
  | 70 => ⟨S_, .i32⟩
  | 71 => ⟨S12720, .i32⟩
  | 72 => ⟨S12720, .i1⟩
  | 73 => ⟨S_, .i32⟩
  | 74 => ⟨S_, .i1⟩
  | 75 => ⟨S12720, .i1⟩
  | 76 => ⟨S12720, .i1⟩
  | 77 => ⟨S12720, .i1⟩
  | 78 => ⟨S12720, .i32⟩
  | 79 => ⟨S12720, .i32⟩
  | 80 => ⟨S12720, .i32⟩
  | 81 => ⟨S_, .i32⟩
  | 82 => ⟨S12720, .i32⟩
  | 83 => ⟨S12720, .i32⟩
  | 84 => ⟨S12720, .i32⟩
  | 85 => ⟨S_, .i32⟩
  | 86 => ⟨S12720, .i32⟩
  | 87 => ⟨S12720, .i1⟩
  | 88 => ⟨S12720, .i32⟩
  | 89 => ⟨S12720, .i32⟩
  | 90 => ⟨S_, .i32⟩
  | 91 => ⟨S12720, .i32⟩
  | 92 => ⟨S12720, .i1⟩
  | 93 => ⟨S12720, .i1⟩
  | 94 => ⟨S_, .i32⟩
  | 95 => ⟨S12720, .i32⟩
  | 96 => ⟨S12720, .i32⟩
  | 97 => ⟨S12720, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S12720, .i32⟩
  | 105 => ⟨S12720, .i32⟩
  | 106 => ⟨S_, .i32⟩
  | 107 => ⟨S12720, .i32⟩
  | 108 => ⟨S12720, .i1⟩
  | 109 => ⟨S_, .i32⟩
  | 110 => ⟨S12720, .i32⟩
  | 111 => ⟨S12720, .i1⟩
  | 112 => ⟨S_, .i32⟩
  | 113 => ⟨S_, .i1⟩
  | 114 => ⟨S12720, .i1⟩
  | 115 => ⟨S12720, .i1⟩
  | 116 => ⟨S12720, .i1⟩
  | 117 => ⟨S12720, .i32⟩
  | 118 => ⟨S12720, .i32⟩
  | 119 => ⟨S12720, .i32⟩
  | 120 => ⟨S256x256, .f32⟩
  | 121 => ⟨S256x256, .f32⟩
  | 122 => ⟨S8x160x256, .f32⟩
  | 123 => ⟨S8x160x256, .f32⟩
  | 124 => ⟨S_, .i32⟩
  | 125 => ⟨S12720, .i32⟩
  | 126 => ⟨S12720, .i1⟩
  | 127 => ⟨S_, .i32⟩
  | _ => ⟨S8x160x256, .f32⟩

abbrev hbmTy0_1 (i : Nat) : BufTy := match i % 128 with
  | 0 => ⟨S12720, .i32⟩
  | 1 => ⟨S12720, .i32⟩
  | 2 => ⟨S12720, .i32⟩
  | 3 => ⟨S12720x1, .i32⟩
  | 4 => ⟨S8x12720x256, .f32⟩
  | 5 => ⟨S_, .i32⟩
  | 6 => ⟨S12720, .i32⟩
  | 7 => ⟨S12720, .i1⟩
  | 8 => ⟨S_, .i32⟩
  | 9 => ⟨S12720, .i32⟩
  | 10 => ⟨S12720, .i32⟩
  | 11 => ⟨S12720, .i32⟩
  | 12 => ⟨S12720x1, .i32⟩
  | 13 => ⟨S8x12720x256, .f32⟩
  | 14 => ⟨S8x12720x256, .f32⟩
  | 15 => ⟨S1x1x256, .f32⟩
  | 16 => ⟨S8x12720x256, .f32⟩
  | 17 => ⟨S8x12720x256, .f32⟩
  | _ => ⟨S8x160x256, .f32⟩

abbrev hbmTy (i : Nat) : BufTy := match i / 128 with
  | 0 => hbmTy0_0 i
  | 1 => hbmTy0_1 i
  | _ => ⟨S8x160x256, .f32⟩

abbrev bufTy : (tb : Table) → Fin (tcTables nBuf tb) → BufTy
  | .hbm, ⟨i, _⟩ => hbmTy i
  | _, _ => ⟨S8x160x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_call0_c : Ref sig .tc := ⟨.hbm, 19, rfl⟩
abbrev main_call1_call0_v0 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_c_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_4 : Ref sig .tc := ⟨.hbm, 36, rfl⟩
abbrev main_v13 : Ref sig .tc := ⟨.hbm, 37, rfl⟩
abbrev main_v14 : Ref sig .tc := ⟨.hbm, 38, rfl⟩
abbrev main_call3_call0_c : Ref sig .tc := ⟨.hbm, 39, rfl⟩
abbrev main_call3_call0_v0 : Ref sig .tc := ⟨.hbm, 40, rfl⟩
abbrev main_v15 : Ref sig .tc := ⟨.hbm, 41, rfl⟩
abbrev main_c_5 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_c : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_c_0 : Ref sig .tc := ⟨.hbm, 55, rfl⟩
abbrev main_call4_v11 : Ref sig .tc := ⟨.hbm, 56, rfl⟩
abbrev main_call4_v12 : Ref sig .tc := ⟨.hbm, 57, rfl⟩
abbrev main_v16 : Ref sig .tc := ⟨.hbm, 58, rfl⟩
abbrev main_c_6 : Ref sig .tc := ⟨.hbm, 59, rfl⟩
abbrev main_call5_v0 : Ref sig .tc := ⟨.hbm, 60, rfl⟩
abbrev main_call5_c : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_c_1 : Ref sig .tc := ⟨.hbm, 67, rfl⟩
abbrev main_call5_v5 : Ref sig .tc := ⟨.hbm, 68, rfl⟩
abbrev main_call5_v6 : Ref sig .tc := ⟨.hbm, 69, rfl⟩
abbrev main_call5_c_2 : Ref sig .tc := ⟨.hbm, 70, rfl⟩
abbrev main_call5_v7 : Ref sig .tc := ⟨.hbm, 71, rfl⟩
abbrev main_call5_v8 : Ref sig .tc := ⟨.hbm, 72, rfl⟩
abbrev main_call5_c_3 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_v12 : Ref sig .tc := ⟨.hbm, 77, rfl⟩
abbrev main_call5_v13 : Ref sig .tc := ⟨.hbm, 78, rfl⟩
abbrev main_call5_v14 : Ref sig .tc := ⟨.hbm, 79, rfl⟩
abbrev main_v17 : Ref sig .tc := ⟨.hbm, 80, rfl⟩
abbrev main_c_7 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_c : Ref sig .tc := ⟨.hbm, 90, rfl⟩
abbrev main_call6_v8 : Ref sig .tc := ⟨.hbm, 91, rfl⟩
abbrev main_call6_v9 : Ref sig .tc := ⟨.hbm, 92, rfl⟩
abbrev main_call6_v10 : Ref sig .tc := ⟨.hbm, 93, rfl⟩
abbrev main_call6_c_0 : Ref sig .tc := ⟨.hbm, 94, rfl⟩
abbrev main_call6_v11 : Ref sig .tc := ⟨.hbm, 95, rfl⟩
abbrev main_call6_v12 : Ref sig .tc := ⟨.hbm, 96, rfl⟩
abbrev main_v18 : Ref sig .tc := ⟨.hbm, 97, rfl⟩
abbrev main_c_8 : Ref sig .tc := ⟨.hbm, 98, rfl⟩
abbrev main_call7_v0 : Ref sig .tc := ⟨.hbm, 99, rfl⟩
abbrev main_call7_c : Ref sig .tc := ⟨.hbm, 100, rfl⟩
abbrev main_call7_v1 : Ref sig .tc := ⟨.hbm, 101, rfl⟩
abbrev main_call7_c_0 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_call7_c_1 : Ref sig .tc := ⟨.hbm, 106, rfl⟩
abbrev main_call7_v5 : Ref sig .tc := ⟨.hbm, 107, rfl⟩
abbrev main_call7_v6 : Ref sig .tc := ⟨.hbm, 108, rfl⟩
abbrev main_call7_c_2 : Ref sig .tc := ⟨.hbm, 109, rfl⟩
abbrev main_call7_v7 : Ref sig .tc := ⟨.hbm, 110, rfl⟩
abbrev main_call7_v8 : Ref sig .tc := ⟨.hbm, 111, rfl⟩
abbrev main_call7_c_3 : Ref sig .tc := ⟨.hbm, 112, rfl⟩
abbrev main_call7_v9 : Ref sig .tc := ⟨.hbm, 113, rfl⟩
abbrev main_call7_v10 : Ref sig .tc := ⟨.hbm, 114, rfl⟩
abbrev main_call7_v11 : Ref sig .tc := ⟨.hbm, 115, rfl⟩
abbrev main_call7_v12 : Ref sig .tc := ⟨.hbm, 116, rfl⟩
abbrev main_call7_v13 : Ref sig .tc := ⟨.hbm, 117, rfl⟩
abbrev main_call7_v14 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_v23 : Ref sig .tc := ⟨.hbm, 123, rfl⟩
abbrev main_c_9 : Ref sig .tc := ⟨.hbm, 124, rfl⟩
abbrev main_v24 : Ref sig .tc := ⟨.hbm, 125, rfl⟩
abbrev main_v25 : Ref sig .tc := ⟨.hbm, 126, rfl⟩
abbrev main_c_10 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_c_11 : Ref sig .tc := ⟨.hbm, 133, rfl⟩
abbrev main_v31 : Ref sig .tc := ⟨.hbm, 134, rfl⟩
abbrev main_v32 : Ref sig .tc := ⟨.hbm, 135, rfl⟩
abbrev main_c_12 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩

abbrev nD : Nat := 1
abbrev τ : Topo := Topo.v7x

variable {F : FTy → Type} [FloatOps F]

class Facts₀ : Prop where
  bcast_S_S160x160 : S_.BroadcastsInDim S160x160 (![] : Fin 0 → Fin S160x160.rank)
  shapeCasts_S160x160_S25600 : S160x160.ShapeCasts S25600
  natLt_1_32 : 1 < 32
  bcast_S_S_ : S_.BroadcastsInDim S_ (![] : Fin 0 → Fin S_.rank)
  reduceWindows_S25600_S25600_w25600s1p25599_0 : S25600.ReduceWindows (![25600] : Fin 1 → Nat) ![1] ![25599] ![0] S25600
  h_S_ : 0 < S_.numel
  bcast_S_S12720 : S_.BroadcastsInDim S12720 (![] : Fin 0 → Fin S12720.rank)
  bcast_S_S25600 : S_.BroadcastsInDim S25600 (![] : Fin 0 → Fin S25600.rank)
  bcast_S25600_S25600x1_0 : S25600.BroadcastsInDim S25600x1 (![0] : Fin 1 → Fin S25600x1.rank)
  reduceWindows_S12720_S12720_w12720s1p12719_0 : S12720.ReduceWindows (![12720] : Fin 1 → Nat) ![1] ![12719] ![0] S12720
  slices_S512x256_S256x256_0_0 : S512x256.Slices ![0, 0] S256x256
  slices_S512x256_S256x256_256_0 : S512x256.Slices ![256, 0] S256x256
  bcast_S12720_S12720x1_0 : S12720.BroadcastsInDim S12720x1 (![0] : Fin 1 → Fin S12720x1.rank)
  bcast_S256_S1x1x256_2 : S256.BroadcastsInDim S1x1x256 (![2] : Fin 1 → Fin S1x1x256.rank)
  bcast_S1x1x256_S8x12720x256_0_1_2 : S1x1x256.BroadcastsInDim S8x12720x256 (![0, 1, 2] : Fin 3 → Fin S8x12720x256.rank)
  scatter_S12720_S25600x1_S25600_n_0_0_1_wf : ScatterDims.WF S12720 S25600x1 S25600 [] [0] [0] 1
  dot_S8x160x256_S256x256_S8x160x256_2_0_01_1_n_n_wf : DotDims.WF S8x160x256 S256x256 S8x160x256 [2] [0] [0, 1] [1] [] []
  gather_S8x160x256_S12720x1_S8x12720x256_02_1_n_n_1_1_81256_wf : GatherDims.WF S8x160x256 S12720x1 S8x12720x256 [0, 2] [1] [] [1] [] 1 ![8, 1, 256]

variable [Facts₀]

def scatter_S12720_S25600x1_S25600_n_0_0_1 : ScatterDims S12720 S25600x1 S25600 where
  updateWindowDims := []
  insertedWindowDims := [0]
  scatterDimsToOperandDims := [0]
  indexVectorDim := 1
  wf := scatter_S12720_S25600x1_S25600_n_0_0_1_wf
def dot_S8x160x256_S256x256_S8x160x256_2_0_01_1_n_n : DotDims S8x160x256 S256x256 S8x160x256 where
  lhsContracting := [2]
  rhsContracting := [0]
  lhsNonContracting := [0, 1]
  rhsNonContracting := [1]
  lhsBatch := []
  rhsBatch := []
  wf := dot_S8x160x256_S256x256_S8x160x256_2_0_01_1_n_n_wf
def gather_S8x160x256_S12720x1_S8x12720x256_02_1_n_n_1_1_81256 : GatherDims S8x160x256 S12720x1 S8x12720x256 where
  offsetDims := [0, 2]
  collapsedSliceDims := [1]
  operandBatchingDims := []
  startIndicesBatchingDims := []
  startIndexMap := [1]
  indexVectorDim := 1
  sliceSizes := ![8, 1, 256]
  wf := gather_S8x160x256_S12720x1_S8x12720x256_02_1_n_n_1_1_81256_wf

class Facts : Prop extends Facts₀ where

variable [Facts]
-- ==== Proof.WordPieces.lean ====
/-
  The stores of one grid point, as a list, and why they fill the block. The body writes, for every first member
  i = 0 … 158, the rows off i … off i + 158 − i of the packed axis (off i = i (319 − i) / 2): 159 rectangles of heights
  159, 158, …, 1, each over all 256 features, placed one after the other from row 0 to row 12719. The list below names
  them last first, each with the value stored as a function of the four loaded blocks; it is the list the body's run ends
  with (a load of a whole input buffer reads the block it holds). Since each rectangle starts at the row where the one
  before it ends, every row below 12720 lies in one of them: by 159 steps, no evaluation of the tiling.
-/
import proofs.«138512_j66692252172937_2_alg».proof.Proof.Gen.Kernel.Frame.RunA
import Idealize.ShloMosaic.Lib.Pipeline.Value
import Idealize.ShloMosaic.Lib.Tactic

set_option maxRecDepth 16384

noncomputable section

namespace Cert.Kernel.Pieces

open Cert.Kernel Cert.Kernel.Gen Idealize.ShloMosaic Idealize.ShloMosaic.TcCoe Idealize.ShloMosaic.Tactic

variable {F : FTy → Type} [FloatOps F]

/-! ## A load of a whole input buffer reads the block it holds -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The batch's rows, loaded whole. -/
theorem load_x (a : Memref sig .tc .vmem S1x160x256 .f32) (h : a.IsWhole) (x : Vec F S1x160x256 .f32) :
    View.readAt (Elt F) a.view (Rect.unit (s := S1x160x256) ![0, 0, 0] ![1, 160, 256] inb_S1x160x256_S1x160x256_0_0_0).toLoadRect (h.unread x) = x := by
  rw [View.readAt_eq_ld, h.read_unread]
  exact View.ld_unit_zero (S := S1x160x256) hz3 _ x

/-- A half of the weight, loaded whole. -/
theorem load_w (a : Memref sig .tc .vmem S256x256 .f32) (h : a.IsWhole) (x : Vec F S256x256 .f32) :
    View.readAt (Elt F) a.view (Rect.unit (s := S256x256) ![0, 0] ![256, 256] inb_S256x256_S256x256_0_0).toLoadRect (h.unread x) = x := by
  rw [View.readAt_eq_ld, h.read_unread]
  exact View.ld_unit_zero (S := S256x256) hz2 _ x

/-- The bias, loaded whole. -/
theorem load_b (a : Memref sig .tc .vmem S256 .f32) (h : a.IsWhole) (x : Vec F S256 .f32) :
    View.readAt (Elt F) a.view (Rect.unit (s := S256) ![0] ![256] inb_S256_S256_0).toLoadRect (h.unread x) = x := by
  rw [View.readAt_eq_ld, h.read_unread]
  exact View.ld_unit_zero (S := S256) hz1 _ x

/-! ## The stores -/

/-- The 159 stores of one grid point, last first: the store of first member i covers rows off i … off i + 158 − i. -/
def pieces (x0 : Vec F S1x160x256 .f32) (x1 : Vec F S256x256 .f32) (x2 : Vec F S256x256 .f32) (x3 : Vec F S256 .f32) :
    List (View.Piece (Elt F) S1x12720x256 .f32) :=
  [⟨Rect.unit (s := S1x12720x256) ![0, 12719, 0] S1x1x256.size inb_S1x12720x256_S1x1x256_0_12719_0, k0_pay2 ((k0_pay4 x0 x1)) ((k0_pay5 x0 x2)) ((k0_pay6 x3))⟩,
   ⟨Rect.unit (s := S1x12720x256) ![0, 12717, 0] S1x2x256.size inb_S1x12720x256_S1x2x256_0_12717_0, k0_pay1 ((k0_pay6 x3)) (k0_pay200 (k0_pay4 x0 x1) (k0_pay5 x0 x2))⟩,
   ⟨Rect.unit (s := S1x12720x256) ![0, 12714, 0] S1x3x256.size inb_S1x12720x256_S1x3x256_0_12714_0, k0_pay199 (k0_pay4 x0 x1) (k0_pay5 x0 x2) (k0_pay6 x3)⟩,
   ⟨Rect.unit (s := S1x12720x256) ![0, 12710, 0] S1x4x256.size inb_S1x12720x256_S1x4x256_0_12710_0, k0_pay198 (k0_pay6 x3) (k0_pay197 (k0_pay4 x0 x1) (k0_pay5 x0 x2))⟩,
   ⟨Rect.unit (s := S1x12720x256) ![0, 12705, 0] S1x5x256.size inb_S1x12720x256_S1x5x256_0_12705_0, k0_pay196 (k0_pay4 x0 x1) (k0_pay5 x0 x2) (k0_pay6 x3)⟩,
   ⟨Rect.unit (s := S1x12720x256) ![0, 12699, 0] S1x6x256.size inb_S1x12720x256_S1x6x256_0_12699_0, k0_pay195 (k0_pay4 x0 x1) (k0_pay5 x0 x2) (k0_pay6 x3)⟩,
   ⟨Rect.unit (s := S1x12720x256) ![0, 12692, 0] S1x7x256.size inb_S1x12720x256_S1x7x256_0_12692_0, k0_pay194 (k0_pay4 x0 x1) (k0_pay5 x0 x2) (k0_pay6 x3)⟩,
   ⟨Rect.unit (s := S1x12720x256) ![0, 12684, 0] S1x8x256.size inb_S1x12720x256_S1x8x256_0_12684_0, k0_pay193 (k0_pay4 x0 x1) (k0_pay5 x0 x2) (k0_pay6 x3)⟩,
   ⟨Rect.unit (s := S1x12720x256) ![0, 12675, 0] S1x9x256.size inb_S1x12720x256_S1x9x256_0_12675_0, k0_pay192 (k0_pay191 (k0_pay4 x0 x1) (k0_pay5 x0 x2) (k0_pay6 x3))⟩,
   ⟨Rect.unit (s := S1x12720x256) ![0, 12665, 0] S1x10x256.size inb_S1x12720x256_S1x10x256_0_12665_0, k0_pay190 (k0_pay4 x0 x1) (k0_pay5 x0 x2) (k0_pay6 x3)⟩,
   ⟨Rect.unit (s := S1x12720x256) ![0, 12654, 0] S1x11x256.size inb_S1x12720x256_S1x11x256_0_12654_0, k0_pay189 (k0_pay4 x0 x1) (k0_pay5 x0 x2) (k0_pay6 x3)⟩,
   ⟨Rect.unit (s := S1x12720x256) ![0, 12642, 0] S1x12x256.size inb_S1x12720x256_S1x12x256_0_12642_0, k0_pay188 (k0_pay4 x0 x1) (k0_pay5 x0 x2) (k0_pay6 x3)⟩,
   ⟨Rect.unit (s := S1x12720x256) ![0, 12629, 0] S1x13x256.size inb_S1x12720x256_S1x13x256_0_12629_0, k0_pay187 (k0_pay4 x0 x1) (k0_pay6 x3) (k0_pay186 (k0_pay5 x0 x2))⟩,
   ⟨Rect.unit (s := S1x12720x256) ![0, 12615, 0] S1x14x256.size inb_S1x12720x256_S1x14x256_0_12615_0, k0_pay185 (k0_pay4 x0 x1) (k0_pay5 x0 x2) (k0_pay6 x3)⟩,
   ⟨Rect.unit (s := S1x12720x256) ![0, 12600, 0] S1x15x256.size inb_S1x12720x256_S1x15x256_0_12600_0, k0_pay184 (k0_pay4 x0 x1) (k0_pay5 x0 x2) (k0_pay6 x3)⟩,
   ⟨Rect.unit (s := S1x12720x256) ![0, 12584, 0] S1x16x256.size inb_S1x12720x256_S1x16x256_0_12584_0, k0_pay183 (k0_pay4 x0 x1) (k0_pay5 x0 x2) (k0_pay6 x3)⟩,
   ⟨Rect.unit (s := S1x12720x256) ![0, 12567, 0] S1x17x256.size inb_S1x12720x256_S1x17x256_0_12567_0, k0_pay182 (k0_pay4 x0 x1) (k0_pay5 x0 x2) (k0_pay6 x3)⟩,
   ⟨Rect.unit (s := S1x12720x256) ![0, 12549, 0] S1x18x256.size inb_S1x12720x256_S1x18x256_0_12549_0, k0_pay181 (k0_pay180 (k0_pay4 x0 x1) (k0_pay5 x0 x2) (k0_pay6 x3))⟩,
   ⟨Rect.unit (s := S1x12720x256) ![0, 12530, 0] S1x19x256.size inb_S1x12720x256_S1x19x256_0_12530_0, k0_pay179 (k0_pay4 x0 x1) (k0_pay5 x0 x2) (k0_pay6 x3)⟩,
   ⟨Rect.unit (s := S1x12720x256) ![0, 12510, 0] S1x20x256.size inb_S1x12720x256_S1x20x256_0_12510_0, k0_pay178 (k0_pay4 x0 x1) (k0_pay5 x0 x2) (k0_pay6 x3)⟩,
   ⟨Rect.unit (s := S1x12720x256) ![0, 12489, 0] S1x21x256.size inb_S1x12720x256_S1x21x256_0_12489_0, k0_pay177 (k0_pay4 x0 x1) (k0_pay5 x0 x2) (k0_pay6 x3)⟩,
   ⟨Rect.unit (s := S1x12720x256) ![0, 12467, 0] S1x22x256.size inb_S1x12720x256_S1x22x256_0_12467_0, k0_pay176 (k0_pay4 x0 x1) (k0_pay5 x0 x2) (k0_pay6 x3)⟩,
   ⟨Rect.unit (s := S1x12720x256) ![0, 12444, 0] S1x23x256.size inb_S1x12720x256_S1x23x256_0_12444_0, k0_pay175 (k0_pay174 (k0_pay4 x0 x1) (k0_pay5 x0 x2) (k0_pay6 x3))⟩,
   ⟨Rect.unit (s := S1x12720x256) ![0, 12420, 0] S1x24x256.size inb_S1x12720x256_S1x24x256_0_12420_0, k0_pay173 (k0_pay4 x0 x1) (k0_pay5 x0 x2) (k0_pay6 x3)⟩,
   ⟨Rect.unit (s := S1x12720x256) ![0, 12395, 0] S1x25x256.size inb_S1x12720x256_S1x25x256_0_12395_0, k0_pay172 (k0_pay4 x0 x1) (k0_pay5 x0 x2) (k0_pay6 x3)⟩,
   ⟨Rect.unit (s := S1x12720x256) ![0, 12369, 0] S1x26x256.size inb_S1x12720x256_S1x26x256_0_12369_0, k0_pay171 (k0_pay4 x0 x1) (k0_pay5 x0 x2) (k0_pay6 x3)⟩,
   ⟨Rect.unit (s := S1x12720x256) ![0, 12342, 0] S1x27x256.size inb_S1x12720x256_S1x27x256_0_12342_0, k0_pay170 (k0_pay6 x3) (k0_pay168 (k0_pay5 x0 x2)) (k0_pay169 (k0_pay4 x0 x1))⟩,
   ⟨Rect.unit (s := S1x12720x256) ![0, 12314, 0] S1x28x256.size inb_S1x12720x256_S1x28x256_0_12314_0, k0_pay167 (k0_pay4 x0 x1) (k0_pay5 x0 x2) (k0_pay6 x3)⟩,
   ⟨Rect.unit (s := S1x12720x256) ![0, 12285, 0] S1x29x256.size inb_S1x12720x256_S1x29x256_0_12285_0, k0_pay166 (k0_pay4 x0 x1) (k0_pay5 x0 x2) (k0_pay6 x3)⟩,
   ⟨Rect.unit (s := S1x12720x256) ![0, 12255, 0] S1x30x256.size inb_S1x12720x256_S1x30x256_0_12255_0, k0_pay165 (k0_pay4 x0 x1) (k0_pay5 x0 x2) (k0_pay6 x3)⟩,
   ⟨Rect.unit (s := S1x12720x256) ![0, 12224, 0] S1x31x256.size inb_S1x12720x256_S1x31x256_0_12224_0, k0_pay164 (k0_pay4 x0 x1) (k0_pay5 x0 x2) (k0_pay6 x3)⟩,
   ⟨Rect.unit (s := S1x12720x256) ![0, 12192, 0] S1x32x256.size inb_S1x12720x256_S1x32x256_0_12192_0, k0_pay163 (k0_pay162 (k0_pay4 x0 x1) (k0_pay5 x0 x2) (k0_pay6 x3))⟩,
   ⟨Rect.unit (s := S1x12720x256) ![0, 12159, 0] S1x33x256.size inb_S1x12720x256_S1x33x256_0_12159_0, k0_pay161 (k0_pay4 x0 x1) (k0_pay5 x0 x2) (k0_pay6 x3)⟩,
   ⟨Rect.unit (s := S1x12720x256) ![0, 12125, 0] S1x34x256.size inb_S1x12720x256_S1x34x256_0_12125_0, k0_pay160 (k0_pay4 x0 x1) (k0_pay5 x0 x2) (k0_pay6 x3)⟩,
   ⟨Rect.unit (s := S1x12720x256) ![0, 12090, 0] S1x35x256.size inb_S1x12720x256_S1x35x256_0_12090_0, k0_pay159 (k0_pay4 x0 x1) (k0_pay5 x0 x2) (k0_pay6 x3)⟩,
   ⟨Rect.unit (s := S1x12720x256) ![0, 12054, 0] S1x36x256.size inb_S1x12720x256_S1x36x256_0_12054_0, k0_pay158 (k0_pay4 x0 x1) (k0_pay5 x0 x2) (k0_pay6 x3)⟩,
   ⟨Rect.unit (s := S1x12720x256) ![0, 12017, 0] S1x37x256.size inb_S1x12720x256_S1x37x256_0_12017_0, k0_pay157 (k0_pay4 x0 x1) (k0_pay5 x0 x2) (k0_pay6 x3)⟩,
   ⟨Rect.unit (s := S1x12720x256) ![0, 11979, 0] S1x38x256.size inb_S1x12720x256_S1x38x256_0_11979_0, k0_pay156 (k0_pay4 x0 x1) (k0_pay5 x0 x2) (k0_pay6 x3)⟩,
   ⟨Rect.unit (s := S1x12720x256) ![0, 11940, 0] S1x39x256.size inb_S1x12720x256_S1x39x256_0_11940_0, k0_pay155 (k0_pay4 x0 x1) (k0_pay5 x0 x2) (k0_pay6 x3)⟩,
   ⟨Rect.unit (s := S1x12720x256) ![0, 11900, 0] S1x40x256.size inb_S1x12720x256_S1x40x256_0_11900_0, k0_pay154 (k0_pay4 x0 x1) (k0_pay5 x0 x2) (k0_pay6 x3)⟩,
   ⟨Rect.unit (s := S1x12720x256) ![0, 11859, 0] S1x41x256.size inb_S1x12720x256_S1x41x256_0_11859_0, k0_pay153 (k0_pay151 (k0_pay4 x0 x1) (k0_pay5 x0 x2)) (k0_pay152 (k0_pay6 x3))⟩,
   ⟨Rect.unit (s := S1x12720x256) ![0, 11817, 0] S1x42x256.size inb_S1x12720x256_S1x42x256_0_11817_0, k0_pay150 (k0_pay4 x0 x1) (k0_pay5 x0 x2) (k0_pay6 x3)⟩,
   ⟨Rect.unit (s := S1x12720x256) ![0, 11774, 0] S1x43x256.size inb_S1x12720x256_S1x43x256_0_11774_0, k0_pay149 (k0_pay4 x0 x1) (k0_pay5 x0 x2) (k0_pay6 x3)⟩,
   ⟨Rect.unit (s := S1x12720x256) ![0, 11730, 0] S1x44x256.size inb_S1x12720x256_S1x44x256_0_11730_0, k0_pay148 (k0_pay4 x0 x1) (k0_pay5 x0 x2) (k0_pay6 x3)⟩,
   ⟨Rect.unit (s := S1x12720x256) ![0, 11685, 0] S1x45x256.size inb_S1x12720x256_S1x45x256_0_11685_0, k0_pay147 (k0_pay4 x0 x1) (k0_pay5 x0 x2) (k0_pay6 x3)⟩,
   ⟨Rect.unit (s := S1x12720x256) ![0, 11639, 0] S1x46x256.size inb_S1x12720x256_S1x46x256_0_11639_0, k0_pay146 (k0_pay145 (k0_pay4 x0 x1) (k0_pay5 x0 x2) (k0_pay6 x3))⟩,
   ⟨Rect.unit (s := S1x12720x256) ![0, 11592, 0] S1x47x256.size inb_S1x12720x256_S1x47x256_0_11592_0, k0_pay144 (k0_pay4 x0 x1) (k0_pay5 x0 x2) (k0_pay6 x3)⟩,
   ⟨Rect.unit (s := S1x12720x256) ![0, 11544, 0] S1x48x256.size inb_S1x12720x256_S1x48x256_0_11544_0, k0_pay143 (k0_pay4 x0 x1) (k0_pay5 x0 x2) (k0_pay6 x3)⟩,
   ⟨Rect.unit (s := S1x12720x256) ![0, 11495, 0] S1x49x256.size inb_S1x12720x256_S1x49x256_0_11495_0, k0_pay142 (k0_pay4 x0 x1) (k0_pay5 x0 x2) (k0_pay6 x3)⟩,
   ⟨Rect.unit (s := S1x12720x256) ![0, 11445, 0] S1x50x256.size inb_S1x12720x256_S1x50x256_0_11445_0, k0_pay141 (k0_pay6 x3) (k0_pay139 (k0_pay5 x0 x2)) (k0_pay140 (k0_pay4 x0 x1))⟩,
   ⟨Rect.unit (s := S1x12720x256) ![0, 11394, 0] S1x51x256.size inb_S1x12720x256_S1x51x256_0_11394_0, k0_pay138 (k0_pay4 x0 x1) (k0_pay5 x0 x2) (k0_pay6 x3)⟩,
   ⟨Rect.unit (s := S1x12720x256) ![0, 11342, 0] S1x52x256.size inb_S1x12720x256_S1x52x256_0_11342_0, k0_pay137 (k0_pay4 x0 x1) (k0_pay5 x0 x2) (k0_pay6 x3)⟩,
   ⟨Rect.unit (s := S1x12720x256) ![0, 11289, 0] S1x53x256.size inb_S1x12720x256_S1x53x256_0_11289_0, k0_pay136 (k0_pay4 x0 x1) (k0_pay5 x0 x2) (k0_pay6 x3)⟩,
   ⟨Rect.unit (s := S1x12720x256) ![0, 11235, 0] S1x54x256.size inb_S1x12720x256_S1x54x256_0_11235_0, k0_pay135 (k0_pay4 x0 x1) (k0_pay5 x0 x2) (k0_pay6 x3)⟩,
   ⟨Rect.unit (s := S1x12720x256) ![0, 11180, 0] S1x55x256.size inb_S1x12720x256_S1x55x256_0_11180_0, k0_pay134 (k0_pay133 (k0_pay4 x0 x1) (k0_pay5 x0 x2) (k0_pay6 x3))⟩,
   ⟨Rect.unit (s := S1x12720x256) ![0, 11124, 0] S1x56x256.size inb_S1x12720x256_S1x56x256_0_11124_0, k0_pay132 (k0_pay4 x0 x1) (k0_pay5 x0 x2) (k0_pay6 x3)⟩,
   ⟨Rect.unit (s := S1x12720x256) ![0, 11067, 0] S1x57x256.size inb_S1x12720x256_S1x57x256_0_11067_0, k0_pay131 (k0_pay4 x0 x1) (k0_pay5 x0 x2) (k0_pay6 x3)⟩,
   ⟨Rect.unit (s := S1x12720x256) ![0, 11009, 0] S1x58x256.size inb_S1x12720x256_S1x58x256_0_11009_0, k0_pay130 (k0_pay4 x0 x1) (k0_pay5 x0 x2) (k0_pay6 x3)⟩,
   ⟨Rect.unit (s := S1x12720x256) ![0, 10950, 0] S1x59x256.size inb_S1x12720x256_S1x59x256_0_10950_0, k0_pay129 (k0_pay4 x0 x1) (k0_pay5 x0 x2) (k0_pay6 x3)⟩,
   ⟨Rect.unit (s := S1x12720x256) ![0, 10890, 0] S1x60x256.size inb_S1x12720x256_S1x60x256_0_10890_0, (k0_pay128 (k0_pay4 x0 x1) (k0_pay5 x0 x2) (k0_pay6 x3))⟩,
   ⟨Rect.unit (s := S1x12720x256) ![0, 10829, 0] S1x61x256.size inb_S1x12720x256_S1x61x256_0_10829_0, k0_pay127 (k0_pay4 x0 x1) (k0_pay5 x0 x2) (k0_pay6 x3)⟩,
   ⟨Rect.unit (s := S1x12720x256) ![0, 10767, 0] S1x62x256.size inb_S1x12720x256_S1x62x256_0_10767_0, k0_pay126 (k0_pay4 x0 x1) (k0_pay5 x0 x2) (k0_pay6 x3)⟩,
   ⟨Rect.unit (s := S1x12720x256) ![0, 10704, 0] S1x63x256.size inb_S1x12720x256_S1x63x256_0_10704_0, k0_pay125 (k0_pay4 x0 x1) (k0_pay5 x0 x2) (k0_pay6 x3)⟩,
   ⟨Rect.unit (s := S1x12720x256) ![0, 10640, 0] S1x64x256.size inb_S1x12720x256_S1x64x256_0_10640_0, k0_pay124 (k0_pay6 x3) (k0_pay123 (k0_pay4 x0 x1) (k0_pay5 x0 x2))⟩,
   ⟨Rect.unit (s := S1x12720x256) ![0, 10575, 0] S1x65x256.size inb_S1x12720x256_S1x65x256_0_10575_0, k0_pay122 (k0_pay4 x0 x1) (k0_pay5 x0 x2) (k0_pay6 x3)⟩,
   ⟨Rect.unit (s := S1x12720x256) ![0, 10509, 0] S1x66x256.size inb_S1x12720x256_S1x66x256_0_10509_0, k0_pay121 (k0_pay4 x0 x1) (k0_pay5 x0 x2) (k0_pay6 x3)⟩,
   ⟨Rect.unit (s := S1x12720x256) ![0, 10442, 0] S1x67x256.size inb_S1x12720x256_S1x67x256_0_10442_0, k0_pay120 (k0_pay4 x0 x1) (k0_pay5 x0 x2) (k0_pay6 x3)⟩,
   ⟨Rect.unit (s := S1x12720x256) ![0, 10374, 0] S1x68x256.size inb_S1x12720x256_S1x68x256_0_10374_0, k0_pay119 (k0_pay4 x0 x1) (k0_pay5 x0 x2) (k0_pay6 x3)⟩,
   ⟨Rect.unit (s := S1x12720x256) ![0, 10305, 0] S1x69x256.size inb_S1x12720x256_S1x69x256_0_10305_0, k0_pay118 (k0_pay117 (k0_pay4 x0 x1) (k0_pay5 x0 x2) (k0_pay6 x3))⟩,
   ⟨Rect.unit (s := S1x12720x256) ![0, 10235, 0] S1x70x256.size inb_S1x12720x256_S1x70x256_0_10235_0, k0_pay116 (k0_pay4 x0 x1) (k0_pay5 x0 x2) (k0_pay6 x3)⟩,
   ⟨Rect.unit (s := S1x12720x256) ![0, 10164, 0] S1x71x256.size inb_S1x12720x256_S1x71x256_0_10164_0, k0_pay115 (k0_pay4 x0 x1) (k0_pay5 x0 x2) (k0_pay6 x3)⟩,
   ⟨Rect.unit (s := S1x12720x256) ![0, 10092, 0] S1x72x256.size inb_S1x12720x256_S1x72x256_0_10092_0, k0_pay114 (k0_pay4 x0 x1) (k0_pay5 x0 x2) (k0_pay6 x3)⟩,
   ⟨Rect.unit (s := S1x12720x256) ![0, 10019, 0] S1x73x256.size inb_S1x12720x256_S1x73x256_0_10019_0, k0_pay113 (k0_pay4 x0 x1) (k0_pay6 x3) (k0_pay112 (k0_pay5 x0 x2))⟩,
   ⟨Rect.unit (s := S1x12720x256) ![0, 9945, 0] S1x74x256.size inb_S1x12720x256_S1x74x256_0_9945_0, k0_pay111 (k0_pay4 x0 x1) (k0_pay5 x0 x2) (k0_pay6 x3)⟩,
   ⟨Rect.unit (s := S1x12720x256) ![0, 9870, 0] S1x75x256.size inb_S1x12720x256_S1x75x256_0_9870_0, k0_pay110 (k0_pay4 x0 x1) (k0_pay5 x0 x2) (k0_pay6 x3)⟩,
   ⟨Rect.unit (s := S1x12720x256) ![0, 9794, 0] S1x76x256.size inb_S1x12720x256_S1x76x256_0_9794_0, k0_pay109 (k0_pay4 x0 x1) (k0_pay5 x0 x2) (k0_pay6 x3)⟩,
   ⟨Rect.unit (s := S1x12720x256) ![0, 9717, 0] S1x77x256.size inb_S1x12720x256_S1x77x256_0_9717_0, k0_pay108 (k0_pay4 x0 x1) (k0_pay5 x0 x2) (k0_pay6 x3)⟩,
   ⟨Rect.unit (s := S1x12720x256) ![0, 9639, 0] S1x78x256.size inb_S1x12720x256_S1x78x256_0_9639_0, k0_pay107 (k0_pay106 (k0_pay4 x0 x1) (k0_pay5 x0 x2) (k0_pay6 x3))⟩,
   ⟨Rect.unit (s := S1x12720x256) ![0, 9560, 0] S1x79x256.size inb_S1x12720x256_S1x79x256_0_9560_0, k0_pay105 (k0_pay4 x0 x1) (k0_pay5 x0 x2) (k0_pay6 x3)⟩,
   ⟨Rect.unit (s := S1x12720x256) ![0, 9480, 0] S1x80x256.size inb_S1x12720x256_S1x80x256_0_9480_0, k0_pay104 (k0_pay4 x0 x1) (k0_pay5 x0 x2) (k0_pay6 x3)⟩,
   ⟨Rect.unit (s := S1x12720x256) ![0, 9399, 0] S1x81x256.size inb_S1x12720x256_S1x81x256_0_9399_0, k0_pay103 (k0_pay4 x0 x1) (k0_pay5 x0 x2) (k0_pay6 x3)⟩,
   ⟨Rect.unit (s := S1x12720x256) ![0, 9317, 0] S1x82x256.size inb_S1x12720x256_S1x82x256_0_9317_0, k0_pay102 (k0_pay4 x0 x1) (k0_pay5 x0 x2) (k0_pay6 x3)⟩,
   ⟨Rect.unit (s := S1x12720x256) ![0, 9234, 0] S1x83x256.size inb_S1x12720x256_S1x83x256_0_9234_0, k0_pay101 (k0_pay100 (k0_pay4 x0 x1) (k0_pay5 x0 x2) (k0_pay6 x3))⟩,
   ⟨Rect.unit (s := S1x12720x256) ![0, 9150, 0] S1x84x256.size inb_S1x12720x256_S1x84x256_0_9150_0, k0_pay99 (k0_pay4 x0 x1) (k0_pay5 x0 x2) (k0_pay6 x3)⟩,
   ⟨Rect.unit (s := S1x12720x256) ![0, 9065, 0] S1x85x256.size inb_S1x12720x256_S1x85x256_0_9065_0, k0_pay98 (k0_pay4 x0 x1) (k0_pay5 x0 x2) (k0_pay6 x3)⟩,
   ⟨Rect.unit (s := S1x12720x256) ![0, 8979, 0] S1x86x256.size inb_S1x12720x256_S1x86x256_0_8979_0, k0_pay97 (k0_pay4 x0 x1) (k0_pay5 x0 x2) (k0_pay6 x3)⟩,
   ⟨Rect.unit (s := S1x12720x256) ![0, 8892, 0] S1x87x256.size inb_S1x12720x256_S1x87x256_0_8892_0, k0_pay96 (k0_pay6 x3) (k0_pay94 (k0_pay5 x0 x2)) (k0_pay95 (k0_pay4 x0 x1))⟩,
   ⟨Rect.unit (s := S1x12720x256) ![0, 8804, 0] S1x88x256.size inb_S1x12720x256_S1x88x256_0_8804_0, k0_pay93 (k0_pay4 x0 x1) (k0_pay5 x0 x2) (k0_pay6 x3)⟩,
   ⟨Rect.unit (s := S1x12720x256) ![0, 8715, 0] S1x89x256.size inb_S1x12720x256_S1x89x256_0_8715_0, k0_pay92 (k0_pay4 x0 x1) (k0_pay5 x0 x2) (k0_pay6 x3)⟩,
   ⟨Rect.unit (s := S1x12720x256) ![0, 8625, 0] S1x90x256.size inb_S1x12720x256_S1x90x256_0_8625_0, k0_pay91 (k0_pay4 x0 x1) (k0_pay5 x0 x2) (k0_pay6 x3)⟩,
   ⟨Rect.unit (s := S1x12720x256) ![0, 8534, 0] S1x91x256.size inb_S1x12720x256_S1x91x256_0_8534_0, k0_pay90 (k0_pay4 x0 x1) (k0_pay5 x0 x2) (k0_pay6 x3)⟩,
   ⟨Rect.unit (s := S1x12720x256) ![0, 8442, 0] S1x92x256.size inb_S1x12720x256_S1x92x256_0_8442_0, k0_pay89 (k0_pay88 (k0_pay4 x0 x1) (k0_pay5 x0 x2) (k0_pay6 x3))⟩,
   ⟨Rect.unit (s := S1x12720x256) ![0, 8349, 0] S1x93x256.size inb_S1x12720x256_S1x93x256_0_8349_0, k0_pay87 (k0_pay4 x0 x1) (k0_pay5 x0 x2) (k0_pay6 x3)⟩,
   ⟨Rect.unit (s := S1x12720x256) ![0, 8255, 0] S1x94x256.size inb_S1x12720x256_S1x94x256_0_8255_0, k0_pay86 (k0_pay4 x0 x1) (k0_pay5 x0 x2) (k0_pay6 x3)⟩,
   ⟨Rect.unit (s := S1x12720x256) ![0, 8160, 0] S1x95x256.size inb_S1x12720x256_S1x95x256_0_8160_0, k0_pay85 (k0_pay4 x0 x1) (k0_pay5 x0 x2) (k0_pay6 x3)⟩,
   ⟨Rect.unit (s := S1x12720x256) ![0, 8064, 0] S1x96x256.size inb_S1x12720x256_S1x96x256_0_8064_0, k0_pay84 (k0_pay4 x0 x1) (k0_pay5 x0 x2) (k0_pay6 x3)⟩,
   ⟨Rect.unit (s := S1x12720x256) ![0, 7967, 0] S1x97x256.size inb_S1x12720x256_S1x97x256_0_7967_0, k0_pay83 (k0_pay4 x0 x1) (k0_pay5 x0 x2) (k0_pay6 x3)⟩,
   ⟨Rect.unit (s := S1x12720x256) ![0, 7869, 0] S1x98x256.size inb_S1x12720x256_S1x98x256_0_7869_0, k0_pay82 (k0_pay4 x0 x1) (k0_pay5 x0 x2) (k0_pay6 x3)⟩,
   ⟨Rect.unit (s := S1x12720x256) ![0, 7770, 0] S1x99x256.size inb_S1x12720x256_S1x99x256_0_7770_0, k0_pay81 (k0_pay4 x0 x1) (k0_pay5 x0 x2) (k0_pay6 x3)⟩,
   ⟨Rect.unit (s := S1x12720x256) ![0, 7670, 0] S1x100x256.size inb_S1x12720x256_S1x100x256_0_7670_0, k0_pay80 (k0_pay4 x0 x1) (k0_pay5 x0 x2) (k0_pay6 x3)⟩,
   ⟨Rect.unit (s := S1x12720x256) ![0, 7569, 0] S1x101x256.size inb_S1x12720x256_S1x101x256_0_7569_0, k0_pay79 (k0_pay77 (k0_pay4 x0 x1) (k0_pay5 x0 x2)) (k0_pay78 (k0_pay6 x3))⟩,
   ⟨Rect.unit (s := S1x12720x256) ![0, 7467, 0] S1x102x256.size inb_S1x12720x256_S1x102x256_0_7467_0, k0_pay76 (k0_pay4 x0 x1) (k0_pay5 x0 x2) (k0_pay6 x3)⟩,
   ⟨Rect.unit (s := S1x12720x256) ![0, 7364, 0] S1x103x256.size inb_S1x12720x256_S1x103x256_0_7364_0, k0_pay75 (k0_pay4 x0 x1) (k0_pay5 x0 x2) (k0_pay6 x3)⟩,
   ⟨Rect.unit (s := S1x12720x256) ![0, 7260, 0] S1x104x256.size inb_S1x12720x256_S1x104x256_0_7260_0, k0_pay74 (k0_pay4 x0 x1) (k0_pay5 x0 x2) (k0_pay6 x3)⟩,
   ⟨Rect.unit (s := S1x12720x256) ![0, 7155, 0] S1x105x256.size inb_S1x12720x256_S1x105x256_0_7155_0, k0_pay73 (k0_pay4 x0 x1) (k0_pay5 x0 x2) (k0_pay6 x3)⟩,
   ⟨Rect.unit (s := S1x12720x256) ![0, 7049, 0] S1x106x256.size inb_S1x12720x256_S1x106x256_0_7049_0, k0_pay72 (k0_pay71 (k0_pay4 x0 x1) (k0_pay5 x0 x2) (k0_pay6 x3))⟩,
   ⟨Rect.unit (s := S1x12720x256) ![0, 6942, 0] S1x107x256.size inb_S1x12720x256_S1x107x256_0_6942_0, k0_pay70 (k0_pay4 x0 x1) (k0_pay5 x0 x2) (k0_pay6 x3)⟩,
   ⟨Rect.unit (s := S1x12720x256) ![0, 6834, 0] S1x108x256.size inb_S1x12720x256_S1x108x256_0_6834_0, k0_pay69 (k0_pay4 x0 x1) (k0_pay5 x0 x2) (k0_pay6 x3)⟩,
   ⟨Rect.unit (s := S1x12720x256) ![0, 6725, 0] S1x109x256.size inb_S1x12720x256_S1x109x256_0_6725_0, k0_pay68 (k0_pay4 x0 x1) (k0_pay5 x0 x2) (k0_pay6 x3)⟩,
   ⟨Rect.unit (s := S1x12720x256) ![0, 6615, 0] S1x110x256.size inb_S1x12720x256_S1x110x256_0_6615_0, k0_pay67 (k0_pay6 x3) (k0_pay65 (k0_pay5 x0 x2)) (k0_pay66 (k0_pay4 x0 x1))⟩,
   ⟨Rect.unit (s := S1x12720x256) ![0, 6504, 0] S1x111x256.size inb_S1x12720x256_S1x111x256_0_6504_0, k0_pay64 (k0_pay4 x0 x1) (k0_pay5 x0 x2) (k0_pay6 x3)⟩,
   ⟨Rect.unit (s := S1x12720x256) ![0, 6392, 0] S1x112x256.size inb_S1x12720x256_S1x112x256_0_6392_0, k0_pay63 (k0_pay4 x0 x1) (k0_pay5 x0 x2) (k0_pay6 x3)⟩,
   ⟨Rect.unit (s := S1x12720x256) ![0, 6279, 0] S1x113x256.size inb_S1x12720x256_S1x113x256_0_6279_0, k0_pay62 (k0_pay4 x0 x1) (k0_pay5 x0 x2) (k0_pay6 x3)⟩,
   ⟨Rect.unit (s := S1x12720x256) ![0, 6165, 0] S1x114x256.size inb_S1x12720x256_S1x114x256_0_6165_0, k0_pay61 (k0_pay4 x0 x1) (k0_pay5 x0 x2) (k0_pay6 x3)⟩,
   ⟨Rect.unit (s := S1x12720x256) ![0, 6050, 0] S1x115x256.size inb_S1x12720x256_S1x115x256_0_6050_0, k0_pay60 (k0_pay59 (k0_pay4 x0 x1) (k0_pay5 x0 x2) (k0_pay6 x3))⟩,
   ⟨Rect.unit (s := S1x12720x256) ![0, 5934, 0] S1x116x256.size inb_S1x12720x256_S1x116x256_0_5934_0, k0_pay58 (k0_pay4 x0 x1) (k0_pay5 x0 x2) (k0_pay6 x3)⟩,
   ⟨Rect.unit (s := S1x12720x256) ![0, 5817, 0] S1x117x256.size inb_S1x12720x256_S1x117x256_0_5817_0, k0_pay57 (k0_pay4 x0 x1) (k0_pay5 x0 x2) (k0_pay6 x3)⟩,
   ⟨Rect.unit (s := S1x12720x256) ![0, 5699, 0] S1x118x256.size inb_S1x12720x256_S1x118x256_0_5699_0, k0_pay56 (k0_pay4 x0 x1) (k0_pay5 x0 x2) (k0_pay6 x3)⟩,
   ⟨Rect.unit (s := S1x12720x256) ![0, 5580, 0] S1x119x256.size inb_S1x12720x256_S1x119x256_0_5580_0, k0_pay55 (k0_pay4 x0 x1) (k0_pay5 x0 x2) (k0_pay6 x3)⟩,
   ⟨Rect.unit (s := S1x12720x256) ![0, 5460, 0] S1x120x256.size inb_S1x12720x256_S1x120x256_0_5460_0, (k0_pay54 (k0_pay4 x0 x1) (k0_pay5 x0 x2) (k0_pay6 x3))⟩,
   ⟨Rect.unit (s := S1x12720x256) ![0, 5339, 0] S1x121x256.size inb_S1x12720x256_S1x121x256_0_5339_0, k0_pay53 (k0_pay4 x0 x1) (k0_pay5 x0 x2) (k0_pay6 x3)⟩,
   ⟨Rect.unit (s := S1x12720x256) ![0, 5217, 0] S1x122x256.size inb_S1x12720x256_S1x122x256_0_5217_0, k0_pay52 (k0_pay4 x0 x1) (k0_pay5 x0 x2) (k0_pay6 x3)⟩,
   ⟨Rect.unit (s := S1x12720x256) ![0, 5094, 0] S1x123x256.size inb_S1x12720x256_S1x123x256_0_5094_0, k0_pay51 (k0_pay4 x0 x1) (k0_pay5 x0 x2) (k0_pay6 x3)⟩,
   ⟨Rect.unit (s := S1x12720x256) ![0, 4970, 0] S1x124x256.size inb_S1x12720x256_S1x124x256_0_4970_0, k0_pay50 (k0_pay6 x3) (k0_pay49 (k0_pay4 x0 x1) (k0_pay5 x0 x2))⟩,
   ⟨Rect.unit (s := S1x12720x256) ![0, 4845, 0] S1x125x256.size inb_S1x12720x256_S1x125x256_0_4845_0, k0_pay48 (k0_pay4 x0 x1) (k0_pay5 x0 x2) (k0_pay6 x3)⟩,
   ⟨Rect.unit (s := S1x12720x256) ![0, 4719, 0] S1x126x256.size inb_S1x12720x256_S1x126x256_0_4719_0, k0_pay47 (k0_pay4 x0 x1) (k0_pay5 x0 x2) (k0_pay6 x3)⟩,
   ⟨Rect.unit (s := S1x12720x256) ![0, 4592, 0] S1x127x256.size inb_S1x12720x256_S1x127x256_0_4592_0, k0_pay46 (k0_pay4 x0 x1) (k0_pay5 x0 x2) (k0_pay6 x3)⟩,
   ⟨Rect.unit (s := S1x12720x256) ![0, 4464, 0] S1x128x256.size inb_S1x12720x256_S1x128x256_0_4464_0, k0_pay45 (k0_pay4 x0 x1) (k0_pay5 x0 x2) (k0_pay6 x3)⟩,
   ⟨Rect.unit (s := S1x12720x256) ![0, 4335, 0] S1x129x256.size inb_S1x12720x256_S1x129x256_0_4335_0, k0_pay44 (k0_pay43 (k0_pay4 x0 x1) (k0_pay5 x0 x2) (k0_pay6 x3))⟩,
   ⟨Rect.unit (s := S1x12720x256) ![0, 4205, 0] S1x130x256.size inb_S1x12720x256_S1x130x256_0_4205_0, k0_pay42 (k0_pay4 x0 x1) (k0_pay5 x0 x2) (k0_pay6 x3)⟩,
   ⟨Rect.unit (s := S1x12720x256) ![0, 4074, 0] S1x131x256.size inb_S1x12720x256_S1x131x256_0_4074_0, k0_pay41 (k0_pay4 x0 x1) (k0_pay5 x0 x2) (k0_pay6 x3)⟩,
   ⟨Rect.unit (s := S1x12720x256) ![0, 3942, 0] S1x132x256.size inb_S1x12720x256_S1x132x256_0_3942_0, k0_pay40 (k0_pay4 x0 x1) (k0_pay5 x0 x2) (k0_pay6 x3)⟩,
   ⟨Rect.unit (s := S1x12720x256) ![0, 3809, 0] S1x133x256.size inb_S1x12720x256_S1x133x256_0_3809_0, k0_pay39 (k0_pay4 x0 x1) (k0_pay6 x3) (k0_pay38 (k0_pay5 x0 x2))⟩,
   ⟨Rect.unit (s := S1x12720x256) ![0, 3675, 0] S1x134x256.size inb_S1x12720x256_S1x134x256_0_3675_0, k0_pay37 (k0_pay4 x0 x1) (k0_pay5 x0 x2) (k0_pay6 x3)⟩,
   ⟨Rect.unit (s := S1x12720x256) ![0, 3540, 0] S1x135x256.size inb_S1x12720x256_S1x135x256_0_3540_0, k0_pay36 (k0_pay4 x0 x1) (k0_pay5 x0 x2) (k0_pay6 x3)⟩,
   ⟨Rect.unit (s := S1x12720x256) ![0, 3404, 0] S1x136x256.size inb_S1x12720x256_S1x136x256_0_3404_0, k0_pay35 (k0_pay4 x0 x1) (k0_pay5 x0 x2) (k0_pay6 x3)⟩,
   ⟨Rect.unit (s := S1x12720x256) ![0, 3267, 0] S1x137x256.size inb_S1x12720x256_S1x137x256_0_3267_0, k0_pay34 (k0_pay4 x0 x1) (k0_pay5 x0 x2) (k0_pay6 x3)⟩,
   ⟨Rect.unit (s := S1x12720x256) ![0, 3129, 0] S1x138x256.size inb_S1x12720x256_S1x138x256_0_3129_0, k0_pay33 (k0_pay32 (k0_pay4 x0 x1) (k0_pay5 x0 x2) (k0_pay6 x3))⟩,
   ⟨Rect.unit (s := S1x12720x256) ![0, 2990, 0] S1x139x256.size inb_S1x12720x256_S1x139x256_0_2990_0, k0_pay31 (k0_pay4 x0 x1) (k0_pay5 x0 x2) (k0_pay6 x3)⟩,
   ⟨Rect.unit (s := S1x12720x256) ![0, 2850, 0] S1x140x256.size inb_S1x12720x256_S1x140x256_0_2850_0, k0_pay30 (k0_pay4 x0 x1) (k0_pay5 x0 x2) (k0_pay6 x3)⟩,
   ⟨Rect.unit (s := S1x12720x256) ![0, 2709, 0] S1x141x256.size inb_S1x12720x256_S1x141x256_0_2709_0, k0_pay29 (k0_pay4 x0 x1) (k0_pay5 x0 x2) (k0_pay6 x3)⟩,
   ⟨Rect.unit (s := S1x12720x256) ![0, 2567, 0] S1x142x256.size inb_S1x12720x256_S1x142x256_0_2567_0, k0_pay28 (k0_pay4 x0 x1) (k0_pay5 x0 x2) (k0_pay6 x3)⟩,
   ⟨Rect.unit (s := S1x12720x256) ![0, 2424, 0] S1x143x256.size inb_S1x12720x256_S1x143x256_0_2424_0, k0_pay27 (k0_pay26 (k0_pay4 x0 x1) (k0_pay5 x0 x2) (k0_pay6 x3))⟩,
   ⟨Rect.unit (s := S1x12720x256) ![0, 2280, 0] S1x144x256.size inb_S1x12720x256_S1x144x256_0_2280_0, k0_pay25 (k0_pay4 x0 x1) (k0_pay5 x0 x2) (k0_pay6 x3)⟩,
   ⟨Rect.unit (s := S1x12720x256) ![0, 2135, 0] S1x145x256.size inb_S1x12720x256_S1x145x256_0_2135_0, k0_pay24 (k0_pay4 x0 x1) (k0_pay5 x0 x2) (k0_pay6 x3)⟩,
   ⟨Rect.unit (s := S1x12720x256) ![0, 1989, 0] S1x146x256.size inb_S1x12720x256_S1x146x256_0_1989_0, k0_pay23 (k0_pay4 x0 x1) (k0_pay5 x0 x2) (k0_pay6 x3)⟩,
   ⟨Rect.unit (s := S1x12720x256) ![0, 1842, 0] S1x147x256.size inb_S1x12720x256_S1x147x256_0_1842_0, k0_pay22 (k0_pay6 x3) (k0_pay20 (k0_pay5 x0 x2)) (k0_pay21 (k0_pay4 x0 x1))⟩,
   ⟨Rect.unit (s := S1x12720x256) ![0, 1694, 0] S1x148x256.size inb_S1x12720x256_S1x148x256_0_1694_0, k0_pay19 (k0_pay4 x0 x1) (k0_pay5 x0 x2) (k0_pay6 x3)⟩,
   ⟨Rect.unit (s := S1x12720x256) ![0, 1545, 0] S1x149x256.size inb_S1x12720x256_S1x149x256_0_1545_0, k0_pay18 (k0_pay4 x0 x1) (k0_pay5 x0 x2) (k0_pay6 x3)⟩,
   ⟨Rect.unit (s := S1x12720x256) ![0, 1395, 0] S1x150x256.size inb_S1x12720x256_S1x150x256_0_1395_0, k0_pay17 (k0_pay4 x0 x1) (k0_pay5 x0 x2) (k0_pay6 x3)⟩,
   ⟨Rect.unit (s := S1x12720x256) ![0, 1244, 0] S1x151x256.size inb_S1x12720x256_S1x151x256_0_1244_0, k0_pay16 (k0_pay4 x0 x1) (k0_pay5 x0 x2) (k0_pay6 x3)⟩,
   ⟨Rect.unit (s := S1x12720x256) ![0, 1092, 0] S1x152x256.size inb_S1x12720x256_S1x152x256_0_1092_0, k0_pay15 (k0_pay14 (k0_pay4 x0 x1) (k0_pay5 x0 x2) (k0_pay6 x3))⟩,
   ⟨Rect.unit (s := S1x12720x256) ![0, 939, 0] S1x153x256.size inb_S1x12720x256_S1x153x256_0_939_0, k0_pay13 (k0_pay4 x0 x1) (k0_pay5 x0 x2) (k0_pay6 x3)⟩,
   ⟨Rect.unit (s := S1x12720x256) ![0, 785, 0] S1x154x256.size inb_S1x12720x256_S1x154x256_0_785_0, k0_pay12 (k0_pay4 x0 x1) (k0_pay5 x0 x2) (k0_pay6 x3)⟩,
   ⟨Rect.unit (s := S1x12720x256) ![0, 630, 0] S1x155x256.size inb_S1x12720x256_S1x155x256_0_630_0, k0_pay11 (k0_pay4 x0 x1) (k0_pay5 x0 x2) (k0_pay6 x3)⟩,
   ⟨Rect.unit (s := S1x12720x256) ![0, 474, 0] S1x156x256.size inb_S1x12720x256_S1x156x256_0_474_0, k0_pay10 (k0_pay4 x0 x1) (k0_pay5 x0 x2) (k0_pay6 x3)⟩,
   ⟨Rect.unit (s := S1x12720x256) ![0, 317, 0] S1x157x256.size inb_S1x12720x256_S1x157x256_0_317_0, k0_pay9 x0 x1 x2 x3⟩,
   ⟨Rect.unit (s := S1x12720x256) ![0, 159, 0] S1x158x256.size inb_S1x12720x256_S1x158x256_0_159_0, k0_pay8 x0 x1 x2 x3⟩,
   ⟨Rect.unit (s := S1x12720x256) ![0, 0, 0] S1x159x256.size inb_S1x12720x256_S1x159x256_0_0_0, k0_pay7 x0 x1 x2 x3⟩]

/-- The body's run ends with exactly these stores. -/
theorem run_pieces (c : Dev nD) (i : grid0.Coords) (arg1 : Memref sig .tc .vmem S1x160x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S1x12720x256 .f32) (harg5 : arg5.IsWhole)
    (x0 : Vec F S1x160x256 .f32) (x1 : Vec F S256x256 .f32) (x2 : Vec F S256x256 .f32) (x3 : Vec F S256 .f32) :
    (kernelRun0_A c i arg1 harg1 arg2 harg2 arg3 harg3 arg4 harg4 arg5 harg5 x0 x1 x2 x3).1 = pieces x0 x1 x2 x3 := by
  unfold kernelRun0_A
  dsimp only
  sl_unfold_words
  simp only [load_x, load_w, load_b]
  rfl

/-! ## They fill the block -/

/-- A list of stores covers the rows below o when every index of the block whose row is below o lies in one of them. -/
def CoversBelow (L : List (View.Piece (Elt F) S1x12720x256 .f32)) (o : ℕ) : Prop :=
  ∀ y : S1x12720x256.Idx, (y 1).val < o → ∃ pc ∈ L, y ∈ pc.1.set

/-- No store covers the rows below 0. -/
theorem cover_nil : CoversBelow ([] : List (View.Piece (Elt F) S1x12720x256 .f32)) 0 :=
  fun _ h => absurd h (Nat.not_lt_zero _)

/-- A list covering the rows below o, with one more store on rows o … o' − 1 (all of the other two axes), covers the
    rows below o'. -/
theorem cover_step {L : List (View.Piece (Elt F) S1x12720x256 .f32)} (o o' : ℕ) (size : Fin S1x12720x256.rank → ℕ)
    (inb : ∀ a, (![0, o, 0] : Fin 3 → ℕ) a + size a ≤ S1x12720x256.size a)
    (w : (Rect.unit (s := S1x12720x256) ![0, o, 0] size inb).shape.Idx → Elt F .f32)
    (hs0 : size 0 = 1) (hs2 : size 2 = 256) (ho : o + size 1 = o') (h : CoversBelow L o) :
    CoversBelow ((⟨Rect.unit (s := S1x12720x256) ![0, o, 0] size inb, w⟩ : View.Piece (Elt F) S1x12720x256 .f32) :: L) o' := by
  intro y hy
  by_cases hlt : (y 1).val < o
  · obtain ⟨pc, hm, hin⟩ := h y hlt
    exact ⟨pc, List.mem_cons_of_mem _ hm, hin⟩
  · refine ⟨_, List.mem_cons_self, ?_⟩
    rw [Rect.mem_set_unit]
    intro a
    have h0 : (y 0).val < 1 := (y 0).isLt
    have h2 : (y 2).val < 256 := (y 2).isLt
    match a with
    | ⟨0, _⟩ => show 0 ≤ (y 0).val ∧ (y 0).val < 0 + size 0; omega
    | ⟨1, _⟩ => show o ≤ (y 1).val ∧ (y 1).val < o + size 1; omega
    | ⟨2, _⟩ => show 0 ≤ (y 2).val ∧ (y 2).val < 0 + size 2; omega

/-- The 159 stores cover every row: each starts where the one before it ends, the first at row 0, the last ending at
    row 12720. -/
theorem cover_all (x0 : Vec F S1x160x256 .f32) (x1 : Vec F S256x256 .f32) (x2 : Vec F S256x256 .f32) (x3 : Vec F S256 .f32) :
    CoversBelow (pieces x0 x1 x2 x3) 12720 := by
  unfold pieces
  refine cover_step 12719 12720 _ _ _ rfl rfl rfl ?_
  refine cover_step 12717 12719 _ _ _ rfl rfl rfl ?_
  refine cover_step 12714 12717 _ _ _ rfl rfl rfl ?_
  refine cover_step 12710 12714 _ _ _ rfl rfl rfl ?_
  refine cover_step 12705 12710 _ _ _ rfl rfl rfl ?_
  refine cover_step 12699 12705 _ _ _ rfl rfl rfl ?_
  refine cover_step 12692 12699 _ _ _ rfl rfl rfl ?_
  refine cover_step 12684 12692 _ _ _ rfl rfl rfl ?_
  refine cover_step 12675 12684 _ _ _ rfl rfl rfl ?_
  refine cover_step 12665 12675 _ _ _ rfl rfl rfl ?_
  refine cover_step 12654 12665 _ _ _ rfl rfl rfl ?_
  refine cover_step 12642 12654 _ _ _ rfl rfl rfl ?_
  refine cover_step 12629 12642 _ _ _ rfl rfl rfl ?_
  refine cover_step 12615 12629 _ _ _ rfl rfl rfl ?_
  refine cover_step 12600 12615 _ _ _ rfl rfl rfl ?_
  refine cover_step 12584 12600 _ _ _ rfl rfl rfl ?_
  refine cover_step 12567 12584 _ _ _ rfl rfl rfl ?_
  refine cover_step 12549 12567 _ _ _ rfl rfl rfl ?_
  refine cover_step 12530 12549 _ _ _ rfl rfl rfl ?_
  refine cover_step 12510 12530 _ _ _ rfl rfl rfl ?_
  refine cover_step 12489 12510 _ _ _ rfl rfl rfl ?_
  refine cover_step 12467 12489 _ _ _ rfl rfl rfl ?_
  refine cover_step 12444 12467 _ _ _ rfl rfl rfl ?_
  refine cover_step 12420 12444 _ _ _ rfl rfl rfl ?_
  refine cover_step 12395 12420 _ _ _ rfl rfl rfl ?_
  refine cover_step 12369 12395 _ _ _ rfl rfl rfl ?_
  refine cover_step 12342 12369 _ _ _ rfl rfl rfl ?_
  refine cover_step 12314 12342 _ _ _ rfl rfl rfl ?_
  refine cover_step 12285 12314 _ _ _ rfl rfl rfl ?_
  refine cover_step 12255 12285 _ _ _ rfl rfl rfl ?_
  refine cover_step 12224 12255 _ _ _ rfl rfl rfl ?_
  refine cover_step 12192 12224 _ _ _ rfl rfl rfl ?_
  refine cover_step 12159 12192 _ _ _ rfl rfl rfl ?_
  refine cover_step 12125 12159 _ _ _ rfl rfl rfl ?_
  refine cover_step 12090 12125 _ _ _ rfl rfl rfl ?_
  refine cover_step 12054 12090 _ _ _ rfl rfl rfl ?_
  refine cover_step 12017 12054 _ _ _ rfl rfl rfl ?_
  refine cover_step 11979 12017 _ _ _ rfl rfl rfl ?_
  refine cover_step 11940 11979 _ _ _ rfl rfl rfl ?_
  refine cover_step 11900 11940 _ _ _ rfl rfl rfl ?_
  refine cover_step 11859 11900 _ _ _ rfl rfl rfl ?_
  refine cover_step 11817 11859 _ _ _ rfl rfl rfl ?_
  refine cover_step 11774 11817 _ _ _ rfl rfl rfl ?_
  refine cover_step 11730 11774 _ _ _ rfl rfl rfl ?_
  refine cover_step 11685 11730 _ _ _ rfl rfl rfl ?_
  refine cover_step 11639 11685 _ _ _ rfl rfl rfl ?_
  refine cover_step 11592 11639 _ _ _ rfl rfl rfl ?_
  refine cover_step 11544 11592 _ _ _ rfl rfl rfl ?_
  refine cover_step 11495 11544 _ _ _ rfl rfl rfl ?_
  refine cover_step 11445 11495 _ _ _ rfl rfl rfl ?_
  refine cover_step 11394 11445 _ _ _ rfl rfl rfl ?_
  refine cover_step 11342 11394 _ _ _ rfl rfl rfl ?_
  refine cover_step 11289 11342 _ _ _ rfl rfl rfl ?_
  refine cover_step 11235 11289 _ _ _ rfl rfl rfl ?_
  refine cover_step 11180 11235 _ _ _ rfl rfl rfl ?_
  refine cover_step 11124 11180 _ _ _ rfl rfl rfl ?_
  refine cover_step 11067 11124 _ _ _ rfl rfl rfl ?_
  refine cover_step 11009 11067 _ _ _ rfl rfl rfl ?_
  refine cover_step 10950 11009 _ _ _ rfl rfl rfl ?_
  refine cover_step 10890 10950 _ _ _ rfl rfl rfl ?_
  refine cover_step 10829 10890 _ _ _ rfl rfl rfl ?_
  refine cover_step 10767 10829 _ _ _ rfl rfl rfl ?_
  refine cover_step 10704 10767 _ _ _ rfl rfl rfl ?_
  refine cover_step 10640 10704 _ _ _ rfl rfl rfl ?_
  refine cover_step 10575 10640 _ _ _ rfl rfl rfl ?_
  refine cover_step 10509 10575 _ _ _ rfl rfl rfl ?_
  refine cover_step 10442 10509 _ _ _ rfl rfl rfl ?_
  refine cover_step 10374 10442 _ _ _ rfl rfl rfl ?_
  refine cover_step 10305 10374 _ _ _ rfl rfl rfl ?_
  refine cover_step 10235 10305 _ _ _ rfl rfl rfl ?_
  refine cover_step 10164 10235 _ _ _ rfl rfl rfl ?_
  refine cover_step 10092 10164 _ _ _ rfl rfl rfl ?_
  refine cover_step 10019 10092 _ _ _ rfl rfl rfl ?_
  refine cover_step 9945 10019 _ _ _ rfl rfl rfl ?_
  refine cover_step 9870 9945 _ _ _ rfl rfl rfl ?_
  refine cover_step 9794 9870 _ _ _ rfl rfl rfl ?_
  refine cover_step 9717 9794 _ _ _ rfl rfl rfl ?_
  refine cover_step 9639 9717 _ _ _ rfl rfl rfl ?_
  refine cover_step 9560 9639 _ _ _ rfl rfl rfl ?_
  refine cover_step 9480 9560 _ _ _ rfl rfl rfl ?_
  refine cover_step 9399 9480 _ _ _ rfl rfl rfl ?_
  refine cover_step 9317 9399 _ _ _ rfl rfl rfl ?_
  refine cover_step 9234 9317 _ _ _ rfl rfl rfl ?_
  refine cover_step 9150 9234 _ _ _ rfl rfl rfl ?_
  refine cover_step 9065 9150 _ _ _ rfl rfl rfl ?_
  refine cover_step 8979 9065 _ _ _ rfl rfl rfl ?_
  refine cover_step 8892 8979 _ _ _ rfl rfl rfl ?_
  refine cover_step 8804 8892 _ _ _ rfl rfl rfl ?_
  refine cover_step 8715 8804 _ _ _ rfl rfl rfl ?_
  refine cover_step 8625 8715 _ _ _ rfl rfl rfl ?_
  refine cover_step 8534 8625 _ _ _ rfl rfl rfl ?_
  refine cover_step 8442 8534 _ _ _ rfl rfl rfl ?_
  refine cover_step 8349 8442 _ _ _ rfl rfl rfl ?_
  refine cover_step 8255 8349 _ _ _ rfl rfl rfl ?_
  refine cover_step 8160 8255 _ _ _ rfl rfl rfl ?_
  refine cover_step 8064 8160 _ _ _ rfl rfl rfl ?_
  refine cover_step 7967 8064 _ _ _ rfl rfl rfl ?_
  refine cover_step 7869 7967 _ _ _ rfl rfl rfl ?_
  refine cover_step 7770 7869 _ _ _ rfl rfl rfl ?_
  refine cover_step 7670 7770 _ _ _ rfl rfl rfl ?_
  refine cover_step 7569 7670 _ _ _ rfl rfl rfl ?_
  refine cover_step 7467 7569 _ _ _ rfl rfl rfl ?_
  refine cover_step 7364 7467 _ _ _ rfl rfl rfl ?_
  refine cover_step 7260 7364 _ _ _ rfl rfl rfl ?_
  refine cover_step 7155 7260 _ _ _ rfl rfl rfl ?_
  refine cover_step 7049 7155 _ _ _ rfl rfl rfl ?_
  refine cover_step 6942 7049 _ _ _ rfl rfl rfl ?_
  refine cover_step 6834 6942 _ _ _ rfl rfl rfl ?_
  refine cover_step 6725 6834 _ _ _ rfl rfl rfl ?_
  refine cover_step 6615 6725 _ _ _ rfl rfl rfl ?_
  refine cover_step 6504 6615 _ _ _ rfl rfl rfl ?_
  refine cover_step 6392 6504 _ _ _ rfl rfl rfl ?_
  refine cover_step 6279 6392 _ _ _ rfl rfl rfl ?_
  refine cover_step 6165 6279 _ _ _ rfl rfl rfl ?_
  refine cover_step 6050 6165 _ _ _ rfl rfl rfl ?_
  refine cover_step 5934 6050 _ _ _ rfl rfl rfl ?_
  refine cover_step 5817 5934 _ _ _ rfl rfl rfl ?_
  refine cover_step 5699 5817 _ _ _ rfl rfl rfl ?_
  refine cover_step 5580 5699 _ _ _ rfl rfl rfl ?_
  refine cover_step 5460 5580 _ _ _ rfl rfl rfl ?_
  refine cover_step 5339 5460 _ _ _ rfl rfl rfl ?_
  refine cover_step 5217 5339 _ _ _ rfl rfl rfl ?_
  refine cover_step 5094 5217 _ _ _ rfl rfl rfl ?_
  refine cover_step 4970 5094 _ _ _ rfl rfl rfl ?_
  refine cover_step 4845 4970 _ _ _ rfl rfl rfl ?_
  refine cover_step 4719 4845 _ _ _ rfl rfl rfl ?_
  refine cover_step 4592 4719 _ _ _ rfl rfl rfl ?_
  refine cover_step 4464 4592 _ _ _ rfl rfl rfl ?_
  refine cover_step 4335 4464 _ _ _ rfl rfl rfl ?_
  refine cover_step 4205 4335 _ _ _ rfl rfl rfl ?_
  refine cover_step 4074 4205 _ _ _ rfl rfl rfl ?_
  refine cover_step 3942 4074 _ _ _ rfl rfl rfl ?_
  refine cover_step 3809 3942 _ _ _ rfl rfl rfl ?_
  refine cover_step 3675 3809 _ _ _ rfl rfl rfl ?_
  refine cover_step 3540 3675 _ _ _ rfl rfl rfl ?_
  refine cover_step 3404 3540 _ _ _ rfl rfl rfl ?_
  refine cover_step 3267 3404 _ _ _ rfl rfl rfl ?_
  refine cover_step 3129 3267 _ _ _ rfl rfl rfl ?_
  refine cover_step 2990 3129 _ _ _ rfl rfl rfl ?_
  refine cover_step 2850 2990 _ _ _ rfl rfl rfl ?_
  refine cover_step 2709 2850 _ _ _ rfl rfl rfl ?_
  refine cover_step 2567 2709 _ _ _ rfl rfl rfl ?_
  refine cover_step 2424 2567 _ _ _ rfl rfl rfl ?_
  refine cover_step 2280 2424 _ _ _ rfl rfl rfl ?_
  refine cover_step 2135 2280 _ _ _ rfl rfl rfl ?_
  refine cover_step 1989 2135 _ _ _ rfl rfl rfl ?_
  refine cover_step 1842 1989 _ _ _ rfl rfl rfl ?_
  refine cover_step 1694 1842 _ _ _ rfl rfl rfl ?_
  refine cover_step 1545 1694 _ _ _ rfl rfl rfl ?_
  refine cover_step 1395 1545 _ _ _ rfl rfl rfl ?_
  refine cover_step 1244 1395 _ _ _ rfl rfl rfl ?_
  refine cover_step 1092 1244 _ _ _ rfl rfl rfl ?_
  refine cover_step 939 1092 _ _ _ rfl rfl rfl ?_
  refine cover_step 785 939 _ _ _ rfl rfl rfl ?_
  refine cover_step 630 785 _ _ _ rfl rfl rfl ?_
  refine cover_step 474 630 _ _ _ rfl rfl rfl ?_
  refine cover_step 317 474 _ _ _ rfl rfl rfl ?_
  refine cover_step 159 317 _ _ _ rfl rfl rfl ?_
  refine cover_step 0 159 _ _ _ rfl rfl rfl ?_
  exact cover_nil

/-- Every index of the block lies in one of the stores. -/
theorem cover (x0 : Vec F S1x160x256 .f32) (x1 : Vec F S256x256 .f32) (x2 : Vec F S256x256 .f32) (x3 : Vec F S256 .f32)
    (y : S1x12720x256.Idx) : ∃ pc ∈ pieces x0 x1 x2 x3, y ∈ pc.1.set :=
  cover_all x0 x1 x2 x3 y (y 1).isLt

end Cert.Kernel.Pieces

end
-- ==== Proof.KernelPieces.lean ====
/-
  The stores of one grid point, as a list, and why they fill the block. The body writes, for every first member
  i = 0 … 158, the rows off i … off i + 158 − i of the packed axis (off i = i (319 − i) / 2): 159 rectangles of heights
  159, 158, …, 1, each over all 256 features, placed one after the other from row 0 to row 12719. The list below names
  them last first, each with the value stored as a function of the four loaded blocks; it is the list the body's run ends
  with (a load of a whole input buffer reads the block it holds). Since each rectangle starts at the row where the one
  before it ends, every row below 12720 lies in one of them: by 159 steps, no evaluation of the tiling.
-/
import proofs.«138512_j66692252172937_2_alg».proof.Proof.Gen.KernelIdeal.Frame.RunA
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic

variable {F : FTy → Type} [FloatOps F]

/-! ## A load of a whole input buffer reads the block it holds -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The batch's rows, loaded whole. -/
theorem load_x (a : Memref sig .tc .vmem S1x160x256 .f32) (h : a.IsWhole) (x : Vec F S1x160x256 .f32) :
    View.readAt (Elt F) a.view (Rect.unit (s := S1x160x256) ![0, 0, 0] ![1, 160, 256] inb_S1x160x256_S1x160x256_0_0_0).toLoadRect (h.unread x) = x := by
  rw [View.readAt_eq_ld, h.read_unread]
  exact View.ld_unit_zero (S := S1x160x256) hz3 _ x

/-- A half of the weight, loaded whole. -/
theorem load_w (a : Memref sig .tc .vmem S256x256 .f32) (h : a.IsWhole) (x : Vec F S256x256 .f32) :
    View.readAt (Elt F) a.view (Rect.unit (s := S256x256) ![0, 0] ![256, 256] inb_S256x256_S256x256_0_0).toLoadRect (h.unread x) = x := by
  rw [View.readAt_eq_ld, h.read_unread]
  exact View.ld_unit_zero (S := S256x256) hz2 _ x

/-- The bias, loaded whole. -/
theorem load_b (a : Memref sig .tc .vmem S256 .f32) (h : a.IsWhole) (x : Vec F S256 .f32) :
    View.readAt (Elt F) a.view (Rect.unit (s := S256) ![0] ![256] inb_S256_S256_0).toLoadRect (h.unread x) = x := by
  rw [View.readAt_eq_ld, h.read_unread]
  exact View.ld_unit_zero (S := S256) hz1 _ x

/-! ## The stores -/

/-- The 159 stores of one grid point, last first: the store of first member i covers rows off i … off i + 158 − i. -/
def pieces (x0 : Vec F S1x160x256 .f32) (x1 : Vec F S256x256 .f32) (x2 : Vec F S256x256 .f32) (x3 : Vec F S256 .f32) :
    List (View.Piece (Elt F) S1x12720x256 .f32) :=
  [⟨Rect.unit (s := S1x12720x256) ![0, 12719, 0] S1x1x256.size inb_S1x12720x256_S1x1x256_0_12719_0, k0_pay2 ((k0_pay4 x0 x1)) ((k0_pay5 x0 x2)) ((k0_pay6 x3))⟩,
   ⟨Rect.unit (s := S1x12720x256) ![0, 12717, 0] S1x2x256.size inb_S1x12720x256_S1x2x256_0_12717_0, k0_pay1 ((k0_pay6 x3)) (k0_pay200 (k0_pay4 x0 x1) (k0_pay5 x0 x2))⟩,
   ⟨Rect.unit (s := S1x12720x256) ![0, 12714, 0] S1x3x256.size inb_S1x12720x256_S1x3x256_0_12714_0, k0_pay199 (k0_pay4 x0 x1) (k0_pay5 x0 x2) (k0_pay6 x3)⟩,
   ⟨Rect.unit (s := S1x12720x256) ![0, 12710, 0] S1x4x256.size inb_S1x12720x256_S1x4x256_0_12710_0, k0_pay198 (k0_pay6 x3) (k0_pay197 (k0_pay4 x0 x1) (k0_pay5 x0 x2))⟩,
   ⟨Rect.unit (s := S1x12720x256) ![0, 12705, 0] S1x5x256.size inb_S1x12720x256_S1x5x256_0_12705_0, k0_pay196 (k0_pay4 x0 x1) (k0_pay5 x0 x2) (k0_pay6 x3)⟩,
   ⟨Rect.unit (s := S1x12720x256) ![0, 12699, 0] S1x6x256.size inb_S1x12720x256_S1x6x256_0_12699_0, k0_pay195 (k0_pay4 x0 x1) (k0_pay5 x0 x2) (k0_pay6 x3)⟩,
   ⟨Rect.unit (s := S1x12720x256) ![0, 12692, 0] S1x7x256.size inb_S1x12720x256_S1x7x256_0_12692_0, k0_pay194 (k0_pay4 x0 x1) (k0_pay5 x0 x2) (k0_pay6 x3)⟩,
   ⟨Rect.unit (s := S1x12720x256) ![0, 12684, 0] S1x8x256.size inb_S1x12720x256_S1x8x256_0_12684_0, k0_pay193 (k0_pay4 x0 x1) (k0_pay5 x0 x2) (k0_pay6 x3)⟩,
   ⟨Rect.unit (s := S1x12720x256) ![0, 12675, 0] S1x9x256.size inb_S1x12720x256_S1x9x256_0_12675_0, k0_pay192 (k0_pay191 (k0_pay4 x0 x1) (k0_pay5 x0 x2) (k0_pay6 x3))⟩,
   ⟨Rect.unit (s := S1x12720x256) ![0, 12665, 0] S1x10x256.size inb_S1x12720x256_S1x10x256_0_12665_0, k0_pay190 (k0_pay4 x0 x1) (k0_pay5 x0 x2) (k0_pay6 x3)⟩,
   ⟨Rect.unit (s := S1x12720x256) ![0, 12654, 0] S1x11x256.size inb_S1x12720x256_S1x11x256_0_12654_0, k0_pay189 (k0_pay4 x0 x1) (k0_pay5 x0 x2) (k0_pay6 x3)⟩,
   ⟨Rect.unit (s := S1x12720x256) ![0, 12642, 0] S1x12x256.size inb_S1x12720x256_S1x12x256_0_12642_0, k0_pay188 (k0_pay4 x0 x1) (k0_pay5 x0 x2) (k0_pay6 x3)⟩,
   ⟨Rect.unit (s := S1x12720x256) ![0, 12629, 0] S1x13x256.size inb_S1x12720x256_S1x13x256_0_12629_0, k0_pay187 (k0_pay4 x0 x1) (k0_pay6 x3) (k0_pay186 (k0_pay5 x0 x2))⟩,
   ⟨Rect.unit (s := S1x12720x256) ![0, 12615, 0] S1x14x256.size inb_S1x12720x256_S1x14x256_0_12615_0, k0_pay185 (k0_pay4 x0 x1) (k0_pay5 x0 x2) (k0_pay6 x3)⟩,
   ⟨Rect.unit (s := S1x12720x256) ![0, 12600, 0] S1x15x256.size inb_S1x12720x256_S1x15x256_0_12600_0, k0_pay184 (k0_pay4 x0 x1) (k0_pay5 x0 x2) (k0_pay6 x3)⟩,
   ⟨Rect.unit (s := S1x12720x256) ![0, 12584, 0] S1x16x256.size inb_S1x12720x256_S1x16x256_0_12584_0, k0_pay183 (k0_pay4 x0 x1) (k0_pay5 x0 x2) (k0_pay6 x3)⟩,
   ⟨Rect.unit (s := S1x12720x256) ![0, 12567, 0] S1x17x256.size inb_S1x12720x256_S1x17x256_0_12567_0, k0_pay182 (k0_pay4 x0 x1) (k0_pay5 x0 x2) (k0_pay6 x3)⟩,
   ⟨Rect.unit (s := S1x12720x256) ![0, 12549, 0] S1x18x256.size inb_S1x12720x256_S1x18x256_0_12549_0, k0_pay181 (k0_pay180 (k0_pay4 x0 x1) (k0_pay5 x0 x2) (k0_pay6 x3))⟩,
   ⟨Rect.unit (s := S1x12720x256) ![0, 12530, 0] S1x19x256.size inb_S1x12720x256_S1x19x256_0_12530_0, k0_pay179 (k0_pay4 x0 x1) (k0_pay5 x0 x2) (k0_pay6 x3)⟩,
   ⟨Rect.unit (s := S1x12720x256) ![0, 12510, 0] S1x20x256.size inb_S1x12720x256_S1x20x256_0_12510_0, k0_pay178 (k0_pay4 x0 x1) (k0_pay5 x0 x2) (k0_pay6 x3)⟩,
   ⟨Rect.unit (s := S1x12720x256) ![0, 12489, 0] S1x21x256.size inb_S1x12720x256_S1x21x256_0_12489_0, k0_pay177 (k0_pay4 x0 x1) (k0_pay5 x0 x2) (k0_pay6 x3)⟩,
   ⟨Rect.unit (s := S1x12720x256) ![0, 12467, 0] S1x22x256.size inb_S1x12720x256_S1x22x256_0_12467_0, k0_pay176 (k0_pay4 x0 x1) (k0_pay5 x0 x2) (k0_pay6 x3)⟩,
   ⟨Rect.unit (s := S1x12720x256) ![0, 12444, 0] S1x23x256.size inb_S1x12720x256_S1x23x256_0_12444_0, k0_pay175 (k0_pay174 (k0_pay4 x0 x1) (k0_pay5 x0 x2) (k0_pay6 x3))⟩,
   ⟨Rect.unit (s := S1x12720x256) ![0, 12420, 0] S1x24x256.size inb_S1x12720x256_S1x24x256_0_12420_0, k0_pay173 (k0_pay4 x0 x1) (k0_pay5 x0 x2) (k0_pay6 x3)⟩,
   ⟨Rect.unit (s := S1x12720x256) ![0, 12395, 0] S1x25x256.size inb_S1x12720x256_S1x25x256_0_12395_0, k0_pay172 (k0_pay4 x0 x1) (k0_pay5 x0 x2) (k0_pay6 x3)⟩,
   ⟨Rect.unit (s := S1x12720x256) ![0, 12369, 0] S1x26x256.size inb_S1x12720x256_S1x26x256_0_12369_0, k0_pay171 (k0_pay4 x0 x1) (k0_pay5 x0 x2) (k0_pay6 x3)⟩,
   ⟨Rect.unit (s := S1x12720x256) ![0, 12342, 0] S1x27x256.size inb_S1x12720x256_S1x27x256_0_12342_0, k0_pay170 (k0_pay6 x3) (k0_pay168 (k0_pay5 x0 x2)) (k0_pay169 (k0_pay4 x0 x1))⟩,
   ⟨Rect.unit (s := S1x12720x256) ![0, 12314, 0] S1x28x256.size inb_S1x12720x256_S1x28x256_0_12314_0, k0_pay167 (k0_pay4 x0 x1) (k0_pay5 x0 x2) (k0_pay6 x3)⟩,
   ⟨Rect.unit (s := S1x12720x256) ![0, 12285, 0] S1x29x256.size inb_S1x12720x256_S1x29x256_0_12285_0, k0_pay166 (k0_pay4 x0 x1) (k0_pay5 x0 x2) (k0_pay6 x3)⟩,
   ⟨Rect.unit (s := S1x12720x256) ![0, 12255, 0] S1x30x256.size inb_S1x12720x256_S1x30x256_0_12255_0, k0_pay165 (k0_pay4 x0 x1) (k0_pay5 x0 x2) (k0_pay6 x3)⟩,
   ⟨Rect.unit (s := S1x12720x256) ![0, 12224, 0] S1x31x256.size inb_S1x12720x256_S1x31x256_0_12224_0, k0_pay164 (k0_pay4 x0 x1) (k0_pay5 x0 x2) (k0_pay6 x3)⟩,
   ⟨Rect.unit (s := S1x12720x256) ![0, 12192, 0] S1x32x256.size inb_S1x12720x256_S1x32x256_0_12192_0, k0_pay163 (k0_pay162 (k0_pay4 x0 x1) (k0_pay5 x0 x2) (k0_pay6 x3))⟩,
   ⟨Rect.unit (s := S1x12720x256) ![0, 12159, 0] S1x33x256.size inb_S1x12720x256_S1x33x256_0_12159_0, k0_pay161 (k0_pay4 x0 x1) (k0_pay5 x0 x2) (k0_pay6 x3)⟩,
   ⟨Rect.unit (s := S1x12720x256) ![0, 12125, 0] S1x34x256.size inb_S1x12720x256_S1x34x256_0_12125_0, k0_pay160 (k0_pay4 x0 x1) (k0_pay5 x0 x2) (k0_pay6 x3)⟩,
   ⟨Rect.unit (s := S1x12720x256) ![0, 12090, 0] S1x35x256.size inb_S1x12720x256_S1x35x256_0_12090_0, k0_pay159 (k0_pay4 x0 x1) (k0_pay5 x0 x2) (k0_pay6 x3)⟩,
   ⟨Rect.unit (s := S1x12720x256) ![0, 12054, 0] S1x36x256.size inb_S1x12720x256_S1x36x256_0_12054_0, k0_pay158 (k0_pay4 x0 x1) (k0_pay5 x0 x2) (k0_pay6 x3)⟩,
   ⟨Rect.unit (s := S1x12720x256) ![0, 12017, 0] S1x37x256.size inb_S1x12720x256_S1x37x256_0_12017_0, k0_pay157 (k0_pay4 x0 x1) (k0_pay5 x0 x2) (k0_pay6 x3)⟩,
   ⟨Rect.unit (s := S1x12720x256) ![0, 11979, 0] S1x38x256.size inb_S1x12720x256_S1x38x256_0_11979_0, k0_pay156 (k0_pay4 x0 x1) (k0_pay5 x0 x2) (k0_pay6 x3)⟩,
   ⟨Rect.unit (s := S1x12720x256) ![0, 11940, 0] S1x39x256.size inb_S1x12720x256_S1x39x256_0_11940_0, k0_pay155 (k0_pay4 x0 x1) (k0_pay5 x0 x2) (k0_pay6 x3)⟩,
   ⟨Rect.unit (s := S1x12720x256) ![0, 11900, 0] S1x40x256.size inb_S1x12720x256_S1x40x256_0_11900_0, k0_pay154 (k0_pay4 x0 x1) (k0_pay5 x0 x2) (k0_pay6 x3)⟩,
   ⟨Rect.unit (s := S1x12720x256) ![0, 11859, 0] S1x41x256.size inb_S1x12720x256_S1x41x256_0_11859_0, k0_pay153 (k0_pay151 (k0_pay4 x0 x1) (k0_pay5 x0 x2)) (k0_pay152 (k0_pay6 x3))⟩,
   ⟨Rect.unit (s := S1x12720x256) ![0, 11817, 0] S1x42x256.size inb_S1x12720x256_S1x42x256_0_11817_0, k0_pay150 (k0_pay4 x0 x1) (k0_pay5 x0 x2) (k0_pay6 x3)⟩,
   ⟨Rect.unit (s := S1x12720x256) ![0, 11774, 0] S1x43x256.size inb_S1x12720x256_S1x43x256_0_11774_0, k0_pay149 (k0_pay4 x0 x1) (k0_pay5 x0 x2) (k0_pay6 x3)⟩,
   ⟨Rect.unit (s := S1x12720x256) ![0, 11730, 0] S1x44x256.size inb_S1x12720x256_S1x44x256_0_11730_0, k0_pay148 (k0_pay4 x0 x1) (k0_pay5 x0 x2) (k0_pay6 x3)⟩,
   ⟨Rect.unit (s := S1x12720x256) ![0, 11685, 0] S1x45x256.size inb_S1x12720x256_S1x45x256_0_11685_0, k0_pay147 (k0_pay4 x0 x1) (k0_pay5 x0 x2) (k0_pay6 x3)⟩,
   ⟨Rect.unit (s := S1x12720x256) ![0, 11639, 0] S1x46x256.size inb_S1x12720x256_S1x46x256_0_11639_0, k0_pay146 (k0_pay145 (k0_pay4 x0 x1) (k0_pay5 x0 x2) (k0_pay6 x3))⟩,
   ⟨Rect.unit (s := S1x12720x256) ![0, 11592, 0] S1x47x256.size inb_S1x12720x256_S1x47x256_0_11592_0, k0_pay144 (k0_pay4 x0 x1) (k0_pay5 x0 x2) (k0_pay6 x3)⟩,
   ⟨Rect.unit (s := S1x12720x256) ![0, 11544, 0] S1x48x256.size inb_S1x12720x256_S1x48x256_0_11544_0, k0_pay143 (k0_pay4 x0 x1) (k0_pay5 x0 x2) (k0_pay6 x3)⟩,
   ⟨Rect.unit (s := S1x12720x256) ![0, 11495, 0] S1x49x256.size inb_S1x12720x256_S1x49x256_0_11495_0, k0_pay142 (k0_pay4 x0 x1) (k0_pay5 x0 x2) (k0_pay6 x3)⟩,
   ⟨Rect.unit (s := S1x12720x256) ![0, 11445, 0] S1x50x256.size inb_S1x12720x256_S1x50x256_0_11445_0, k0_pay141 (k0_pay6 x3) (k0_pay139 (k0_pay5 x0 x2)) (k0_pay140 (k0_pay4 x0 x1))⟩,
   ⟨Rect.unit (s := S1x12720x256) ![0, 11394, 0] S1x51x256.size inb_S1x12720x256_S1x51x256_0_11394_0, k0_pay138 (k0_pay4 x0 x1) (k0_pay5 x0 x2) (k0_pay6 x3)⟩,
   ⟨Rect.unit (s := S1x12720x256) ![0, 11342, 0] S1x52x256.size inb_S1x12720x256_S1x52x256_0_11342_0, k0_pay137 (k0_pay4 x0 x1) (k0_pay5 x0 x2) (k0_pay6 x3)⟩,
   ⟨Rect.unit (s := S1x12720x256) ![0, 11289, 0] S1x53x256.size inb_S1x12720x256_S1x53x256_0_11289_0, k0_pay136 (k0_pay4 x0 x1) (k0_pay5 x0 x2) (k0_pay6 x3)⟩,
   ⟨Rect.unit (s := S1x12720x256) ![0, 11235, 0] S1x54x256.size inb_S1x12720x256_S1x54x256_0_11235_0, k0_pay135 (k0_pay4 x0 x1) (k0_pay5 x0 x2) (k0_pay6 x3)⟩,
   ⟨Rect.unit (s := S1x12720x256) ![0, 11180, 0] S1x55x256.size inb_S1x12720x256_S1x55x256_0_11180_0, k0_pay134 (k0_pay133 (k0_pay4 x0 x1) (k0_pay5 x0 x2) (k0_pay6 x3))⟩,
   ⟨Rect.unit (s := S1x12720x256) ![0, 11124, 0] S1x56x256.size inb_S1x12720x256_S1x56x256_0_11124_0, k0_pay132 (k0_pay4 x0 x1) (k0_pay5 x0 x2) (k0_pay6 x3)⟩,
   ⟨Rect.unit (s := S1x12720x256) ![0, 11067, 0] S1x57x256.size inb_S1x12720x256_S1x57x256_0_11067_0, k0_pay131 (k0_pay4 x0 x1) (k0_pay5 x0 x2) (k0_pay6 x3)⟩,
   ⟨Rect.unit (s := S1x12720x256) ![0, 11009, 0] S1x58x256.size inb_S1x12720x256_S1x58x256_0_11009_0, k0_pay130 (k0_pay4 x0 x1) (k0_pay5 x0 x2) (k0_pay6 x3)⟩,
   ⟨Rect.unit (s := S1x12720x256) ![0, 10950, 0] S1x59x256.size inb_S1x12720x256_S1x59x256_0_10950_0, k0_pay129 (k0_pay4 x0 x1) (k0_pay5 x0 x2) (k0_pay6 x3)⟩,
   ⟨Rect.unit (s := S1x12720x256) ![0, 10890, 0] S1x60x256.size inb_S1x12720x256_S1x60x256_0_10890_0, (k0_pay128 (k0_pay4 x0 x1) (k0_pay5 x0 x2) (k0_pay6 x3))⟩,
   ⟨Rect.unit (s := S1x12720x256) ![0, 10829, 0] S1x61x256.size inb_S1x12720x256_S1x61x256_0_10829_0, k0_pay127 (k0_pay4 x0 x1) (k0_pay5 x0 x2) (k0_pay6 x3)⟩,
   ⟨Rect.unit (s := S1x12720x256) ![0, 10767, 0] S1x62x256.size inb_S1x12720x256_S1x62x256_0_10767_0, k0_pay126 (k0_pay4 x0 x1) (k0_pay5 x0 x2) (k0_pay6 x3)⟩,
   ⟨Rect.unit (s := S1x12720x256) ![0, 10704, 0] S1x63x256.size inb_S1x12720x256_S1x63x256_0_10704_0, k0_pay125 (k0_pay4 x0 x1) (k0_pay5 x0 x2) (k0_pay6 x3)⟩,
   ⟨Rect.unit (s := S1x12720x256) ![0, 10640, 0] S1x64x256.size inb_S1x12720x256_S1x64x256_0_10640_0, k0_pay124 (k0_pay6 x3) (k0_pay123 (k0_pay4 x0 x1) (k0_pay5 x0 x2))⟩,
   ⟨Rect.unit (s := S1x12720x256) ![0, 10575, 0] S1x65x256.size inb_S1x12720x256_S1x65x256_0_10575_0, k0_pay122 (k0_pay4 x0 x1) (k0_pay5 x0 x2) (k0_pay6 x3)⟩,
   ⟨Rect.unit (s := S1x12720x256) ![0, 10509, 0] S1x66x256.size inb_S1x12720x256_S1x66x256_0_10509_0, k0_pay121 (k0_pay4 x0 x1) (k0_pay5 x0 x2) (k0_pay6 x3)⟩,
   ⟨Rect.unit (s := S1x12720x256) ![0, 10442, 0] S1x67x256.size inb_S1x12720x256_S1x67x256_0_10442_0, k0_pay120 (k0_pay4 x0 x1) (k0_pay5 x0 x2) (k0_pay6 x3)⟩,
   ⟨Rect.unit (s := S1x12720x256) ![0, 10374, 0] S1x68x256.size inb_S1x12720x256_S1x68x256_0_10374_0, k0_pay119 (k0_pay4 x0 x1) (k0_pay5 x0 x2) (k0_pay6 x3)⟩,
   ⟨Rect.unit (s := S1x12720x256) ![0, 10305, 0] S1x69x256.size inb_S1x12720x256_S1x69x256_0_10305_0, k0_pay118 (k0_pay117 (k0_pay4 x0 x1) (k0_pay5 x0 x2) (k0_pay6 x3))⟩,
   ⟨Rect.unit (s := S1x12720x256) ![0, 10235, 0] S1x70x256.size inb_S1x12720x256_S1x70x256_0_10235_0, k0_pay116 (k0_pay4 x0 x1) (k0_pay5 x0 x2) (k0_pay6 x3)⟩,
   ⟨Rect.unit (s := S1x12720x256) ![0, 10164, 0] S1x71x256.size inb_S1x12720x256_S1x71x256_0_10164_0, k0_pay115 (k0_pay4 x0 x1) (k0_pay5 x0 x2) (k0_pay6 x3)⟩,
   ⟨Rect.unit (s := S1x12720x256) ![0, 10092, 0] S1x72x256.size inb_S1x12720x256_S1x72x256_0_10092_0, k0_pay114 (k0_pay4 x0 x1) (k0_pay5 x0 x2) (k0_pay6 x3)⟩,
   ⟨Rect.unit (s := S1x12720x256) ![0, 10019, 0] S1x73x256.size inb_S1x12720x256_S1x73x256_0_10019_0, k0_pay113 (k0_pay4 x0 x1) (k0_pay6 x3) (k0_pay112 (k0_pay5 x0 x2))⟩,
   ⟨Rect.unit (s := S1x12720x256) ![0, 9945, 0] S1x74x256.size inb_S1x12720x256_S1x74x256_0_9945_0, k0_pay111 (k0_pay4 x0 x1) (k0_pay5 x0 x2) (k0_pay6 x3)⟩,
   ⟨Rect.unit (s := S1x12720x256) ![0, 9870, 0] S1x75x256.size inb_S1x12720x256_S1x75x256_0_9870_0, k0_pay110 (k0_pay4 x0 x1) (k0_pay5 x0 x2) (k0_pay6 x3)⟩,
   ⟨Rect.unit (s := S1x12720x256) ![0, 9794, 0] S1x76x256.size inb_S1x12720x256_S1x76x256_0_9794_0, k0_pay109 (k0_pay4 x0 x1) (k0_pay5 x0 x2) (k0_pay6 x3)⟩,
   ⟨Rect.unit (s := S1x12720x256) ![0, 9717, 0] S1x77x256.size inb_S1x12720x256_S1x77x256_0_9717_0, k0_pay108 (k0_pay4 x0 x1) (k0_pay5 x0 x2) (k0_pay6 x3)⟩,
   ⟨Rect.unit (s := S1x12720x256) ![0, 9639, 0] S1x78x256.size inb_S1x12720x256_S1x78x256_0_9639_0, k0_pay107 (k0_pay106 (k0_pay4 x0 x1) (k0_pay5 x0 x2) (k0_pay6 x3))⟩,
   ⟨Rect.unit (s := S1x12720x256) ![0, 9560, 0] S1x79x256.size inb_S1x12720x256_S1x79x256_0_9560_0, k0_pay105 (k0_pay4 x0 x1) (k0_pay5 x0 x2) (k0_pay6 x3)⟩,
   ⟨Rect.unit (s := S1x12720x256) ![0, 9480, 0] S1x80x256.size inb_S1x12720x256_S1x80x256_0_9480_0, k0_pay104 (k0_pay4 x0 x1) (k0_pay5 x0 x2) (k0_pay6 x3)⟩,
   ⟨Rect.unit (s := S1x12720x256) ![0, 9399, 0] S1x81x256.size inb_S1x12720x256_S1x81x256_0_9399_0, k0_pay103 (k0_pay4 x0 x1) (k0_pay5 x0 x2) (k0_pay6 x3)⟩,
   ⟨Rect.unit (s := S1x12720x256) ![0, 9317, 0] S1x82x256.size inb_S1x12720x256_S1x82x256_0_9317_0, k0_pay102 (k0_pay4 x0 x1) (k0_pay5 x0 x2) (k0_pay6 x3)⟩,
   ⟨Rect.unit (s := S1x12720x256) ![0, 9234, 0] S1x83x256.size inb_S1x12720x256_S1x83x256_0_9234_0, k0_pay101 (k0_pay100 (k0_pay4 x0 x1) (k0_pay5 x0 x2) (k0_pay6 x3))⟩,
   ⟨Rect.unit (s := S1x12720x256) ![0, 9150, 0] S1x84x256.size inb_S1x12720x256_S1x84x256_0_9150_0, k0_pay99 (k0_pay4 x0 x1) (k0_pay5 x0 x2) (k0_pay6 x3)⟩,
   ⟨Rect.unit (s := S1x12720x256) ![0, 9065, 0] S1x85x256.size inb_S1x12720x256_S1x85x256_0_9065_0, k0_pay98 (k0_pay4 x0 x1) (k0_pay5 x0 x2) (k0_pay6 x3)⟩,
   ⟨Rect.unit (s := S1x12720x256) ![0, 8979, 0] S1x86x256.size inb_S1x12720x256_S1x86x256_0_8979_0, k0_pay97 (k0_pay4 x0 x1) (k0_pay5 x0 x2) (k0_pay6 x3)⟩,
   ⟨Rect.unit (s := S1x12720x256) ![0, 8892, 0] S1x87x256.size inb_S1x12720x256_S1x87x256_0_8892_0, k0_pay96 (k0_pay6 x3) (k0_pay94 (k0_pay5 x0 x2)) (k0_pay95 (k0_pay4 x0 x1))⟩,
   ⟨Rect.unit (s := S1x12720x256) ![0, 8804, 0] S1x88x256.size inb_S1x12720x256_S1x88x256_0_8804_0, k0_pay93 (k0_pay4 x0 x1) (k0_pay5 x0 x2) (k0_pay6 x3)⟩,
   ⟨Rect.unit (s := S1x12720x256) ![0, 8715, 0] S1x89x256.size inb_S1x12720x256_S1x89x256_0_8715_0, k0_pay92 (k0_pay4 x0 x1) (k0_pay5 x0 x2) (k0_pay6 x3)⟩,
   ⟨Rect.unit (s := S1x12720x256) ![0, 8625, 0] S1x90x256.size inb_S1x12720x256_S1x90x256_0_8625_0, k0_pay91 (k0_pay4 x0 x1) (k0_pay5 x0 x2) (k0_pay6 x3)⟩,
   ⟨Rect.unit (s := S1x12720x256) ![0, 8534, 0] S1x91x256.size inb_S1x12720x256_S1x91x256_0_8534_0, k0_pay90 (k0_pay4 x0 x1) (k0_pay5 x0 x2) (k0_pay6 x3)⟩,
   ⟨Rect.unit (s := S1x12720x256) ![0, 8442, 0] S1x92x256.size inb_S1x12720x256_S1x92x256_0_8442_0, k0_pay89 (k0_pay88 (k0_pay4 x0 x1) (k0_pay5 x0 x2) (k0_pay6 x3))⟩,
   ⟨Rect.unit (s := S1x12720x256) ![0, 8349, 0] S1x93x256.size inb_S1x12720x256_S1x93x256_0_8349_0, k0_pay87 (k0_pay4 x0 x1) (k0_pay5 x0 x2) (k0_pay6 x3)⟩,
   ⟨Rect.unit (s := S1x12720x256) ![0, 8255, 0] S1x94x256.size inb_S1x12720x256_S1x94x256_0_8255_0, k0_pay86 (k0_pay4 x0 x1) (k0_pay5 x0 x2) (k0_pay6 x3)⟩,
   ⟨Rect.unit (s := S1x12720x256) ![0, 8160, 0] S1x95x256.size inb_S1x12720x256_S1x95x256_0_8160_0, k0_pay85 (k0_pay4 x0 x1) (k0_pay5 x0 x2) (k0_pay6 x3)⟩,
   ⟨Rect.unit (s := S1x12720x256) ![0, 8064, 0] S1x96x256.size inb_S1x12720x256_S1x96x256_0_8064_0, k0_pay84 (k0_pay4 x0 x1) (k0_pay5 x0 x2) (k0_pay6 x3)⟩,
   ⟨Rect.unit (s := S1x12720x256) ![0, 7967, 0] S1x97x256.size inb_S1x12720x256_S1x97x256_0_7967_0, k0_pay83 (k0_pay4 x0 x1) (k0_pay5 x0 x2) (k0_pay6 x3)⟩,
   ⟨Rect.unit (s := S1x12720x256) ![0, 7869, 0] S1x98x256.size inb_S1x12720x256_S1x98x256_0_7869_0, k0_pay82 (k0_pay4 x0 x1) (k0_pay5 x0 x2) (k0_pay6 x3)⟩,
   ⟨Rect.unit (s := S1x12720x256) ![0, 7770, 0] S1x99x256.size inb_S1x12720x256_S1x99x256_0_7770_0, k0_pay81 (k0_pay4 x0 x1) (k0_pay5 x0 x2) (k0_pay6 x3)⟩,
   ⟨Rect.unit (s := S1x12720x256) ![0, 7670, 0] S1x100x256.size inb_S1x12720x256_S1x100x256_0_7670_0, k0_pay80 (k0_pay4 x0 x1) (k0_pay5 x0 x2) (k0_pay6 x3)⟩,
   ⟨Rect.unit (s := S1x12720x256) ![0, 7569, 0] S1x101x256.size inb_S1x12720x256_S1x101x256_0_7569_0, k0_pay79 (k0_pay77 (k0_pay4 x0 x1) (k0_pay5 x0 x2)) (k0_pay78 (k0_pay6 x3))⟩,
   ⟨Rect.unit (s := S1x12720x256) ![0, 7467, 0] S1x102x256.size inb_S1x12720x256_S1x102x256_0_7467_0, k0_pay76 (k0_pay4 x0 x1) (k0_pay5 x0 x2) (k0_pay6 x3)⟩,
   ⟨Rect.unit (s := S1x12720x256) ![0, 7364, 0] S1x103x256.size inb_S1x12720x256_S1x103x256_0_7364_0, k0_pay75 (k0_pay4 x0 x1) (k0_pay5 x0 x2) (k0_pay6 x3)⟩,
   ⟨Rect.unit (s := S1x12720x256) ![0, 7260, 0] S1x104x256.size inb_S1x12720x256_S1x104x256_0_7260_0, k0_pay74 (k0_pay4 x0 x1) (k0_pay5 x0 x2) (k0_pay6 x3)⟩,
   ⟨Rect.unit (s := S1x12720x256) ![0, 7155, 0] S1x105x256.size inb_S1x12720x256_S1x105x256_0_7155_0, k0_pay73 (k0_pay4 x0 x1) (k0_pay5 x0 x2) (k0_pay6 x3)⟩,
   ⟨Rect.unit (s := S1x12720x256) ![0, 7049, 0] S1x106x256.size inb_S1x12720x256_S1x106x256_0_7049_0, k0_pay72 (k0_pay71 (k0_pay4 x0 x1) (k0_pay5 x0 x2) (k0_pay6 x3))⟩,
   ⟨Rect.unit (s := S1x12720x256) ![0, 6942, 0] S1x107x256.size inb_S1x12720x256_S1x107x256_0_6942_0, k0_pay70 (k0_pay4 x0 x1) (k0_pay5 x0 x2) (k0_pay6 x3)⟩,
   ⟨Rect.unit (s := S1x12720x256) ![0, 6834, 0] S1x108x256.size inb_S1x12720x256_S1x108x256_0_6834_0, k0_pay69 (k0_pay4 x0 x1) (k0_pay5 x0 x2) (k0_pay6 x3)⟩,
   ⟨Rect.unit (s := S1x12720x256) ![0, 6725, 0] S1x109x256.size inb_S1x12720x256_S1x109x256_0_6725_0, k0_pay68 (k0_pay4 x0 x1) (k0_pay5 x0 x2) (k0_pay6 x3)⟩,
   ⟨Rect.unit (s := S1x12720x256) ![0, 6615, 0] S1x110x256.size inb_S1x12720x256_S1x110x256_0_6615_0, k0_pay67 (k0_pay6 x3) (k0_pay65 (k0_pay5 x0 x2)) (k0_pay66 (k0_pay4 x0 x1))⟩,
   ⟨Rect.unit (s := S1x12720x256) ![0, 6504, 0] S1x111x256.size inb_S1x12720x256_S1x111x256_0_6504_0, k0_pay64 (k0_pay4 x0 x1) (k0_pay5 x0 x2) (k0_pay6 x3)⟩,
   ⟨Rect.unit (s := S1x12720x256) ![0, 6392, 0] S1x112x256.size inb_S1x12720x256_S1x112x256_0_6392_0, k0_pay63 (k0_pay4 x0 x1) (k0_pay5 x0 x2) (k0_pay6 x3)⟩,
   ⟨Rect.unit (s := S1x12720x256) ![0, 6279, 0] S1x113x256.size inb_S1x12720x256_S1x113x256_0_6279_0, k0_pay62 (k0_pay4 x0 x1) (k0_pay5 x0 x2) (k0_pay6 x3)⟩,
   ⟨Rect.unit (s := S1x12720x256) ![0, 6165, 0] S1x114x256.size inb_S1x12720x256_S1x114x256_0_6165_0, k0_pay61 (k0_pay4 x0 x1) (k0_pay5 x0 x2) (k0_pay6 x3)⟩,
   ⟨Rect.unit (s := S1x12720x256) ![0, 6050, 0] S1x115x256.size inb_S1x12720x256_S1x115x256_0_6050_0, k0_pay60 (k0_pay59 (k0_pay4 x0 x1) (k0_pay5 x0 x2) (k0_pay6 x3))⟩,
   ⟨Rect.unit (s := S1x12720x256) ![0, 5934, 0] S1x116x256.size inb_S1x12720x256_S1x116x256_0_5934_0, k0_pay58 (k0_pay4 x0 x1) (k0_pay5 x0 x2) (k0_pay6 x3)⟩,
   ⟨Rect.unit (s := S1x12720x256) ![0, 5817, 0] S1x117x256.size inb_S1x12720x256_S1x117x256_0_5817_0, k0_pay57 (k0_pay4 x0 x1) (k0_pay5 x0 x2) (k0_pay6 x3)⟩,
   ⟨Rect.unit (s := S1x12720x256) ![0, 5699, 0] S1x118x256.size inb_S1x12720x256_S1x118x256_0_5699_0, k0_pay56 (k0_pay4 x0 x1) (k0_pay5 x0 x2) (k0_pay6 x3)⟩,
   ⟨Rect.unit (s := S1x12720x256) ![0, 5580, 0] S1x119x256.size inb_S1x12720x256_S1x119x256_0_5580_0, k0_pay55 (k0_pay4 x0 x1) (k0_pay5 x0 x2) (k0_pay6 x3)⟩,
   ⟨Rect.unit (s := S1x12720x256) ![0, 5460, 0] S1x120x256.size inb_S1x12720x256_S1x120x256_0_5460_0, (k0_pay54 (k0_pay4 x0 x1) (k0_pay5 x0 x2) (k0_pay6 x3))⟩,
   ⟨Rect.unit (s := S1x12720x256) ![0, 5339, 0] S1x121x256.size inb_S1x12720x256_S1x121x256_0_5339_0, k0_pay53 (k0_pay4 x0 x1) (k0_pay5 x0 x2) (k0_pay6 x3)⟩,
   ⟨Rect.unit (s := S1x12720x256) ![0, 5217, 0] S1x122x256.size inb_S1x12720x256_S1x122x256_0_5217_0, k0_pay52 (k0_pay4 x0 x1) (k0_pay5 x0 x2) (k0_pay6 x3)⟩,
   ⟨Rect.unit (s := S1x12720x256) ![0, 5094, 0] S1x123x256.size inb_S1x12720x256_S1x123x256_0_5094_0, k0_pay51 (k0_pay4 x0 x1) (k0_pay5 x0 x2) (k0_pay6 x3)⟩,
   ⟨Rect.unit (s := S1x12720x256) ![0, 4970, 0] S1x124x256.size inb_S1x12720x256_S1x124x256_0_4970_0, k0_pay50 (k0_pay6 x3) (k0_pay49 (k0_pay4 x0 x1) (k0_pay5 x0 x2))⟩,
   ⟨Rect.unit (s := S1x12720x256) ![0, 4845, 0] S1x125x256.size inb_S1x12720x256_S1x125x256_0_4845_0, k0_pay48 (k0_pay4 x0 x1) (k0_pay5 x0 x2) (k0_pay6 x3)⟩,
   ⟨Rect.unit (s := S1x12720x256) ![0, 4719, 0] S1x126x256.size inb_S1x12720x256_S1x126x256_0_4719_0, k0_pay47 (k0_pay4 x0 x1) (k0_pay5 x0 x2) (k0_pay6 x3)⟩,
   ⟨Rect.unit (s := S1x12720x256) ![0, 4592, 0] S1x127x256.size inb_S1x12720x256_S1x127x256_0_4592_0, k0_pay46 (k0_pay4 x0 x1) (k0_pay5 x0 x2) (k0_pay6 x3)⟩,
   ⟨Rect.unit (s := S1x12720x256) ![0, 4464, 0] S1x128x256.size inb_S1x12720x256_S1x128x256_0_4464_0, k0_pay45 (k0_pay4 x0 x1) (k0_pay5 x0 x2) (k0_pay6 x3)⟩,
   ⟨Rect.unit (s := S1x12720x256) ![0, 4335, 0] S1x129x256.size inb_S1x12720x256_S1x129x256_0_4335_0, k0_pay44 (k0_pay43 (k0_pay4 x0 x1) (k0_pay5 x0 x2) (k0_pay6 x3))⟩,
   ⟨Rect.unit (s := S1x12720x256) ![0, 4205, 0] S1x130x256.size inb_S1x12720x256_S1x130x256_0_4205_0, k0_pay42 (k0_pay4 x0 x1) (k0_pay5 x0 x2) (k0_pay6 x3)⟩,
   ⟨Rect.unit (s := S1x12720x256) ![0, 4074, 0] S1x131x256.size inb_S1x12720x256_S1x131x256_0_4074_0, k0_pay41 (k0_pay4 x0 x1) (k0_pay5 x0 x2) (k0_pay6 x3)⟩,
   ⟨Rect.unit (s := S1x12720x256) ![0, 3942, 0] S1x132x256.size inb_S1x12720x256_S1x132x256_0_3942_0, k0_pay40 (k0_pay4 x0 x1) (k0_pay5 x0 x2) (k0_pay6 x3)⟩,
   ⟨Rect.unit (s := S1x12720x256) ![0, 3809, 0] S1x133x256.size inb_S1x12720x256_S1x133x256_0_3809_0, k0_pay39 (k0_pay4 x0 x1) (k0_pay6 x3) (k0_pay38 (k0_pay5 x0 x2))⟩,
   ⟨Rect.unit (s := S1x12720x256) ![0, 3675, 0] S1x134x256.size inb_S1x12720x256_S1x134x256_0_3675_0, k0_pay37 (k0_pay4 x0 x1) (k0_pay5 x0 x2) (k0_pay6 x3)⟩,
   ⟨Rect.unit (s := S1x12720x256) ![0, 3540, 0] S1x135x256.size inb_S1x12720x256_S1x135x256_0_3540_0, k0_pay36 (k0_pay4 x0 x1) (k0_pay5 x0 x2) (k0_pay6 x3)⟩,
   ⟨Rect.unit (s := S1x12720x256) ![0, 3404, 0] S1x136x256.size inb_S1x12720x256_S1x136x256_0_3404_0, k0_pay35 (k0_pay4 x0 x1) (k0_pay5 x0 x2) (k0_pay6 x3)⟩,
   ⟨Rect.unit (s := S1x12720x256) ![0, 3267, 0] S1x137x256.size inb_S1x12720x256_S1x137x256_0_3267_0, k0_pay34 (k0_pay4 x0 x1) (k0_pay5 x0 x2) (k0_pay6 x3)⟩,
   ⟨Rect.unit (s := S1x12720x256) ![0, 3129, 0] S1x138x256.size inb_S1x12720x256_S1x138x256_0_3129_0, k0_pay33 (k0_pay32 (k0_pay4 x0 x1) (k0_pay5 x0 x2) (k0_pay6 x3))⟩,
   ⟨Rect.unit (s := S1x12720x256) ![0, 2990, 0] S1x139x256.size inb_S1x12720x256_S1x139x256_0_2990_0, k0_pay31 (k0_pay4 x0 x1) (k0_pay5 x0 x2) (k0_pay6 x3)⟩,
   ⟨Rect.unit (s := S1x12720x256) ![0, 2850, 0] S1x140x256.size inb_S1x12720x256_S1x140x256_0_2850_0, k0_pay30 (k0_pay4 x0 x1) (k0_pay5 x0 x2) (k0_pay6 x3)⟩,
   ⟨Rect.unit (s := S1x12720x256) ![0, 2709, 0] S1x141x256.size inb_S1x12720x256_S1x141x256_0_2709_0, k0_pay29 (k0_pay4 x0 x1) (k0_pay5 x0 x2) (k0_pay6 x3)⟩,
   ⟨Rect.unit (s := S1x12720x256) ![0, 2567, 0] S1x142x256.size inb_S1x12720x256_S1x142x256_0_2567_0, k0_pay28 (k0_pay4 x0 x1) (k0_pay5 x0 x2) (k0_pay6 x3)⟩,
   ⟨Rect.unit (s := S1x12720x256) ![0, 2424, 0] S1x143x256.size inb_S1x12720x256_S1x143x256_0_2424_0, k0_pay27 (k0_pay26 (k0_pay4 x0 x1) (k0_pay5 x0 x2) (k0_pay6 x3))⟩,
   ⟨Rect.unit (s := S1x12720x256) ![0, 2280, 0] S1x144x256.size inb_S1x12720x256_S1x144x256_0_2280_0, k0_pay25 (k0_pay4 x0 x1) (k0_pay5 x0 x2) (k0_pay6 x3)⟩,
   ⟨Rect.unit (s := S1x12720x256) ![0, 2135, 0] S1x145x256.size inb_S1x12720x256_S1x145x256_0_2135_0, k0_pay24 (k0_pay4 x0 x1) (k0_pay5 x0 x2) (k0_pay6 x3)⟩,
   ⟨Rect.unit (s := S1x12720x256) ![0, 1989, 0] S1x146x256.size inb_S1x12720x256_S1x146x256_0_1989_0, k0_pay23 (k0_pay4 x0 x1) (k0_pay5 x0 x2) (k0_pay6 x3)⟩,
   ⟨Rect.unit (s := S1x12720x256) ![0, 1842, 0] S1x147x256.size inb_S1x12720x256_S1x147x256_0_1842_0, k0_pay22 (k0_pay6 x3) (k0_pay20 (k0_pay5 x0 x2)) (k0_pay21 (k0_pay4 x0 x1))⟩,
   ⟨Rect.unit (s := S1x12720x256) ![0, 1694, 0] S1x148x256.size inb_S1x12720x256_S1x148x256_0_1694_0, k0_pay19 (k0_pay4 x0 x1) (k0_pay5 x0 x2) (k0_pay6 x3)⟩,
   ⟨Rect.unit (s := S1x12720x256) ![0, 1545, 0] S1x149x256.size inb_S1x12720x256_S1x149x256_0_1545_0, k0_pay18 (k0_pay4 x0 x1) (k0_pay5 x0 x2) (k0_pay6 x3)⟩,
   ⟨Rect.unit (s := S1x12720x256) ![0, 1395, 0] S1x150x256.size inb_S1x12720x256_S1x150x256_0_1395_0, k0_pay17 (k0_pay4 x0 x1) (k0_pay5 x0 x2) (k0_pay6 x3)⟩,
   ⟨Rect.unit (s := S1x12720x256) ![0, 1244, 0] S1x151x256.size inb_S1x12720x256_S1x151x256_0_1244_0, k0_pay16 (k0_pay4 x0 x1) (k0_pay5 x0 x2) (k0_pay6 x3)⟩,
   ⟨Rect.unit (s := S1x12720x256) ![0, 1092, 0] S1x152x256.size inb_S1x12720x256_S1x152x256_0_1092_0, k0_pay15 (k0_pay14 (k0_pay4 x0 x1) (k0_pay5 x0 x2) (k0_pay6 x3))⟩,
   ⟨Rect.unit (s := S1x12720x256) ![0, 939, 0] S1x153x256.size inb_S1x12720x256_S1x153x256_0_939_0, k0_pay13 (k0_pay4 x0 x1) (k0_pay5 x0 x2) (k0_pay6 x3)⟩,
   ⟨Rect.unit (s := S1x12720x256) ![0, 785, 0] S1x154x256.size inb_S1x12720x256_S1x154x256_0_785_0, k0_pay12 (k0_pay4 x0 x1) (k0_pay5 x0 x2) (k0_pay6 x3)⟩,
   ⟨Rect.unit (s := S1x12720x256) ![0, 630, 0] S1x155x256.size inb_S1x12720x256_S1x155x256_0_630_0, k0_pay11 (k0_pay4 x0 x1) (k0_pay5 x0 x2) (k0_pay6 x3)⟩,
   ⟨Rect.unit (s := S1x12720x256) ![0, 474, 0] S1x156x256.size inb_S1x12720x256_S1x156x256_0_474_0, k0_pay10 (k0_pay4 x0 x1) (k0_pay5 x0 x2) (k0_pay6 x3)⟩,
   ⟨Rect.unit (s := S1x12720x256) ![0, 317, 0] S1x157x256.size inb_S1x12720x256_S1x157x256_0_317_0, k0_pay9 x0 x1 x2 x3⟩,
   ⟨Rect.unit (s := S1x12720x256) ![0, 159, 0] S1x158x256.size inb_S1x12720x256_S1x158x256_0_159_0, k0_pay8 x0 x1 x2 x3⟩,
   ⟨Rect.unit (s := S1x12720x256) ![0, 0, 0] S1x159x256.size inb_S1x12720x256_S1x159x256_0_0_0, k0_pay7 x0 x1 x2 x3⟩]

/-- The body's run ends with exactly these stores. -/
theorem run_pieces (c : Dev nD) (i : grid0.Coords) (arg1 : Memref sig .tc .vmem S1x160x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S1x12720x256 .f32) (harg5 : arg5.IsWhole)
    (x0 : Vec F S1x160x256 .f32) (x1 : Vec F S256x256 .f32) (x2 : Vec F S256x256 .f32) (x3 : Vec F S256 .f32) :
    (kernelRun0_A c i arg1 harg1 arg2 harg2 arg3 harg3 arg4 harg4 arg5 harg5 x0 x1 x2 x3).1 = pieces x0 x1 x2 x3 := by
  unfold kernelRun0_A
  dsimp only
  sl_unfold_words
  simp only [load_x, load_w, load_b]
  rfl

/-! ## They fill the block -/

/-- A list of stores covers the rows below o when every index of the block whose row is below o lies in one of them. -/
def CoversBelow (L : List (View.Piece (Elt F) S1x12720x256 .f32)) (o : ℕ) : Prop :=
  ∀ y : S1x12720x256.Idx, (y 1).val < o → ∃ pc ∈ L, y ∈ pc.1.set

/-- No store covers the rows below 0. -/
theorem cover_nil : CoversBelow ([] : List (View.Piece (Elt F) S1x12720x256 .f32)) 0 :=
  fun _ h => absurd h (Nat.not_lt_zero _)

/-- A list covering the rows below o, with one more store on rows o … o' − 1 (all of the other two axes), covers the
    rows below o'. -/
theorem cover_step {L : List (View.Piece (Elt F) S1x12720x256 .f32)} (o o' : ℕ) (size : Fin S1x12720x256.rank → ℕ)
    (inb : ∀ a, (![0, o, 0] : Fin 3 → ℕ) a + size a ≤ S1x12720x256.size a)
    (w : (Rect.unit (s := S1x12720x256) ![0, o, 0] size inb).shape.Idx → Elt F .f32)
    (hs0 : size 0 = 1) (hs2 : size 2 = 256) (ho : o + size 1 = o') (h : CoversBelow L o) :
    CoversBelow ((⟨Rect.unit (s := S1x12720x256) ![0, o, 0] size inb, w⟩ : View.Piece (Elt F) S1x12720x256 .f32) :: L) o' := by
  intro y hy
  by_cases hlt : (y 1).val < o
  · obtain ⟨pc, hm, hin⟩ := h y hlt
    exact ⟨pc, List.mem_cons_of_mem _ hm, hin⟩
  · refine ⟨_, List.mem_cons_self, ?_⟩
    rw [Rect.mem_set_unit]
    intro a
    have h0 : (y 0).val < 1 := (y 0).isLt
    have h2 : (y 2).val < 256 := (y 2).isLt
    match a with
    | ⟨0, _⟩ => show 0 ≤ (y 0).val ∧ (y 0).val < 0 + size 0; omega
    | ⟨1, _⟩ => show o ≤ (y 1).val ∧ (y 1).val < o + size 1; omega
    | ⟨2, _⟩ => show 0 ≤ (y 2).val ∧ (y 2).val < 0 + size 2; omega

/-- The 159 stores cover every row: each starts where the one before it ends, the first at row 0, the last ending at
    row 12720. -/
theorem cover_all (x0 : Vec F S1x160x256 .f32) (x1 : Vec F S256x256 .f32) (x2 : Vec F S256x256 .f32) (x3 : Vec F S256 .f32) :
    CoversBelow (pieces x0 x1 x2 x3) 12720 := by
  unfold pieces
  refine cover_step 12719 12720 _ _ _ rfl rfl rfl ?_
  refine cover_step 12717 12719 _ _ _ rfl rfl rfl ?_
  refine cover_step 12714 12717 _ _ _ rfl rfl rfl ?_
  refine cover_step 12710 12714 _ _ _ rfl rfl rfl ?_
  refine cover_step 12705 12710 _ _ _ rfl rfl rfl ?_
  refine cover_step 12699 12705 _ _ _ rfl rfl rfl ?_
  refine cover_step 12692 12699 _ _ _ rfl rfl rfl ?_
  refine cover_step 12684 12692 _ _ _ rfl rfl rfl ?_
  refine cover_step 12675 12684 _ _ _ rfl rfl rfl ?_
  refine cover_step 12665 12675 _ _ _ rfl rfl rfl ?_
  refine cover_step 12654 12665 _ _ _ rfl rfl rfl ?_
  refine cover_step 12642 12654 _ _ _ rfl rfl rfl ?_
  refine cover_step 12629 12642 _ _ _ rfl rfl rfl ?_
  refine cover_step 12615 12629 _ _ _ rfl rfl rfl ?_
  refine cover_step 12600 12615 _ _ _ rfl rfl rfl ?_
  refine cover_step 12584 12600 _ _ _ rfl rfl rfl ?_
  refine cover_step 12567 12584 _ _ _ rfl rfl rfl ?_
  refine cover_step 12549 12567 _ _ _ rfl rfl rfl ?_
  refine cover_step 12530 12549 _ _ _ rfl rfl rfl ?_
  refine cover_step 12510 12530 _ _ _ rfl rfl rfl ?_
  refine cover_step 12489 12510 _ _ _ rfl rfl rfl ?_
  refine cover_step 12467 12489 _ _ _ rfl rfl rfl ?_
  refine cover_step 12444 12467 _ _ _ rfl rfl rfl ?_
  refine cover_step 12420 12444 _ _ _ rfl rfl rfl ?_
  refine cover_step 12395 12420 _ _ _ rfl rfl rfl ?_
  refine cover_step 12369 12395 _ _ _ rfl rfl rfl ?_
  refine cover_step 12342 12369 _ _ _ rfl rfl rfl ?_
  refine cover_step 12314 12342 _ _ _ rfl rfl rfl ?_
  refine cover_step 12285 12314 _ _ _ rfl rfl rfl ?_
  refine cover_step 12255 12285 _ _ _ rfl rfl rfl ?_
  refine cover_step 12224 12255 _ _ _ rfl rfl rfl ?_
  refine cover_step 12192 12224 _ _ _ rfl rfl rfl ?_
  refine cover_step 12159 12192 _ _ _ rfl rfl rfl ?_
  refine cover_step 12125 12159 _ _ _ rfl rfl rfl ?_
  refine cover_step 12090 12125 _ _ _ rfl rfl rfl ?_
  refine cover_step 12054 12090 _ _ _ rfl rfl rfl ?_
  refine cover_step 12017 12054 _ _ _ rfl rfl rfl ?_
  refine cover_step 11979 12017 _ _ _ rfl rfl rfl ?_
  refine cover_step 11940 11979 _ _ _ rfl rfl rfl ?_
  refine cover_step 11900 11940 _ _ _ rfl rfl rfl ?_
  refine cover_step 11859 11900 _ _ _ rfl rfl rfl ?_
  refine cover_step 11817 11859 _ _ _ rfl rfl rfl ?_
  refine cover_step 11774 11817 _ _ _ rfl rfl rfl ?_
  refine cover_step 11730 11774 _ _ _ rfl rfl rfl ?_
  refine cover_step 11685 11730 _ _ _ rfl rfl rfl ?_
  refine cover_step 11639 11685 _ _ _ rfl rfl rfl ?_
  refine cover_step 11592 11639 _ _ _ rfl rfl rfl ?_
  refine cover_step 11544 11592 _ _ _ rfl rfl rfl ?_
  refine cover_step 11495 11544 _ _ _ rfl rfl rfl ?_
  refine cover_step 11445 11495 _ _ _ rfl rfl rfl ?_
  refine cover_step 11394 11445 _ _ _ rfl rfl rfl ?_
  refine cover_step 11342 11394 _ _ _ rfl rfl rfl ?_
  refine cover_step 11289 11342 _ _ _ rfl rfl rfl ?_
  refine cover_step 11235 11289 _ _ _ rfl rfl rfl ?_
  refine cover_step 11180 11235 _ _ _ rfl rfl rfl ?_
  refine cover_step 11124 11180 _ _ _ rfl rfl rfl ?_
  refine cover_step 11067 11124 _ _ _ rfl rfl rfl ?_
  refine cover_step 11009 11067 _ _ _ rfl rfl rfl ?_
  refine cover_step 10950 11009 _ _ _ rfl rfl rfl ?_
  refine cover_step 10890 10950 _ _ _ rfl rfl rfl ?_
  refine cover_step 10829 10890 _ _ _ rfl rfl rfl ?_
  refine cover_step 10767 10829 _ _ _ rfl rfl rfl ?_
  refine cover_step 10704 10767 _ _ _ rfl rfl rfl ?_
  refine cover_step 10640 10704 _ _ _ rfl rfl rfl ?_
  refine cover_step 10575 10640 _ _ _ rfl rfl rfl ?_
  refine cover_step 10509 10575 _ _ _ rfl rfl rfl ?_
  refine cover_step 10442 10509 _ _ _ rfl rfl rfl ?_
  refine cover_step 10374 10442 _ _ _ rfl rfl rfl ?_
  refine cover_step 10305 10374 _ _ _ rfl rfl rfl ?_
  refine cover_step 10235 10305 _ _ _ rfl rfl rfl ?_
  refine cover_step 10164 10235 _ _ _ rfl rfl rfl ?_
  refine cover_step 10092 10164 _ _ _ rfl rfl rfl ?_
  refine cover_step 10019 10092 _ _ _ rfl rfl rfl ?_
  refine cover_step 9945 10019 _ _ _ rfl rfl rfl ?_
  refine cover_step 9870 9945 _ _ _ rfl rfl rfl ?_
  refine cover_step 9794 9870 _ _ _ rfl rfl rfl ?_
  refine cover_step 9717 9794 _ _ _ rfl rfl rfl ?_
  refine cover_step 9639 9717 _ _ _ rfl rfl rfl ?_
  refine cover_step 9560 9639 _ _ _ rfl rfl rfl ?_
  refine cover_step 9480 9560 _ _ _ rfl rfl rfl ?_
  refine cover_step 9399 9480 _ _ _ rfl rfl rfl ?_
  refine cover_step 9317 9399 _ _ _ rfl rfl rfl ?_
  refine cover_step 9234 9317 _ _ _ rfl rfl rfl ?_
  refine cover_step 9150 9234 _ _ _ rfl rfl rfl ?_
  refine cover_step 9065 9150 _ _ _ rfl rfl rfl ?_
  refine cover_step 8979 9065 _ _ _ rfl rfl rfl ?_
  refine cover_step 8892 8979 _ _ _ rfl rfl rfl ?_
  refine cover_step 8804 8892 _ _ _ rfl rfl rfl ?_
  refine cover_step 8715 8804 _ _ _ rfl rfl rfl ?_
  refine cover_step 8625 8715 _ _ _ rfl rfl rfl ?_
  refine cover_step 8534 8625 _ _ _ rfl rfl rfl ?_
  refine cover_step 8442 8534 _ _ _ rfl rfl rfl ?_
  refine cover_step 8349 8442 _ _ _ rfl rfl rfl ?_
  refine cover_step 8255 8349 _ _ _ rfl rfl rfl ?_
  refine cover_step 8160 8255 _ _ _ rfl rfl rfl ?_
  refine cover_step 8064 8160 _ _ _ rfl rfl rfl ?_
  refine cover_step 7967 8064 _ _ _ rfl rfl rfl ?_
  refine cover_step 7869 7967 _ _ _ rfl rfl rfl ?_
  refine cover_step 7770 7869 _ _ _ rfl rfl rfl ?_
  refine cover_step 7670 7770 _ _ _ rfl rfl rfl ?_
  refine cover_step 7569 7670 _ _ _ rfl rfl rfl ?_
  refine cover_step 7467 7569 _ _ _ rfl rfl rfl ?_
  refine cover_step 7364 7467 _ _ _ rfl rfl rfl ?_
  refine cover_step 7260 7364 _ _ _ rfl rfl rfl ?_
  refine cover_step 7155 7260 _ _ _ rfl rfl rfl ?_
  refine cover_step 7049 7155 _ _ _ rfl rfl rfl ?_
  refine cover_step 6942 7049 _ _ _ rfl rfl rfl ?_
  refine cover_step 6834 6942 _ _ _ rfl rfl rfl ?_
  refine cover_step 6725 6834 _ _ _ rfl rfl rfl ?_
  refine cover_step 6615 6725 _ _ _ rfl rfl rfl ?_
  refine cover_step 6504 6615 _ _ _ rfl rfl rfl ?_
  refine cover_step 6392 6504 _ _ _ rfl rfl rfl ?_
  refine cover_step 6279 6392 _ _ _ rfl rfl rfl ?_
  refine cover_step 6165 6279 _ _ _ rfl rfl rfl ?_
  refine cover_step 6050 6165 _ _ _ rfl rfl rfl ?_
  refine cover_step 5934 6050 _ _ _ rfl rfl rfl ?_
  refine cover_step 5817 5934 _ _ _ rfl rfl rfl ?_
  refine cover_step 5699 5817 _ _ _ rfl rfl rfl ?_
  refine cover_step 5580 5699 _ _ _ rfl rfl rfl ?_
  refine cover_step 5460 5580 _ _ _ rfl rfl rfl ?_
  refine cover_step 5339 5460 _ _ _ rfl rfl rfl ?_
  refine cover_step 5217 5339 _ _ _ rfl rfl rfl ?_
  refine cover_step 5094 5217 _ _ _ rfl rfl rfl ?_
  refine cover_step 4970 5094 _ _ _ rfl rfl rfl ?_
  refine cover_step 4845 4970 _ _ _ rfl rfl rfl ?_
  refine cover_step 4719 4845 _ _ _ rfl rfl rfl ?_
  refine cover_step 4592 4719 _ _ _ rfl rfl rfl ?_
  refine cover_step 4464 4592 _ _ _ rfl rfl rfl ?_
  refine cover_step 4335 4464 _ _ _ rfl rfl rfl ?_
  refine cover_step 4205 4335 _ _ _ rfl rfl rfl ?_
  refine cover_step 4074 4205 _ _ _ rfl rfl rfl ?_
  refine cover_step 3942 4074 _ _ _ rfl rfl rfl ?_
  refine cover_step 3809 3942 _ _ _ rfl rfl rfl ?_
  refine cover_step 3675 3809 _ _ _ rfl rfl rfl ?_
  refine cover_step 3540 3675 _ _ _ rfl rfl rfl ?_
  refine cover_step 3404 3540 _ _ _ rfl rfl rfl ?_
  refine cover_step 3267 3404 _ _ _ rfl rfl rfl ?_
  refine cover_step 3129 3267 _ _ _ rfl rfl rfl ?_
  refine cover_step 2990 3129 _ _ _ rfl rfl rfl ?_
  refine cover_step 2850 2990 _ _ _ rfl rfl rfl ?_
  refine cover_step 2709 2850 _ _ _ rfl rfl rfl ?_
  refine cover_step 2567 2709 _ _ _ rfl rfl rfl ?_
  refine cover_step 2424 2567 _ _ _ rfl rfl rfl ?_
  refine cover_step 2280 2424 _ _ _ rfl rfl rfl ?_
  refine cover_step 2135 2280 _ _ _ rfl rfl rfl ?_
  refine cover_step 1989 2135 _ _ _ rfl rfl rfl ?_
  refine cover_step 1842 1989 _ _ _ rfl rfl rfl ?_
  refine cover_step 1694 1842 _ _ _ rfl rfl rfl ?_
  refine cover_step 1545 1694 _ _ _ rfl rfl rfl ?_
  refine cover_step 1395 1545 _ _ _ rfl rfl rfl ?_
  refine cover_step 1244 1395 _ _ _ rfl rfl rfl ?_
  refine cover_step 1092 1244 _ _ _ rfl rfl rfl ?_
  refine cover_step 939 1092 _ _ _ rfl rfl rfl ?_
  refine cover_step 785 939 _ _ _ rfl rfl rfl ?_
  refine cover_step 630 785 _ _ _ rfl rfl rfl ?_
  refine cover_step 474 630 _ _ _ rfl rfl rfl ?_
  refine cover_step 317 474 _ _ _ rfl rfl rfl ?_
  refine cover_step 159 317 _ _ _ rfl rfl rfl ?_
  refine cover_step 0 159 _ _ _ rfl rfl rfl ?_
  exact cover_nil

/-- Every index of the block lies in one of the stores. -/
theorem cover (x0 : Vec F S1x160x256 .f32) (x1 : Vec F S256x256 .f32) (x2 : Vec F S256x256 .f32) (x3 : Vec F S256 .f32)
    (y : S1x12720x256.Idx) : ∃ pc ∈ pieces x0 x1 x2 x3, y ∈ pc.1.set :=
  cover_all x0 x1 x2 x3 y (y 1).isLt

end Cert.KernelIdeal.Pieces

end
-- ==== Proof.PairIndex.lean ====
/-
  The pairs (i, j) with i < j < 160 in row-major order. Position p of the packed axis of length 12720 = 160·159/2
  holds the pair whose first member is the row i with off i ≤ p < off (i+1), where off i = i·(319 − i)/2 is the number of
  pairs whose first member is below i, and whose second member is j = i + 1 + (p − off i).
-/
import Mathlib.Tactic

namespace PairIndex

/-- The number of pairs whose first member is below i: the sum over i' < i of (159 − i'). -/
def off (i : ℕ) : ℕ := i * (319 - i) / 2

/-- The first member of the pair at position p: the largest i ≤ 158 with off i ≤ p. -/
def row (p : ℕ) : ℕ := Nat.findGreatest (fun i => off i ≤ p) 158

/-- The second member of the pair at position p. -/
def col (p : ℕ) : ℕ := p - off (row p) + row p + 1

/-- The position of the pair at p in the flattened 160 × 160 square. -/
def flat (p : ℕ) : ℕ := 160 * row p + col p

theorem off_zero : off 0 = 0 := by simp [off]

theorem off_159 : off 159 = 12720 := by norm_num [off]

/-- Row i holds 159 − i pairs. -/
theorem off_succ {i : ℕ} (hi : i ≤ 159) : off (i + 1) = off i + (159 - i) := by
  unfold off
  have h : (i + 1) * (319 - (i + 1)) = 2 * (159 - i) + i * (319 - i) := by
    obtain ⟨j, hj⟩ : ∃ j, i + j = 159 := ⟨159 - i, by omega⟩
    have h1 : 319 - (i + 1) = 159 + j := by omega
    have h2 : 319 - i = 160 + j := by omega
    have h3 : 159 - i = j := by omega
    rw [h1, h2, h3]
    nlinarith
  rw [h, Nat.mul_add_div (by norm_num)]
  omega

theorem off_mono {i j : ℕ} (hij : i ≤ j) (hj : j ≤ 159) : off i ≤ off j := by
  induction j, hij using Nat.le_induction with
  | base => exact le_rfl
  | succ k hik ih =>
    have := off_succ (i := k) (by omega)
    have := ih (by omega)
    omega

theorem off_le_row {p : ℕ} : off (row p) ≤ p :=
  Nat.findGreatest_spec (P := fun i => off i ≤ p) (Nat.zero_le 158) (by simp [off_zero])

theorem row_le {p : ℕ} : row p ≤ 158 := Nat.findGreatest_le 158

theorem lt_off_row_succ {p : ℕ} (hp : p < 12720) : p < off (row p + 1) := by
  by_cases h : row p = 158
  · rw [h, off_159]; exact hp
  · have hle : row p ≤ 158 := row_le
    have := Nat.findGreatest_is_greatest (P := fun i => off i ≤ p) (n := 158) (k := row p + 1)
      (Nat.lt_succ_self _) (by omega)
    simpa using this

theorem row_off_add {i r : ℕ} (hi : i < 159) (hr : r < 159 - i) : row (off i + r) = i := by
  unfold row
  rw [Nat.findGreatest_eq_iff]
  refine ⟨by omega, fun _ => by omega, ?_⟩
  intro n hin hn hle
  have h1 := off_succ (i := i) (by omega)
  have h2 := off_mono (i := i + 1) (j := n) (by omega) (by omega)
  omega

theorem col_off_add {i r : ℕ} (hi : i < 159) (hr : r < 159 - i) : col (off i + r) = i + 1 + r := by
  unfold col
  rw [row_off_add hi hr]
  omega

theorem exists_off_add {p : ℕ} (hp : p < 12720) : ∃ i r, i < 159 ∧ r < 159 - i ∧ p = off i + r := by
  have h1 : off (row p) ≤ p := off_le_row
  have h2 : row p ≤ 158 := row_le
  have h3 := lt_off_row_succ hp
  have h4 := off_succ (i := row p) (by omega)
  exact ⟨row p, p - off (row p), by omega, by omega, by omega⟩

theorem row_lt_col {p : ℕ} (hp : p < 12720) : row p < col p := by
  unfold col
  omega

theorem col_lt {p : ℕ} (hp : p < 12720) : col p < 160 := by
  obtain ⟨i, r, hi, hr, rfl⟩ := exists_off_add hp
  rw [col_off_add hi hr]
  omega

/-- Weak monotonicity of row in the position. -/
theorem row_mono {a b : ℕ} (hab : a ≤ b) : row a ≤ row b :=
  Nat.findGreatest_mono_left (fun _ h => le_trans h hab) 158

/-- flat is strictly increasing on the packed axis. -/
theorem flat_lt_flat {a b : ℕ} (hab : a < b) (hb : b < 12720) : flat a < flat b := by
  have hrow : row a ≤ row b := row_mono hab.le
  have hca : col a < 160 := col_lt (by omega)
  unfold flat
  rcases Nat.lt_or_ge (row a) (row b) with h | h
  · omega
  · have he : row a = row b := by omega
    have h1 : off (row a) ≤ a := off_le_row
    have : col a < col b := by
      unfold col
      rw [← he]
      omega
    omega

open Finset in
/-- If q is strictly increasing on [0, P) with image exactly the members of A below M, then for p < P the number of
    k < M such that at most p members of A are ≤ k is q p. -/
theorem card_filter_count_le {P M : ℕ} (q : ℕ → ℕ) (A : ℕ → Prop) [DecidablePred A]
    (hmono : ∀ a b, a < b → b < P → q a < q b)
    (hqM : ∀ a, a < P → q a < M)
    (hqA : ∀ a, a < P → A (q a))
    (hsurj : ∀ l, l < M → A l → ∃ a, a < P ∧ q a = l)
    {p : ℕ} (hp : p < P) :
    ((range M).filter (fun k => ((range (k + 1)).filter A).card ≤ p)).card = q p := by
  have hmono' : ∀ a b, a ≤ b → b < P → q a ≤ q b := by
    intro a b hab hb
    rcases Nat.lt_or_ge a b with h | h
    · exact le_of_lt (hmono a b h hb)
    · have : a = b := by omega
      rw [this]
  have hinj : ∀ a b, a < P → b < P → q a = q b → a = b := by
    intro a b ha hb h
    rcases lt_trichotomy a b with hab | hab | hab
    · exact absurd h (ne_of_lt (hmono a b hab hb))
    · exact hab
    · exact absurd h.symm (ne_of_lt (hmono b a hab ha))
  have key : ∀ k, k < M → (((range (k + 1)).filter A).card ≤ p ↔ k < q p) := by
    intro k hk
    constructor
    · intro hc
      by_contra hkq
      have hsub : (range (p + 1)).image q ⊆ (range (k + 1)).filter A := by
        intro l hl
        rw [mem_image] at hl
        obtain ⟨a, ha, rfl⟩ := hl
        rw [mem_range] at ha
        have haP : a < P := by omega
        rw [mem_filter, mem_range]
        have := hmono' a p (by omega) hp
        exact ⟨by omega, hqA a haP⟩
      have hcard : ((range (p + 1)).image q).card = p + 1 := by
        rw [card_image_of_injOn, card_range]
        intro a ha b hb h
        simp only [coe_range, Set.mem_Iio] at ha hb
        exact hinj a b (by omega) (by omega) h
      have := card_le_card hsub
      omega
    · intro hkq
      have hsub : (range (k + 1)).filter A ⊆ (range p).image q := by
        intro l hl
        rw [mem_filter, mem_range] at hl
        obtain ⟨a, haP, rfl⟩ := hsurj l (by omega) hl.2
        rw [mem_image]
        refine ⟨a, ?_, rfl⟩
        rw [mem_range]
        by_contra hc
        have := hmono' p a (by omega) haP
        omega
      calc ((range (k + 1)).filter A).card ≤ ((range p).image q).card := card_le_card hsub
        _ ≤ (range p).card := card_image_le
        _ = p := card_range p
  have hset : (range M).filter (fun k => ((range (k + 1)).filter A).card ≤ p) = range (q p) := by
    ext k
    rw [mem_filter, mem_range, mem_range]
    constructor
    · rintro ⟨hk, hc⟩
      exact (key k hk).1 hc
    · intro hk
      have := hqM p hp
      exact ⟨by omega, (key k (by omega)).2 hk⟩
  rw [hset, card_range]

/-- Counting characterisation: with c k the number of positions l ≤ k of the flattened square that lie strictly above
    the diagonal (l / 160 < l % 160), the number of k < 25600 with c k ≤ p is the flattened position of the p-th pair. -/
theorem count_le {p : ℕ} (hp : p < 12720) :
    ((Finset.range 25600).filter (fun k =>
        ((Finset.range (k + 1)).filter (fun l => l / 160 < l % 160)).card ≤ p)).card = flat p := by
  refine card_filter_count_le (P := 12720) (M := 25600) flat (fun l => l / 160 < l % 160)
    (fun a b hab hb => flat_lt_flat hab hb) ?_ ?_ ?_ hp
  · intro a ha
    have h1 : row a ≤ 158 := row_le
    have h2 := col_lt ha
    unfold flat
    omega
  · intro a ha
    have h1 := row_lt_col ha
    have h2 := col_lt ha
    show flat a / 160 < flat a % 160
    unfold flat
    omega
  · intro l hl hA
    have hA' : l / 160 < l % 160 := hA
    have hi : l / 160 < 159 := by omega
    have hr : l % 160 - l / 160 - 1 < 159 - l / 160 := by omega
    refine ⟨off (l / 160) + (l % 160 - l / 160 - 1), ?_, ?_⟩
    · have h1 := off_succ (i := l / 160) (by omega)
      have h2 := off_mono (i := l / 160 + 1) (j := 159) (by omega) le_rfl
      rw [off_159] at h2
      omega
    · unfold flat
      rw [row_off_add hi hr, col_off_add hi hr]
      omega

end PairIndex
-- ==== Proof.Spec.lean ====
/-
  The function both programs compute. For a batch b, a pair position p on the packed axis and a feature e:
  the row x[b, col p, :] projected by the lower half of the weight, plus the row x[b, row p, :] projected by the upper
  half, plus the bias at e — where (row p, col p) is the p-th pair i < j < 160 in row-major order (PairIndex).
-/
import Idealize.ShloMosaic.PureOps.Ideal
import Idealize.ShloMosaic.Lib.ValueIdx
import proofs.«138512_j66692252172937_2_alg».proof.Proof.PairIndex

noncomputable section

namespace PairSpec

open Idealize.ShloMosaic Idealize.ShloMosaic.ValueIdx

/-- Row s of batch b contracted against rows 0..255 of the weight, at output feature e. -/
def projA (x : (⟨3, ![8, 160, 256]⟩ : Shape).Idx → EReal) (W : (⟨2, ![512, 256]⟩ : Shape).Idx → EReal)
    (b : Fin 8) (s : Fin 160) (e : Fin 256) : EReal :=
  ∑ d : Fin 256, x (ix3 b s d) * W (ix2 (⟨d.val, by have := d.isLt; omega⟩ : Fin 512) e)

/-- Row s of batch b contracted against rows 256..511 of the weight, at output feature e. -/
def projB (x : (⟨3, ![8, 160, 256]⟩ : Shape).Idx → EReal) (W : (⟨2, ![512, 256]⟩ : Shape).Idx → EReal)
    (b : Fin 8) (s : Fin 160) (e : Fin 256) : EReal :=
  ∑ d : Fin 256, x (ix3 b s d) * W (ix2 (⟨256 + d.val, by have := d.isLt; omega⟩ : Fin 512) e)

/-- The first member of the pair at position p, as a row number. -/
def rowF (p : Fin 12720) : Fin 160 := ⟨min (PairIndex.row p.val) 159, by omega⟩

/-- The second member of the pair at position p, as a row number. -/
def colF (p : Fin 12720) : Fin 160 := ⟨min (PairIndex.col p.val) 159, by omega⟩

/-- The result array as one function of the three argument arrays. -/
def G (x : (⟨3, ![8, 160, 256]⟩ : Shape).Idx → EReal) (W : (⟨2, ![512, 256]⟩ : Shape).Idx → EReal)
    (bias : (⟨1, ![256]⟩ : Shape).Idx → EReal) : (⟨3, ![8, 12720, 256]⟩ : Shape).Idx → EReal :=
  fun j => (projB x W (j 0) (colF (j 1)) (j 2) + projA x W (j 0) (rowF (j 1)) (j 2)) + bias (ix1 (j 2))

end PairSpec

end
-- ==== Proof.KernelSeg.lean ====
/-
  The output block of one batch, entry by entry.  With xa = x·Wi and xb = x·Wj (two 160×256 products) and the bias as a
  1×256 row, the segment of first member i is the rows i+1 … 159 of xb, each plus row i of xa plus the bias row.  This
  module reads such a segment at an entry, reads the two products at an entry as sums over the contracted coordinate,
  and states the block as one function of the four loaded blocks; a store of first member i placed at rows off i … of
  the block agrees with that function because position off i + r holds the pair (i, i + 1 + r).
-/
import Idealize.ShloMosaic.Lib.ValueLayout
import Idealize.ShloMosaic.PureOps.Ideal.Laws
import proofs.«138512_j66692252172937_2_alg».proof.Proof.Gen.KernelIdeal.Skeleton
import proofs.«138512_j66692252172937_2_alg».proof.Proof.Spec

noncomputable section

namespace Cert.KernelIdeal.KernelValue

open Idealize.ShloMosaic Idealize.ShloMosaic.ValueIdx

/-! ## A segment read at an entry -/

/-- Rows o1 … o1 + len − 1 of xb, each plus row o2 of xa plus the bias row, with a leading unit axis added: at
    (u, r, e) it is xb (o1 + r, e) + xa (o2, e) + bias (0, e). -/
theorem seg_apply {len : ℕ} (o1 o2 : ℕ)
    (xa xb : FVec Ideal ⟨2, ![160, 256]⟩ .f32) (bias : FVec Ideal ⟨2, ![1, 256]⟩ .f32)
    (h1 : (⟨2, ![160, 256]⟩ : Shape).Slices ![o1, 0] ⟨2, ![len, 256]⟩)
    (h2 : (⟨2, ![160, 256]⟩ : Shape).Slices ![o2, 0] ⟨2, ![1, 256]⟩)
    (hb : (⟨2, ![1, 256]⟩ : Shape).Broadcasts ⟨2, ![len, 256]⟩)
    (hb' : (⟨2, ![1, 256]⟩ : Shape).Broadcasts ⟨2, ![len, 256]⟩)
    (hc : (⟨2, ![len, 256]⟩ : Shape).ShapeCasts ⟨3, ![1, len, 256]⟩)
    (u : Fin 1) (r : Fin len) (e : Fin 256) (k1 k2 : Fin 160) (hk1 : k1.val = o1 + r.val) (hk2 : k2.val = o2) :
    shapeCast ⟨3, ![1, len, 256]⟩ (addf (addf (extractStridedSlice ⟨2, ![len, 256]⟩ ![o1, 0] xb h1)
        (broadcastTo ⟨2, ![len, 256]⟩ (extractStridedSlice ⟨2, ![1, 256]⟩ ![o2, 0] xa h2) hb))
        (broadcastTo ⟨2, ![len, 256]⟩ bias hb')) hc (ix3 u r e)
      = (xb (ix2 k1 e) + xa (ix2 k2 e)) + bias (ix2 (0 : Fin 1) e) := by
  rw [shapeCast_ab_1ab_apply, addf_apply, addf_apply, broadcastTo_1b_ab_apply, broadcastTo_1b_ab_apply,
    slice2_axis0_apply o1 xb h1 r e k1 hk1,
    slice2_axis0_apply o2 xa h2 (0 : Fin 1) e k2 (by rw [hk2]; rfl)]

/-- The last segment has one row and no broadcast: row o1 of xb plus row o2 of xa plus the bias row. -/
theorem seg1_apply (o1 o2 : ℕ)
    (xa xb : FVec Ideal ⟨2, ![160, 256]⟩ .f32) (bias : FVec Ideal ⟨2, ![1, 256]⟩ .f32)
    (h1 : (⟨2, ![160, 256]⟩ : Shape).Slices ![o1, 0] ⟨2, ![1, 256]⟩)
    (h2 : (⟨2, ![160, 256]⟩ : Shape).Slices ![o2, 0] ⟨2, ![1, 256]⟩)
    (hc : (⟨2, ![1, 256]⟩ : Shape).ShapeCasts ⟨3, ![1, 1, 256]⟩)
    (u : Fin 1) (r : Fin 1) (e : Fin 256) (k1 k2 : Fin 160) (hk1 : k1.val = o1 + r.val) (hk2 : k2.val = o2) :
    shapeCast ⟨3, ![1, 1, 256]⟩ (addf (addf (extractStridedSlice ⟨2, ![1, 256]⟩ ![o1, 0] xb h1)
        (extractStridedSlice ⟨2, ![1, 256]⟩ ![o2, 0] xa h2)) bias) hc (ix3 u r e)
      = (xb (ix2 k1 e) + xa (ix2 k2 e)) + bias (ix2 (0 : Fin 1) e) := by
  have hr : r = (0 : Fin 1) := Subsingleton.elim _ _
  subst hr
  rw [shapeCast_ab_1ab_apply, addf_apply, addf_apply,
    slice2_axis0_apply o1 xb h1 (0 : Fin 1) e k1 hk1,
    slice2_axis0_apply o2 xa h2 (0 : Fin 1) e k2 (by rw [hk2]; rfl)]

/-! ## The two products and the bias row read at an entry -/

/-- The loaded block [1, 160, 256] times a loaded 256 × 256 weight, accumulated into zero: at (s, e) the sum over the
    contracted coordinate d of x (0, s, d) · W (d, e). -/
theorem prod_apply (x0 : Vec Ideal S1x160x256 .f32) (w : Vec Ideal S256x256 .f32) (s : Fin 160) (e : Fin 256) :
    Gen.k0_pay4 (F := Ideal) x0 w (ix2 s e) = ∑ d : Fin 256, x0 (ix3 (0 : Fin 1) s d) * w (ix2 d e) := by
  unfold Gen.k0_pay4 Gen.k0_pay3
  refine (Ideal.matmul_constant_zero_apply dot_S160x256_S256x256_S160x256_1_0_0_1_n_n none _ _ (ix2 s e)).trans ?_
  rw [← Equiv.sum_comp (contrEquiv1 dot_S160x256_S256x256_S160x256_1_0_0_1_n_n 256 rfl rfl).symm]
  refine Finset.sum_congr rfl fun d _ => ?_
  have c2 := contrEquiv1_symm_val dot_S160x256_S256x256_S160x256_1_0_0_1_n_n 256 rfl rfl d
  have l2 : dot_S160x256_S256x256_S160x256_1_0_0_1_n_n.lhsIdx (ix2 s e)
      ((contrEquiv1 dot_S160x256_S256x256_S160x256_1_0_0_1_n_n 256 rfl rfl).symm d) = ix2 s d := by
    funext ax; apply Fin.ext
    match ax with
    | ⟨0, _⟩ => simp [DotDims.lhsIdx, dot_S160x256_S256x256_S160x256_1_0_0_1_n_n]; rfl
    | ⟨1, _⟩ => simp [DotDims.lhsIdx, dot_S160x256_S256x256_S160x256_1_0_0_1_n_n]; exact c2
  have r2 : dot_S160x256_S256x256_S160x256_1_0_0_1_n_n.rhsIdx (ix2 s e)
      ((contrEquiv1 dot_S160x256_S256x256_S160x256_1_0_0_1_n_n 256 rfl rfl).symm d) = ix2 d e := by
    funext ax; apply Fin.ext
    match ax with
    | ⟨0, _⟩ => simp [DotDims.rhsIdx, dot_S160x256_S256x256_S160x256_1_0_0_1_n_n]; exact c2
    | ⟨1, _⟩ => simp [DotDims.rhsIdx, dot_S160x256_S256x256_S160x256_1_0_0_1_n_n]; rfl
  rw [l2, r2, shapeCast_1ab_ab_apply, shapeCast_self]

/-- The second product (the lower half of the weight) is the same operation on the other loaded weight block. -/
theorem prodB_apply (x0 : Vec Ideal S1x160x256 .f32) (w : Vec Ideal S256x256 .f32) (s : Fin 160) (e : Fin 256) :
    Gen.k0_pay5 (F := Ideal) x0 w (ix2 s e) = ∑ d : Fin 256, x0 (ix3 (0 : Fin 1) s d) * w (ix2 d e) :=
  prod_apply x0 w s e

/-- The bias as a 1 × 256 row reads the loaded bias at the column. -/
theorem bias_apply (x3 : Vec Ideal S256 .f32) (u : Fin 1) (e : Fin 256) :
    Gen.k0_pay6 (F := Ideal) x3 (ix2 u e) = x3 (ix1 e) := by
  unfold Gen.k0_pay6
  exact shapeCast_a_1a_apply x3 _ u e

/-! ## The block as one function of the four loaded blocks -/

/-- Entry (0, p, e) of the output block: row (col p) of the batch projected by the lower half of the weight, plus row
    (row p) projected by the upper half, plus the bias at e. -/
def blockFn (x0 : Vec Ideal S1x160x256 .f32) (x1 x2 : Vec Ideal S256x256 .f32) (x3 : Vec Ideal S256 .f32) :
    S1x12720x256.Idx → EReal := fun y =>
  ((∑ d : Fin 256, x0 (ix3 (0 : Fin 1) (PairSpec.colF (y 1)) d) * x2 (ix2 d (y 2 : Fin 256)))
    + (∑ d : Fin 256, x0 (ix3 (0 : Fin 1) (PairSpec.rowF (y 1)) d) * x1 (ix2 d (y 2 : Fin 256))))
    + x3 (ix1 (y 2 : Fin 256))

/-- The same entry through the two products and the bias row. -/
theorem blockFn_apply (x0 : Vec Ideal S1x160x256 .f32) (x1 x2 : Vec Ideal S256x256 .f32) (x3 : Vec Ideal S256 .f32)
    (u : Fin 1) (p : Fin 12720) (e : Fin 256) :
    blockFn x0 x1 x2 x3 (ix3 u p e)
      = (Gen.k0_pay5 (F := Ideal) x0 x2 (ix2 (PairSpec.colF p) e) + Gen.k0_pay4 (F := Ideal) x0 x1 (ix2 (PairSpec.rowF p) e))
        + Gen.k0_pay6 (F := Ideal) x3 (ix2 (0 : Fin 1) e) := by
  rw [prodB_apply, prod_apply, bias_apply]
  rfl

/-! ## A store of first member i, placed at rows off i …, is a piece of the block function -/

/-- A payload of height len = 159 − i whose entry (u, r, e) is xb (i + 1 + r, e) + xa (i, e) + bias (0, e), stored at
    rows o = off i … of the block, agrees with the block function on its rectangle: position off i + r of the packed
    axis holds the pair (i, i + 1 + r). -/
theorem piece_ok (x0 : Vec Ideal S1x160x256 .f32) (x1 x2 : Vec Ideal S256x256 .f32) (x3 : Vec Ideal S256 .f32)
    {len : ℕ} (i o : ℕ) (hi : i < 159) (hlen : len = 159 - i) (ho : PairIndex.off i = o)
    (w : (⟨3, ![1, len, 256]⟩ : Shape).Idx → EReal)
    (hw : ∀ (u : Fin 1) (r : Fin len) (e : Fin 256) (k1 k2 : Fin 160), k1.val = (i + 1) + r.val → k2.val = i →
        w (ix3 u r e) = (Gen.k0_pay5 (F := Ideal) x0 x2 (ix2 k1 e) + Gen.k0_pay4 (F := Ideal) x0 x1 (ix2 k2 e))
          + Gen.k0_pay6 (F := Ideal) x3 (ix2 (0 : Fin 1) e))
    (inb : ∀ a, (![0, o, 0] : Fin 3 → ℕ) a + (⟨3, ![1, len, 256]⟩ : Shape).size a ≤ S1x12720x256.size a) :
    ∀ x : (Rect.unit (s := S1x12720x256) ![0, o, 0] (⟨3, ![1, len, 256]⟩ : Shape).size inb).shape.Idx,
      w x = blockFn x0 x1 x2 x3 ((Rect.unit (s := S1x12720x256) ![0, o, 0] (⟨3, ![1, len, 256]⟩ : Shape).size inb).emb x) := by
  intro x
  obtain ⟨u, r, e, rfl⟩ : ∃ (u : Fin 1) (r : Fin len) (e : Fin 256), x = ix3 u r e := ⟨x 0, x 1, x 2, eq_ix3 x⟩
  have h1 : o + len ≤ 12720 := inb 1
  have hemb : (Rect.unit (s := S1x12720x256) ![0, o, 0] (⟨3, ![1, len, 256]⟩ : Shape).size inb).emb (ix3 u r e)
      = ix3 (0 : Fin 1) (⟨o + r.val, by have := r.isLt; omega⟩ : Fin 12720) e := by
    funext a; apply Fin.ext
    match a with
    | ⟨0, _⟩ => show 0 + 1 * u.val = 0; have := u.isLt; omega
    | ⟨1, _⟩ => show o + 1 * r.val = o + r.val; omega
    | ⟨2, _⟩ => show 0 + 1 * e.val = e.val; omega
  rw [hemb, blockFn_apply]
  have hr : r.val < 159 - i := by have := r.isLt; omega
  refine hw u r e _ _ ?_ ?_
  · show min (PairIndex.col (o + r.val)) 159 = i + 1 + r.val
    rw [← ho, PairIndex.col_off_add hi hr]; omega
  · show min (PairIndex.row (o + r.val)) 159 = i
    rw [← ho, PairIndex.row_off_add hi hr]; omega

end Cert.KernelIdeal.KernelValue

end
-- ==== Proof.KernelStores1.lean ====
/-
  Stores of first members 0 … 39 of one grid point: each holds, at row r of its rectangle and feature e, row
  i + 1 + r of the lower projection plus row i of the upper one plus the bias at e, and sits at rows off i … of the packed
  axis, where position off i + r holds the pair (i, i + 1 + r); so it is the block function restricted to its rectangle.
-/
import proofs.«138512_j66692252172937_2_alg».proof.Proof.KernelSeg
import proofs.«138512_j66692252172937_2_alg».proof.Proof.KernelPieces

set_option maxRecDepth 16384

noncomputable section

namespace Cert.KernelIdeal.KernelValue

open Cert.KernelIdeal Cert.KernelIdeal.Gen Idealize.ShloMosaic Idealize.ShloMosaic.TcCoe Idealize.ShloMosaic.ValueIdx

/-- The store of first member 0: rows 0 … 158. -/
theorem pc0 (x0 : Vec Ideal S1x160x256 .f32) (x1 x2 : Vec Ideal S256x256 .f32) (x3 : Vec Ideal S256 .f32) :
    ∀ x : (Rect.unit (s := S1x12720x256) ![0, 0, 0] S1x159x256.size inb_S1x12720x256_S1x159x256_0_0_0).shape.Idx,
      (k0_pay7 x0 x1 x2 x3) x = blockFn x0 x1 x2 x3 ((Rect.unit (s := S1x12720x256) ![0, 0, 0] S1x159x256.size inb_S1x12720x256_S1x159x256_0_0_0).emb x) :=
  piece_ok x0 x1 x2 x3 (len := 159) 0 0 (by omega) rfl (by norm_num [PairIndex.off]) _
    (fun u r e k1 k2 hk1 hk2 => seg_apply 1 0 (k0_pay4 x0 x1) (k0_pay5 x0 x2) (k0_pay6 x3) slices_S160x256_o1_0_S159x256 slices_S160x256_o0_0_S1x256 broadcasts_S1x256_S159x256 broadcasts_S1x256_S159x256 shapeCasts_S159x256_S1x159x256 u r e k1 k2 hk1 hk2)
    inb_S1x12720x256_S1x159x256_0_0_0

/-- The store of first member 1: rows 159 … 316. -/
theorem pc1 (x0 : Vec Ideal S1x160x256 .f32) (x1 x2 : Vec Ideal S256x256 .f32) (x3 : Vec Ideal S256 .f32) :
    ∀ x : (Rect.unit (s := S1x12720x256) ![0, 159, 0] S1x158x256.size inb_S1x12720x256_S1x158x256_0_159_0).shape.Idx,
      (k0_pay8 x0 x1 x2 x3) x = blockFn x0 x1 x2 x3 ((Rect.unit (s := S1x12720x256) ![0, 159, 0] S1x158x256.size inb_S1x12720x256_S1x158x256_0_159_0).emb x) :=
  piece_ok x0 x1 x2 x3 (len := 158) 1 159 (by omega) rfl (by norm_num [PairIndex.off]) _
    (fun u r e k1 k2 hk1 hk2 => seg_apply 2 1 (k0_pay4 x0 x1) (k0_pay5 x0 x2) (k0_pay6 x3) slices_S160x256_o2_0_S158x256 slices_S160x256_o1_0_S1x256 broadcasts_S1x256_S158x256 broadcasts_S1x256_S158x256 shapeCasts_S158x256_S1x158x256 u r e k1 k2 hk1 hk2)
    inb_S1x12720x256_S1x158x256_0_159_0

/-- The store of first member 2: rows 317 … 473. -/
theorem pc2 (x0 : Vec Ideal S1x160x256 .f32) (x1 x2 : Vec Ideal S256x256 .f32) (x3 : Vec Ideal S256 .f32) :
    ∀ x : (Rect.unit (s := S1x12720x256) ![0, 317, 0] S1x157x256.size inb_S1x12720x256_S1x157x256_0_317_0).shape.Idx,
      (k0_pay9 x0 x1 x2 x3) x = blockFn x0 x1 x2 x3 ((Rect.unit (s := S1x12720x256) ![0, 317, 0] S1x157x256.size inb_S1x12720x256_S1x157x256_0_317_0).emb x) :=
  piece_ok x0 x1 x2 x3 (len := 157) 2 317 (by omega) rfl (by norm_num [PairIndex.off]) _
    (fun u r e k1 k2 hk1 hk2 => seg_apply 3 2 (k0_pay4 x0 x1) (k0_pay5 x0 x2) (k0_pay6 x3) slices_S160x256_o3_0_S157x256 slices_S160x256_o2_0_S1x256 broadcasts_S1x256_S157x256 broadcasts_S1x256_S157x256 shapeCasts_S157x256_S1x157x256 u r e k1 k2 hk1 hk2)
    inb_S1x12720x256_S1x157x256_0_317_0

/-- The store of first member 3: rows 474 … 629. -/
theorem pc3 (x0 : Vec Ideal S1x160x256 .f32) (x1 x2 : Vec Ideal S256x256 .f32) (x3 : Vec Ideal S256 .f32) :
    ∀ x : (Rect.unit (s := S1x12720x256) ![0, 474, 0] S1x156x256.size inb_S1x12720x256_S1x156x256_0_474_0).shape.Idx,
      (k0_pay10 (k0_pay4 x0 x1) (k0_pay5 x0 x2) (k0_pay6 x3)) x = blockFn x0 x1 x2 x3 ((Rect.unit (s := S1x12720x256) ![0, 474, 0] S1x156x256.size inb_S1x12720x256_S1x156x256_0_474_0).emb x) :=
  piece_ok x0 x1 x2 x3 (len := 156) 3 474 (by omega) rfl (by norm_num [PairIndex.off]) _
    (fun u r e k1 k2 hk1 hk2 => seg_apply 4 3 (k0_pay4 x0 x1) (k0_pay5 x0 x2) (k0_pay6 x3) slices_S160x256_o4_0_S156x256 slices_S160x256_o3_0_S1x256 broadcasts_S1x256_S156x256 broadcasts_S1x256_S156x256 shapeCasts_S156x256_S1x156x256 u r e k1 k2 hk1 hk2)
    inb_S1x12720x256_S1x156x256_0_474_0

/-- The store of first member 4: rows 630 … 784. -/
theorem pc4 (x0 : Vec Ideal S1x160x256 .f32) (x1 x2 : Vec Ideal S256x256 .f32) (x3 : Vec Ideal S256 .f32) :
    ∀ x : (Rect.unit (s := S1x12720x256) ![0, 630, 0] S1x155x256.size inb_S1x12720x256_S1x155x256_0_630_0).shape.Idx,
      (k0_pay11 (k0_pay4 x0 x1) (k0_pay5 x0 x2) (k0_pay6 x3)) x = blockFn x0 x1 x2 x3 ((Rect.unit (s := S1x12720x256) ![0, 630, 0] S1x155x256.size inb_S1x12720x256_S1x155x256_0_630_0).emb x) :=
  piece_ok x0 x1 x2 x3 (len := 155) 4 630 (by omega) rfl (by norm_num [PairIndex.off]) _
    (fun u r e k1 k2 hk1 hk2 => seg_apply 5 4 (k0_pay4 x0 x1) (k0_pay5 x0 x2) (k0_pay6 x3) slices_S160x256_o5_0_S155x256 slices_S160x256_o4_0_S1x256 broadcasts_S1x256_S155x256 broadcasts_S1x256_S155x256 shapeCasts_S155x256_S1x155x256 u r e k1 k2 hk1 hk2)
    inb_S1x12720x256_S1x155x256_0_630_0

/-- The store of first member 5: rows 785 … 938. -/
theorem pc5 (x0 : Vec Ideal S1x160x256 .f32) (x1 x2 : Vec Ideal S256x256 .f32) (x3 : Vec Ideal S256 .f32) :
    ∀ x : (Rect.unit (s := S1x12720x256) ![0, 785, 0] S1x154x256.size inb_S1x12720x256_S1x154x256_0_785_0).shape.Idx,
      (k0_pay12 (k0_pay4 x0 x1) (k0_pay5 x0 x2) (k0_pay6 x3)) x = blockFn x0 x1 x2 x3 ((Rect.unit (s := S1x12720x256) ![0, 785, 0] S1x154x256.size inb_S1x12720x256_S1x154x256_0_785_0).emb x) :=
  piece_ok x0 x1 x2 x3 (len := 154) 5 785 (by omega) rfl (by norm_num [PairIndex.off]) _
    (fun u r e k1 k2 hk1 hk2 => seg_apply 6 5 (k0_pay4 x0 x1) (k0_pay5 x0 x2) (k0_pay6 x3) slices_S160x256_o6_0_S154x256 slices_S160x256_o5_0_S1x256 broadcasts_S1x256_S154x256 broadcasts_S1x256_S154x256 shapeCasts_S154x256_S1x154x256 u r e k1 k2 hk1 hk2)
    inb_S1x12720x256_S1x154x256_0_785_0

/-- The store of first member 6: rows 939 … 1091. -/
theorem pc6 (x0 : Vec Ideal S1x160x256 .f32) (x1 x2 : Vec Ideal S256x256 .f32) (x3 : Vec Ideal S256 .f32) :
    ∀ x : (Rect.unit (s := S1x12720x256) ![0, 939, 0] S1x153x256.size inb_S1x12720x256_S1x153x256_0_939_0).shape.Idx,
      (k0_pay13 (k0_pay4 x0 x1) (k0_pay5 x0 x2) (k0_pay6 x3)) x = blockFn x0 x1 x2 x3 ((Rect.unit (s := S1x12720x256) ![0, 939, 0] S1x153x256.size inb_S1x12720x256_S1x153x256_0_939_0).emb x) :=
  piece_ok x0 x1 x2 x3 (len := 153) 6 939 (by omega) rfl (by norm_num [PairIndex.off]) _
    (fun u r e k1 k2 hk1 hk2 => seg_apply 7 6 (k0_pay4 x0 x1) (k0_pay5 x0 x2) (k0_pay6 x3) slices_S160x256_o7_0_S153x256 slices_S160x256_o6_0_S1x256 broadcasts_S1x256_S153x256 broadcasts_S1x256_S153x256 shapeCasts_S153x256_S1x153x256 u r e k1 k2 hk1 hk2)
    inb_S1x12720x256_S1x153x256_0_939_0

/-- The store of first member 7: rows 1092 … 1243. -/
theorem pc7 (x0 : Vec Ideal S1x160x256 .f32) (x1 x2 : Vec Ideal S256x256 .f32) (x3 : Vec Ideal S256 .f32) :
    ∀ x : (Rect.unit (s := S1x12720x256) ![0, 1092, 0] S1x152x256.size inb_S1x12720x256_S1x152x256_0_1092_0).shape.Idx,
      (k0_pay15 (k0_pay14 (k0_pay4 x0 x1) (k0_pay5 x0 x2) (k0_pay6 x3))) x = blockFn x0 x1 x2 x3 ((Rect.unit (s := S1x12720x256) ![0, 1092, 0] S1x152x256.size inb_S1x12720x256_S1x152x256_0_1092_0).emb x) :=
  piece_ok x0 x1 x2 x3 (len := 152) 7 1092 (by omega) rfl (by norm_num [PairIndex.off]) _
    (fun u r e k1 k2 hk1 hk2 => seg_apply 8 7 (k0_pay4 x0 x1) (k0_pay5 x0 x2) (k0_pay6 x3) slices_S160x256_o8_0_S152x256 slices_S160x256_o7_0_S1x256 broadcasts_S1x256_S152x256 broadcasts_S1x256_S152x256 shapeCasts_S152x256_S1x152x256 u r e k1 k2 hk1 hk2)
    inb_S1x12720x256_S1x152x256_0_1092_0

/-- The store of first member 8: rows 1244 … 1394. -/
theorem pc8 (x0 : Vec Ideal S1x160x256 .f32) (x1 x2 : Vec Ideal S256x256 .f32) (x3 : Vec Ideal S256 .f32) :
    ∀ x : (Rect.unit (s := S1x12720x256) ![0, 1244, 0] S1x151x256.size inb_S1x12720x256_S1x151x256_0_1244_0).shape.Idx,
      (k0_pay16 (k0_pay4 x0 x1) (k0_pay5 x0 x2) (k0_pay6 x3)) x = blockFn x0 x1 x2 x3 ((Rect.unit (s := S1x12720x256) ![0, 1244, 0] S1x151x256.size inb_S1x12720x256_S1x151x256_0_1244_0).emb x) :=
  piece_ok x0 x1 x2 x3 (len := 151) 8 1244 (by omega) rfl (by norm_num [PairIndex.off]) _
    (fun u r e k1 k2 hk1 hk2 => seg_apply 9 8 (k0_pay4 x0 x1) (k0_pay5 x0 x2) (k0_pay6 x3) slices_S160x256_o9_0_S151x256 slices_S160x256_o8_0_S1x256 broadcasts_S1x256_S151x256 broadcasts_S1x256_S151x256 shapeCasts_S151x256_S1x151x256 u r e k1 k2 hk1 hk2)
    inb_S1x12720x256_S1x151x256_0_1244_0

/-- The store of first member 9: rows 1395 … 1544. -/
theorem pc9 (x0 : Vec Ideal S1x160x256 .f32) (x1 x2 : Vec Ideal S256x256 .f32) (x3 : Vec Ideal S256 .f32) :
    ∀ x : (Rect.unit (s := S1x12720x256) ![0, 1395, 0] S1x150x256.size inb_S1x12720x256_S1x150x256_0_1395_0).shape.Idx,
      (k0_pay17 (k0_pay4 x0 x1) (k0_pay5 x0 x2) (k0_pay6 x3)) x = blockFn x0 x1 x2 x3 ((Rect.unit (s := S1x12720x256) ![0, 1395, 0] S1x150x256.size inb_S1x12720x256_S1x150x256_0_1395_0).emb x) :=
  piece_ok x0 x1 x2 x3 (len := 150) 9 1395 (by omega) rfl (by norm_num [PairIndex.off]) _
    (fun u r e k1 k2 hk1 hk2 => seg_apply 10 9 (k0_pay4 x0 x1) (k0_pay5 x0 x2) (k0_pay6 x3) slices_S160x256_o10_0_S150x256 slices_S160x256_o9_0_S1x256 broadcasts_S1x256_S150x256 broadcasts_S1x256_S150x256 shapeCasts_S150x256_S1x150x256 u r e k1 k2 hk1 hk2)
    inb_S1x12720x256_S1x150x256_0_1395_0

/-- The store of first member 10: rows 1545 … 1693. -/
theorem pc10 (x0 : Vec Ideal S1x160x256 .f32) (x1 x2 : Vec Ideal S256x256 .f32) (x3 : Vec Ideal S256 .f32) :
    ∀ x : (Rect.unit (s := S1x12720x256) ![0, 1545, 0] S1x149x256.size inb_S1x12720x256_S1x149x256_0_1545_0).shape.Idx,
      (k0_pay18 (k0_pay4 x0 x1) (k0_pay5 x0 x2) (k0_pay6 x3)) x = blockFn x0 x1 x2 x3 ((Rect.unit (s := S1x12720x256) ![0, 1545, 0] S1x149x256.size inb_S1x12720x256_S1x149x256_0_1545_0).emb x) :=
  piece_ok x0 x1 x2 x3 (len := 149) 10 1545 (by omega) rfl (by norm_num [PairIndex.off]) _
    (fun u r e k1 k2 hk1 hk2 => seg_apply 11 10 (k0_pay4 x0 x1) (k0_pay5 x0 x2) (k0_pay6 x3) slices_S160x256_o11_0_S149x256 slices_S160x256_o10_0_S1x256 broadcasts_S1x256_S149x256 broadcasts_S1x256_S149x256 shapeCasts_S149x256_S1x149x256 u r e k1 k2 hk1 hk2)
    inb_S1x12720x256_S1x149x256_0_1545_0

/-- The store of first member 11: rows 1694 … 1841. -/
theorem pc11 (x0 : Vec Ideal S1x160x256 .f32) (x1 x2 : Vec Ideal S256x256 .f32) (x3 : Vec Ideal S256 .f32) :
    ∀ x : (Rect.unit (s := S1x12720x256) ![0, 1694, 0] S1x148x256.size inb_S1x12720x256_S1x148x256_0_1694_0).shape.Idx,
      (k0_pay19 (k0_pay4 x0 x1) (k0_pay5 x0 x2) (k0_pay6 x3)) x = blockFn x0 x1 x2 x3 ((Rect.unit (s := S1x12720x256) ![0, 1694, 0] S1x148x256.size inb_S1x12720x256_S1x148x256_0_1694_0).emb x) :=
  piece_ok x0 x1 x2 x3 (len := 148) 11 1694 (by omega) rfl (by norm_num [PairIndex.off]) _
    (fun u r e k1 k2 hk1 hk2 => seg_apply 12 11 (k0_pay4 x0 x1) (k0_pay5 x0 x2) (k0_pay6 x3) slices_S160x256_o12_0_S148x256 slices_S160x256_o11_0_S1x256 broadcasts_S1x256_S148x256 broadcasts_S1x256_S148x256 shapeCasts_S148x256_S1x148x256 u r e k1 k2 hk1 hk2)
    inb_S1x12720x256_S1x148x256_0_1694_0

/-- The store of first member 12: rows 1842 … 1988. -/
theorem pc12 (x0 : Vec Ideal S1x160x256 .f32) (x1 x2 : Vec Ideal S256x256 .f32) (x3 : Vec Ideal S256 .f32) :
    ∀ x : (Rect.unit (s := S1x12720x256) ![0, 1842, 0] S1x147x256.size inb_S1x12720x256_S1x147x256_0_1842_0).shape.Idx,
      (k0_pay22 (k0_pay6 x3) (k0_pay20 (k0_pay5 x0 x2)) (k0_pay21 (k0_pay4 x0 x1))) x = blockFn x0 x1 x2 x3 ((Rect.unit (s := S1x12720x256) ![0, 1842, 0] S1x147x256.size inb_S1x12720x256_S1x147x256_0_1842_0).emb x) :=
  piece_ok x0 x1 x2 x3 (len := 147) 12 1842 (by omega) rfl (by norm_num [PairIndex.off]) _
    (fun u r e k1 k2 hk1 hk2 => seg_apply 13 12 (k0_pay4 x0 x1) (k0_pay5 x0 x2) (k0_pay6 x3) slices_S160x256_o13_0_S147x256 slices_S160x256_o12_0_S1x256 broadcasts_S1x256_S147x256 broadcasts_S1x256_S147x256 shapeCasts_S147x256_S1x147x256 u r e k1 k2 hk1 hk2)
    inb_S1x12720x256_S1x147x256_0_1842_0

/-- The store of first member 13: rows 1989 … 2134. -/
theorem pc13 (x0 : Vec Ideal S1x160x256 .f32) (x1 x2 : Vec Ideal S256x256 .f32) (x3 : Vec Ideal S256 .f32) :
    ∀ x : (Rect.unit (s := S1x12720x256) ![0, 1989, 0] S1x146x256.size inb_S1x12720x256_S1x146x256_0_1989_0).shape.Idx,
      (k0_pay23 (k0_pay4 x0 x1) (k0_pay5 x0 x2) (k0_pay6 x3)) x = blockFn x0 x1 x2 x3 ((Rect.unit (s := S1x12720x256) ![0, 1989, 0] S1x146x256.size inb_S1x12720x256_S1x146x256_0_1989_0).emb x) :=
  piece_ok x0 x1 x2 x3 (len := 146) 13 1989 (by omega) rfl (by norm_num [PairIndex.off]) _
    (fun u r e k1 k2 hk1 hk2 => seg_apply 14 13 (k0_pay4 x0 x1) (k0_pay5 x0 x2) (k0_pay6 x3) slices_S160x256_o14_0_S146x256 slices_S160x256_o13_0_S1x256 broadcasts_S1x256_S146x256 broadcasts_S1x256_S146x256 shapeCasts_S146x256_S1x146x256 u r e k1 k2 hk1 hk2)
    inb_S1x12720x256_S1x146x256_0_1989_0

/-- The store of first member 14: rows 2135 … 2279. -/
theorem pc14 (x0 : Vec Ideal S1x160x256 .f32) (x1 x2 : Vec Ideal S256x256 .f32) (x3 : Vec Ideal S256 .f32) :
    ∀ x : (Rect.unit (s := S1x12720x256) ![0, 2135, 0] S1x145x256.size inb_S1x12720x256_S1x145x256_0_2135_0).shape.Idx,
      (k0_pay24 (k0_pay4 x0 x1) (k0_pay5 x0 x2) (k0_pay6 x3)) x = blockFn x0 x1 x2 x3 ((Rect.unit (s := S1x12720x256) ![0, 2135, 0] S1x145x256.size inb_S1x12720x256_S1x145x256_0_2135_0).emb x) :=
  piece_ok x0 x1 x2 x3 (len := 145) 14 2135 (by omega) rfl (by norm_num [PairIndex.off]) _
    (fun u r e k1 k2 hk1 hk2 => seg_apply 15 14 (k0_pay4 x0 x1) (k0_pay5 x0 x2) (k0_pay6 x3) slices_S160x256_o15_0_S145x256 slices_S160x256_o14_0_S1x256 broadcasts_S1x256_S145x256 broadcasts_S1x256_S145x256 shapeCasts_S145x256_S1x145x256 u r e k1 k2 hk1 hk2)
    inb_S1x12720x256_S1x145x256_0_2135_0

/-- The store of first member 15: rows 2280 … 2423. -/
theorem pc15 (x0 : Vec Ideal S1x160x256 .f32) (x1 x2 : Vec Ideal S256x256 .f32) (x3 : Vec Ideal S256 .f32) :
    ∀ x : (Rect.unit (s := S1x12720x256) ![0, 2280, 0] S1x144x256.size inb_S1x12720x256_S1x144x256_0_2280_0).shape.Idx,
      (k0_pay25 (k0_pay4 x0 x1) (k0_pay5 x0 x2) (k0_pay6 x3)) x = blockFn x0 x1 x2 x3 ((Rect.unit (s := S1x12720x256) ![0, 2280, 0] S1x144x256.size inb_S1x12720x256_S1x144x256_0_2280_0).emb x) :=
  piece_ok x0 x1 x2 x3 (len := 144) 15 2280 (by omega) rfl (by norm_num [PairIndex.off]) _
    (fun u r e k1 k2 hk1 hk2 => seg_apply 16 15 (k0_pay4 x0 x1) (k0_pay5 x0 x2) (k0_pay6 x3) slices_S160x256_o16_0_S144x256 slices_S160x256_o15_0_S1x256 broadcasts_S1x256_S144x256 broadcasts_S1x256_S144x256 shapeCasts_S144x256_S1x144x256 u r e k1 k2 hk1 hk2)
    inb_S1x12720x256_S1x144x256_0_2280_0

/-- The store of first member 16: rows 2424 … 2566. -/
theorem pc16 (x0 : Vec Ideal S1x160x256 .f32) (x1 x2 : Vec Ideal S256x256 .f32) (x3 : Vec Ideal S256 .f32) :
    ∀ x : (Rect.unit (s := S1x12720x256) ![0, 2424, 0] S1x143x256.size inb_S1x12720x256_S1x143x256_0_2424_0).shape.Idx,
      (k0_pay27 (k0_pay26 (k0_pay4 x0 x1) (k0_pay5 x0 x2) (k0_pay6 x3))) x = blockFn x0 x1 x2 x3 ((Rect.unit (s := S1x12720x256) ![0, 2424, 0] S1x143x256.size inb_S1x12720x256_S1x143x256_0_2424_0).emb x) :=
  piece_ok x0 x1 x2 x3 (len := 143) 16 2424 (by omega) rfl (by norm_num [PairIndex.off]) _
    (fun u r e k1 k2 hk1 hk2 => seg_apply 17 16 (k0_pay4 x0 x1) (k0_pay5 x0 x2) (k0_pay6 x3) slices_S160x256_o17_0_S143x256 slices_S160x256_o16_0_S1x256 broadcasts_S1x256_S143x256 broadcasts_S1x256_S143x256 shapeCasts_S143x256_S1x143x256 u r e k1 k2 hk1 hk2)
    inb_S1x12720x256_S1x143x256_0_2424_0

/-- The store of first member 17: rows 2567 … 2708. -/
theorem pc17 (x0 : Vec Ideal S1x160x256 .f32) (x1 x2 : Vec Ideal S256x256 .f32) (x3 : Vec Ideal S256 .f32) :
    ∀ x : (Rect.unit (s := S1x12720x256) ![0, 2567, 0] S1x142x256.size inb_S1x12720x256_S1x142x256_0_2567_0).shape.Idx,
      (k0_pay28 (k0_pay4 x0 x1) (k0_pay5 x0 x2) (k0_pay6 x3)) x = blockFn x0 x1 x2 x3 ((Rect.unit (s := S1x12720x256) ![0, 2567, 0] S1x142x256.size inb_S1x12720x256_S1x142x256_0_2567_0).emb x) :=
  piece_ok x0 x1 x2 x3 (len := 142) 17 2567 (by omega) rfl (by norm_num [PairIndex.off]) _
    (fun u r e k1 k2 hk1 hk2 => seg_apply 18 17 (k0_pay4 x0 x1) (k0_pay5 x0 x2) (k0_pay6 x3) slices_S160x256_o18_0_S142x256 slices_S160x256_o17_0_S1x256 broadcasts_S1x256_S142x256 broadcasts_S1x256_S142x256 shapeCasts_S142x256_S1x142x256 u r e k1 k2 hk1 hk2)
    inb_S1x12720x256_S1x142x256_0_2567_0

/-- The store of first member 18: rows 2709 … 2849. -/
theorem pc18 (x0 : Vec Ideal S1x160x256 .f32) (x1 x2 : Vec Ideal S256x256 .f32) (x3 : Vec Ideal S256 .f32) :
    ∀ x : (Rect.unit (s := S1x12720x256) ![0, 2709, 0] S1x141x256.size inb_S1x12720x256_S1x141x256_0_2709_0).shape.Idx,
      (k0_pay29 (k0_pay4 x0 x1) (k0_pay5 x0 x2) (k0_pay6 x3)) x = blockFn x0 x1 x2 x3 ((Rect.unit (s := S1x12720x256) ![0, 2709, 0] S1x141x256.size inb_S1x12720x256_S1x141x256_0_2709_0).emb x) :=
  piece_ok x0 x1 x2 x3 (len := 141) 18 2709 (by omega) rfl (by norm_num [PairIndex.off]) _
    (fun u r e k1 k2 hk1 hk2 => seg_apply 19 18 (k0_pay4 x0 x1) (k0_pay5 x0 x2) (k0_pay6 x3) slices_S160x256_o19_0_S141x256 slices_S160x256_o18_0_S1x256 broadcasts_S1x256_S141x256 broadcasts_S1x256_S141x256 shapeCasts_S141x256_S1x141x256 u r e k1 k2 hk1 hk2)
    inb_S1x12720x256_S1x141x256_0_2709_0

/-- The store of first member 19: rows 2850 … 2989. -/
theorem pc19 (x0 : Vec Ideal S1x160x256 .f32) (x1 x2 : Vec Ideal S256x256 .f32) (x3 : Vec Ideal S256 .f32) :
    ∀ x : (Rect.unit (s := S1x12720x256) ![0, 2850, 0] S1x140x256.size inb_S1x12720x256_S1x140x256_0_2850_0).shape.Idx,
      (k0_pay30 (k0_pay4 x0 x1) (k0_pay5 x0 x2) (k0_pay6 x3)) x = blockFn x0 x1 x2 x3 ((Rect.unit (s := S1x12720x256) ![0, 2850, 0] S1x140x256.size inb_S1x12720x256_S1x140x256_0_2850_0).emb x) :=
  piece_ok x0 x1 x2 x3 (len := 140) 19 2850 (by omega) rfl (by norm_num [PairIndex.off]) _
    (fun u r e k1 k2 hk1 hk2 => seg_apply 20 19 (k0_pay4 x0 x1) (k0_pay5 x0 x2) (k0_pay6 x3) slices_S160x256_o20_0_S140x256 slices_S160x256_o19_0_S1x256 broadcasts_S1x256_S140x256 broadcasts_S1x256_S140x256 shapeCasts_S140x256_S1x140x256 u r e k1 k2 hk1 hk2)
    inb_S1x12720x256_S1x140x256_0_2850_0

/-- The store of first member 20: rows 2990 … 3128. -/
theorem pc20 (x0 : Vec Ideal S1x160x256 .f32) (x1 x2 : Vec Ideal S256x256 .f32) (x3 : Vec Ideal S256 .f32) :
    ∀ x : (Rect.unit (s := S1x12720x256) ![0, 2990, 0] S1x139x256.size inb_S1x12720x256_S1x139x256_0_2990_0).shape.Idx,
      (k0_pay31 (k0_pay4 x0 x1) (k0_pay5 x0 x2) (k0_pay6 x3)) x = blockFn x0 x1 x2 x3 ((Rect.unit (s := S1x12720x256) ![0, 2990, 0] S1x139x256.size inb_S1x12720x256_S1x139x256_0_2990_0).emb x) :=
  piece_ok x0 x1 x2 x3 (len := 139) 20 2990 (by omega) rfl (by norm_num [PairIndex.off]) _
    (fun u r e k1 k2 hk1 hk2 => seg_apply 21 20 (k0_pay4 x0 x1) (k0_pay5 x0 x2) (k0_pay6 x3) slices_S160x256_o21_0_S139x256 slices_S160x256_o20_0_S1x256 broadcasts_S1x256_S139x256 broadcasts_S1x256_S139x256 shapeCasts_S139x256_S1x139x256 u r e k1 k2 hk1 hk2)
    inb_S1x12720x256_S1x139x256_0_2990_0

/-- The store of first member 21: rows 3129 … 3266. -/
theorem pc21 (x0 : Vec Ideal S1x160x256 .f32) (x1 x2 : Vec Ideal S256x256 .f32) (x3 : Vec Ideal S256 .f32) :
    ∀ x : (Rect.unit (s := S1x12720x256) ![0, 3129, 0] S1x138x256.size inb_S1x12720x256_S1x138x256_0_3129_0).shape.Idx,
      (k0_pay33 (k0_pay32 (k0_pay4 x0 x1) (k0_pay5 x0 x2) (k0_pay6 x3))) x = blockFn x0 x1 x2 x3 ((Rect.unit (s := S1x12720x256) ![0, 3129, 0] S1x138x256.size inb_S1x12720x256_S1x138x256_0_3129_0).emb x) :=
  piece_ok x0 x1 x2 x3 (len := 138) 21 3129 (by omega) rfl (by norm_num [PairIndex.off]) _
    (fun u r e k1 k2 hk1 hk2 => seg_apply 22 21 (k0_pay4 x0 x1) (k0_pay5 x0 x2) (k0_pay6 x3) slices_S160x256_o22_0_S138x256 slices_S160x256_o21_0_S1x256 broadcasts_S1x256_S138x256 broadcasts_S1x256_S138x256 shapeCasts_S138x256_S1x138x256 u r e k1 k2 hk1 hk2)
    inb_S1x12720x256_S1x138x256_0_3129_0

/-- The store of first member 22: rows 3267 … 3403. -/
theorem pc22 (x0 : Vec Ideal S1x160x256 .f32) (x1 x2 : Vec Ideal S256x256 .f32) (x3 : Vec Ideal S256 .f32) :
    ∀ x : (Rect.unit (s := S1x12720x256) ![0, 3267, 0] S1x137x256.size inb_S1x12720x256_S1x137x256_0_3267_0).shape.Idx,
      (k0_pay34 (k0_pay4 x0 x1) (k0_pay5 x0 x2) (k0_pay6 x3)) x = blockFn x0 x1 x2 x3 ((Rect.unit (s := S1x12720x256) ![0, 3267, 0] S1x137x256.size inb_S1x12720x256_S1x137x256_0_3267_0).emb x) :=
  piece_ok x0 x1 x2 x3 (len := 137) 22 3267 (by omega) rfl (by norm_num [PairIndex.off]) _
    (fun u r e k1 k2 hk1 hk2 => seg_apply 23 22 (k0_pay4 x0 x1) (k0_pay5 x0 x2) (k0_pay6 x3) slices_S160x256_o23_0_S137x256 slices_S160x256_o22_0_S1x256 broadcasts_S1x256_S137x256 broadcasts_S1x256_S137x256 shapeCasts_S137x256_S1x137x256 u r e k1 k2 hk1 hk2)
    inb_S1x12720x256_S1x137x256_0_3267_0

/-- The store of first member 23: rows 3404 … 3539. -/
theorem pc23 (x0 : Vec Ideal S1x160x256 .f32) (x1 x2 : Vec Ideal S256x256 .f32) (x3 : Vec Ideal S256 .f32) :
    ∀ x : (Rect.unit (s := S1x12720x256) ![0, 3404, 0] S1x136x256.size inb_S1x12720x256_S1x136x256_0_3404_0).shape.Idx,
      (k0_pay35 (k0_pay4 x0 x1) (k0_pay5 x0 x2) (k0_pay6 x3)) x = blockFn x0 x1 x2 x3 ((Rect.unit (s := S1x12720x256) ![0, 3404, 0] S1x136x256.size inb_S1x12720x256_S1x136x256_0_3404_0).emb x) :=
  piece_ok x0 x1 x2 x3 (len := 136) 23 3404 (by omega) rfl (by norm_num [PairIndex.off]) _
    (fun u r e k1 k2 hk1 hk2 => seg_apply 24 23 (k0_pay4 x0 x1) (k0_pay5 x0 x2) (k0_pay6 x3) slices_S160x256_o24_0_S136x256 slices_S160x256_o23_0_S1x256 broadcasts_S1x256_S136x256 broadcasts_S1x256_S136x256 shapeCasts_S136x256_S1x136x256 u r e k1 k2 hk1 hk2)
    inb_S1x12720x256_S1x136x256_0_3404_0

/-- The store of first member 24: rows 3540 … 3674. -/
theorem pc24 (x0 : Vec Ideal S1x160x256 .f32) (x1 x2 : Vec Ideal S256x256 .f32) (x3 : Vec Ideal S256 .f32) :
    ∀ x : (Rect.unit (s := S1x12720x256) ![0, 3540, 0] S1x135x256.size inb_S1x12720x256_S1x135x256_0_3540_0).shape.Idx,
      (k0_pay36 (k0_pay4 x0 x1) (k0_pay5 x0 x2) (k0_pay6 x3)) x = blockFn x0 x1 x2 x3 ((Rect.unit (s := S1x12720x256) ![0, 3540, 0] S1x135x256.size inb_S1x12720x256_S1x135x256_0_3540_0).emb x) :=
  piece_ok x0 x1 x2 x3 (len := 135) 24 3540 (by omega) rfl (by norm_num [PairIndex.off]) _
    (fun u r e k1 k2 hk1 hk2 => seg_apply 25 24 (k0_pay4 x0 x1) (k0_pay5 x0 x2) (k0_pay6 x3) slices_S160x256_o25_0_S135x256 slices_S160x256_o24_0_S1x256 broadcasts_S1x256_S135x256 broadcasts_S1x256_S135x256 shapeCasts_S135x256_S1x135x256 u r e k1 k2 hk1 hk2)
    inb_S1x12720x256_S1x135x256_0_3540_0

/-- The store of first member 25: rows 3675 … 3808. -/
theorem pc25 (x0 : Vec Ideal S1x160x256 .f32) (x1 x2 : Vec Ideal S256x256 .f32) (x3 : Vec Ideal S256 .f32) :
    ∀ x : (Rect.unit (s := S1x12720x256) ![0, 3675, 0] S1x134x256.size inb_S1x12720x256_S1x134x256_0_3675_0).shape.Idx,
      (k0_pay37 (k0_pay4 x0 x1) (k0_pay5 x0 x2) (k0_pay6 x3)) x = blockFn x0 x1 x2 x3 ((Rect.unit (s := S1x12720x256) ![0, 3675, 0] S1x134x256.size inb_S1x12720x256_S1x134x256_0_3675_0).emb x) :=
  piece_ok x0 x1 x2 x3 (len := 134) 25 3675 (by omega) rfl (by norm_num [PairIndex.off]) _
    (fun u r e k1 k2 hk1 hk2 => seg_apply 26 25 (k0_pay4 x0 x1) (k0_pay5 x0 x2) (k0_pay6 x3) slices_S160x256_o26_0_S134x256 slices_S160x256_o25_0_S1x256 broadcasts_S1x256_S134x256 broadcasts_S1x256_S134x256 shapeCasts_S134x256_S1x134x256 u r e k1 k2 hk1 hk2)
    inb_S1x12720x256_S1x134x256_0_3675_0

/-- The store of first member 26: rows 3809 … 3941. -/
theorem pc26 (x0 : Vec Ideal S1x160x256 .f32) (x1 x2 : Vec Ideal S256x256 .f32) (x3 : Vec Ideal S256 .f32) :
    ∀ x : (Rect.unit (s := S1x12720x256) ![0, 3809, 0] S1x133x256.size inb_S1x12720x256_S1x133x256_0_3809_0).shape.Idx,
      (k0_pay39 (k0_pay4 x0 x1) (k0_pay6 x3) (k0_pay38 (k0_pay5 x0 x2))) x = blockFn x0 x1 x2 x3 ((Rect.unit (s := S1x12720x256) ![0, 3809, 0] S1x133x256.size inb_S1x12720x256_S1x133x256_0_3809_0).emb x) :=
  piece_ok x0 x1 x2 x3 (len := 133) 26 3809 (by omega) rfl (by norm_num [PairIndex.off]) _
    (fun u r e k1 k2 hk1 hk2 => seg_apply 27 26 (k0_pay4 x0 x1) (k0_pay5 x0 x2) (k0_pay6 x3) slices_S160x256_o27_0_S133x256 slices_S160x256_o26_0_S1x256 broadcasts_S1x256_S133x256 broadcasts_S1x256_S133x256 shapeCasts_S133x256_S1x133x256 u r e k1 k2 hk1 hk2)
    inb_S1x12720x256_S1x133x256_0_3809_0

/-- The store of first member 27: rows 3942 … 4073. -/
theorem pc27 (x0 : Vec Ideal S1x160x256 .f32) (x1 x2 : Vec Ideal S256x256 .f32) (x3 : Vec Ideal S256 .f32) :
    ∀ x : (Rect.unit (s := S1x12720x256) ![0, 3942, 0] S1x132x256.size inb_S1x12720x256_S1x132x256_0_3942_0).shape.Idx,
      (k0_pay40 (k0_pay4 x0 x1) (k0_pay5 x0 x2) (k0_pay6 x3)) x = blockFn x0 x1 x2 x3 ((Rect.unit (s := S1x12720x256) ![0, 3942, 0] S1x132x256.size inb_S1x12720x256_S1x132x256_0_3942_0).emb x) :=
  piece_ok x0 x1 x2 x3 (len := 132) 27 3942 (by omega) rfl (by norm_num [PairIndex.off]) _
    (fun u r e k1 k2 hk1 hk2 => seg_apply 28 27 (k0_pay4 x0 x1) (k0_pay5 x0 x2) (k0_pay6 x3) slices_S160x256_o28_0_S132x256 slices_S160x256_o27_0_S1x256 broadcasts_S1x256_S132x256 broadcasts_S1x256_S132x256 shapeCasts_S132x256_S1x132x256 u r e k1 k2 hk1 hk2)
    inb_S1x12720x256_S1x132x256_0_3942_0

/-- The store of first member 28: rows 4074 … 4204. -/
theorem pc28 (x0 : Vec Ideal S1x160x256 .f32) (x1 x2 : Vec Ideal S256x256 .f32) (x3 : Vec Ideal S256 .f32) :
    ∀ x : (Rect.unit (s := S1x12720x256) ![0, 4074, 0] S1x131x256.size inb_S1x12720x256_S1x131x256_0_4074_0).shape.Idx,
      (k0_pay41 (k0_pay4 x0 x1) (k0_pay5 x0 x2) (k0_pay6 x3)) x = blockFn x0 x1 x2 x3 ((Rect.unit (s := S1x12720x256) ![0, 4074, 0] S1x131x256.size inb_S1x12720x256_S1x131x256_0_4074_0).emb x) :=
  piece_ok x0 x1 x2 x3 (len := 131) 28 4074 (by omega) rfl (by norm_num [PairIndex.off]) _
    (fun u r e k1 k2 hk1 hk2 => seg_apply 29 28 (k0_pay4 x0 x1) (k0_pay5 x0 x2) (k0_pay6 x3) slices_S160x256_o29_0_S131x256 slices_S160x256_o28_0_S1x256 broadcasts_S1x256_S131x256 broadcasts_S1x256_S131x256 shapeCasts_S131x256_S1x131x256 u r e k1 k2 hk1 hk2)
    inb_S1x12720x256_S1x131x256_0_4074_0

/-- The store of first member 29: rows 4205 … 4334. -/
theorem pc29 (x0 : Vec Ideal S1x160x256 .f32) (x1 x2 : Vec Ideal S256x256 .f32) (x3 : Vec Ideal S256 .f32) :
    ∀ x : (Rect.unit (s := S1x12720x256) ![0, 4205, 0] S1x130x256.size inb_S1x12720x256_S1x130x256_0_4205_0).shape.Idx,
      (k0_pay42 (k0_pay4 x0 x1) (k0_pay5 x0 x2) (k0_pay6 x3)) x = blockFn x0 x1 x2 x3 ((Rect.unit (s := S1x12720x256) ![0, 4205, 0] S1x130x256.size inb_S1x12720x256_S1x130x256_0_4205_0).emb x) :=
  piece_ok x0 x1 x2 x3 (len := 130) 29 4205 (by omega) rfl (by norm_num [PairIndex.off]) _
    (fun u r e k1 k2 hk1 hk2 => seg_apply 30 29 (k0_pay4 x0 x1) (k0_pay5 x0 x2) (k0_pay6 x3) slices_S160x256_o30_0_S130x256 slices_S160x256_o29_0_S1x256 broadcasts_S1x256_S130x256 broadcasts_S1x256_S130x256 shapeCasts_S130x256_S1x130x256 u r e k1 k2 hk1 hk2)
    inb_S1x12720x256_S1x130x256_0_4205_0

/-- The store of first member 30: rows 4335 … 4463. -/
theorem pc30 (x0 : Vec Ideal S1x160x256 .f32) (x1 x2 : Vec Ideal S256x256 .f32) (x3 : Vec Ideal S256 .f32) :
    ∀ x : (Rect.unit (s := S1x12720x256) ![0, 4335, 0] S1x129x256.size inb_S1x12720x256_S1x129x256_0_4335_0).shape.Idx,
      (k0_pay44 (k0_pay43 (k0_pay4 x0 x1) (k0_pay5 x0 x2) (k0_pay6 x3))) x = blockFn x0 x1 x2 x3 ((Rect.unit (s := S1x12720x256) ![0, 4335, 0] S1x129x256.size inb_S1x12720x256_S1x129x256_0_4335_0).emb x) :=
  piece_ok x0 x1 x2 x3 (len := 129) 30 4335 (by omega) rfl (by norm_num [PairIndex.off]) _
    (fun u r e k1 k2 hk1 hk2 => seg_apply 31 30 (k0_pay4 x0 x1) (k0_pay5 x0 x2) (k0_pay6 x3) slices_S160x256_o31_0_S129x256 slices_S160x256_o30_0_S1x256 broadcasts_S1x256_S129x256 broadcasts_S1x256_S129x256 shapeCasts_S129x256_S1x129x256 u r e k1 k2 hk1 hk2)
    inb_S1x12720x256_S1x129x256_0_4335_0

/-- The store of first member 31: rows 4464 … 4591. -/
theorem pc31 (x0 : Vec Ideal S1x160x256 .f32) (x1 x2 : Vec Ideal S256x256 .f32) (x3 : Vec Ideal S256 .f32) :
    ∀ x : (Rect.unit (s := S1x12720x256) ![0, 4464, 0] S1x128x256.size inb_S1x12720x256_S1x128x256_0_4464_0).shape.Idx,
      (k0_pay45 (k0_pay4 x0 x1) (k0_pay5 x0 x2) (k0_pay6 x3)) x = blockFn x0 x1 x2 x3 ((Rect.unit (s := S1x12720x256) ![0, 4464, 0] S1x128x256.size inb_S1x12720x256_S1x128x256_0_4464_0).emb x) :=
  piece_ok x0 x1 x2 x3 (len := 128) 31 4464 (by omega) rfl (by norm_num [PairIndex.off]) _
    (fun u r e k1 k2 hk1 hk2 => seg_apply 32 31 (k0_pay4 x0 x1) (k0_pay5 x0 x2) (k0_pay6 x3) slices_S160x256_o32_0_S128x256 slices_S160x256_o31_0_S1x256 broadcasts_S1x256_S128x256 broadcasts_S1x256_S128x256 shapeCasts_S128x256_S1x128x256 u r e k1 k2 hk1 hk2)
    inb_S1x12720x256_S1x128x256_0_4464_0

/-- The store of first member 32: rows 4592 … 4718. -/
theorem pc32 (x0 : Vec Ideal S1x160x256 .f32) (x1 x2 : Vec Ideal S256x256 .f32) (x3 : Vec Ideal S256 .f32) :
    ∀ x : (Rect.unit (s := S1x12720x256) ![0, 4592, 0] S1x127x256.size inb_S1x12720x256_S1x127x256_0_4592_0).shape.Idx,
      (k0_pay46 (k0_pay4 x0 x1) (k0_pay5 x0 x2) (k0_pay6 x3)) x = blockFn x0 x1 x2 x3 ((Rect.unit (s := S1x12720x256) ![0, 4592, 0] S1x127x256.size inb_S1x12720x256_S1x127x256_0_4592_0).emb x) :=
  piece_ok x0 x1 x2 x3 (len := 127) 32 4592 (by omega) rfl (by norm_num [PairIndex.off]) _
    (fun u r e k1 k2 hk1 hk2 => seg_apply 33 32 (k0_pay4 x0 x1) (k0_pay5 x0 x2) (k0_pay6 x3) slices_S160x256_o33_0_S127x256 slices_S160x256_o32_0_S1x256 broadcasts_S1x256_S127x256 broadcasts_S1x256_S127x256 shapeCasts_S127x256_S1x127x256 u r e k1 k2 hk1 hk2)
    inb_S1x12720x256_S1x127x256_0_4592_0

/-- The store of first member 33: rows 4719 … 4844. -/
theorem pc33 (x0 : Vec Ideal S1x160x256 .f32) (x1 x2 : Vec Ideal S256x256 .f32) (x3 : Vec Ideal S256 .f32) :
    ∀ x : (Rect.unit (s := S1x12720x256) ![0, 4719, 0] S1x126x256.size inb_S1x12720x256_S1x126x256_0_4719_0).shape.Idx,
      (k0_pay47 (k0_pay4 x0 x1) (k0_pay5 x0 x2) (k0_pay6 x3)) x = blockFn x0 x1 x2 x3 ((Rect.unit (s := S1x12720x256) ![0, 4719, 0] S1x126x256.size inb_S1x12720x256_S1x126x256_0_4719_0).emb x) :=
  piece_ok x0 x1 x2 x3 (len := 126) 33 4719 (by omega) rfl (by norm_num [PairIndex.off]) _
    (fun u r e k1 k2 hk1 hk2 => seg_apply 34 33 (k0_pay4 x0 x1) (k0_pay5 x0 x2) (k0_pay6 x3) slices_S160x256_o34_0_S126x256 slices_S160x256_o33_0_S1x256 broadcasts_S1x256_S126x256 broadcasts_S1x256_S126x256 shapeCasts_S126x256_S1x126x256 u r e k1 k2 hk1 hk2)
    inb_S1x12720x256_S1x126x256_0_4719_0

/-- The store of first member 34: rows 4845 … 4969. -/
theorem pc34 (x0 : Vec Ideal S1x160x256 .f32) (x1 x2 : Vec Ideal S256x256 .f32) (x3 : Vec Ideal S256 .f32) :
    ∀ x : (Rect.unit (s := S1x12720x256) ![0, 4845, 0] S1x125x256.size inb_S1x12720x256_S1x125x256_0_4845_0).shape.Idx,
      (k0_pay48 (k0_pay4 x0 x1) (k0_pay5 x0 x2) (k0_pay6 x3)) x = blockFn x0 x1 x2 x3 ((Rect.unit (s := S1x12720x256) ![0, 4845, 0] S1x125x256.size inb_S1x12720x256_S1x125x256_0_4845_0).emb x) :=
  piece_ok x0 x1 x2 x3 (len := 125) 34 4845 (by omega) rfl (by norm_num [PairIndex.off]) _
    (fun u r e k1 k2 hk1 hk2 => seg_apply 35 34 (k0_pay4 x0 x1) (k0_pay5 x0 x2) (k0_pay6 x3) slices_S160x256_o35_0_S125x256 slices_S160x256_o34_0_S1x256 broadcasts_S1x256_S125x256 broadcasts_S1x256_S125x256 shapeCasts_S125x256_S1x125x256 u r e k1 k2 hk1 hk2)
    inb_S1x12720x256_S1x125x256_0_4845_0

/-- The store of first member 35: rows 4970 … 5093. -/
theorem pc35 (x0 : Vec Ideal S1x160x256 .f32) (x1 x2 : Vec Ideal S256x256 .f32) (x3 : Vec Ideal S256 .f32) :
    ∀ x : (Rect.unit (s := S1x12720x256) ![0, 4970, 0] S1x124x256.size inb_S1x12720x256_S1x124x256_0_4970_0).shape.Idx,
      (k0_pay50 (k0_pay6 x3) (k0_pay49 (k0_pay4 x0 x1) (k0_pay5 x0 x2))) x = blockFn x0 x1 x2 x3 ((Rect.unit (s := S1x12720x256) ![0, 4970, 0] S1x124x256.size inb_S1x12720x256_S1x124x256_0_4970_0).emb x) :=
  piece_ok x0 x1 x2 x3 (len := 124) 35 4970 (by omega) rfl (by norm_num [PairIndex.off]) _
    (fun u r e k1 k2 hk1 hk2 => seg_apply 36 35 (k0_pay4 x0 x1) (k0_pay5 x0 x2) (k0_pay6 x3) slices_S160x256_o36_0_S124x256 slices_S160x256_o35_0_S1x256 broadcasts_S1x256_S124x256 broadcasts_S1x256_S124x256 shapeCasts_S124x256_S1x124x256 u r e k1 k2 hk1 hk2)
    inb_S1x12720x256_S1x124x256_0_4970_0

/-- The store of first member 36: rows 5094 … 5216. -/
theorem pc36 (x0 : Vec Ideal S1x160x256 .f32) (x1 x2 : Vec Ideal S256x256 .f32) (x3 : Vec Ideal S256 .f32) :
    ∀ x : (Rect.unit (s := S1x12720x256) ![0, 5094, 0] S1x123x256.size inb_S1x12720x256_S1x123x256_0_5094_0).shape.Idx,
      (k0_pay51 (k0_pay4 x0 x1) (k0_pay5 x0 x2) (k0_pay6 x3)) x = blockFn x0 x1 x2 x3 ((Rect.unit (s := S1x12720x256) ![0, 5094, 0] S1x123x256.size inb_S1x12720x256_S1x123x256_0_5094_0).emb x) :=
  piece_ok x0 x1 x2 x3 (len := 123) 36 5094 (by omega) rfl (by norm_num [PairIndex.off]) _
    (fun u r e k1 k2 hk1 hk2 => seg_apply 37 36 (k0_pay4 x0 x1) (k0_pay5 x0 x2) (k0_pay6 x3) slices_S160x256_o37_0_S123x256 slices_S160x256_o36_0_S1x256 broadcasts_S1x256_S123x256 broadcasts_S1x256_S123x256 shapeCasts_S123x256_S1x123x256 u r e k1 k2 hk1 hk2)
    inb_S1x12720x256_S1x123x256_0_5094_0

/-- The store of first member 37: rows 5217 … 5338. -/
theorem pc37 (x0 : Vec Ideal S1x160x256 .f32) (x1 x2 : Vec Ideal S256x256 .f32) (x3 : Vec Ideal S256 .f32) :
    ∀ x : (Rect.unit (s := S1x12720x256) ![0, 5217, 0] S1x122x256.size inb_S1x12720x256_S1x122x256_0_5217_0).shape.Idx,
      (k0_pay52 (k0_pay4 x0 x1) (k0_pay5 x0 x2) (k0_pay6 x3)) x = blockFn x0 x1 x2 x3 ((Rect.unit (s := S1x12720x256) ![0, 5217, 0] S1x122x256.size inb_S1x12720x256_S1x122x256_0_5217_0).emb x) :=
  piece_ok x0 x1 x2 x3 (len := 122) 37 5217 (by omega) rfl (by norm_num [PairIndex.off]) _
    (fun u r e k1 k2 hk1 hk2 => seg_apply 38 37 (k0_pay4 x0 x1) (k0_pay5 x0 x2) (k0_pay6 x3) slices_S160x256_o38_0_S122x256 slices_S160x256_o37_0_S1x256 broadcasts_S1x256_S122x256 broadcasts_S1x256_S122x256 shapeCasts_S122x256_S1x122x256 u r e k1 k2 hk1 hk2)
    inb_S1x12720x256_S1x122x256_0_5217_0

/-- The store of first member 38: rows 5339 … 5459. -/
theorem pc38 (x0 : Vec Ideal S1x160x256 .f32) (x1 x2 : Vec Ideal S256x256 .f32) (x3 : Vec Ideal S256 .f32) :
    ∀ x : (Rect.unit (s := S1x12720x256) ![0, 5339, 0] S1x121x256.size inb_S1x12720x256_S1x121x256_0_5339_0).shape.Idx,
      (k0_pay53 (k0_pay4 x0 x1) (k0_pay5 x0 x2) (k0_pay6 x3)) x = blockFn x0 x1 x2 x3 ((Rect.unit (s := S1x12720x256) ![0, 5339, 0] S1x121x256.size inb_S1x12720x256_S1x121x256_0_5339_0).emb x) :=
  piece_ok x0 x1 x2 x3 (len := 121) 38 5339 (by omega) rfl (by norm_num [PairIndex.off]) _
    (fun u r e k1 k2 hk1 hk2 => seg_apply 39 38 (k0_pay4 x0 x1) (k0_pay5 x0 x2) (k0_pay6 x3) slices_S160x256_o39_0_S121x256 slices_S160x256_o38_0_S1x256 broadcasts_S1x256_S121x256 broadcasts_S1x256_S121x256 shapeCasts_S121x256_S1x121x256 u r e k1 k2 hk1 hk2)
    inb_S1x12720x256_S1x121x256_0_5339_0

/-- The store of first member 39: rows 5460 … 5579. -/
theorem pc39 (x0 : Vec Ideal S1x160x256 .f32) (x1 x2 : Vec Ideal S256x256 .f32) (x3 : Vec Ideal S256 .f32) :
    ∀ x : (Rect.unit (s := S1x12720x256) ![0, 5460, 0] S1x120x256.size inb_S1x12720x256_S1x120x256_0_5460_0).shape.Idx,
      ((k0_pay54 (k0_pay4 x0 x1) (k0_pay5 x0 x2) (k0_pay6 x3))) x = blockFn x0 x1 x2 x3 ((Rect.unit (s := S1x12720x256) ![0, 5460, 0] S1x120x256.size inb_S1x12720x256_S1x120x256_0_5460_0).emb x) :=
  piece_ok x0 x1 x2 x3 (len := 120) 39 5460 (by omega) rfl (by norm_num [PairIndex.off]) _
    (fun u r e k1 k2 hk1 hk2 => seg_apply 40 39 (k0_pay4 x0 x1) (k0_pay5 x0 x2) (k0_pay6 x3) slices_S160x256_o40_0_S120x256 slices_S160x256_o39_0_S1x256 broadcasts_S1x256_S120x256 broadcasts_S1x256_S120x256 shapeCasts_S120x256_S1x120x256 u r e k1 k2 hk1 hk2)
    inb_S1x12720x256_S1x120x256_0_5460_0

end Cert.KernelIdeal.KernelValue

end
-- ==== Proof.KernelStores2.lean ====
/-
  Stores of first members 40 … 79 of one grid point: each holds, at row r of its rectangle and feature e, row
  i + 1 + r of the lower projection plus row i of the upper one plus the bias at e, and sits at rows off i … of the packed
  axis, where position off i + r holds the pair (i, i + 1 + r); so it is the block function restricted to its rectangle.
-/
import proofs.«138512_j66692252172937_2_alg».proof.Proof.KernelSeg
import proofs.«138512_j66692252172937_2_alg».proof.Proof.KernelPieces

set_option maxRecDepth 16384

noncomputable section

namespace Cert.KernelIdeal.KernelValue

open Cert.KernelIdeal Cert.KernelIdeal.Gen Idealize.ShloMosaic Idealize.ShloMosaic.TcCoe Idealize.ShloMosaic.ValueIdx

/-- The store of first member 40: rows 5580 … 5698. -/
theorem pc40 (x0 : Vec Ideal S1x160x256 .f32) (x1 x2 : Vec Ideal S256x256 .f32) (x3 : Vec Ideal S256 .f32) :
    ∀ x : (Rect.unit (s := S1x12720x256) ![0, 5580, 0] S1x119x256.size inb_S1x12720x256_S1x119x256_0_5580_0).shape.Idx,
      (k0_pay55 (k0_pay4 x0 x1) (k0_pay5 x0 x2) (k0_pay6 x3)) x = blockFn x0 x1 x2 x3 ((Rect.unit (s := S1x12720x256) ![0, 5580, 0] S1x119x256.size inb_S1x12720x256_S1x119x256_0_5580_0).emb x) :=
  piece_ok x0 x1 x2 x3 (len := 119) 40 5580 (by omega) rfl (by norm_num [PairIndex.off]) _
    (fun u r e k1 k2 hk1 hk2 => seg_apply 41 40 (k0_pay4 x0 x1) (k0_pay5 x0 x2) (k0_pay6 x3) slices_S160x256_o41_0_S119x256 slices_S160x256_o40_0_S1x256 broadcasts_S1x256_S119x256 broadcasts_S1x256_S119x256 shapeCasts_S119x256_S1x119x256 u r e k1 k2 hk1 hk2)
    inb_S1x12720x256_S1x119x256_0_5580_0

/-- The store of first member 41: rows 5699 … 5816. -/
theorem pc41 (x0 : Vec Ideal S1x160x256 .f32) (x1 x2 : Vec Ideal S256x256 .f32) (x3 : Vec Ideal S256 .f32) :
    ∀ x : (Rect.unit (s := S1x12720x256) ![0, 5699, 0] S1x118x256.size inb_S1x12720x256_S1x118x256_0_5699_0).shape.Idx,
      (k0_pay56 (k0_pay4 x0 x1) (k0_pay5 x0 x2) (k0_pay6 x3)) x = blockFn x0 x1 x2 x3 ((Rect.unit (s := S1x12720x256) ![0, 5699, 0] S1x118x256.size inb_S1x12720x256_S1x118x256_0_5699_0).emb x) :=
  piece_ok x0 x1 x2 x3 (len := 118) 41 5699 (by omega) rfl (by norm_num [PairIndex.off]) _
    (fun u r e k1 k2 hk1 hk2 => seg_apply 42 41 (k0_pay4 x0 x1) (k0_pay5 x0 x2) (k0_pay6 x3) slices_S160x256_o42_0_S118x256 slices_S160x256_o41_0_S1x256 broadcasts_S1x256_S118x256 broadcasts_S1x256_S118x256 shapeCasts_S118x256_S1x118x256 u r e k1 k2 hk1 hk2)
    inb_S1x12720x256_S1x118x256_0_5699_0

/-- The store of first member 42: rows 5817 … 5933. -/
theorem pc42 (x0 : Vec Ideal S1x160x256 .f32) (x1 x2 : Vec Ideal S256x256 .f32) (x3 : Vec Ideal S256 .f32) :
    ∀ x : (Rect.unit (s := S1x12720x256) ![0, 5817, 0] S1x117x256.size inb_S1x12720x256_S1x117x256_0_5817_0).shape.Idx,
      (k0_pay57 (k0_pay4 x0 x1) (k0_pay5 x0 x2) (k0_pay6 x3)) x = blockFn x0 x1 x2 x3 ((Rect.unit (s := S1x12720x256) ![0, 5817, 0] S1x117x256.size inb_S1x12720x256_S1x117x256_0_5817_0).emb x) :=
  piece_ok x0 x1 x2 x3 (len := 117) 42 5817 (by omega) rfl (by norm_num [PairIndex.off]) _
    (fun u r e k1 k2 hk1 hk2 => seg_apply 43 42 (k0_pay4 x0 x1) (k0_pay5 x0 x2) (k0_pay6 x3) slices_S160x256_o43_0_S117x256 slices_S160x256_o42_0_S1x256 broadcasts_S1x256_S117x256 broadcasts_S1x256_S117x256 shapeCasts_S117x256_S1x117x256 u r e k1 k2 hk1 hk2)
    inb_S1x12720x256_S1x117x256_0_5817_0

/-- The store of first member 43: rows 5934 … 6049. -/
theorem pc43 (x0 : Vec Ideal S1x160x256 .f32) (x1 x2 : Vec Ideal S256x256 .f32) (x3 : Vec Ideal S256 .f32) :
    ∀ x : (Rect.unit (s := S1x12720x256) ![0, 5934, 0] S1x116x256.size inb_S1x12720x256_S1x116x256_0_5934_0).shape.Idx,
      (k0_pay58 (k0_pay4 x0 x1) (k0_pay5 x0 x2) (k0_pay6 x3)) x = blockFn x0 x1 x2 x3 ((Rect.unit (s := S1x12720x256) ![0, 5934, 0] S1x116x256.size inb_S1x12720x256_S1x116x256_0_5934_0).emb x) :=
  piece_ok x0 x1 x2 x3 (len := 116) 43 5934 (by omega) rfl (by norm_num [PairIndex.off]) _
    (fun u r e k1 k2 hk1 hk2 => seg_apply 44 43 (k0_pay4 x0 x1) (k0_pay5 x0 x2) (k0_pay6 x3) slices_S160x256_o44_0_S116x256 slices_S160x256_o43_0_S1x256 broadcasts_S1x256_S116x256 broadcasts_S1x256_S116x256 shapeCasts_S116x256_S1x116x256 u r e k1 k2 hk1 hk2)
    inb_S1x12720x256_S1x116x256_0_5934_0

/-- The store of first member 44: rows 6050 … 6164. -/
theorem pc44 (x0 : Vec Ideal S1x160x256 .f32) (x1 x2 : Vec Ideal S256x256 .f32) (x3 : Vec Ideal S256 .f32) :
    ∀ x : (Rect.unit (s := S1x12720x256) ![0, 6050, 0] S1x115x256.size inb_S1x12720x256_S1x115x256_0_6050_0).shape.Idx,
      (k0_pay60 (k0_pay59 (k0_pay4 x0 x1) (k0_pay5 x0 x2) (k0_pay6 x3))) x = blockFn x0 x1 x2 x3 ((Rect.unit (s := S1x12720x256) ![0, 6050, 0] S1x115x256.size inb_S1x12720x256_S1x115x256_0_6050_0).emb x) :=
  piece_ok x0 x1 x2 x3 (len := 115) 44 6050 (by omega) rfl (by norm_num [PairIndex.off]) _
    (fun u r e k1 k2 hk1 hk2 => seg_apply 45 44 (k0_pay4 x0 x1) (k0_pay5 x0 x2) (k0_pay6 x3) slices_S160x256_o45_0_S115x256 slices_S160x256_o44_0_S1x256 broadcasts_S1x256_S115x256 broadcasts_S1x256_S115x256 shapeCasts_S115x256_S1x115x256 u r e k1 k2 hk1 hk2)
    inb_S1x12720x256_S1x115x256_0_6050_0

/-- The store of first member 45: rows 6165 … 6278. -/
theorem pc45 (x0 : Vec Ideal S1x160x256 .f32) (x1 x2 : Vec Ideal S256x256 .f32) (x3 : Vec Ideal S256 .f32) :
    ∀ x : (Rect.unit (s := S1x12720x256) ![0, 6165, 0] S1x114x256.size inb_S1x12720x256_S1x114x256_0_6165_0).shape.Idx,
      (k0_pay61 (k0_pay4 x0 x1) (k0_pay5 x0 x2) (k0_pay6 x3)) x = blockFn x0 x1 x2 x3 ((Rect.unit (s := S1x12720x256) ![0, 6165, 0] S1x114x256.size inb_S1x12720x256_S1x114x256_0_6165_0).emb x) :=
  piece_ok x0 x1 x2 x3 (len := 114) 45 6165 (by omega) rfl (by norm_num [PairIndex.off]) _
    (fun u r e k1 k2 hk1 hk2 => seg_apply 46 45 (k0_pay4 x0 x1) (k0_pay5 x0 x2) (k0_pay6 x3) slices_S160x256_o46_0_S114x256 slices_S160x256_o45_0_S1x256 broadcasts_S1x256_S114x256 broadcasts_S1x256_S114x256 shapeCasts_S114x256_S1x114x256 u r e k1 k2 hk1 hk2)
    inb_S1x12720x256_S1x114x256_0_6165_0

/-- The store of first member 46: rows 6279 … 6391. -/
theorem pc46 (x0 : Vec Ideal S1x160x256 .f32) (x1 x2 : Vec Ideal S256x256 .f32) (x3 : Vec Ideal S256 .f32) :
    ∀ x : (Rect.unit (s := S1x12720x256) ![0, 6279, 0] S1x113x256.size inb_S1x12720x256_S1x113x256_0_6279_0).shape.Idx,
      (k0_pay62 (k0_pay4 x0 x1) (k0_pay5 x0 x2) (k0_pay6 x3)) x = blockFn x0 x1 x2 x3 ((Rect.unit (s := S1x12720x256) ![0, 6279, 0] S1x113x256.size inb_S1x12720x256_S1x113x256_0_6279_0).emb x) :=
  piece_ok x0 x1 x2 x3 (len := 113) 46 6279 (by omega) rfl (by norm_num [PairIndex.off]) _
    (fun u r e k1 k2 hk1 hk2 => seg_apply 47 46 (k0_pay4 x0 x1) (k0_pay5 x0 x2) (k0_pay6 x3) slices_S160x256_o47_0_S113x256 slices_S160x256_o46_0_S1x256 broadcasts_S1x256_S113x256 broadcasts_S1x256_S113x256 shapeCasts_S113x256_S1x113x256 u r e k1 k2 hk1 hk2)
    inb_S1x12720x256_S1x113x256_0_6279_0

/-- The store of first member 47: rows 6392 … 6503. -/
theorem pc47 (x0 : Vec Ideal S1x160x256 .f32) (x1 x2 : Vec Ideal S256x256 .f32) (x3 : Vec Ideal S256 .f32) :
    ∀ x : (Rect.unit (s := S1x12720x256) ![0, 6392, 0] S1x112x256.size inb_S1x12720x256_S1x112x256_0_6392_0).shape.Idx,
      (k0_pay63 (k0_pay4 x0 x1) (k0_pay5 x0 x2) (k0_pay6 x3)) x = blockFn x0 x1 x2 x3 ((Rect.unit (s := S1x12720x256) ![0, 6392, 0] S1x112x256.size inb_S1x12720x256_S1x112x256_0_6392_0).emb x) :=
  piece_ok x0 x1 x2 x3 (len := 112) 47 6392 (by omega) rfl (by norm_num [PairIndex.off]) _
    (fun u r e k1 k2 hk1 hk2 => seg_apply 48 47 (k0_pay4 x0 x1) (k0_pay5 x0 x2) (k0_pay6 x3) slices_S160x256_o48_0_S112x256 slices_S160x256_o47_0_S1x256 broadcasts_S1x256_S112x256 broadcasts_S1x256_S112x256 shapeCasts_S112x256_S1x112x256 u r e k1 k2 hk1 hk2)
    inb_S1x12720x256_S1x112x256_0_6392_0

/-- The store of first member 48: rows 6504 … 6614. -/
theorem pc48 (x0 : Vec Ideal S1x160x256 .f32) (x1 x2 : Vec Ideal S256x256 .f32) (x3 : Vec Ideal S256 .f32) :
    ∀ x : (Rect.unit (s := S1x12720x256) ![0, 6504, 0] S1x111x256.size inb_S1x12720x256_S1x111x256_0_6504_0).shape.Idx,
      (k0_pay64 (k0_pay4 x0 x1) (k0_pay5 x0 x2) (k0_pay6 x3)) x = blockFn x0 x1 x2 x3 ((Rect.unit (s := S1x12720x256) ![0, 6504, 0] S1x111x256.size inb_S1x12720x256_S1x111x256_0_6504_0).emb x) :=
  piece_ok x0 x1 x2 x3 (len := 111) 48 6504 (by omega) rfl (by norm_num [PairIndex.off]) _
    (fun u r e k1 k2 hk1 hk2 => seg_apply 49 48 (k0_pay4 x0 x1) (k0_pay5 x0 x2) (k0_pay6 x3) slices_S160x256_o49_0_S111x256 slices_S160x256_o48_0_S1x256 broadcasts_S1x256_S111x256 broadcasts_S1x256_S111x256 shapeCasts_S111x256_S1x111x256 u r e k1 k2 hk1 hk2)
    inb_S1x12720x256_S1x111x256_0_6504_0

/-- The store of first member 49: rows 6615 … 6724. -/
theorem pc49 (x0 : Vec Ideal S1x160x256 .f32) (x1 x2 : Vec Ideal S256x256 .f32) (x3 : Vec Ideal S256 .f32) :
    ∀ x : (Rect.unit (s := S1x12720x256) ![0, 6615, 0] S1x110x256.size inb_S1x12720x256_S1x110x256_0_6615_0).shape.Idx,
      (k0_pay67 (k0_pay6 x3) (k0_pay65 (k0_pay5 x0 x2)) (k0_pay66 (k0_pay4 x0 x1))) x = blockFn x0 x1 x2 x3 ((Rect.unit (s := S1x12720x256) ![0, 6615, 0] S1x110x256.size inb_S1x12720x256_S1x110x256_0_6615_0).emb x) :=
  piece_ok x0 x1 x2 x3 (len := 110) 49 6615 (by omega) rfl (by norm_num [PairIndex.off]) _
    (fun u r e k1 k2 hk1 hk2 => seg_apply 50 49 (k0_pay4 x0 x1) (k0_pay5 x0 x2) (k0_pay6 x3) slices_S160x256_o50_0_S110x256 slices_S160x256_o49_0_S1x256 broadcasts_S1x256_S110x256 broadcasts_S1x256_S110x256 shapeCasts_S110x256_S1x110x256 u r e k1 k2 hk1 hk2)
    inb_S1x12720x256_S1x110x256_0_6615_0

/-- The store of first member 50: rows 6725 … 6833. -/
theorem pc50 (x0 : Vec Ideal S1x160x256 .f32) (x1 x2 : Vec Ideal S256x256 .f32) (x3 : Vec Ideal S256 .f32) :
    ∀ x : (Rect.unit (s := S1x12720x256) ![0, 6725, 0] S1x109x256.size inb_S1x12720x256_S1x109x256_0_6725_0).shape.Idx,
      (k0_pay68 (k0_pay4 x0 x1) (k0_pay5 x0 x2) (k0_pay6 x3)) x = blockFn x0 x1 x2 x3 ((Rect.unit (s := S1x12720x256) ![0, 6725, 0] S1x109x256.size inb_S1x12720x256_S1x109x256_0_6725_0).emb x) :=
  piece_ok x0 x1 x2 x3 (len := 109) 50 6725 (by omega) rfl (by norm_num [PairIndex.off]) _
    (fun u r e k1 k2 hk1 hk2 => seg_apply 51 50 (k0_pay4 x0 x1) (k0_pay5 x0 x2) (k0_pay6 x3) slices_S160x256_o51_0_S109x256 slices_S160x256_o50_0_S1x256 broadcasts_S1x256_S109x256 broadcasts_S1x256_S109x256 shapeCasts_S109x256_S1x109x256 u r e k1 k2 hk1 hk2)
    inb_S1x12720x256_S1x109x256_0_6725_0

/-- The store of first member 51: rows 6834 … 6941. -/
theorem pc51 (x0 : Vec Ideal S1x160x256 .f32) (x1 x2 : Vec Ideal S256x256 .f32) (x3 : Vec Ideal S256 .f32) :
    ∀ x : (Rect.unit (s := S1x12720x256) ![0, 6834, 0] S1x108x256.size inb_S1x12720x256_S1x108x256_0_6834_0).shape.Idx,
      (k0_pay69 (k0_pay4 x0 x1) (k0_pay5 x0 x2) (k0_pay6 x3)) x = blockFn x0 x1 x2 x3 ((Rect.unit (s := S1x12720x256) ![0, 6834, 0] S1x108x256.size inb_S1x12720x256_S1x108x256_0_6834_0).emb x) :=
  piece_ok x0 x1 x2 x3 (len := 108) 51 6834 (by omega) rfl (by norm_num [PairIndex.off]) _
    (fun u r e k1 k2 hk1 hk2 => seg_apply 52 51 (k0_pay4 x0 x1) (k0_pay5 x0 x2) (k0_pay6 x3) slices_S160x256_o52_0_S108x256 slices_S160x256_o51_0_S1x256 broadcasts_S1x256_S108x256 broadcasts_S1x256_S108x256 shapeCasts_S108x256_S1x108x256 u r e k1 k2 hk1 hk2)
    inb_S1x12720x256_S1x108x256_0_6834_0

/-- The store of first member 52: rows 6942 … 7048. -/
theorem pc52 (x0 : Vec Ideal S1x160x256 .f32) (x1 x2 : Vec Ideal S256x256 .f32) (x3 : Vec Ideal S256 .f32) :
    ∀ x : (Rect.unit (s := S1x12720x256) ![0, 6942, 0] S1x107x256.size inb_S1x12720x256_S1x107x256_0_6942_0).shape.Idx,
      (k0_pay70 (k0_pay4 x0 x1) (k0_pay5 x0 x2) (k0_pay6 x3)) x = blockFn x0 x1 x2 x3 ((Rect.unit (s := S1x12720x256) ![0, 6942, 0] S1x107x256.size inb_S1x12720x256_S1x107x256_0_6942_0).emb x) :=
  piece_ok x0 x1 x2 x3 (len := 107) 52 6942 (by omega) rfl (by norm_num [PairIndex.off]) _
    (fun u r e k1 k2 hk1 hk2 => seg_apply 53 52 (k0_pay4 x0 x1) (k0_pay5 x0 x2) (k0_pay6 x3) slices_S160x256_o53_0_S107x256 slices_S160x256_o52_0_S1x256 broadcasts_S1x256_S107x256 broadcasts_S1x256_S107x256 shapeCasts_S107x256_S1x107x256 u r e k1 k2 hk1 hk2)
    inb_S1x12720x256_S1x107x256_0_6942_0

/-- The store of first member 53: rows 7049 … 7154. -/
theorem pc53 (x0 : Vec Ideal S1x160x256 .f32) (x1 x2 : Vec Ideal S256x256 .f32) (x3 : Vec Ideal S256 .f32) :
    ∀ x : (Rect.unit (s := S1x12720x256) ![0, 7049, 0] S1x106x256.size inb_S1x12720x256_S1x106x256_0_7049_0).shape.Idx,
      (k0_pay72 (k0_pay71 (k0_pay4 x0 x1) (k0_pay5 x0 x2) (k0_pay6 x3))) x = blockFn x0 x1 x2 x3 ((Rect.unit (s := S1x12720x256) ![0, 7049, 0] S1x106x256.size inb_S1x12720x256_S1x106x256_0_7049_0).emb x) :=
  piece_ok x0 x1 x2 x3 (len := 106) 53 7049 (by omega) rfl (by norm_num [PairIndex.off]) _
    (fun u r e k1 k2 hk1 hk2 => seg_apply 54 53 (k0_pay4 x0 x1) (k0_pay5 x0 x2) (k0_pay6 x3) slices_S160x256_o54_0_S106x256 slices_S160x256_o53_0_S1x256 broadcasts_S1x256_S106x256 broadcasts_S1x256_S106x256 shapeCasts_S106x256_S1x106x256 u r e k1 k2 hk1 hk2)
    inb_S1x12720x256_S1x106x256_0_7049_0

/-- The store of first member 54: rows 7155 … 7259. -/
theorem pc54 (x0 : Vec Ideal S1x160x256 .f32) (x1 x2 : Vec Ideal S256x256 .f32) (x3 : Vec Ideal S256 .f32) :
    ∀ x : (Rect.unit (s := S1x12720x256) ![0, 7155, 0] S1x105x256.size inb_S1x12720x256_S1x105x256_0_7155_0).shape.Idx,
      (k0_pay73 (k0_pay4 x0 x1) (k0_pay5 x0 x2) (k0_pay6 x3)) x = blockFn x0 x1 x2 x3 ((Rect.unit (s := S1x12720x256) ![0, 7155, 0] S1x105x256.size inb_S1x12720x256_S1x105x256_0_7155_0).emb x) :=
  piece_ok x0 x1 x2 x3 (len := 105) 54 7155 (by omega) rfl (by norm_num [PairIndex.off]) _
    (fun u r e k1 k2 hk1 hk2 => seg_apply 55 54 (k0_pay4 x0 x1) (k0_pay5 x0 x2) (k0_pay6 x3) slices_S160x256_o55_0_S105x256 slices_S160x256_o54_0_S1x256 broadcasts_S1x256_S105x256 broadcasts_S1x256_S105x256 shapeCasts_S105x256_S1x105x256 u r e k1 k2 hk1 hk2)
    inb_S1x12720x256_S1x105x256_0_7155_0

/-- The store of first member 55: rows 7260 … 7363. -/
theorem pc55 (x0 : Vec Ideal S1x160x256 .f32) (x1 x2 : Vec Ideal S256x256 .f32) (x3 : Vec Ideal S256 .f32) :
    ∀ x : (Rect.unit (s := S1x12720x256) ![0, 7260, 0] S1x104x256.size inb_S1x12720x256_S1x104x256_0_7260_0).shape.Idx,
      (k0_pay74 (k0_pay4 x0 x1) (k0_pay5 x0 x2) (k0_pay6 x3)) x = blockFn x0 x1 x2 x3 ((Rect.unit (s := S1x12720x256) ![0, 7260, 0] S1x104x256.size inb_S1x12720x256_S1x104x256_0_7260_0).emb x) :=
  piece_ok x0 x1 x2 x3 (len := 104) 55 7260 (by omega) rfl (by norm_num [PairIndex.off]) _
    (fun u r e k1 k2 hk1 hk2 => seg_apply 56 55 (k0_pay4 x0 x1) (k0_pay5 x0 x2) (k0_pay6 x3) slices_S160x256_o56_0_S104x256 slices_S160x256_o55_0_S1x256 broadcasts_S1x256_S104x256 broadcasts_S1x256_S104x256 shapeCasts_S104x256_S1x104x256 u r e k1 k2 hk1 hk2)
    inb_S1x12720x256_S1x104x256_0_7260_0

/-- The store of first member 56: rows 7364 … 7466. -/
theorem pc56 (x0 : Vec Ideal S1x160x256 .f32) (x1 x2 : Vec Ideal S256x256 .f32) (x3 : Vec Ideal S256 .f32) :
    ∀ x : (Rect.unit (s := S1x12720x256) ![0, 7364, 0] S1x103x256.size inb_S1x12720x256_S1x103x256_0_7364_0).shape.Idx,
      (k0_pay75 (k0_pay4 x0 x1) (k0_pay5 x0 x2) (k0_pay6 x3)) x = blockFn x0 x1 x2 x3 ((Rect.unit (s := S1x12720x256) ![0, 7364, 0] S1x103x256.size inb_S1x12720x256_S1x103x256_0_7364_0).emb x) :=
  piece_ok x0 x1 x2 x3 (len := 103) 56 7364 (by omega) rfl (by norm_num [PairIndex.off]) _
    (fun u r e k1 k2 hk1 hk2 => seg_apply 57 56 (k0_pay4 x0 x1) (k0_pay5 x0 x2) (k0_pay6 x3) slices_S160x256_o57_0_S103x256 slices_S160x256_o56_0_S1x256 broadcasts_S1x256_S103x256 broadcasts_S1x256_S103x256 shapeCasts_S103x256_S1x103x256 u r e k1 k2 hk1 hk2)
    inb_S1x12720x256_S1x103x256_0_7364_0

/-- The store of first member 57: rows 7467 … 7568. -/
theorem pc57 (x0 : Vec Ideal S1x160x256 .f32) (x1 x2 : Vec Ideal S256x256 .f32) (x3 : Vec Ideal S256 .f32) :
    ∀ x : (Rect.unit (s := S1x12720x256) ![0, 7467, 0] S1x102x256.size inb_S1x12720x256_S1x102x256_0_7467_0).shape.Idx,
      (k0_pay76 (k0_pay4 x0 x1) (k0_pay5 x0 x2) (k0_pay6 x3)) x = blockFn x0 x1 x2 x3 ((Rect.unit (s := S1x12720x256) ![0, 7467, 0] S1x102x256.size inb_S1x12720x256_S1x102x256_0_7467_0).emb x) :=
  piece_ok x0 x1 x2 x3 (len := 102) 57 7467 (by omega) rfl (by norm_num [PairIndex.off]) _
    (fun u r e k1 k2 hk1 hk2 => seg_apply 58 57 (k0_pay4 x0 x1) (k0_pay5 x0 x2) (k0_pay6 x3) slices_S160x256_o58_0_S102x256 slices_S160x256_o57_0_S1x256 broadcasts_S1x256_S102x256 broadcasts_S1x256_S102x256 shapeCasts_S102x256_S1x102x256 u r e k1 k2 hk1 hk2)
    inb_S1x12720x256_S1x102x256_0_7467_0

/-- The store of first member 58: rows 7569 … 7669. -/
theorem pc58 (x0 : Vec Ideal S1x160x256 .f32) (x1 x2 : Vec Ideal S256x256 .f32) (x3 : Vec Ideal S256 .f32) :
    ∀ x : (Rect.unit (s := S1x12720x256) ![0, 7569, 0] S1x101x256.size inb_S1x12720x256_S1x101x256_0_7569_0).shape.Idx,
      (k0_pay79 (k0_pay77 (k0_pay4 x0 x1) (k0_pay5 x0 x2)) (k0_pay78 (k0_pay6 x3))) x = blockFn x0 x1 x2 x3 ((Rect.unit (s := S1x12720x256) ![0, 7569, 0] S1x101x256.size inb_S1x12720x256_S1x101x256_0_7569_0).emb x) :=
  piece_ok x0 x1 x2 x3 (len := 101) 58 7569 (by omega) rfl (by norm_num [PairIndex.off]) _
    (fun u r e k1 k2 hk1 hk2 => seg_apply 59 58 (k0_pay4 x0 x1) (k0_pay5 x0 x2) (k0_pay6 x3) slices_S160x256_o59_0_S101x256 slices_S160x256_o58_0_S1x256 broadcasts_S1x256_S101x256 broadcasts_S1x256_S101x256 shapeCasts_S101x256_S1x101x256 u r e k1 k2 hk1 hk2)
    inb_S1x12720x256_S1x101x256_0_7569_0

/-- The store of first member 59: rows 7670 … 7769. -/
theorem pc59 (x0 : Vec Ideal S1x160x256 .f32) (x1 x2 : Vec Ideal S256x256 .f32) (x3 : Vec Ideal S256 .f32) :
    ∀ x : (Rect.unit (s := S1x12720x256) ![0, 7670, 0] S1x100x256.size inb_S1x12720x256_S1x100x256_0_7670_0).shape.Idx,
      (k0_pay80 (k0_pay4 x0 x1) (k0_pay5 x0 x2) (k0_pay6 x3)) x = blockFn x0 x1 x2 x3 ((Rect.unit (s := S1x12720x256) ![0, 7670, 0] S1x100x256.size inb_S1x12720x256_S1x100x256_0_7670_0).emb x) :=
  piece_ok x0 x1 x2 x3 (len := 100) 59 7670 (by omega) rfl (by norm_num [PairIndex.off]) _
    (fun u r e k1 k2 hk1 hk2 => seg_apply 60 59 (k0_pay4 x0 x1) (k0_pay5 x0 x2) (k0_pay6 x3) slices_S160x256_o60_0_S100x256 slices_S160x256_o59_0_S1x256 broadcasts_S1x256_S100x256 broadcasts_S1x256_S100x256 shapeCasts_S100x256_S1x100x256 u r e k1 k2 hk1 hk2)
    inb_S1x12720x256_S1x100x256_0_7670_0

/-- The store of first member 60: rows 7770 … 7868. -/
theorem pc60 (x0 : Vec Ideal S1x160x256 .f32) (x1 x2 : Vec Ideal S256x256 .f32) (x3 : Vec Ideal S256 .f32) :
    ∀ x : (Rect.unit (s := S1x12720x256) ![0, 7770, 0] S1x99x256.size inb_S1x12720x256_S1x99x256_0_7770_0).shape.Idx,
      (k0_pay81 (k0_pay4 x0 x1) (k0_pay5 x0 x2) (k0_pay6 x3)) x = blockFn x0 x1 x2 x3 ((Rect.unit (s := S1x12720x256) ![0, 7770, 0] S1x99x256.size inb_S1x12720x256_S1x99x256_0_7770_0).emb x) :=
  piece_ok x0 x1 x2 x3 (len := 99) 60 7770 (by omega) rfl (by norm_num [PairIndex.off]) _
    (fun u r e k1 k2 hk1 hk2 => seg_apply 61 60 (k0_pay4 x0 x1) (k0_pay5 x0 x2) (k0_pay6 x3) slices_S160x256_o61_0_S99x256 slices_S160x256_o60_0_S1x256 broadcasts_S1x256_S99x256 broadcasts_S1x256_S99x256 shapeCasts_S99x256_S1x99x256 u r e k1 k2 hk1 hk2)
    inb_S1x12720x256_S1x99x256_0_7770_0

/-- The store of first member 61: rows 7869 … 7966. -/
theorem pc61 (x0 : Vec Ideal S1x160x256 .f32) (x1 x2 : Vec Ideal S256x256 .f32) (x3 : Vec Ideal S256 .f32) :
    ∀ x : (Rect.unit (s := S1x12720x256) ![0, 7869, 0] S1x98x256.size inb_S1x12720x256_S1x98x256_0_7869_0).shape.Idx,
      (k0_pay82 (k0_pay4 x0 x1) (k0_pay5 x0 x2) (k0_pay6 x3)) x = blockFn x0 x1 x2 x3 ((Rect.unit (s := S1x12720x256) ![0, 7869, 0] S1x98x256.size inb_S1x12720x256_S1x98x256_0_7869_0).emb x) :=
  piece_ok x0 x1 x2 x3 (len := 98) 61 7869 (by omega) rfl (by norm_num [PairIndex.off]) _
    (fun u r e k1 k2 hk1 hk2 => seg_apply 62 61 (k0_pay4 x0 x1) (k0_pay5 x0 x2) (k0_pay6 x3) slices_S160x256_o62_0_S98x256 slices_S160x256_o61_0_S1x256 broadcasts_S1x256_S98x256 broadcasts_S1x256_S98x256 shapeCasts_S98x256_S1x98x256 u r e k1 k2 hk1 hk2)
    inb_S1x12720x256_S1x98x256_0_7869_0

/-- The store of first member 62: rows 7967 … 8063. -/
theorem pc62 (x0 : Vec Ideal S1x160x256 .f32) (x1 x2 : Vec Ideal S256x256 .f32) (x3 : Vec Ideal S256 .f32) :
    ∀ x : (Rect.unit (s := S1x12720x256) ![0, 7967, 0] S1x97x256.size inb_S1x12720x256_S1x97x256_0_7967_0).shape.Idx,
      (k0_pay83 (k0_pay4 x0 x1) (k0_pay5 x0 x2) (k0_pay6 x3)) x = blockFn x0 x1 x2 x3 ((Rect.unit (s := S1x12720x256) ![0, 7967, 0] S1x97x256.size inb_S1x12720x256_S1x97x256_0_7967_0).emb x) :=
  piece_ok x0 x1 x2 x3 (len := 97) 62 7967 (by omega) rfl (by norm_num [PairIndex.off]) _
    (fun u r e k1 k2 hk1 hk2 => seg_apply 63 62 (k0_pay4 x0 x1) (k0_pay5 x0 x2) (k0_pay6 x3) slices_S160x256_o63_0_S97x256 slices_S160x256_o62_0_S1x256 broadcasts_S1x256_S97x256 broadcasts_S1x256_S97x256 shapeCasts_S97x256_S1x97x256 u r e k1 k2 hk1 hk2)
    inb_S1x12720x256_S1x97x256_0_7967_0

/-- The store of first member 63: rows 8064 … 8159. -/
theorem pc63 (x0 : Vec Ideal S1x160x256 .f32) (x1 x2 : Vec Ideal S256x256 .f32) (x3 : Vec Ideal S256 .f32) :
    ∀ x : (Rect.unit (s := S1x12720x256) ![0, 8064, 0] S1x96x256.size inb_S1x12720x256_S1x96x256_0_8064_0).shape.Idx,
      (k0_pay84 (k0_pay4 x0 x1) (k0_pay5 x0 x2) (k0_pay6 x3)) x = blockFn x0 x1 x2 x3 ((Rect.unit (s := S1x12720x256) ![0, 8064, 0] S1x96x256.size inb_S1x12720x256_S1x96x256_0_8064_0).emb x) :=
  piece_ok x0 x1 x2 x3 (len := 96) 63 8064 (by omega) rfl (by norm_num [PairIndex.off]) _
    (fun u r e k1 k2 hk1 hk2 => seg_apply 64 63 (k0_pay4 x0 x1) (k0_pay5 x0 x2) (k0_pay6 x3) slices_S160x256_o64_0_S96x256 slices_S160x256_o63_0_S1x256 broadcasts_S1x256_S96x256 broadcasts_S1x256_S96x256 shapeCasts_S96x256_S1x96x256 u r e k1 k2 hk1 hk2)
    inb_S1x12720x256_S1x96x256_0_8064_0

/-- The store of first member 64: rows 8160 … 8254. -/
theorem pc64 (x0 : Vec Ideal S1x160x256 .f32) (x1 x2 : Vec Ideal S256x256 .f32) (x3 : Vec Ideal S256 .f32) :
    ∀ x : (Rect.unit (s := S1x12720x256) ![0, 8160, 0] S1x95x256.size inb_S1x12720x256_S1x95x256_0_8160_0).shape.Idx,
      (k0_pay85 (k0_pay4 x0 x1) (k0_pay5 x0 x2) (k0_pay6 x3)) x = blockFn x0 x1 x2 x3 ((Rect.unit (s := S1x12720x256) ![0, 8160, 0] S1x95x256.size inb_S1x12720x256_S1x95x256_0_8160_0).emb x) :=
  piece_ok x0 x1 x2 x3 (len := 95) 64 8160 (by omega) rfl (by norm_num [PairIndex.off]) _
    (fun u r e k1 k2 hk1 hk2 => seg_apply 65 64 (k0_pay4 x0 x1) (k0_pay5 x0 x2) (k0_pay6 x3) slices_S160x256_o65_0_S95x256 slices_S160x256_o64_0_S1x256 broadcasts_S1x256_S95x256 broadcasts_S1x256_S95x256 shapeCasts_S95x256_S1x95x256 u r e k1 k2 hk1 hk2)
    inb_S1x12720x256_S1x95x256_0_8160_0

/-- The store of first member 65: rows 8255 … 8348. -/
theorem pc65 (x0 : Vec Ideal S1x160x256 .f32) (x1 x2 : Vec Ideal S256x256 .f32) (x3 : Vec Ideal S256 .f32) :
    ∀ x : (Rect.unit (s := S1x12720x256) ![0, 8255, 0] S1x94x256.size inb_S1x12720x256_S1x94x256_0_8255_0).shape.Idx,
      (k0_pay86 (k0_pay4 x0 x1) (k0_pay5 x0 x2) (k0_pay6 x3)) x = blockFn x0 x1 x2 x3 ((Rect.unit (s := S1x12720x256) ![0, 8255, 0] S1x94x256.size inb_S1x12720x256_S1x94x256_0_8255_0).emb x) :=
  piece_ok x0 x1 x2 x3 (len := 94) 65 8255 (by omega) rfl (by norm_num [PairIndex.off]) _
    (fun u r e k1 k2 hk1 hk2 => seg_apply 66 65 (k0_pay4 x0 x1) (k0_pay5 x0 x2) (k0_pay6 x3) slices_S160x256_o66_0_S94x256 slices_S160x256_o65_0_S1x256 broadcasts_S1x256_S94x256 broadcasts_S1x256_S94x256 shapeCasts_S94x256_S1x94x256 u r e k1 k2 hk1 hk2)
    inb_S1x12720x256_S1x94x256_0_8255_0

/-- The store of first member 66: rows 8349 … 8441. -/
theorem pc66 (x0 : Vec Ideal S1x160x256 .f32) (x1 x2 : Vec Ideal S256x256 .f32) (x3 : Vec Ideal S256 .f32) :
    ∀ x : (Rect.unit (s := S1x12720x256) ![0, 8349, 0] S1x93x256.size inb_S1x12720x256_S1x93x256_0_8349_0).shape.Idx,
      (k0_pay87 (k0_pay4 x0 x1) (k0_pay5 x0 x2) (k0_pay6 x3)) x = blockFn x0 x1 x2 x3 ((Rect.unit (s := S1x12720x256) ![0, 8349, 0] S1x93x256.size inb_S1x12720x256_S1x93x256_0_8349_0).emb x) :=
  piece_ok x0 x1 x2 x3 (len := 93) 66 8349 (by omega) rfl (by norm_num [PairIndex.off]) _
    (fun u r e k1 k2 hk1 hk2 => seg_apply 67 66 (k0_pay4 x0 x1) (k0_pay5 x0 x2) (k0_pay6 x3) slices_S160x256_o67_0_S93x256 slices_S160x256_o66_0_S1x256 broadcasts_S1x256_S93x256 broadcasts_S1x256_S93x256 shapeCasts_S93x256_S1x93x256 u r e k1 k2 hk1 hk2)
    inb_S1x12720x256_S1x93x256_0_8349_0

/-- The store of first member 67: rows 8442 … 8533. -/
theorem pc67 (x0 : Vec Ideal S1x160x256 .f32) (x1 x2 : Vec Ideal S256x256 .f32) (x3 : Vec Ideal S256 .f32) :
    ∀ x : (Rect.unit (s := S1x12720x256) ![0, 8442, 0] S1x92x256.size inb_S1x12720x256_S1x92x256_0_8442_0).shape.Idx,
      (k0_pay89 (k0_pay88 (k0_pay4 x0 x1) (k0_pay5 x0 x2) (k0_pay6 x3))) x = blockFn x0 x1 x2 x3 ((Rect.unit (s := S1x12720x256) ![0, 8442, 0] S1x92x256.size inb_S1x12720x256_S1x92x256_0_8442_0).emb x) :=
  piece_ok x0 x1 x2 x3 (len := 92) 67 8442 (by omega) rfl (by norm_num [PairIndex.off]) _
    (fun u r e k1 k2 hk1 hk2 => seg_apply 68 67 (k0_pay4 x0 x1) (k0_pay5 x0 x2) (k0_pay6 x3) slices_S160x256_o68_0_S92x256 slices_S160x256_o67_0_S1x256 broadcasts_S1x256_S92x256 broadcasts_S1x256_S92x256 shapeCasts_S92x256_S1x92x256 u r e k1 k2 hk1 hk2)
    inb_S1x12720x256_S1x92x256_0_8442_0

/-- The store of first member 68: rows 8534 … 8624. -/
theorem pc68 (x0 : Vec Ideal S1x160x256 .f32) (x1 x2 : Vec Ideal S256x256 .f32) (x3 : Vec Ideal S256 .f32) :
    ∀ x : (Rect.unit (s := S1x12720x256) ![0, 8534, 0] S1x91x256.size inb_S1x12720x256_S1x91x256_0_8534_0).shape.Idx,
      (k0_pay90 (k0_pay4 x0 x1) (k0_pay5 x0 x2) (k0_pay6 x3)) x = blockFn x0 x1 x2 x3 ((Rect.unit (s := S1x12720x256) ![0, 8534, 0] S1x91x256.size inb_S1x12720x256_S1x91x256_0_8534_0).emb x) :=
  piece_ok x0 x1 x2 x3 (len := 91) 68 8534 (by omega) rfl (by norm_num [PairIndex.off]) _
    (fun u r e k1 k2 hk1 hk2 => seg_apply 69 68 (k0_pay4 x0 x1) (k0_pay5 x0 x2) (k0_pay6 x3) slices_S160x256_o69_0_S91x256 slices_S160x256_o68_0_S1x256 broadcasts_S1x256_S91x256 broadcasts_S1x256_S91x256 shapeCasts_S91x256_S1x91x256 u r e k1 k2 hk1 hk2)
    inb_S1x12720x256_S1x91x256_0_8534_0

/-- The store of first member 69: rows 8625 … 8714. -/
theorem pc69 (x0 : Vec Ideal S1x160x256 .f32) (x1 x2 : Vec Ideal S256x256 .f32) (x3 : Vec Ideal S256 .f32) :
    ∀ x : (Rect.unit (s := S1x12720x256) ![0, 8625, 0] S1x90x256.size inb_S1x12720x256_S1x90x256_0_8625_0).shape.Idx,
      (k0_pay91 (k0_pay4 x0 x1) (k0_pay5 x0 x2) (k0_pay6 x3)) x = blockFn x0 x1 x2 x3 ((Rect.unit (s := S1x12720x256) ![0, 8625, 0] S1x90x256.size inb_S1x12720x256_S1x90x256_0_8625_0).emb x) :=
  piece_ok x0 x1 x2 x3 (len := 90) 69 8625 (by omega) rfl (by norm_num [PairIndex.off]) _
    (fun u r e k1 k2 hk1 hk2 => seg_apply 70 69 (k0_pay4 x0 x1) (k0_pay5 x0 x2) (k0_pay6 x3) slices_S160x256_o70_0_S90x256 slices_S160x256_o69_0_S1x256 broadcasts_S1x256_S90x256 broadcasts_S1x256_S90x256 shapeCasts_S90x256_S1x90x256 u r e k1 k2 hk1 hk2)
    inb_S1x12720x256_S1x90x256_0_8625_0

/-- The store of first member 70: rows 8715 … 8803. -/
theorem pc70 (x0 : Vec Ideal S1x160x256 .f32) (x1 x2 : Vec Ideal S256x256 .f32) (x3 : Vec Ideal S256 .f32) :
    ∀ x : (Rect.unit (s := S1x12720x256) ![0, 8715, 0] S1x89x256.size inb_S1x12720x256_S1x89x256_0_8715_0).shape.Idx,
      (k0_pay92 (k0_pay4 x0 x1) (k0_pay5 x0 x2) (k0_pay6 x3)) x = blockFn x0 x1 x2 x3 ((Rect.unit (s := S1x12720x256) ![0, 8715, 0] S1x89x256.size inb_S1x12720x256_S1x89x256_0_8715_0).emb x) :=
  piece_ok x0 x1 x2 x3 (len := 89) 70 8715 (by omega) rfl (by norm_num [PairIndex.off]) _
    (fun u r e k1 k2 hk1 hk2 => seg_apply 71 70 (k0_pay4 x0 x1) (k0_pay5 x0 x2) (k0_pay6 x3) slices_S160x256_o71_0_S89x256 slices_S160x256_o70_0_S1x256 broadcasts_S1x256_S89x256 broadcasts_S1x256_S89x256 shapeCasts_S89x256_S1x89x256 u r e k1 k2 hk1 hk2)
    inb_S1x12720x256_S1x89x256_0_8715_0

/-- The store of first member 71: rows 8804 … 8891. -/
theorem pc71 (x0 : Vec Ideal S1x160x256 .f32) (x1 x2 : Vec Ideal S256x256 .f32) (x3 : Vec Ideal S256 .f32) :
    ∀ x : (Rect.unit (s := S1x12720x256) ![0, 8804, 0] S1x88x256.size inb_S1x12720x256_S1x88x256_0_8804_0).shape.Idx,
      (k0_pay93 (k0_pay4 x0 x1) (k0_pay5 x0 x2) (k0_pay6 x3)) x = blockFn x0 x1 x2 x3 ((Rect.unit (s := S1x12720x256) ![0, 8804, 0] S1x88x256.size inb_S1x12720x256_S1x88x256_0_8804_0).emb x) :=
  piece_ok x0 x1 x2 x3 (len := 88) 71 8804 (by omega) rfl (by norm_num [PairIndex.off]) _
    (fun u r e k1 k2 hk1 hk2 => seg_apply 72 71 (k0_pay4 x0 x1) (k0_pay5 x0 x2) (k0_pay6 x3) slices_S160x256_o72_0_S88x256 slices_S160x256_o71_0_S1x256 broadcasts_S1x256_S88x256 broadcasts_S1x256_S88x256 shapeCasts_S88x256_S1x88x256 u r e k1 k2 hk1 hk2)
    inb_S1x12720x256_S1x88x256_0_8804_0

/-- The store of first member 72: rows 8892 … 8978. -/
theorem pc72 (x0 : Vec Ideal S1x160x256 .f32) (x1 x2 : Vec Ideal S256x256 .f32) (x3 : Vec Ideal S256 .f32) :
    ∀ x : (Rect.unit (s := S1x12720x256) ![0, 8892, 0] S1x87x256.size inb_S1x12720x256_S1x87x256_0_8892_0).shape.Idx,
      (k0_pay96 (k0_pay6 x3) (k0_pay94 (k0_pay5 x0 x2)) (k0_pay95 (k0_pay4 x0 x1))) x = blockFn x0 x1 x2 x3 ((Rect.unit (s := S1x12720x256) ![0, 8892, 0] S1x87x256.size inb_S1x12720x256_S1x87x256_0_8892_0).emb x) :=
  piece_ok x0 x1 x2 x3 (len := 87) 72 8892 (by omega) rfl (by norm_num [PairIndex.off]) _
    (fun u r e k1 k2 hk1 hk2 => seg_apply 73 72 (k0_pay4 x0 x1) (k0_pay5 x0 x2) (k0_pay6 x3) slices_S160x256_o73_0_S87x256 slices_S160x256_o72_0_S1x256 broadcasts_S1x256_S87x256 broadcasts_S1x256_S87x256 shapeCasts_S87x256_S1x87x256 u r e k1 k2 hk1 hk2)
    inb_S1x12720x256_S1x87x256_0_8892_0

/-- The store of first member 73: rows 8979 … 9064. -/
theorem pc73 (x0 : Vec Ideal S1x160x256 .f32) (x1 x2 : Vec Ideal S256x256 .f32) (x3 : Vec Ideal S256 .f32) :
    ∀ x : (Rect.unit (s := S1x12720x256) ![0, 8979, 0] S1x86x256.size inb_S1x12720x256_S1x86x256_0_8979_0).shape.Idx,
      (k0_pay97 (k0_pay4 x0 x1) (k0_pay5 x0 x2) (k0_pay6 x3)) x = blockFn x0 x1 x2 x3 ((Rect.unit (s := S1x12720x256) ![0, 8979, 0] S1x86x256.size inb_S1x12720x256_S1x86x256_0_8979_0).emb x) :=
  piece_ok x0 x1 x2 x3 (len := 86) 73 8979 (by omega) rfl (by norm_num [PairIndex.off]) _
    (fun u r e k1 k2 hk1 hk2 => seg_apply 74 73 (k0_pay4 x0 x1) (k0_pay5 x0 x2) (k0_pay6 x3) slices_S160x256_o74_0_S86x256 slices_S160x256_o73_0_S1x256 broadcasts_S1x256_S86x256 broadcasts_S1x256_S86x256 shapeCasts_S86x256_S1x86x256 u r e k1 k2 hk1 hk2)
    inb_S1x12720x256_S1x86x256_0_8979_0

/-- The store of first member 74: rows 9065 … 9149. -/
theorem pc74 (x0 : Vec Ideal S1x160x256 .f32) (x1 x2 : Vec Ideal S256x256 .f32) (x3 : Vec Ideal S256 .f32) :
    ∀ x : (Rect.unit (s := S1x12720x256) ![0, 9065, 0] S1x85x256.size inb_S1x12720x256_S1x85x256_0_9065_0).shape.Idx,
      (k0_pay98 (k0_pay4 x0 x1) (k0_pay5 x0 x2) (k0_pay6 x3)) x = blockFn x0 x1 x2 x3 ((Rect.unit (s := S1x12720x256) ![0, 9065, 0] S1x85x256.size inb_S1x12720x256_S1x85x256_0_9065_0).emb x) :=
  piece_ok x0 x1 x2 x3 (len := 85) 74 9065 (by omega) rfl (by norm_num [PairIndex.off]) _
    (fun u r e k1 k2 hk1 hk2 => seg_apply 75 74 (k0_pay4 x0 x1) (k0_pay5 x0 x2) (k0_pay6 x3) slices_S160x256_o75_0_S85x256 slices_S160x256_o74_0_S1x256 broadcasts_S1x256_S85x256 broadcasts_S1x256_S85x256 shapeCasts_S85x256_S1x85x256 u r e k1 k2 hk1 hk2)
    inb_S1x12720x256_S1x85x256_0_9065_0

/-- The store of first member 75: rows 9150 … 9233. -/
theorem pc75 (x0 : Vec Ideal S1x160x256 .f32) (x1 x2 : Vec Ideal S256x256 .f32) (x3 : Vec Ideal S256 .f32) :
    ∀ x : (Rect.unit (s := S1x12720x256) ![0, 9150, 0] S1x84x256.size inb_S1x12720x256_S1x84x256_0_9150_0).shape.Idx,
      (k0_pay99 (k0_pay4 x0 x1) (k0_pay5 x0 x2) (k0_pay6 x3)) x = blockFn x0 x1 x2 x3 ((Rect.unit (s := S1x12720x256) ![0, 9150, 0] S1x84x256.size inb_S1x12720x256_S1x84x256_0_9150_0).emb x) :=
  piece_ok x0 x1 x2 x3 (len := 84) 75 9150 (by omega) rfl (by norm_num [PairIndex.off]) _
    (fun u r e k1 k2 hk1 hk2 => seg_apply 76 75 (k0_pay4 x0 x1) (k0_pay5 x0 x2) (k0_pay6 x3) slices_S160x256_o76_0_S84x256 slices_S160x256_o75_0_S1x256 broadcasts_S1x256_S84x256 broadcasts_S1x256_S84x256 shapeCasts_S84x256_S1x84x256 u r e k1 k2 hk1 hk2)
    inb_S1x12720x256_S1x84x256_0_9150_0

/-- The store of first member 76: rows 9234 … 9316. -/
theorem pc76 (x0 : Vec Ideal S1x160x256 .f32) (x1 x2 : Vec Ideal S256x256 .f32) (x3 : Vec Ideal S256 .f32) :
    ∀ x : (Rect.unit (s := S1x12720x256) ![0, 9234, 0] S1x83x256.size inb_S1x12720x256_S1x83x256_0_9234_0).shape.Idx,
      (k0_pay101 (k0_pay100 (k0_pay4 x0 x1) (k0_pay5 x0 x2) (k0_pay6 x3))) x = blockFn x0 x1 x2 x3 ((Rect.unit (s := S1x12720x256) ![0, 9234, 0] S1x83x256.size inb_S1x12720x256_S1x83x256_0_9234_0).emb x) :=
  piece_ok x0 x1 x2 x3 (len := 83) 76 9234 (by omega) rfl (by norm_num [PairIndex.off]) _
    (fun u r e k1 k2 hk1 hk2 => seg_apply 77 76 (k0_pay4 x0 x1) (k0_pay5 x0 x2) (k0_pay6 x3) slices_S160x256_o77_0_S83x256 slices_S160x256_o76_0_S1x256 broadcasts_S1x256_S83x256 broadcasts_S1x256_S83x256 shapeCasts_S83x256_S1x83x256 u r e k1 k2 hk1 hk2)
    inb_S1x12720x256_S1x83x256_0_9234_0

/-- The store of first member 77: rows 9317 … 9398. -/
theorem pc77 (x0 : Vec Ideal S1x160x256 .f32) (x1 x2 : Vec Ideal S256x256 .f32) (x3 : Vec Ideal S256 .f32) :
    ∀ x : (Rect.unit (s := S1x12720x256) ![0, 9317, 0] S1x82x256.size inb_S1x12720x256_S1x82x256_0_9317_0).shape.Idx,
      (k0_pay102 (k0_pay4 x0 x1) (k0_pay5 x0 x2) (k0_pay6 x3)) x = blockFn x0 x1 x2 x3 ((Rect.unit (s := S1x12720x256) ![0, 9317, 0] S1x82x256.size inb_S1x12720x256_S1x82x256_0_9317_0).emb x) :=
  piece_ok x0 x1 x2 x3 (len := 82) 77 9317 (by omega) rfl (by norm_num [PairIndex.off]) _
    (fun u r e k1 k2 hk1 hk2 => seg_apply 78 77 (k0_pay4 x0 x1) (k0_pay5 x0 x2) (k0_pay6 x3) slices_S160x256_o78_0_S82x256 slices_S160x256_o77_0_S1x256 broadcasts_S1x256_S82x256 broadcasts_S1x256_S82x256 shapeCasts_S82x256_S1x82x256 u r e k1 k2 hk1 hk2)
    inb_S1x12720x256_S1x82x256_0_9317_0

/-- The store of first member 78: rows 9399 … 9479. -/
theorem pc78 (x0 : Vec Ideal S1x160x256 .f32) (x1 x2 : Vec Ideal S256x256 .f32) (x3 : Vec Ideal S256 .f32) :
    ∀ x : (Rect.unit (s := S1x12720x256) ![0, 9399, 0] S1x81x256.size inb_S1x12720x256_S1x81x256_0_9399_0).shape.Idx,
      (k0_pay103 (k0_pay4 x0 x1) (k0_pay5 x0 x2) (k0_pay6 x3)) x = blockFn x0 x1 x2 x3 ((Rect.unit (s := S1x12720x256) ![0, 9399, 0] S1x81x256.size inb_S1x12720x256_S1x81x256_0_9399_0).emb x) :=
  piece_ok x0 x1 x2 x3 (len := 81) 78 9399 (by omega) rfl (by norm_num [PairIndex.off]) _
    (fun u r e k1 k2 hk1 hk2 => seg_apply 79 78 (k0_pay4 x0 x1) (k0_pay5 x0 x2) (k0_pay6 x3) slices_S160x256_o79_0_S81x256 slices_S160x256_o78_0_S1x256 broadcasts_S1x256_S81x256 broadcasts_S1x256_S81x256 shapeCasts_S81x256_S1x81x256 u r e k1 k2 hk1 hk2)
    inb_S1x12720x256_S1x81x256_0_9399_0

/-- The store of first member 79: rows 9480 … 9559. -/
theorem pc79 (x0 : Vec Ideal S1x160x256 .f32) (x1 x2 : Vec Ideal S256x256 .f32) (x3 : Vec Ideal S256 .f32) :
    ∀ x : (Rect.unit (s := S1x12720x256) ![0, 9480, 0] S1x80x256.size inb_S1x12720x256_S1x80x256_0_9480_0).shape.Idx,
      (k0_pay104 (k0_pay4 x0 x1) (k0_pay5 x0 x2) (k0_pay6 x3)) x = blockFn x0 x1 x2 x3 ((Rect.unit (s := S1x12720x256) ![0, 9480, 0] S1x80x256.size inb_S1x12720x256_S1x80x256_0_9480_0).emb x) :=
  piece_ok x0 x1 x2 x3 (len := 80) 79 9480 (by omega) rfl (by norm_num [PairIndex.off]) _
    (fun u r e k1 k2 hk1 hk2 => seg_apply 80 79 (k0_pay4 x0 x1) (k0_pay5 x0 x2) (k0_pay6 x3) slices_S160x256_o80_0_S80x256 slices_S160x256_o79_0_S1x256 broadcasts_S1x256_S80x256 broadcasts_S1x256_S80x256 shapeCasts_S80x256_S1x80x256 u r e k1 k2 hk1 hk2)
    inb_S1x12720x256_S1x80x256_0_9480_0

end Cert.KernelIdeal.KernelValue

end
-- ==== Proof.KernelStores3.lean ====
/-
  Stores of first members 80 … 119 of one grid point: each holds, at row r of its rectangle and feature e, row
  i + 1 + r of the lower projection plus row i of the upper one plus the bias at e, and sits at rows off i … of the packed
  axis, where position off i + r holds the pair (i, i + 1 + r); so it is the block function restricted to its rectangle.
-/
import proofs.«138512_j66692252172937_2_alg».proof.Proof.KernelSeg
import proofs.«138512_j66692252172937_2_alg».proof.Proof.KernelPieces

set_option maxRecDepth 16384

noncomputable section

namespace Cert.KernelIdeal.KernelValue

open Cert.KernelIdeal Cert.KernelIdeal.Gen Idealize.ShloMosaic Idealize.ShloMosaic.TcCoe Idealize.ShloMosaic.ValueIdx

/-- The store of first member 80: rows 9560 … 9638. -/
theorem pc80 (x0 : Vec Ideal S1x160x256 .f32) (x1 x2 : Vec Ideal S256x256 .f32) (x3 : Vec Ideal S256 .f32) :
    ∀ x : (Rect.unit (s := S1x12720x256) ![0, 9560, 0] S1x79x256.size inb_S1x12720x256_S1x79x256_0_9560_0).shape.Idx,
      (k0_pay105 (k0_pay4 x0 x1) (k0_pay5 x0 x2) (k0_pay6 x3)) x = blockFn x0 x1 x2 x3 ((Rect.unit (s := S1x12720x256) ![0, 9560, 0] S1x79x256.size inb_S1x12720x256_S1x79x256_0_9560_0).emb x) :=
  piece_ok x0 x1 x2 x3 (len := 79) 80 9560 (by omega) rfl (by norm_num [PairIndex.off]) _
    (fun u r e k1 k2 hk1 hk2 => seg_apply 81 80 (k0_pay4 x0 x1) (k0_pay5 x0 x2) (k0_pay6 x3) slices_S160x256_o81_0_S79x256 slices_S160x256_o80_0_S1x256 broadcasts_S1x256_S79x256 broadcasts_S1x256_S79x256 shapeCasts_S79x256_S1x79x256 u r e k1 k2 hk1 hk2)
    inb_S1x12720x256_S1x79x256_0_9560_0

/-- The store of first member 81: rows 9639 … 9716. -/
theorem pc81 (x0 : Vec Ideal S1x160x256 .f32) (x1 x2 : Vec Ideal S256x256 .f32) (x3 : Vec Ideal S256 .f32) :
    ∀ x : (Rect.unit (s := S1x12720x256) ![0, 9639, 0] S1x78x256.size inb_S1x12720x256_S1x78x256_0_9639_0).shape.Idx,
      (k0_pay107 (k0_pay106 (k0_pay4 x0 x1) (k0_pay5 x0 x2) (k0_pay6 x3))) x = blockFn x0 x1 x2 x3 ((Rect.unit (s := S1x12720x256) ![0, 9639, 0] S1x78x256.size inb_S1x12720x256_S1x78x256_0_9639_0).emb x) :=
  piece_ok x0 x1 x2 x3 (len := 78) 81 9639 (by omega) rfl (by norm_num [PairIndex.off]) _
    (fun u r e k1 k2 hk1 hk2 => seg_apply 82 81 (k0_pay4 x0 x1) (k0_pay5 x0 x2) (k0_pay6 x3) slices_S160x256_o82_0_S78x256 slices_S160x256_o81_0_S1x256 broadcasts_S1x256_S78x256 broadcasts_S1x256_S78x256 shapeCasts_S78x256_S1x78x256 u r e k1 k2 hk1 hk2)
    inb_S1x12720x256_S1x78x256_0_9639_0

/-- The store of first member 82: rows 9717 … 9793. -/
theorem pc82 (x0 : Vec Ideal S1x160x256 .f32) (x1 x2 : Vec Ideal S256x256 .f32) (x3 : Vec Ideal S256 .f32) :
    ∀ x : (Rect.unit (s := S1x12720x256) ![0, 9717, 0] S1x77x256.size inb_S1x12720x256_S1x77x256_0_9717_0).shape.Idx,
      (k0_pay108 (k0_pay4 x0 x1) (k0_pay5 x0 x2) (k0_pay6 x3)) x = blockFn x0 x1 x2 x3 ((Rect.unit (s := S1x12720x256) ![0, 9717, 0] S1x77x256.size inb_S1x12720x256_S1x77x256_0_9717_0).emb x) :=
  piece_ok x0 x1 x2 x3 (len := 77) 82 9717 (by omega) rfl (by norm_num [PairIndex.off]) _
    (fun u r e k1 k2 hk1 hk2 => seg_apply 83 82 (k0_pay4 x0 x1) (k0_pay5 x0 x2) (k0_pay6 x3) slices_S160x256_o83_0_S77x256 slices_S160x256_o82_0_S1x256 broadcasts_S1x256_S77x256 broadcasts_S1x256_S77x256 shapeCasts_S77x256_S1x77x256 u r e k1 k2 hk1 hk2)
    inb_S1x12720x256_S1x77x256_0_9717_0

/-- The store of first member 83: rows 9794 … 9869. -/
theorem pc83 (x0 : Vec Ideal S1x160x256 .f32) (x1 x2 : Vec Ideal S256x256 .f32) (x3 : Vec Ideal S256 .f32) :
    ∀ x : (Rect.unit (s := S1x12720x256) ![0, 9794, 0] S1x76x256.size inb_S1x12720x256_S1x76x256_0_9794_0).shape.Idx,
      (k0_pay109 (k0_pay4 x0 x1) (k0_pay5 x0 x2) (k0_pay6 x3)) x = blockFn x0 x1 x2 x3 ((Rect.unit (s := S1x12720x256) ![0, 9794, 0] S1x76x256.size inb_S1x12720x256_S1x76x256_0_9794_0).emb x) :=
  piece_ok x0 x1 x2 x3 (len := 76) 83 9794 (by omega) rfl (by norm_num [PairIndex.off]) _
    (fun u r e k1 k2 hk1 hk2 => seg_apply 84 83 (k0_pay4 x0 x1) (k0_pay5 x0 x2) (k0_pay6 x3) slices_S160x256_o84_0_S76x256 slices_S160x256_o83_0_S1x256 broadcasts_S1x256_S76x256 broadcasts_S1x256_S76x256 shapeCasts_S76x256_S1x76x256 u r e k1 k2 hk1 hk2)
    inb_S1x12720x256_S1x76x256_0_9794_0

/-- The store of first member 84: rows 9870 … 9944. -/
theorem pc84 (x0 : Vec Ideal S1x160x256 .f32) (x1 x2 : Vec Ideal S256x256 .f32) (x3 : Vec Ideal S256 .f32) :
    ∀ x : (Rect.unit (s := S1x12720x256) ![0, 9870, 0] S1x75x256.size inb_S1x12720x256_S1x75x256_0_9870_0).shape.Idx,
      (k0_pay110 (k0_pay4 x0 x1) (k0_pay5 x0 x2) (k0_pay6 x3)) x = blockFn x0 x1 x2 x3 ((Rect.unit (s := S1x12720x256) ![0, 9870, 0] S1x75x256.size inb_S1x12720x256_S1x75x256_0_9870_0).emb x) :=
  piece_ok x0 x1 x2 x3 (len := 75) 84 9870 (by omega) rfl (by norm_num [PairIndex.off]) _
    (fun u r e k1 k2 hk1 hk2 => seg_apply 85 84 (k0_pay4 x0 x1) (k0_pay5 x0 x2) (k0_pay6 x3) slices_S160x256_o85_0_S75x256 slices_S160x256_o84_0_S1x256 broadcasts_S1x256_S75x256 broadcasts_S1x256_S75x256 shapeCasts_S75x256_S1x75x256 u r e k1 k2 hk1 hk2)
    inb_S1x12720x256_S1x75x256_0_9870_0

/-- The store of first member 85: rows 9945 … 10018. -/
theorem pc85 (x0 : Vec Ideal S1x160x256 .f32) (x1 x2 : Vec Ideal S256x256 .f32) (x3 : Vec Ideal S256 .f32) :
    ∀ x : (Rect.unit (s := S1x12720x256) ![0, 9945, 0] S1x74x256.size inb_S1x12720x256_S1x74x256_0_9945_0).shape.Idx,
      (k0_pay111 (k0_pay4 x0 x1) (k0_pay5 x0 x2) (k0_pay6 x3)) x = blockFn x0 x1 x2 x3 ((Rect.unit (s := S1x12720x256) ![0, 9945, 0] S1x74x256.size inb_S1x12720x256_S1x74x256_0_9945_0).emb x) :=
  piece_ok x0 x1 x2 x3 (len := 74) 85 9945 (by omega) rfl (by norm_num [PairIndex.off]) _
    (fun u r e k1 k2 hk1 hk2 => seg_apply 86 85 (k0_pay4 x0 x1) (k0_pay5 x0 x2) (k0_pay6 x3) slices_S160x256_o86_0_S74x256 slices_S160x256_o85_0_S1x256 broadcasts_S1x256_S74x256 broadcasts_S1x256_S74x256 shapeCasts_S74x256_S1x74x256 u r e k1 k2 hk1 hk2)
    inb_S1x12720x256_S1x74x256_0_9945_0

/-- The store of first member 86: rows 10019 … 10091. -/
theorem pc86 (x0 : Vec Ideal S1x160x256 .f32) (x1 x2 : Vec Ideal S256x256 .f32) (x3 : Vec Ideal S256 .f32) :
    ∀ x : (Rect.unit (s := S1x12720x256) ![0, 10019, 0] S1x73x256.size inb_S1x12720x256_S1x73x256_0_10019_0).shape.Idx,
      (k0_pay113 (k0_pay4 x0 x1) (k0_pay6 x3) (k0_pay112 (k0_pay5 x0 x2))) x = blockFn x0 x1 x2 x3 ((Rect.unit (s := S1x12720x256) ![0, 10019, 0] S1x73x256.size inb_S1x12720x256_S1x73x256_0_10019_0).emb x) :=
  piece_ok x0 x1 x2 x3 (len := 73) 86 10019 (by omega) rfl (by norm_num [PairIndex.off]) _
    (fun u r e k1 k2 hk1 hk2 => seg_apply 87 86 (k0_pay4 x0 x1) (k0_pay5 x0 x2) (k0_pay6 x3) slices_S160x256_o87_0_S73x256 slices_S160x256_o86_0_S1x256 broadcasts_S1x256_S73x256 broadcasts_S1x256_S73x256 shapeCasts_S73x256_S1x73x256 u r e k1 k2 hk1 hk2)
    inb_S1x12720x256_S1x73x256_0_10019_0

/-- The store of first member 87: rows 10092 … 10163. -/
theorem pc87 (x0 : Vec Ideal S1x160x256 .f32) (x1 x2 : Vec Ideal S256x256 .f32) (x3 : Vec Ideal S256 .f32) :
    ∀ x : (Rect.unit (s := S1x12720x256) ![0, 10092, 0] S1x72x256.size inb_S1x12720x256_S1x72x256_0_10092_0).shape.Idx,
      (k0_pay114 (k0_pay4 x0 x1) (k0_pay5 x0 x2) (k0_pay6 x3)) x = blockFn x0 x1 x2 x3 ((Rect.unit (s := S1x12720x256) ![0, 10092, 0] S1x72x256.size inb_S1x12720x256_S1x72x256_0_10092_0).emb x) :=
  piece_ok x0 x1 x2 x3 (len := 72) 87 10092 (by omega) rfl (by norm_num [PairIndex.off]) _
    (fun u r e k1 k2 hk1 hk2 => seg_apply 88 87 (k0_pay4 x0 x1) (k0_pay5 x0 x2) (k0_pay6 x3) slices_S160x256_o88_0_S72x256 slices_S160x256_o87_0_S1x256 broadcasts_S1x256_S72x256 broadcasts_S1x256_S72x256 shapeCasts_S72x256_S1x72x256 u r e k1 k2 hk1 hk2)
    inb_S1x12720x256_S1x72x256_0_10092_0

/-- The store of first member 88: rows 10164 … 10234. -/
theorem pc88 (x0 : Vec Ideal S1x160x256 .f32) (x1 x2 : Vec Ideal S256x256 .f32) (x3 : Vec Ideal S256 .f32) :
    ∀ x : (Rect.unit (s := S1x12720x256) ![0, 10164, 0] S1x71x256.size inb_S1x12720x256_S1x71x256_0_10164_0).shape.Idx,
      (k0_pay115 (k0_pay4 x0 x1) (k0_pay5 x0 x2) (k0_pay6 x3)) x = blockFn x0 x1 x2 x3 ((Rect.unit (s := S1x12720x256) ![0, 10164, 0] S1x71x256.size inb_S1x12720x256_S1x71x256_0_10164_0).emb x) :=
  piece_ok x0 x1 x2 x3 (len := 71) 88 10164 (by omega) rfl (by norm_num [PairIndex.off]) _
    (fun u r e k1 k2 hk1 hk2 => seg_apply 89 88 (k0_pay4 x0 x1) (k0_pay5 x0 x2) (k0_pay6 x3) slices_S160x256_o89_0_S71x256 slices_S160x256_o88_0_S1x256 broadcasts_S1x256_S71x256 broadcasts_S1x256_S71x256 shapeCasts_S71x256_S1x71x256 u r e k1 k2 hk1 hk2)
    inb_S1x12720x256_S1x71x256_0_10164_0

/-- The store of first member 89: rows 10235 … 10304. -/
theorem pc89 (x0 : Vec Ideal S1x160x256 .f32) (x1 x2 : Vec Ideal S256x256 .f32) (x3 : Vec Ideal S256 .f32) :
    ∀ x : (Rect.unit (s := S1x12720x256) ![0, 10235, 0] S1x70x256.size inb_S1x12720x256_S1x70x256_0_10235_0).shape.Idx,
      (k0_pay116 (k0_pay4 x0 x1) (k0_pay5 x0 x2) (k0_pay6 x3)) x = blockFn x0 x1 x2 x3 ((Rect.unit (s := S1x12720x256) ![0, 10235, 0] S1x70x256.size inb_S1x12720x256_S1x70x256_0_10235_0).emb x) :=
  piece_ok x0 x1 x2 x3 (len := 70) 89 10235 (by omega) rfl (by norm_num [PairIndex.off]) _
    (fun u r e k1 k2 hk1 hk2 => seg_apply 90 89 (k0_pay4 x0 x1) (k0_pay5 x0 x2) (k0_pay6 x3) slices_S160x256_o90_0_S70x256 slices_S160x256_o89_0_S1x256 broadcasts_S1x256_S70x256 broadcasts_S1x256_S70x256 shapeCasts_S70x256_S1x70x256 u r e k1 k2 hk1 hk2)
    inb_S1x12720x256_S1x70x256_0_10235_0

/-- The store of first member 90: rows 10305 … 10373. -/
theorem pc90 (x0 : Vec Ideal S1x160x256 .f32) (x1 x2 : Vec Ideal S256x256 .f32) (x3 : Vec Ideal S256 .f32) :
    ∀ x : (Rect.unit (s := S1x12720x256) ![0, 10305, 0] S1x69x256.size inb_S1x12720x256_S1x69x256_0_10305_0).shape.Idx,
      (k0_pay118 (k0_pay117 (k0_pay4 x0 x1) (k0_pay5 x0 x2) (k0_pay6 x3))) x = blockFn x0 x1 x2 x3 ((Rect.unit (s := S1x12720x256) ![0, 10305, 0] S1x69x256.size inb_S1x12720x256_S1x69x256_0_10305_0).emb x) :=
  piece_ok x0 x1 x2 x3 (len := 69) 90 10305 (by omega) rfl (by norm_num [PairIndex.off]) _
    (fun u r e k1 k2 hk1 hk2 => seg_apply 91 90 (k0_pay4 x0 x1) (k0_pay5 x0 x2) (k0_pay6 x3) slices_S160x256_o91_0_S69x256 slices_S160x256_o90_0_S1x256 broadcasts_S1x256_S69x256 broadcasts_S1x256_S69x256 shapeCasts_S69x256_S1x69x256 u r e k1 k2 hk1 hk2)
    inb_S1x12720x256_S1x69x256_0_10305_0

/-- The store of first member 91: rows 10374 … 10441. -/
theorem pc91 (x0 : Vec Ideal S1x160x256 .f32) (x1 x2 : Vec Ideal S256x256 .f32) (x3 : Vec Ideal S256 .f32) :
    ∀ x : (Rect.unit (s := S1x12720x256) ![0, 10374, 0] S1x68x256.size inb_S1x12720x256_S1x68x256_0_10374_0).shape.Idx,
      (k0_pay119 (k0_pay4 x0 x1) (k0_pay5 x0 x2) (k0_pay6 x3)) x = blockFn x0 x1 x2 x3 ((Rect.unit (s := S1x12720x256) ![0, 10374, 0] S1x68x256.size inb_S1x12720x256_S1x68x256_0_10374_0).emb x) :=
  piece_ok x0 x1 x2 x3 (len := 68) 91 10374 (by omega) rfl (by norm_num [PairIndex.off]) _
    (fun u r e k1 k2 hk1 hk2 => seg_apply 92 91 (k0_pay4 x0 x1) (k0_pay5 x0 x2) (k0_pay6 x3) slices_S160x256_o92_0_S68x256 slices_S160x256_o91_0_S1x256 broadcasts_S1x256_S68x256 broadcasts_S1x256_S68x256 shapeCasts_S68x256_S1x68x256 u r e k1 k2 hk1 hk2)
    inb_S1x12720x256_S1x68x256_0_10374_0

/-- The store of first member 92: rows 10442 … 10508. -/
theorem pc92 (x0 : Vec Ideal S1x160x256 .f32) (x1 x2 : Vec Ideal S256x256 .f32) (x3 : Vec Ideal S256 .f32) :
    ∀ x : (Rect.unit (s := S1x12720x256) ![0, 10442, 0] S1x67x256.size inb_S1x12720x256_S1x67x256_0_10442_0).shape.Idx,
      (k0_pay120 (k0_pay4 x0 x1) (k0_pay5 x0 x2) (k0_pay6 x3)) x = blockFn x0 x1 x2 x3 ((Rect.unit (s := S1x12720x256) ![0, 10442, 0] S1x67x256.size inb_S1x12720x256_S1x67x256_0_10442_0).emb x) :=
  piece_ok x0 x1 x2 x3 (len := 67) 92 10442 (by omega) rfl (by norm_num [PairIndex.off]) _
    (fun u r e k1 k2 hk1 hk2 => seg_apply 93 92 (k0_pay4 x0 x1) (k0_pay5 x0 x2) (k0_pay6 x3) slices_S160x256_o93_0_S67x256 slices_S160x256_o92_0_S1x256 broadcasts_S1x256_S67x256 broadcasts_S1x256_S67x256 shapeCasts_S67x256_S1x67x256 u r e k1 k2 hk1 hk2)
    inb_S1x12720x256_S1x67x256_0_10442_0

/-- The store of first member 93: rows 10509 … 10574. -/
theorem pc93 (x0 : Vec Ideal S1x160x256 .f32) (x1 x2 : Vec Ideal S256x256 .f32) (x3 : Vec Ideal S256 .f32) :
    ∀ x : (Rect.unit (s := S1x12720x256) ![0, 10509, 0] S1x66x256.size inb_S1x12720x256_S1x66x256_0_10509_0).shape.Idx,
      (k0_pay121 (k0_pay4 x0 x1) (k0_pay5 x0 x2) (k0_pay6 x3)) x = blockFn x0 x1 x2 x3 ((Rect.unit (s := S1x12720x256) ![0, 10509, 0] S1x66x256.size inb_S1x12720x256_S1x66x256_0_10509_0).emb x) :=
  piece_ok x0 x1 x2 x3 (len := 66) 93 10509 (by omega) rfl (by norm_num [PairIndex.off]) _
    (fun u r e k1 k2 hk1 hk2 => seg_apply 94 93 (k0_pay4 x0 x1) (k0_pay5 x0 x2) (k0_pay6 x3) slices_S160x256_o94_0_S66x256 slices_S160x256_o93_0_S1x256 broadcasts_S1x256_S66x256 broadcasts_S1x256_S66x256 shapeCasts_S66x256_S1x66x256 u r e k1 k2 hk1 hk2)
    inb_S1x12720x256_S1x66x256_0_10509_0

/-- The store of first member 94: rows 10575 … 10639. -/
theorem pc94 (x0 : Vec Ideal S1x160x256 .f32) (x1 x2 : Vec Ideal S256x256 .f32) (x3 : Vec Ideal S256 .f32) :
    ∀ x : (Rect.unit (s := S1x12720x256) ![0, 10575, 0] S1x65x256.size inb_S1x12720x256_S1x65x256_0_10575_0).shape.Idx,
      (k0_pay122 (k0_pay4 x0 x1) (k0_pay5 x0 x2) (k0_pay6 x3)) x = blockFn x0 x1 x2 x3 ((Rect.unit (s := S1x12720x256) ![0, 10575, 0] S1x65x256.size inb_S1x12720x256_S1x65x256_0_10575_0).emb x) :=
  piece_ok x0 x1 x2 x3 (len := 65) 94 10575 (by omega) rfl (by norm_num [PairIndex.off]) _
    (fun u r e k1 k2 hk1 hk2 => seg_apply 95 94 (k0_pay4 x0 x1) (k0_pay5 x0 x2) (k0_pay6 x3) slices_S160x256_o95_0_S65x256 slices_S160x256_o94_0_S1x256 broadcasts_S1x256_S65x256 broadcasts_S1x256_S65x256 shapeCasts_S65x256_S1x65x256 u r e k1 k2 hk1 hk2)
    inb_S1x12720x256_S1x65x256_0_10575_0

/-- The store of first member 95: rows 10640 … 10703. -/
theorem pc95 (x0 : Vec Ideal S1x160x256 .f32) (x1 x2 : Vec Ideal S256x256 .f32) (x3 : Vec Ideal S256 .f32) :
    ∀ x : (Rect.unit (s := S1x12720x256) ![0, 10640, 0] S1x64x256.size inb_S1x12720x256_S1x64x256_0_10640_0).shape.Idx,
      (k0_pay124 (k0_pay6 x3) (k0_pay123 (k0_pay4 x0 x1) (k0_pay5 x0 x2))) x = blockFn x0 x1 x2 x3 ((Rect.unit (s := S1x12720x256) ![0, 10640, 0] S1x64x256.size inb_S1x12720x256_S1x64x256_0_10640_0).emb x) :=
  piece_ok x0 x1 x2 x3 (len := 64) 95 10640 (by omega) rfl (by norm_num [PairIndex.off]) _
    (fun u r e k1 k2 hk1 hk2 => seg_apply 96 95 (k0_pay4 x0 x1) (k0_pay5 x0 x2) (k0_pay6 x3) slices_S160x256_o96_0_S64x256 slices_S160x256_o95_0_S1x256 broadcasts_S1x256_S64x256 broadcasts_S1x256_S64x256 shapeCasts_S64x256_S1x64x256 u r e k1 k2 hk1 hk2)
    inb_S1x12720x256_S1x64x256_0_10640_0

/-- The store of first member 96: rows 10704 … 10766. -/
theorem pc96 (x0 : Vec Ideal S1x160x256 .f32) (x1 x2 : Vec Ideal S256x256 .f32) (x3 : Vec Ideal S256 .f32) :
    ∀ x : (Rect.unit (s := S1x12720x256) ![0, 10704, 0] S1x63x256.size inb_S1x12720x256_S1x63x256_0_10704_0).shape.Idx,
      (k0_pay125 (k0_pay4 x0 x1) (k0_pay5 x0 x2) (k0_pay6 x3)) x = blockFn x0 x1 x2 x3 ((Rect.unit (s := S1x12720x256) ![0, 10704, 0] S1x63x256.size inb_S1x12720x256_S1x63x256_0_10704_0).emb x) :=
  piece_ok x0 x1 x2 x3 (len := 63) 96 10704 (by omega) rfl (by norm_num [PairIndex.off]) _
    (fun u r e k1 k2 hk1 hk2 => seg_apply 97 96 (k0_pay4 x0 x1) (k0_pay5 x0 x2) (k0_pay6 x3) slices_S160x256_o97_0_S63x256 slices_S160x256_o96_0_S1x256 broadcasts_S1x256_S63x256 broadcasts_S1x256_S63x256 shapeCasts_S63x256_S1x63x256 u r e k1 k2 hk1 hk2)
    inb_S1x12720x256_S1x63x256_0_10704_0

/-- The store of first member 97: rows 10767 … 10828. -/
theorem pc97 (x0 : Vec Ideal S1x160x256 .f32) (x1 x2 : Vec Ideal S256x256 .f32) (x3 : Vec Ideal S256 .f32) :
    ∀ x : (Rect.unit (s := S1x12720x256) ![0, 10767, 0] S1x62x256.size inb_S1x12720x256_S1x62x256_0_10767_0).shape.Idx,
      (k0_pay126 (k0_pay4 x0 x1) (k0_pay5 x0 x2) (k0_pay6 x3)) x = blockFn x0 x1 x2 x3 ((Rect.unit (s := S1x12720x256) ![0, 10767, 0] S1x62x256.size inb_S1x12720x256_S1x62x256_0_10767_0).emb x) :=
  piece_ok x0 x1 x2 x3 (len := 62) 97 10767 (by omega) rfl (by norm_num [PairIndex.off]) _
    (fun u r e k1 k2 hk1 hk2 => seg_apply 98 97 (k0_pay4 x0 x1) (k0_pay5 x0 x2) (k0_pay6 x3) slices_S160x256_o98_0_S62x256 slices_S160x256_o97_0_S1x256 broadcasts_S1x256_S62x256 broadcasts_S1x256_S62x256 shapeCasts_S62x256_S1x62x256 u r e k1 k2 hk1 hk2)
    inb_S1x12720x256_S1x62x256_0_10767_0

/-- The store of first member 98: rows 10829 … 10889. -/
theorem pc98 (x0 : Vec Ideal S1x160x256 .f32) (x1 x2 : Vec Ideal S256x256 .f32) (x3 : Vec Ideal S256 .f32) :
    ∀ x : (Rect.unit (s := S1x12720x256) ![0, 10829, 0] S1x61x256.size inb_S1x12720x256_S1x61x256_0_10829_0).shape.Idx,
      (k0_pay127 (k0_pay4 x0 x1) (k0_pay5 x0 x2) (k0_pay6 x3)) x = blockFn x0 x1 x2 x3 ((Rect.unit (s := S1x12720x256) ![0, 10829, 0] S1x61x256.size inb_S1x12720x256_S1x61x256_0_10829_0).emb x) :=
  piece_ok x0 x1 x2 x3 (len := 61) 98 10829 (by omega) rfl (by norm_num [PairIndex.off]) _
    (fun u r e k1 k2 hk1 hk2 => seg_apply 99 98 (k0_pay4 x0 x1) (k0_pay5 x0 x2) (k0_pay6 x3) slices_S160x256_o99_0_S61x256 slices_S160x256_o98_0_S1x256 broadcasts_S1x256_S61x256 broadcasts_S1x256_S61x256 shapeCasts_S61x256_S1x61x256 u r e k1 k2 hk1 hk2)
    inb_S1x12720x256_S1x61x256_0_10829_0

/-- The store of first member 99: rows 10890 … 10949. -/
theorem pc99 (x0 : Vec Ideal S1x160x256 .f32) (x1 x2 : Vec Ideal S256x256 .f32) (x3 : Vec Ideal S256 .f32) :
    ∀ x : (Rect.unit (s := S1x12720x256) ![0, 10890, 0] S1x60x256.size inb_S1x12720x256_S1x60x256_0_10890_0).shape.Idx,
      ((k0_pay128 (k0_pay4 x0 x1) (k0_pay5 x0 x2) (k0_pay6 x3))) x = blockFn x0 x1 x2 x3 ((Rect.unit (s := S1x12720x256) ![0, 10890, 0] S1x60x256.size inb_S1x12720x256_S1x60x256_0_10890_0).emb x) :=
  piece_ok x0 x1 x2 x3 (len := 60) 99 10890 (by omega) rfl (by norm_num [PairIndex.off]) _
    (fun u r e k1 k2 hk1 hk2 => seg_apply 100 99 (k0_pay4 x0 x1) (k0_pay5 x0 x2) (k0_pay6 x3) slices_S160x256_o100_0_S60x256 slices_S160x256_o99_0_S1x256 broadcasts_S1x256_S60x256 broadcasts_S1x256_S60x256 shapeCasts_S60x256_S1x60x256 u r e k1 k2 hk1 hk2)
    inb_S1x12720x256_S1x60x256_0_10890_0

/-- The store of first member 100: rows 10950 … 11008. -/
theorem pc100 (x0 : Vec Ideal S1x160x256 .f32) (x1 x2 : Vec Ideal S256x256 .f32) (x3 : Vec Ideal S256 .f32) :
    ∀ x : (Rect.unit (s := S1x12720x256) ![0, 10950, 0] S1x59x256.size inb_S1x12720x256_S1x59x256_0_10950_0).shape.Idx,
      (k0_pay129 (k0_pay4 x0 x1) (k0_pay5 x0 x2) (k0_pay6 x3)) x = blockFn x0 x1 x2 x3 ((Rect.unit (s := S1x12720x256) ![0, 10950, 0] S1x59x256.size inb_S1x12720x256_S1x59x256_0_10950_0).emb x) :=
  piece_ok x0 x1 x2 x3 (len := 59) 100 10950 (by omega) rfl (by norm_num [PairIndex.off]) _
    (fun u r e k1 k2 hk1 hk2 => seg_apply 101 100 (k0_pay4 x0 x1) (k0_pay5 x0 x2) (k0_pay6 x3) slices_S160x256_o101_0_S59x256 slices_S160x256_o100_0_S1x256 broadcasts_S1x256_S59x256 broadcasts_S1x256_S59x256 shapeCasts_S59x256_S1x59x256 u r e k1 k2 hk1 hk2)
    inb_S1x12720x256_S1x59x256_0_10950_0

/-- The store of first member 101: rows 11009 … 11066. -/
theorem pc101 (x0 : Vec Ideal S1x160x256 .f32) (x1 x2 : Vec Ideal S256x256 .f32) (x3 : Vec Ideal S256 .f32) :
    ∀ x : (Rect.unit (s := S1x12720x256) ![0, 11009, 0] S1x58x256.size inb_S1x12720x256_S1x58x256_0_11009_0).shape.Idx,
      (k0_pay130 (k0_pay4 x0 x1) (k0_pay5 x0 x2) (k0_pay6 x3)) x = blockFn x0 x1 x2 x3 ((Rect.unit (s := S1x12720x256) ![0, 11009, 0] S1x58x256.size inb_S1x12720x256_S1x58x256_0_11009_0).emb x) :=
  piece_ok x0 x1 x2 x3 (len := 58) 101 11009 (by omega) rfl (by norm_num [PairIndex.off]) _
    (fun u r e k1 k2 hk1 hk2 => seg_apply 102 101 (k0_pay4 x0 x1) (k0_pay5 x0 x2) (k0_pay6 x3) slices_S160x256_o102_0_S58x256 slices_S160x256_o101_0_S1x256 broadcasts_S1x256_S58x256 broadcasts_S1x256_S58x256 shapeCasts_S58x256_S1x58x256 u r e k1 k2 hk1 hk2)
    inb_S1x12720x256_S1x58x256_0_11009_0

/-- The store of first member 102: rows 11067 … 11123. -/
theorem pc102 (x0 : Vec Ideal S1x160x256 .f32) (x1 x2 : Vec Ideal S256x256 .f32) (x3 : Vec Ideal S256 .f32) :
    ∀ x : (Rect.unit (s := S1x12720x256) ![0, 11067, 0] S1x57x256.size inb_S1x12720x256_S1x57x256_0_11067_0).shape.Idx,
      (k0_pay131 (k0_pay4 x0 x1) (k0_pay5 x0 x2) (k0_pay6 x3)) x = blockFn x0 x1 x2 x3 ((Rect.unit (s := S1x12720x256) ![0, 11067, 0] S1x57x256.size inb_S1x12720x256_S1x57x256_0_11067_0).emb x) :=
  piece_ok x0 x1 x2 x3 (len := 57) 102 11067 (by omega) rfl (by norm_num [PairIndex.off]) _
    (fun u r e k1 k2 hk1 hk2 => seg_apply 103 102 (k0_pay4 x0 x1) (k0_pay5 x0 x2) (k0_pay6 x3) slices_S160x256_o103_0_S57x256 slices_S160x256_o102_0_S1x256 broadcasts_S1x256_S57x256 broadcasts_S1x256_S57x256 shapeCasts_S57x256_S1x57x256 u r e k1 k2 hk1 hk2)
    inb_S1x12720x256_S1x57x256_0_11067_0

/-- The store of first member 103: rows 11124 … 11179. -/
theorem pc103 (x0 : Vec Ideal S1x160x256 .f32) (x1 x2 : Vec Ideal S256x256 .f32) (x3 : Vec Ideal S256 .f32) :
    ∀ x : (Rect.unit (s := S1x12720x256) ![0, 11124, 0] S1x56x256.size inb_S1x12720x256_S1x56x256_0_11124_0).shape.Idx,
      (k0_pay132 (k0_pay4 x0 x1) (k0_pay5 x0 x2) (k0_pay6 x3)) x = blockFn x0 x1 x2 x3 ((Rect.unit (s := S1x12720x256) ![0, 11124, 0] S1x56x256.size inb_S1x12720x256_S1x56x256_0_11124_0).emb x) :=
  piece_ok x0 x1 x2 x3 (len := 56) 103 11124 (by omega) rfl (by norm_num [PairIndex.off]) _
    (fun u r e k1 k2 hk1 hk2 => seg_apply 104 103 (k0_pay4 x0 x1) (k0_pay5 x0 x2) (k0_pay6 x3) slices_S160x256_o104_0_S56x256 slices_S160x256_o103_0_S1x256 broadcasts_S1x256_S56x256 broadcasts_S1x256_S56x256 shapeCasts_S56x256_S1x56x256 u r e k1 k2 hk1 hk2)
    inb_S1x12720x256_S1x56x256_0_11124_0

/-- The store of first member 104: rows 11180 … 11234. -/
theorem pc104 (x0 : Vec Ideal S1x160x256 .f32) (x1 x2 : Vec Ideal S256x256 .f32) (x3 : Vec Ideal S256 .f32) :
    ∀ x : (Rect.unit (s := S1x12720x256) ![0, 11180, 0] S1x55x256.size inb_S1x12720x256_S1x55x256_0_11180_0).shape.Idx,
      (k0_pay134 (k0_pay133 (k0_pay4 x0 x1) (k0_pay5 x0 x2) (k0_pay6 x3))) x = blockFn x0 x1 x2 x3 ((Rect.unit (s := S1x12720x256) ![0, 11180, 0] S1x55x256.size inb_S1x12720x256_S1x55x256_0_11180_0).emb x) :=
  piece_ok x0 x1 x2 x3 (len := 55) 104 11180 (by omega) rfl (by norm_num [PairIndex.off]) _
    (fun u r e k1 k2 hk1 hk2 => seg_apply 105 104 (k0_pay4 x0 x1) (k0_pay5 x0 x2) (k0_pay6 x3) slices_S160x256_o105_0_S55x256 slices_S160x256_o104_0_S1x256 broadcasts_S1x256_S55x256 broadcasts_S1x256_S55x256 shapeCasts_S55x256_S1x55x256 u r e k1 k2 hk1 hk2)
    inb_S1x12720x256_S1x55x256_0_11180_0

/-- The store of first member 105: rows 11235 … 11288. -/
theorem pc105 (x0 : Vec Ideal S1x160x256 .f32) (x1 x2 : Vec Ideal S256x256 .f32) (x3 : Vec Ideal S256 .f32) :
    ∀ x : (Rect.unit (s := S1x12720x256) ![0, 11235, 0] S1x54x256.size inb_S1x12720x256_S1x54x256_0_11235_0).shape.Idx,
      (k0_pay135 (k0_pay4 x0 x1) (k0_pay5 x0 x2) (k0_pay6 x3)) x = blockFn x0 x1 x2 x3 ((Rect.unit (s := S1x12720x256) ![0, 11235, 0] S1x54x256.size inb_S1x12720x256_S1x54x256_0_11235_0).emb x) :=
  piece_ok x0 x1 x2 x3 (len := 54) 105 11235 (by omega) rfl (by norm_num [PairIndex.off]) _
    (fun u r e k1 k2 hk1 hk2 => seg_apply 106 105 (k0_pay4 x0 x1) (k0_pay5 x0 x2) (k0_pay6 x3) slices_S160x256_o106_0_S54x256 slices_S160x256_o105_0_S1x256 broadcasts_S1x256_S54x256 broadcasts_S1x256_S54x256 shapeCasts_S54x256_S1x54x256 u r e k1 k2 hk1 hk2)
    inb_S1x12720x256_S1x54x256_0_11235_0

/-- The store of first member 106: rows 11289 … 11341. -/
theorem pc106 (x0 : Vec Ideal S1x160x256 .f32) (x1 x2 : Vec Ideal S256x256 .f32) (x3 : Vec Ideal S256 .f32) :
    ∀ x : (Rect.unit (s := S1x12720x256) ![0, 11289, 0] S1x53x256.size inb_S1x12720x256_S1x53x256_0_11289_0).shape.Idx,
      (k0_pay136 (k0_pay4 x0 x1) (k0_pay5 x0 x2) (k0_pay6 x3)) x = blockFn x0 x1 x2 x3 ((Rect.unit (s := S1x12720x256) ![0, 11289, 0] S1x53x256.size inb_S1x12720x256_S1x53x256_0_11289_0).emb x) :=
  piece_ok x0 x1 x2 x3 (len := 53) 106 11289 (by omega) rfl (by norm_num [PairIndex.off]) _
    (fun u r e k1 k2 hk1 hk2 => seg_apply 107 106 (k0_pay4 x0 x1) (k0_pay5 x0 x2) (k0_pay6 x3) slices_S160x256_o107_0_S53x256 slices_S160x256_o106_0_S1x256 broadcasts_S1x256_S53x256 broadcasts_S1x256_S53x256 shapeCasts_S53x256_S1x53x256 u r e k1 k2 hk1 hk2)
    inb_S1x12720x256_S1x53x256_0_11289_0

/-- The store of first member 107: rows 11342 … 11393. -/
theorem pc107 (x0 : Vec Ideal S1x160x256 .f32) (x1 x2 : Vec Ideal S256x256 .f32) (x3 : Vec Ideal S256 .f32) :
    ∀ x : (Rect.unit (s := S1x12720x256) ![0, 11342, 0] S1x52x256.size inb_S1x12720x256_S1x52x256_0_11342_0).shape.Idx,
      (k0_pay137 (k0_pay4 x0 x1) (k0_pay5 x0 x2) (k0_pay6 x3)) x = blockFn x0 x1 x2 x3 ((Rect.unit (s := S1x12720x256) ![0, 11342, 0] S1x52x256.size inb_S1x12720x256_S1x52x256_0_11342_0).emb x) :=
  piece_ok x0 x1 x2 x3 (len := 52) 107 11342 (by omega) rfl (by norm_num [PairIndex.off]) _
    (fun u r e k1 k2 hk1 hk2 => seg_apply 108 107 (k0_pay4 x0 x1) (k0_pay5 x0 x2) (k0_pay6 x3) slices_S160x256_o108_0_S52x256 slices_S160x256_o107_0_S1x256 broadcasts_S1x256_S52x256 broadcasts_S1x256_S52x256 shapeCasts_S52x256_S1x52x256 u r e k1 k2 hk1 hk2)
    inb_S1x12720x256_S1x52x256_0_11342_0

/-- The store of first member 108: rows 11394 … 11444. -/
theorem pc108 (x0 : Vec Ideal S1x160x256 .f32) (x1 x2 : Vec Ideal S256x256 .f32) (x3 : Vec Ideal S256 .f32) :
    ∀ x : (Rect.unit (s := S1x12720x256) ![0, 11394, 0] S1x51x256.size inb_S1x12720x256_S1x51x256_0_11394_0).shape.Idx,
      (k0_pay138 (k0_pay4 x0 x1) (k0_pay5 x0 x2) (k0_pay6 x3)) x = blockFn x0 x1 x2 x3 ((Rect.unit (s := S1x12720x256) ![0, 11394, 0] S1x51x256.size inb_S1x12720x256_S1x51x256_0_11394_0).emb x) :=
  piece_ok x0 x1 x2 x3 (len := 51) 108 11394 (by omega) rfl (by norm_num [PairIndex.off]) _
    (fun u r e k1 k2 hk1 hk2 => seg_apply 109 108 (k0_pay4 x0 x1) (k0_pay5 x0 x2) (k0_pay6 x3) slices_S160x256_o109_0_S51x256 slices_S160x256_o108_0_S1x256 broadcasts_S1x256_S51x256 broadcasts_S1x256_S51x256 shapeCasts_S51x256_S1x51x256 u r e k1 k2 hk1 hk2)
    inb_S1x12720x256_S1x51x256_0_11394_0

/-- The store of first member 109: rows 11445 … 11494. -/
theorem pc109 (x0 : Vec Ideal S1x160x256 .f32) (x1 x2 : Vec Ideal S256x256 .f32) (x3 : Vec Ideal S256 .f32) :
    ∀ x : (Rect.unit (s := S1x12720x256) ![0, 11445, 0] S1x50x256.size inb_S1x12720x256_S1x50x256_0_11445_0).shape.Idx,
      (k0_pay141 (k0_pay6 x3) (k0_pay139 (k0_pay5 x0 x2)) (k0_pay140 (k0_pay4 x0 x1))) x = blockFn x0 x1 x2 x3 ((Rect.unit (s := S1x12720x256) ![0, 11445, 0] S1x50x256.size inb_S1x12720x256_S1x50x256_0_11445_0).emb x) :=
  piece_ok x0 x1 x2 x3 (len := 50) 109 11445 (by omega) rfl (by norm_num [PairIndex.off]) _
    (fun u r e k1 k2 hk1 hk2 => seg_apply 110 109 (k0_pay4 x0 x1) (k0_pay5 x0 x2) (k0_pay6 x3) slices_S160x256_o110_0_S50x256 slices_S160x256_o109_0_S1x256 broadcasts_S1x256_S50x256 broadcasts_S1x256_S50x256 shapeCasts_S50x256_S1x50x256 u r e k1 k2 hk1 hk2)
    inb_S1x12720x256_S1x50x256_0_11445_0

/-- The store of first member 110: rows 11495 … 11543. -/
theorem pc110 (x0 : Vec Ideal S1x160x256 .f32) (x1 x2 : Vec Ideal S256x256 .f32) (x3 : Vec Ideal S256 .f32) :
    ∀ x : (Rect.unit (s := S1x12720x256) ![0, 11495, 0] S1x49x256.size inb_S1x12720x256_S1x49x256_0_11495_0).shape.Idx,
      (k0_pay142 (k0_pay4 x0 x1) (k0_pay5 x0 x2) (k0_pay6 x3)) x = blockFn x0 x1 x2 x3 ((Rect.unit (s := S1x12720x256) ![0, 11495, 0] S1x49x256.size inb_S1x12720x256_S1x49x256_0_11495_0).emb x) :=
  piece_ok x0 x1 x2 x3 (len := 49) 110 11495 (by omega) rfl (by norm_num [PairIndex.off]) _
    (fun u r e k1 k2 hk1 hk2 => seg_apply 111 110 (k0_pay4 x0 x1) (k0_pay5 x0 x2) (k0_pay6 x3) slices_S160x256_o111_0_S49x256 slices_S160x256_o110_0_S1x256 broadcasts_S1x256_S49x256 broadcasts_S1x256_S49x256 shapeCasts_S49x256_S1x49x256 u r e k1 k2 hk1 hk2)
    inb_S1x12720x256_S1x49x256_0_11495_0

/-- The store of first member 111: rows 11544 … 11591. -/
theorem pc111 (x0 : Vec Ideal S1x160x256 .f32) (x1 x2 : Vec Ideal S256x256 .f32) (x3 : Vec Ideal S256 .f32) :
    ∀ x : (Rect.unit (s := S1x12720x256) ![0, 11544, 0] S1x48x256.size inb_S1x12720x256_S1x48x256_0_11544_0).shape.Idx,
      (k0_pay143 (k0_pay4 x0 x1) (k0_pay5 x0 x2) (k0_pay6 x3)) x = blockFn x0 x1 x2 x3 ((Rect.unit (s := S1x12720x256) ![0, 11544, 0] S1x48x256.size inb_S1x12720x256_S1x48x256_0_11544_0).emb x) :=
  piece_ok x0 x1 x2 x3 (len := 48) 111 11544 (by omega) rfl (by norm_num [PairIndex.off]) _
    (fun u r e k1 k2 hk1 hk2 => seg_apply 112 111 (k0_pay4 x0 x1) (k0_pay5 x0 x2) (k0_pay6 x3) slices_S160x256_o112_0_S48x256 slices_S160x256_o111_0_S1x256 broadcasts_S1x256_S48x256 broadcasts_S1x256_S48x256 shapeCasts_S48x256_S1x48x256 u r e k1 k2 hk1 hk2)
    inb_S1x12720x256_S1x48x256_0_11544_0

/-- The store of first member 112: rows 11592 … 11638. -/
theorem pc112 (x0 : Vec Ideal S1x160x256 .f32) (x1 x2 : Vec Ideal S256x256 .f32) (x3 : Vec Ideal S256 .f32) :
    ∀ x : (Rect.unit (s := S1x12720x256) ![0, 11592, 0] S1x47x256.size inb_S1x12720x256_S1x47x256_0_11592_0).shape.Idx,
      (k0_pay144 (k0_pay4 x0 x1) (k0_pay5 x0 x2) (k0_pay6 x3)) x = blockFn x0 x1 x2 x3 ((Rect.unit (s := S1x12720x256) ![0, 11592, 0] S1x47x256.size inb_S1x12720x256_S1x47x256_0_11592_0).emb x) :=
  piece_ok x0 x1 x2 x3 (len := 47) 112 11592 (by omega) rfl (by norm_num [PairIndex.off]) _
    (fun u r e k1 k2 hk1 hk2 => seg_apply 113 112 (k0_pay4 x0 x1) (k0_pay5 x0 x2) (k0_pay6 x3) slices_S160x256_o113_0_S47x256 slices_S160x256_o112_0_S1x256 broadcasts_S1x256_S47x256 broadcasts_S1x256_S47x256 shapeCasts_S47x256_S1x47x256 u r e k1 k2 hk1 hk2)
    inb_S1x12720x256_S1x47x256_0_11592_0

/-- The store of first member 113: rows 11639 … 11684. -/
theorem pc113 (x0 : Vec Ideal S1x160x256 .f32) (x1 x2 : Vec Ideal S256x256 .f32) (x3 : Vec Ideal S256 .f32) :
    ∀ x : (Rect.unit (s := S1x12720x256) ![0, 11639, 0] S1x46x256.size inb_S1x12720x256_S1x46x256_0_11639_0).shape.Idx,
      (k0_pay146 (k0_pay145 (k0_pay4 x0 x1) (k0_pay5 x0 x2) (k0_pay6 x3))) x = blockFn x0 x1 x2 x3 ((Rect.unit (s := S1x12720x256) ![0, 11639, 0] S1x46x256.size inb_S1x12720x256_S1x46x256_0_11639_0).emb x) :=
  piece_ok x0 x1 x2 x3 (len := 46) 113 11639 (by omega) rfl (by norm_num [PairIndex.off]) _
    (fun u r e k1 k2 hk1 hk2 => seg_apply 114 113 (k0_pay4 x0 x1) (k0_pay5 x0 x2) (k0_pay6 x3) slices_S160x256_o114_0_S46x256 slices_S160x256_o113_0_S1x256 broadcasts_S1x256_S46x256 broadcasts_S1x256_S46x256 shapeCasts_S46x256_S1x46x256 u r e k1 k2 hk1 hk2)
    inb_S1x12720x256_S1x46x256_0_11639_0

/-- The store of first member 114: rows 11685 … 11729. -/
theorem pc114 (x0 : Vec Ideal S1x160x256 .f32) (x1 x2 : Vec Ideal S256x256 .f32) (x3 : Vec Ideal S256 .f32) :
    ∀ x : (Rect.unit (s := S1x12720x256) ![0, 11685, 0] S1x45x256.size inb_S1x12720x256_S1x45x256_0_11685_0).shape.Idx,
      (k0_pay147 (k0_pay4 x0 x1) (k0_pay5 x0 x2) (k0_pay6 x3)) x = blockFn x0 x1 x2 x3 ((Rect.unit (s := S1x12720x256) ![0, 11685, 0] S1x45x256.size inb_S1x12720x256_S1x45x256_0_11685_0).emb x) :=
  piece_ok x0 x1 x2 x3 (len := 45) 114 11685 (by omega) rfl (by norm_num [PairIndex.off]) _
    (fun u r e k1 k2 hk1 hk2 => seg_apply 115 114 (k0_pay4 x0 x1) (k0_pay5 x0 x2) (k0_pay6 x3) slices_S160x256_o115_0_S45x256 slices_S160x256_o114_0_S1x256 broadcasts_S1x256_S45x256 broadcasts_S1x256_S45x256 shapeCasts_S45x256_S1x45x256 u r e k1 k2 hk1 hk2)
    inb_S1x12720x256_S1x45x256_0_11685_0

/-- The store of first member 115: rows 11730 … 11773. -/
theorem pc115 (x0 : Vec Ideal S1x160x256 .f32) (x1 x2 : Vec Ideal S256x256 .f32) (x3 : Vec Ideal S256 .f32) :
    ∀ x : (Rect.unit (s := S1x12720x256) ![0, 11730, 0] S1x44x256.size inb_S1x12720x256_S1x44x256_0_11730_0).shape.Idx,
      (k0_pay148 (k0_pay4 x0 x1) (k0_pay5 x0 x2) (k0_pay6 x3)) x = blockFn x0 x1 x2 x3 ((Rect.unit (s := S1x12720x256) ![0, 11730, 0] S1x44x256.size inb_S1x12720x256_S1x44x256_0_11730_0).emb x) :=
  piece_ok x0 x1 x2 x3 (len := 44) 115 11730 (by omega) rfl (by norm_num [PairIndex.off]) _
    (fun u r e k1 k2 hk1 hk2 => seg_apply 116 115 (k0_pay4 x0 x1) (k0_pay5 x0 x2) (k0_pay6 x3) slices_S160x256_o116_0_S44x256 slices_S160x256_o115_0_S1x256 broadcasts_S1x256_S44x256 broadcasts_S1x256_S44x256 shapeCasts_S44x256_S1x44x256 u r e k1 k2 hk1 hk2)
    inb_S1x12720x256_S1x44x256_0_11730_0

/-- The store of first member 116: rows 11774 … 11816. -/
theorem pc116 (x0 : Vec Ideal S1x160x256 .f32) (x1 x2 : Vec Ideal S256x256 .f32) (x3 : Vec Ideal S256 .f32) :
    ∀ x : (Rect.unit (s := S1x12720x256) ![0, 11774, 0] S1x43x256.size inb_S1x12720x256_S1x43x256_0_11774_0).shape.Idx,
      (k0_pay149 (k0_pay4 x0 x1) (k0_pay5 x0 x2) (k0_pay6 x3)) x = blockFn x0 x1 x2 x3 ((Rect.unit (s := S1x12720x256) ![0, 11774, 0] S1x43x256.size inb_S1x12720x256_S1x43x256_0_11774_0).emb x) :=
  piece_ok x0 x1 x2 x3 (len := 43) 116 11774 (by omega) rfl (by norm_num [PairIndex.off]) _
    (fun u r e k1 k2 hk1 hk2 => seg_apply 117 116 (k0_pay4 x0 x1) (k0_pay5 x0 x2) (k0_pay6 x3) slices_S160x256_o117_0_S43x256 slices_S160x256_o116_0_S1x256 broadcasts_S1x256_S43x256 broadcasts_S1x256_S43x256 shapeCasts_S43x256_S1x43x256 u r e k1 k2 hk1 hk2)
    inb_S1x12720x256_S1x43x256_0_11774_0

/-- The store of first member 117: rows 11817 … 11858. -/
theorem pc117 (x0 : Vec Ideal S1x160x256 .f32) (x1 x2 : Vec Ideal S256x256 .f32) (x3 : Vec Ideal S256 .f32) :
    ∀ x : (Rect.unit (s := S1x12720x256) ![0, 11817, 0] S1x42x256.size inb_S1x12720x256_S1x42x256_0_11817_0).shape.Idx,
      (k0_pay150 (k0_pay4 x0 x1) (k0_pay5 x0 x2) (k0_pay6 x3)) x = blockFn x0 x1 x2 x3 ((Rect.unit (s := S1x12720x256) ![0, 11817, 0] S1x42x256.size inb_S1x12720x256_S1x42x256_0_11817_0).emb x) :=
  piece_ok x0 x1 x2 x3 (len := 42) 117 11817 (by omega) rfl (by norm_num [PairIndex.off]) _
    (fun u r e k1 k2 hk1 hk2 => seg_apply 118 117 (k0_pay4 x0 x1) (k0_pay5 x0 x2) (k0_pay6 x3) slices_S160x256_o118_0_S42x256 slices_S160x256_o117_0_S1x256 broadcasts_S1x256_S42x256 broadcasts_S1x256_S42x256 shapeCasts_S42x256_S1x42x256 u r e k1 k2 hk1 hk2)
    inb_S1x12720x256_S1x42x256_0_11817_0

/-- The store of first member 118: rows 11859 … 11899. -/
theorem pc118 (x0 : Vec Ideal S1x160x256 .f32) (x1 x2 : Vec Ideal S256x256 .f32) (x3 : Vec Ideal S256 .f32) :
    ∀ x : (Rect.unit (s := S1x12720x256) ![0, 11859, 0] S1x41x256.size inb_S1x12720x256_S1x41x256_0_11859_0).shape.Idx,
      (k0_pay153 (k0_pay151 (k0_pay4 x0 x1) (k0_pay5 x0 x2)) (k0_pay152 (k0_pay6 x3))) x = blockFn x0 x1 x2 x3 ((Rect.unit (s := S1x12720x256) ![0, 11859, 0] S1x41x256.size inb_S1x12720x256_S1x41x256_0_11859_0).emb x) :=
  piece_ok x0 x1 x2 x3 (len := 41) 118 11859 (by omega) rfl (by norm_num [PairIndex.off]) _
    (fun u r e k1 k2 hk1 hk2 => seg_apply 119 118 (k0_pay4 x0 x1) (k0_pay5 x0 x2) (k0_pay6 x3) slices_S160x256_o119_0_S41x256 slices_S160x256_o118_0_S1x256 broadcasts_S1x256_S41x256 broadcasts_S1x256_S41x256 shapeCasts_S41x256_S1x41x256 u r e k1 k2 hk1 hk2)
    inb_S1x12720x256_S1x41x256_0_11859_0

/-- The store of first member 119: rows 11900 … 11939. -/
theorem pc119 (x0 : Vec Ideal S1x160x256 .f32) (x1 x2 : Vec Ideal S256x256 .f32) (x3 : Vec Ideal S256 .f32) :
    ∀ x : (Rect.unit (s := S1x12720x256) ![0, 11900, 0] S1x40x256.size inb_S1x12720x256_S1x40x256_0_11900_0).shape.Idx,
      (k0_pay154 (k0_pay4 x0 x1) (k0_pay5 x0 x2) (k0_pay6 x3)) x = blockFn x0 x1 x2 x3 ((Rect.unit (s := S1x12720x256) ![0, 11900, 0] S1x40x256.size inb_S1x12720x256_S1x40x256_0_11900_0).emb x) :=
  piece_ok x0 x1 x2 x3 (len := 40) 119 11900 (by omega) rfl (by norm_num [PairIndex.off]) _
    (fun u r e k1 k2 hk1 hk2 => seg_apply 120 119 (k0_pay4 x0 x1) (k0_pay5 x0 x2) (k0_pay6 x3) slices_S160x256_o120_0_S40x256 slices_S160x256_o119_0_S1x256 broadcasts_S1x256_S40x256 broadcasts_S1x256_S40x256 shapeCasts_S40x256_S1x40x256 u r e k1 k2 hk1 hk2)
    inb_S1x12720x256_S1x40x256_0_11900_0

end Cert.KernelIdeal.KernelValue

end
-- ==== Proof.KernelStores4.lean ====
/-
  Stores of first members 120 … 158 of one grid point: each holds, at row r of its rectangle and feature e, row
  i + 1 + r of the lower projection plus row i of the upper one plus the bias at e, and sits at rows off i … of the packed
  axis, where position off i + r holds the pair (i, i + 1 + r); so it is the block function restricted to its rectangle.
-/
import proofs.«138512_j66692252172937_2_alg».proof.Proof.KernelSeg
import proofs.«138512_j66692252172937_2_alg».proof.Proof.KernelPieces

set_option maxRecDepth 16384

noncomputable section

namespace Cert.KernelIdeal.KernelValue

open Cert.KernelIdeal Cert.KernelIdeal.Gen Idealize.ShloMosaic Idealize.ShloMosaic.TcCoe Idealize.ShloMosaic.ValueIdx

/-- The store of first member 120: rows 11940 … 11978. -/
theorem pc120 (x0 : Vec Ideal S1x160x256 .f32) (x1 x2 : Vec Ideal S256x256 .f32) (x3 : Vec Ideal S256 .f32) :
    ∀ x : (Rect.unit (s := S1x12720x256) ![0, 11940, 0] S1x39x256.size inb_S1x12720x256_S1x39x256_0_11940_0).shape.Idx,
      (k0_pay155 (k0_pay4 x0 x1) (k0_pay5 x0 x2) (k0_pay6 x3)) x = blockFn x0 x1 x2 x3 ((Rect.unit (s := S1x12720x256) ![0, 11940, 0] S1x39x256.size inb_S1x12720x256_S1x39x256_0_11940_0).emb x) :=
  piece_ok x0 x1 x2 x3 (len := 39) 120 11940 (by omega) rfl (by norm_num [PairIndex.off]) _
    (fun u r e k1 k2 hk1 hk2 => seg_apply 121 120 (k0_pay4 x0 x1) (k0_pay5 x0 x2) (k0_pay6 x3) slices_S160x256_o121_0_S39x256 slices_S160x256_o120_0_S1x256 broadcasts_S1x256_S39x256 broadcasts_S1x256_S39x256 shapeCasts_S39x256_S1x39x256 u r e k1 k2 hk1 hk2)
    inb_S1x12720x256_S1x39x256_0_11940_0

/-- The store of first member 121: rows 11979 … 12016. -/
theorem pc121 (x0 : Vec Ideal S1x160x256 .f32) (x1 x2 : Vec Ideal S256x256 .f32) (x3 : Vec Ideal S256 .f32) :
    ∀ x : (Rect.unit (s := S1x12720x256) ![0, 11979, 0] S1x38x256.size inb_S1x12720x256_S1x38x256_0_11979_0).shape.Idx,
      (k0_pay156 (k0_pay4 x0 x1) (k0_pay5 x0 x2) (k0_pay6 x3)) x = blockFn x0 x1 x2 x3 ((Rect.unit (s := S1x12720x256) ![0, 11979, 0] S1x38x256.size inb_S1x12720x256_S1x38x256_0_11979_0).emb x) :=
  piece_ok x0 x1 x2 x3 (len := 38) 121 11979 (by omega) rfl (by norm_num [PairIndex.off]) _
    (fun u r e k1 k2 hk1 hk2 => seg_apply 122 121 (k0_pay4 x0 x1) (k0_pay5 x0 x2) (k0_pay6 x3) slices_S160x256_o122_0_S38x256 slices_S160x256_o121_0_S1x256 broadcasts_S1x256_S38x256 broadcasts_S1x256_S38x256 shapeCasts_S38x256_S1x38x256 u r e k1 k2 hk1 hk2)
    inb_S1x12720x256_S1x38x256_0_11979_0

/-- The store of first member 122: rows 12017 … 12053. -/
theorem pc122 (x0 : Vec Ideal S1x160x256 .f32) (x1 x2 : Vec Ideal S256x256 .f32) (x3 : Vec Ideal S256 .f32) :
    ∀ x : (Rect.unit (s := S1x12720x256) ![0, 12017, 0] S1x37x256.size inb_S1x12720x256_S1x37x256_0_12017_0).shape.Idx,
      (k0_pay157 (k0_pay4 x0 x1) (k0_pay5 x0 x2) (k0_pay6 x3)) x = blockFn x0 x1 x2 x3 ((Rect.unit (s := S1x12720x256) ![0, 12017, 0] S1x37x256.size inb_S1x12720x256_S1x37x256_0_12017_0).emb x) :=
  piece_ok x0 x1 x2 x3 (len := 37) 122 12017 (by omega) rfl (by norm_num [PairIndex.off]) _
    (fun u r e k1 k2 hk1 hk2 => seg_apply 123 122 (k0_pay4 x0 x1) (k0_pay5 x0 x2) (k0_pay6 x3) slices_S160x256_o123_0_S37x256 slices_S160x256_o122_0_S1x256 broadcasts_S1x256_S37x256 broadcasts_S1x256_S37x256 shapeCasts_S37x256_S1x37x256 u r e k1 k2 hk1 hk2)
    inb_S1x12720x256_S1x37x256_0_12017_0

/-- The store of first member 123: rows 12054 … 12089. -/
theorem pc123 (x0 : Vec Ideal S1x160x256 .f32) (x1 x2 : Vec Ideal S256x256 .f32) (x3 : Vec Ideal S256 .f32) :
    ∀ x : (Rect.unit (s := S1x12720x256) ![0, 12054, 0] S1x36x256.size inb_S1x12720x256_S1x36x256_0_12054_0).shape.Idx,
      (k0_pay158 (k0_pay4 x0 x1) (k0_pay5 x0 x2) (k0_pay6 x3)) x = blockFn x0 x1 x2 x3 ((Rect.unit (s := S1x12720x256) ![0, 12054, 0] S1x36x256.size inb_S1x12720x256_S1x36x256_0_12054_0).emb x) :=
  piece_ok x0 x1 x2 x3 (len := 36) 123 12054 (by omega) rfl (by norm_num [PairIndex.off]) _
    (fun u r e k1 k2 hk1 hk2 => seg_apply 124 123 (k0_pay4 x0 x1) (k0_pay5 x0 x2) (k0_pay6 x3) slices_S160x256_o124_0_S36x256 slices_S160x256_o123_0_S1x256 broadcasts_S1x256_S36x256 broadcasts_S1x256_S36x256 shapeCasts_S36x256_S1x36x256 u r e k1 k2 hk1 hk2)
    inb_S1x12720x256_S1x36x256_0_12054_0

/-- The store of first member 124: rows 12090 … 12124. -/
theorem pc124 (x0 : Vec Ideal S1x160x256 .f32) (x1 x2 : Vec Ideal S256x256 .f32) (x3 : Vec Ideal S256 .f32) :
    ∀ x : (Rect.unit (s := S1x12720x256) ![0, 12090, 0] S1x35x256.size inb_S1x12720x256_S1x35x256_0_12090_0).shape.Idx,
      (k0_pay159 (k0_pay4 x0 x1) (k0_pay5 x0 x2) (k0_pay6 x3)) x = blockFn x0 x1 x2 x3 ((Rect.unit (s := S1x12720x256) ![0, 12090, 0] S1x35x256.size inb_S1x12720x256_S1x35x256_0_12090_0).emb x) :=
  piece_ok x0 x1 x2 x3 (len := 35) 124 12090 (by omega) rfl (by norm_num [PairIndex.off]) _
    (fun u r e k1 k2 hk1 hk2 => seg_apply 125 124 (k0_pay4 x0 x1) (k0_pay5 x0 x2) (k0_pay6 x3) slices_S160x256_o125_0_S35x256 slices_S160x256_o124_0_S1x256 broadcasts_S1x256_S35x256 broadcasts_S1x256_S35x256 shapeCasts_S35x256_S1x35x256 u r e k1 k2 hk1 hk2)
    inb_S1x12720x256_S1x35x256_0_12090_0

/-- The store of first member 125: rows 12125 … 12158. -/
theorem pc125 (x0 : Vec Ideal S1x160x256 .f32) (x1 x2 : Vec Ideal S256x256 .f32) (x3 : Vec Ideal S256 .f32) :
    ∀ x : (Rect.unit (s := S1x12720x256) ![0, 12125, 0] S1x34x256.size inb_S1x12720x256_S1x34x256_0_12125_0).shape.Idx,
      (k0_pay160 (k0_pay4 x0 x1) (k0_pay5 x0 x2) (k0_pay6 x3)) x = blockFn x0 x1 x2 x3 ((Rect.unit (s := S1x12720x256) ![0, 12125, 0] S1x34x256.size inb_S1x12720x256_S1x34x256_0_12125_0).emb x) :=
  piece_ok x0 x1 x2 x3 (len := 34) 125 12125 (by omega) rfl (by norm_num [PairIndex.off]) _
    (fun u r e k1 k2 hk1 hk2 => seg_apply 126 125 (k0_pay4 x0 x1) (k0_pay5 x0 x2) (k0_pay6 x3) slices_S160x256_o126_0_S34x256 slices_S160x256_o125_0_S1x256 broadcasts_S1x256_S34x256 broadcasts_S1x256_S34x256 shapeCasts_S34x256_S1x34x256 u r e k1 k2 hk1 hk2)
    inb_S1x12720x256_S1x34x256_0_12125_0

/-- The store of first member 126: rows 12159 … 12191. -/
theorem pc126 (x0 : Vec Ideal S1x160x256 .f32) (x1 x2 : Vec Ideal S256x256 .f32) (x3 : Vec Ideal S256 .f32) :
    ∀ x : (Rect.unit (s := S1x12720x256) ![0, 12159, 0] S1x33x256.size inb_S1x12720x256_S1x33x256_0_12159_0).shape.Idx,
      (k0_pay161 (k0_pay4 x0 x1) (k0_pay5 x0 x2) (k0_pay6 x3)) x = blockFn x0 x1 x2 x3 ((Rect.unit (s := S1x12720x256) ![0, 12159, 0] S1x33x256.size inb_S1x12720x256_S1x33x256_0_12159_0).emb x) :=
  piece_ok x0 x1 x2 x3 (len := 33) 126 12159 (by omega) rfl (by norm_num [PairIndex.off]) _
    (fun u r e k1 k2 hk1 hk2 => seg_apply 127 126 (k0_pay4 x0 x1) (k0_pay5 x0 x2) (k0_pay6 x3) slices_S160x256_o127_0_S33x256 slices_S160x256_o126_0_S1x256 broadcasts_S1x256_S33x256 broadcasts_S1x256_S33x256 shapeCasts_S33x256_S1x33x256 u r e k1 k2 hk1 hk2)
    inb_S1x12720x256_S1x33x256_0_12159_0

/-- The store of first member 127: rows 12192 … 12223. -/
theorem pc127 (x0 : Vec Ideal S1x160x256 .f32) (x1 x2 : Vec Ideal S256x256 .f32) (x3 : Vec Ideal S256 .f32) :
    ∀ x : (Rect.unit (s := S1x12720x256) ![0, 12192, 0] S1x32x256.size inb_S1x12720x256_S1x32x256_0_12192_0).shape.Idx,
      (k0_pay163 (k0_pay162 (k0_pay4 x0 x1) (k0_pay5 x0 x2) (k0_pay6 x3))) x = blockFn x0 x1 x2 x3 ((Rect.unit (s := S1x12720x256) ![0, 12192, 0] S1x32x256.size inb_S1x12720x256_S1x32x256_0_12192_0).emb x) :=
  piece_ok x0 x1 x2 x3 (len := 32) 127 12192 (by omega) rfl (by norm_num [PairIndex.off]) _
    (fun u r e k1 k2 hk1 hk2 => seg_apply 128 127 (k0_pay4 x0 x1) (k0_pay5 x0 x2) (k0_pay6 x3) slices_S160x256_o128_0_S32x256 slices_S160x256_o127_0_S1x256 broadcasts_S1x256_S32x256 broadcasts_S1x256_S32x256 shapeCasts_S32x256_S1x32x256 u r e k1 k2 hk1 hk2)
    inb_S1x12720x256_S1x32x256_0_12192_0

/-- The store of first member 128: rows 12224 … 12254. -/
theorem pc128 (x0 : Vec Ideal S1x160x256 .f32) (x1 x2 : Vec Ideal S256x256 .f32) (x3 : Vec Ideal S256 .f32) :
    ∀ x : (Rect.unit (s := S1x12720x256) ![0, 12224, 0] S1x31x256.size inb_S1x12720x256_S1x31x256_0_12224_0).shape.Idx,
      (k0_pay164 (k0_pay4 x0 x1) (k0_pay5 x0 x2) (k0_pay6 x3)) x = blockFn x0 x1 x2 x3 ((Rect.unit (s := S1x12720x256) ![0, 12224, 0] S1x31x256.size inb_S1x12720x256_S1x31x256_0_12224_0).emb x) :=
  piece_ok x0 x1 x2 x3 (len := 31) 128 12224 (by omega) rfl (by norm_num [PairIndex.off]) _
    (fun u r e k1 k2 hk1 hk2 => seg_apply 129 128 (k0_pay4 x0 x1) (k0_pay5 x0 x2) (k0_pay6 x3) slices_S160x256_o129_0_S31x256 slices_S160x256_o128_0_S1x256 broadcasts_S1x256_S31x256 broadcasts_S1x256_S31x256 shapeCasts_S31x256_S1x31x256 u r e k1 k2 hk1 hk2)
    inb_S1x12720x256_S1x31x256_0_12224_0

/-- The store of first member 129: rows 12255 … 12284. -/
theorem pc129 (x0 : Vec Ideal S1x160x256 .f32) (x1 x2 : Vec Ideal S256x256 .f32) (x3 : Vec Ideal S256 .f32) :
    ∀ x : (Rect.unit (s := S1x12720x256) ![0, 12255, 0] S1x30x256.size inb_S1x12720x256_S1x30x256_0_12255_0).shape.Idx,
      (k0_pay165 (k0_pay4 x0 x1) (k0_pay5 x0 x2) (k0_pay6 x3)) x = blockFn x0 x1 x2 x3 ((Rect.unit (s := S1x12720x256) ![0, 12255, 0] S1x30x256.size inb_S1x12720x256_S1x30x256_0_12255_0).emb x) :=
  piece_ok x0 x1 x2 x3 (len := 30) 129 12255 (by omega) rfl (by norm_num [PairIndex.off]) _
    (fun u r e k1 k2 hk1 hk2 => seg_apply 130 129 (k0_pay4 x0 x1) (k0_pay5 x0 x2) (k0_pay6 x3) slices_S160x256_o130_0_S30x256 slices_S160x256_o129_0_S1x256 broadcasts_S1x256_S30x256 broadcasts_S1x256_S30x256 shapeCasts_S30x256_S1x30x256 u r e k1 k2 hk1 hk2)
    inb_S1x12720x256_S1x30x256_0_12255_0

/-- The store of first member 130: rows 12285 … 12313. -/
theorem pc130 (x0 : Vec Ideal S1x160x256 .f32) (x1 x2 : Vec Ideal S256x256 .f32) (x3 : Vec Ideal S256 .f32) :
    ∀ x : (Rect.unit (s := S1x12720x256) ![0, 12285, 0] S1x29x256.size inb_S1x12720x256_S1x29x256_0_12285_0).shape.Idx,
      (k0_pay166 (k0_pay4 x0 x1) (k0_pay5 x0 x2) (k0_pay6 x3)) x = blockFn x0 x1 x2 x3 ((Rect.unit (s := S1x12720x256) ![0, 12285, 0] S1x29x256.size inb_S1x12720x256_S1x29x256_0_12285_0).emb x) :=
  piece_ok x0 x1 x2 x3 (len := 29) 130 12285 (by omega) rfl (by norm_num [PairIndex.off]) _
    (fun u r e k1 k2 hk1 hk2 => seg_apply 131 130 (k0_pay4 x0 x1) (k0_pay5 x0 x2) (k0_pay6 x3) slices_S160x256_o131_0_S29x256 slices_S160x256_o130_0_S1x256 broadcasts_S1x256_S29x256 broadcasts_S1x256_S29x256 shapeCasts_S29x256_S1x29x256 u r e k1 k2 hk1 hk2)
    inb_S1x12720x256_S1x29x256_0_12285_0

/-- The store of first member 131: rows 12314 … 12341. -/
theorem pc131 (x0 : Vec Ideal S1x160x256 .f32) (x1 x2 : Vec Ideal S256x256 .f32) (x3 : Vec Ideal S256 .f32) :
    ∀ x : (Rect.unit (s := S1x12720x256) ![0, 12314, 0] S1x28x256.size inb_S1x12720x256_S1x28x256_0_12314_0).shape.Idx,
      (k0_pay167 (k0_pay4 x0 x1) (k0_pay5 x0 x2) (k0_pay6 x3)) x = blockFn x0 x1 x2 x3 ((Rect.unit (s := S1x12720x256) ![0, 12314, 0] S1x28x256.size inb_S1x12720x256_S1x28x256_0_12314_0).emb x) :=
  piece_ok x0 x1 x2 x3 (len := 28) 131 12314 (by omega) rfl (by norm_num [PairIndex.off]) _
    (fun u r e k1 k2 hk1 hk2 => seg_apply 132 131 (k0_pay4 x0 x1) (k0_pay5 x0 x2) (k0_pay6 x3) slices_S160x256_o132_0_S28x256 slices_S160x256_o131_0_S1x256 broadcasts_S1x256_S28x256 broadcasts_S1x256_S28x256 shapeCasts_S28x256_S1x28x256 u r e k1 k2 hk1 hk2)
    inb_S1x12720x256_S1x28x256_0_12314_0

/-- The store of first member 132: rows 12342 … 12368. -/
theorem pc132 (x0 : Vec Ideal S1x160x256 .f32) (x1 x2 : Vec Ideal S256x256 .f32) (x3 : Vec Ideal S256 .f32) :
    ∀ x : (Rect.unit (s := S1x12720x256) ![0, 12342, 0] S1x27x256.size inb_S1x12720x256_S1x27x256_0_12342_0).shape.Idx,
      (k0_pay170 (k0_pay6 x3) (k0_pay168 (k0_pay5 x0 x2)) (k0_pay169 (k0_pay4 x0 x1))) x = blockFn x0 x1 x2 x3 ((Rect.unit (s := S1x12720x256) ![0, 12342, 0] S1x27x256.size inb_S1x12720x256_S1x27x256_0_12342_0).emb x) :=
  piece_ok x0 x1 x2 x3 (len := 27) 132 12342 (by omega) rfl (by norm_num [PairIndex.off]) _
    (fun u r e k1 k2 hk1 hk2 => seg_apply 133 132 (k0_pay4 x0 x1) (k0_pay5 x0 x2) (k0_pay6 x3) slices_S160x256_o133_0_S27x256 slices_S160x256_o132_0_S1x256 broadcasts_S1x256_S27x256 broadcasts_S1x256_S27x256 shapeCasts_S27x256_S1x27x256 u r e k1 k2 hk1 hk2)
    inb_S1x12720x256_S1x27x256_0_12342_0

/-- The store of first member 133: rows 12369 … 12394. -/
theorem pc133 (x0 : Vec Ideal S1x160x256 .f32) (x1 x2 : Vec Ideal S256x256 .f32) (x3 : Vec Ideal S256 .f32) :
    ∀ x : (Rect.unit (s := S1x12720x256) ![0, 12369, 0] S1x26x256.size inb_S1x12720x256_S1x26x256_0_12369_0).shape.Idx,
      (k0_pay171 (k0_pay4 x0 x1) (k0_pay5 x0 x2) (k0_pay6 x3)) x = blockFn x0 x1 x2 x3 ((Rect.unit (s := S1x12720x256) ![0, 12369, 0] S1x26x256.size inb_S1x12720x256_S1x26x256_0_12369_0).emb x) :=
  piece_ok x0 x1 x2 x3 (len := 26) 133 12369 (by omega) rfl (by norm_num [PairIndex.off]) _
    (fun u r e k1 k2 hk1 hk2 => seg_apply 134 133 (k0_pay4 x0 x1) (k0_pay5 x0 x2) (k0_pay6 x3) slices_S160x256_o134_0_S26x256 slices_S160x256_o133_0_S1x256 broadcasts_S1x256_S26x256 broadcasts_S1x256_S26x256 shapeCasts_S26x256_S1x26x256 u r e k1 k2 hk1 hk2)
    inb_S1x12720x256_S1x26x256_0_12369_0

/-- The store of first member 134: rows 12395 … 12419. -/
theorem pc134 (x0 : Vec Ideal S1x160x256 .f32) (x1 x2 : Vec Ideal S256x256 .f32) (x3 : Vec Ideal S256 .f32) :
    ∀ x : (Rect.unit (s := S1x12720x256) ![0, 12395, 0] S1x25x256.size inb_S1x12720x256_S1x25x256_0_12395_0).shape.Idx,
      (k0_pay172 (k0_pay4 x0 x1) (k0_pay5 x0 x2) (k0_pay6 x3)) x = blockFn x0 x1 x2 x3 ((Rect.unit (s := S1x12720x256) ![0, 12395, 0] S1x25x256.size inb_S1x12720x256_S1x25x256_0_12395_0).emb x) :=
  piece_ok x0 x1 x2 x3 (len := 25) 134 12395 (by omega) rfl (by norm_num [PairIndex.off]) _
    (fun u r e k1 k2 hk1 hk2 => seg_apply 135 134 (k0_pay4 x0 x1) (k0_pay5 x0 x2) (k0_pay6 x3) slices_S160x256_o135_0_S25x256 slices_S160x256_o134_0_S1x256 broadcasts_S1x256_S25x256 broadcasts_S1x256_S25x256 shapeCasts_S25x256_S1x25x256 u r e k1 k2 hk1 hk2)
    inb_S1x12720x256_S1x25x256_0_12395_0

/-- The store of first member 135: rows 12420 … 12443. -/
theorem pc135 (x0 : Vec Ideal S1x160x256 .f32) (x1 x2 : Vec Ideal S256x256 .f32) (x3 : Vec Ideal S256 .f32) :
    ∀ x : (Rect.unit (s := S1x12720x256) ![0, 12420, 0] S1x24x256.size inb_S1x12720x256_S1x24x256_0_12420_0).shape.Idx,
      (k0_pay173 (k0_pay4 x0 x1) (k0_pay5 x0 x2) (k0_pay6 x3)) x = blockFn x0 x1 x2 x3 ((Rect.unit (s := S1x12720x256) ![0, 12420, 0] S1x24x256.size inb_S1x12720x256_S1x24x256_0_12420_0).emb x) :=
  piece_ok x0 x1 x2 x3 (len := 24) 135 12420 (by omega) rfl (by norm_num [PairIndex.off]) _
    (fun u r e k1 k2 hk1 hk2 => seg_apply 136 135 (k0_pay4 x0 x1) (k0_pay5 x0 x2) (k0_pay6 x3) slices_S160x256_o136_0_S24x256 slices_S160x256_o135_0_S1x256 broadcasts_S1x256_S24x256 broadcasts_S1x256_S24x256 shapeCasts_S24x256_S1x24x256 u r e k1 k2 hk1 hk2)
    inb_S1x12720x256_S1x24x256_0_12420_0

/-- The store of first member 136: rows 12444 … 12466. -/
theorem pc136 (x0 : Vec Ideal S1x160x256 .f32) (x1 x2 : Vec Ideal S256x256 .f32) (x3 : Vec Ideal S256 .f32) :
    ∀ x : (Rect.unit (s := S1x12720x256) ![0, 12444, 0] S1x23x256.size inb_S1x12720x256_S1x23x256_0_12444_0).shape.Idx,
      (k0_pay175 (k0_pay174 (k0_pay4 x0 x1) (k0_pay5 x0 x2) (k0_pay6 x3))) x = blockFn x0 x1 x2 x3 ((Rect.unit (s := S1x12720x256) ![0, 12444, 0] S1x23x256.size inb_S1x12720x256_S1x23x256_0_12444_0).emb x) :=
  piece_ok x0 x1 x2 x3 (len := 23) 136 12444 (by omega) rfl (by norm_num [PairIndex.off]) _
    (fun u r e k1 k2 hk1 hk2 => seg_apply 137 136 (k0_pay4 x0 x1) (k0_pay5 x0 x2) (k0_pay6 x3) slices_S160x256_o137_0_S23x256 slices_S160x256_o136_0_S1x256 broadcasts_S1x256_S23x256 broadcasts_S1x256_S23x256 shapeCasts_S23x256_S1x23x256 u r e k1 k2 hk1 hk2)
    inb_S1x12720x256_S1x23x256_0_12444_0

/-- The store of first member 137: rows 12467 … 12488. -/
theorem pc137 (x0 : Vec Ideal S1x160x256 .f32) (x1 x2 : Vec Ideal S256x256 .f32) (x3 : Vec Ideal S256 .f32) :
    ∀ x : (Rect.unit (s := S1x12720x256) ![0, 12467, 0] S1x22x256.size inb_S1x12720x256_S1x22x256_0_12467_0).shape.Idx,
      (k0_pay176 (k0_pay4 x0 x1) (k0_pay5 x0 x2) (k0_pay6 x3)) x = blockFn x0 x1 x2 x3 ((Rect.unit (s := S1x12720x256) ![0, 12467, 0] S1x22x256.size inb_S1x12720x256_S1x22x256_0_12467_0).emb x) :=
  piece_ok x0 x1 x2 x3 (len := 22) 137 12467 (by omega) rfl (by norm_num [PairIndex.off]) _
    (fun u r e k1 k2 hk1 hk2 => seg_apply 138 137 (k0_pay4 x0 x1) (k0_pay5 x0 x2) (k0_pay6 x3) slices_S160x256_o138_0_S22x256 slices_S160x256_o137_0_S1x256 broadcasts_S1x256_S22x256 broadcasts_S1x256_S22x256 shapeCasts_S22x256_S1x22x256 u r e k1 k2 hk1 hk2)
    inb_S1x12720x256_S1x22x256_0_12467_0

/-- The store of first member 138: rows 12489 … 12509. -/
theorem pc138 (x0 : Vec Ideal S1x160x256 .f32) (x1 x2 : Vec Ideal S256x256 .f32) (x3 : Vec Ideal S256 .f32) :
    ∀ x : (Rect.unit (s := S1x12720x256) ![0, 12489, 0] S1x21x256.size inb_S1x12720x256_S1x21x256_0_12489_0).shape.Idx,
      (k0_pay177 (k0_pay4 x0 x1) (k0_pay5 x0 x2) (k0_pay6 x3)) x = blockFn x0 x1 x2 x3 ((Rect.unit (s := S1x12720x256) ![0, 12489, 0] S1x21x256.size inb_S1x12720x256_S1x21x256_0_12489_0).emb x) :=
  piece_ok x0 x1 x2 x3 (len := 21) 138 12489 (by omega) rfl (by norm_num [PairIndex.off]) _
    (fun u r e k1 k2 hk1 hk2 => seg_apply 139 138 (k0_pay4 x0 x1) (k0_pay5 x0 x2) (k0_pay6 x3) slices_S160x256_o139_0_S21x256 slices_S160x256_o138_0_S1x256 broadcasts_S1x256_S21x256 broadcasts_S1x256_S21x256 shapeCasts_S21x256_S1x21x256 u r e k1 k2 hk1 hk2)
    inb_S1x12720x256_S1x21x256_0_12489_0

/-- The store of first member 139: rows 12510 … 12529. -/
theorem pc139 (x0 : Vec Ideal S1x160x256 .f32) (x1 x2 : Vec Ideal S256x256 .f32) (x3 : Vec Ideal S256 .f32) :
    ∀ x : (Rect.unit (s := S1x12720x256) ![0, 12510, 0] S1x20x256.size inb_S1x12720x256_S1x20x256_0_12510_0).shape.Idx,
      (k0_pay178 (k0_pay4 x0 x1) (k0_pay5 x0 x2) (k0_pay6 x3)) x = blockFn x0 x1 x2 x3 ((Rect.unit (s := S1x12720x256) ![0, 12510, 0] S1x20x256.size inb_S1x12720x256_S1x20x256_0_12510_0).emb x) :=
  piece_ok x0 x1 x2 x3 (len := 20) 139 12510 (by omega) rfl (by norm_num [PairIndex.off]) _
    (fun u r e k1 k2 hk1 hk2 => seg_apply 140 139 (k0_pay4 x0 x1) (k0_pay5 x0 x2) (k0_pay6 x3) slices_S160x256_o140_0_S20x256 slices_S160x256_o139_0_S1x256 broadcasts_S1x256_S20x256 broadcasts_S1x256_S20x256 shapeCasts_S20x256_S1x20x256 u r e k1 k2 hk1 hk2)
    inb_S1x12720x256_S1x20x256_0_12510_0

/-- The store of first member 140: rows 12530 … 12548. -/
theorem pc140 (x0 : Vec Ideal S1x160x256 .f32) (x1 x2 : Vec Ideal S256x256 .f32) (x3 : Vec Ideal S256 .f32) :
    ∀ x : (Rect.unit (s := S1x12720x256) ![0, 12530, 0] S1x19x256.size inb_S1x12720x256_S1x19x256_0_12530_0).shape.Idx,
      (k0_pay179 (k0_pay4 x0 x1) (k0_pay5 x0 x2) (k0_pay6 x3)) x = blockFn x0 x1 x2 x3 ((Rect.unit (s := S1x12720x256) ![0, 12530, 0] S1x19x256.size inb_S1x12720x256_S1x19x256_0_12530_0).emb x) :=
  piece_ok x0 x1 x2 x3 (len := 19) 140 12530 (by omega) rfl (by norm_num [PairIndex.off]) _
    (fun u r e k1 k2 hk1 hk2 => seg_apply 141 140 (k0_pay4 x0 x1) (k0_pay5 x0 x2) (k0_pay6 x3) slices_S160x256_o141_0_S19x256 slices_S160x256_o140_0_S1x256 broadcasts_S1x256_S19x256 broadcasts_S1x256_S19x256 shapeCasts_S19x256_S1x19x256 u r e k1 k2 hk1 hk2)
    inb_S1x12720x256_S1x19x256_0_12530_0

/-- The store of first member 141: rows 12549 … 12566. -/
theorem pc141 (x0 : Vec Ideal S1x160x256 .f32) (x1 x2 : Vec Ideal S256x256 .f32) (x3 : Vec Ideal S256 .f32) :
    ∀ x : (Rect.unit (s := S1x12720x256) ![0, 12549, 0] S1x18x256.size inb_S1x12720x256_S1x18x256_0_12549_0).shape.Idx,
      (k0_pay181 (k0_pay180 (k0_pay4 x0 x1) (k0_pay5 x0 x2) (k0_pay6 x3))) x = blockFn x0 x1 x2 x3 ((Rect.unit (s := S1x12720x256) ![0, 12549, 0] S1x18x256.size inb_S1x12720x256_S1x18x256_0_12549_0).emb x) :=
  piece_ok x0 x1 x2 x3 (len := 18) 141 12549 (by omega) rfl (by norm_num [PairIndex.off]) _
    (fun u r e k1 k2 hk1 hk2 => seg_apply 142 141 (k0_pay4 x0 x1) (k0_pay5 x0 x2) (k0_pay6 x3) slices_S160x256_o142_0_S18x256 slices_S160x256_o141_0_S1x256 broadcasts_S1x256_S18x256 broadcasts_S1x256_S18x256 shapeCasts_S18x256_S1x18x256 u r e k1 k2 hk1 hk2)
    inb_S1x12720x256_S1x18x256_0_12549_0

/-- The store of first member 142: rows 12567 … 12583. -/
theorem pc142 (x0 : Vec Ideal S1x160x256 .f32) (x1 x2 : Vec Ideal S256x256 .f32) (x3 : Vec Ideal S256 .f32) :
    ∀ x : (Rect.unit (s := S1x12720x256) ![0, 12567, 0] S1x17x256.size inb_S1x12720x256_S1x17x256_0_12567_0).shape.Idx,
      (k0_pay182 (k0_pay4 x0 x1) (k0_pay5 x0 x2) (k0_pay6 x3)) x = blockFn x0 x1 x2 x3 ((Rect.unit (s := S1x12720x256) ![0, 12567, 0] S1x17x256.size inb_S1x12720x256_S1x17x256_0_12567_0).emb x) :=
  piece_ok x0 x1 x2 x3 (len := 17) 142 12567 (by omega) rfl (by norm_num [PairIndex.off]) _
    (fun u r e k1 k2 hk1 hk2 => seg_apply 143 142 (k0_pay4 x0 x1) (k0_pay5 x0 x2) (k0_pay6 x3) slices_S160x256_o143_0_S17x256 slices_S160x256_o142_0_S1x256 broadcasts_S1x256_S17x256 broadcasts_S1x256_S17x256 shapeCasts_S17x256_S1x17x256 u r e k1 k2 hk1 hk2)
    inb_S1x12720x256_S1x17x256_0_12567_0

/-- The store of first member 143: rows 12584 … 12599. -/
theorem pc143 (x0 : Vec Ideal S1x160x256 .f32) (x1 x2 : Vec Ideal S256x256 .f32) (x3 : Vec Ideal S256 .f32) :
    ∀ x : (Rect.unit (s := S1x12720x256) ![0, 12584, 0] S1x16x256.size inb_S1x12720x256_S1x16x256_0_12584_0).shape.Idx,
      (k0_pay183 (k0_pay4 x0 x1) (k0_pay5 x0 x2) (k0_pay6 x3)) x = blockFn x0 x1 x2 x3 ((Rect.unit (s := S1x12720x256) ![0, 12584, 0] S1x16x256.size inb_S1x12720x256_S1x16x256_0_12584_0).emb x) :=
  piece_ok x0 x1 x2 x3 (len := 16) 143 12584 (by omega) rfl (by norm_num [PairIndex.off]) _
    (fun u r e k1 k2 hk1 hk2 => seg_apply 144 143 (k0_pay4 x0 x1) (k0_pay5 x0 x2) (k0_pay6 x3) slices_S160x256_o144_0_S16x256 slices_S160x256_o143_0_S1x256 broadcasts_S1x256_S16x256 broadcasts_S1x256_S16x256 shapeCasts_S16x256_S1x16x256 u r e k1 k2 hk1 hk2)
    inb_S1x12720x256_S1x16x256_0_12584_0

/-- The store of first member 144: rows 12600 … 12614. -/
theorem pc144 (x0 : Vec Ideal S1x160x256 .f32) (x1 x2 : Vec Ideal S256x256 .f32) (x3 : Vec Ideal S256 .f32) :
    ∀ x : (Rect.unit (s := S1x12720x256) ![0, 12600, 0] S1x15x256.size inb_S1x12720x256_S1x15x256_0_12600_0).shape.Idx,
      (k0_pay184 (k0_pay4 x0 x1) (k0_pay5 x0 x2) (k0_pay6 x3)) x = blockFn x0 x1 x2 x3 ((Rect.unit (s := S1x12720x256) ![0, 12600, 0] S1x15x256.size inb_S1x12720x256_S1x15x256_0_12600_0).emb x) :=
  piece_ok x0 x1 x2 x3 (len := 15) 144 12600 (by omega) rfl (by norm_num [PairIndex.off]) _
    (fun u r e k1 k2 hk1 hk2 => seg_apply 145 144 (k0_pay4 x0 x1) (k0_pay5 x0 x2) (k0_pay6 x3) slices_S160x256_o145_0_S15x256 slices_S160x256_o144_0_S1x256 broadcasts_S1x256_S15x256 broadcasts_S1x256_S15x256 shapeCasts_S15x256_S1x15x256 u r e k1 k2 hk1 hk2)
    inb_S1x12720x256_S1x15x256_0_12600_0

/-- The store of first member 145: rows 12615 … 12628. -/
theorem pc145 (x0 : Vec Ideal S1x160x256 .f32) (x1 x2 : Vec Ideal S256x256 .f32) (x3 : Vec Ideal S256 .f32) :
    ∀ x : (Rect.unit (s := S1x12720x256) ![0, 12615, 0] S1x14x256.size inb_S1x12720x256_S1x14x256_0_12615_0).shape.Idx,
      (k0_pay185 (k0_pay4 x0 x1) (k0_pay5 x0 x2) (k0_pay6 x3)) x = blockFn x0 x1 x2 x3 ((Rect.unit (s := S1x12720x256) ![0, 12615, 0] S1x14x256.size inb_S1x12720x256_S1x14x256_0_12615_0).emb x) :=
  piece_ok x0 x1 x2 x3 (len := 14) 145 12615 (by omega) rfl (by norm_num [PairIndex.off]) _
    (fun u r e k1 k2 hk1 hk2 => seg_apply 146 145 (k0_pay4 x0 x1) (k0_pay5 x0 x2) (k0_pay6 x3) slices_S160x256_o146_0_S14x256 slices_S160x256_o145_0_S1x256 broadcasts_S1x256_S14x256 broadcasts_S1x256_S14x256 shapeCasts_S14x256_S1x14x256 u r e k1 k2 hk1 hk2)
    inb_S1x12720x256_S1x14x256_0_12615_0

/-- The store of first member 146: rows 12629 … 12641. -/
theorem pc146 (x0 : Vec Ideal S1x160x256 .f32) (x1 x2 : Vec Ideal S256x256 .f32) (x3 : Vec Ideal S256 .f32) :
    ∀ x : (Rect.unit (s := S1x12720x256) ![0, 12629, 0] S1x13x256.size inb_S1x12720x256_S1x13x256_0_12629_0).shape.Idx,
      (k0_pay187 (k0_pay4 x0 x1) (k0_pay6 x3) (k0_pay186 (k0_pay5 x0 x2))) x = blockFn x0 x1 x2 x3 ((Rect.unit (s := S1x12720x256) ![0, 12629, 0] S1x13x256.size inb_S1x12720x256_S1x13x256_0_12629_0).emb x) :=
  piece_ok x0 x1 x2 x3 (len := 13) 146 12629 (by omega) rfl (by norm_num [PairIndex.off]) _
    (fun u r e k1 k2 hk1 hk2 => seg_apply 147 146 (k0_pay4 x0 x1) (k0_pay5 x0 x2) (k0_pay6 x3) slices_S160x256_o147_0_S13x256 slices_S160x256_o146_0_S1x256 broadcasts_S1x256_S13x256 broadcasts_S1x256_S13x256 shapeCasts_S13x256_S1x13x256 u r e k1 k2 hk1 hk2)
    inb_S1x12720x256_S1x13x256_0_12629_0

/-- The store of first member 147: rows 12642 … 12653. -/
theorem pc147 (x0 : Vec Ideal S1x160x256 .f32) (x1 x2 : Vec Ideal S256x256 .f32) (x3 : Vec Ideal S256 .f32) :
    ∀ x : (Rect.unit (s := S1x12720x256) ![0, 12642, 0] S1x12x256.size inb_S1x12720x256_S1x12x256_0_12642_0).shape.Idx,
      (k0_pay188 (k0_pay4 x0 x1) (k0_pay5 x0 x2) (k0_pay6 x3)) x = blockFn x0 x1 x2 x3 ((Rect.unit (s := S1x12720x256) ![0, 12642, 0] S1x12x256.size inb_S1x12720x256_S1x12x256_0_12642_0).emb x) :=
  piece_ok x0 x1 x2 x3 (len := 12) 147 12642 (by omega) rfl (by norm_num [PairIndex.off]) _
    (fun u r e k1 k2 hk1 hk2 => seg_apply 148 147 (k0_pay4 x0 x1) (k0_pay5 x0 x2) (k0_pay6 x3) slices_S160x256_o148_0_S12x256 slices_S160x256_o147_0_S1x256 broadcasts_S1x256_S12x256 broadcasts_S1x256_S12x256 shapeCasts_S12x256_S1x12x256 u r e k1 k2 hk1 hk2)
    inb_S1x12720x256_S1x12x256_0_12642_0

/-- The store of first member 148: rows 12654 … 12664. -/
theorem pc148 (x0 : Vec Ideal S1x160x256 .f32) (x1 x2 : Vec Ideal S256x256 .f32) (x3 : Vec Ideal S256 .f32) :
    ∀ x : (Rect.unit (s := S1x12720x256) ![0, 12654, 0] S1x11x256.size inb_S1x12720x256_S1x11x256_0_12654_0).shape.Idx,
      (k0_pay189 (k0_pay4 x0 x1) (k0_pay5 x0 x2) (k0_pay6 x3)) x = blockFn x0 x1 x2 x3 ((Rect.unit (s := S1x12720x256) ![0, 12654, 0] S1x11x256.size inb_S1x12720x256_S1x11x256_0_12654_0).emb x) :=
  piece_ok x0 x1 x2 x3 (len := 11) 148 12654 (by omega) rfl (by norm_num [PairIndex.off]) _
    (fun u r e k1 k2 hk1 hk2 => seg_apply 149 148 (k0_pay4 x0 x1) (k0_pay5 x0 x2) (k0_pay6 x3) slices_S160x256_o149_0_S11x256 slices_S160x256_o148_0_S1x256 broadcasts_S1x256_S11x256 broadcasts_S1x256_S11x256 shapeCasts_S11x256_S1x11x256 u r e k1 k2 hk1 hk2)
    inb_S1x12720x256_S1x11x256_0_12654_0

/-- The store of first member 149: rows 12665 … 12674. -/
theorem pc149 (x0 : Vec Ideal S1x160x256 .f32) (x1 x2 : Vec Ideal S256x256 .f32) (x3 : Vec Ideal S256 .f32) :
    ∀ x : (Rect.unit (s := S1x12720x256) ![0, 12665, 0] S1x10x256.size inb_S1x12720x256_S1x10x256_0_12665_0).shape.Idx,
      (k0_pay190 (k0_pay4 x0 x1) (k0_pay5 x0 x2) (k0_pay6 x3)) x = blockFn x0 x1 x2 x3 ((Rect.unit (s := S1x12720x256) ![0, 12665, 0] S1x10x256.size inb_S1x12720x256_S1x10x256_0_12665_0).emb x) :=
  piece_ok x0 x1 x2 x3 (len := 10) 149 12665 (by omega) rfl (by norm_num [PairIndex.off]) _
    (fun u r e k1 k2 hk1 hk2 => seg_apply 150 149 (k0_pay4 x0 x1) (k0_pay5 x0 x2) (k0_pay6 x3) slices_S160x256_o150_0_S10x256 slices_S160x256_o149_0_S1x256 broadcasts_S1x256_S10x256 broadcasts_S1x256_S10x256 shapeCasts_S10x256_S1x10x256 u r e k1 k2 hk1 hk2)
    inb_S1x12720x256_S1x10x256_0_12665_0

/-- The store of first member 150: rows 12675 … 12683. -/
theorem pc150 (x0 : Vec Ideal S1x160x256 .f32) (x1 x2 : Vec Ideal S256x256 .f32) (x3 : Vec Ideal S256 .f32) :
    ∀ x : (Rect.unit (s := S1x12720x256) ![0, 12675, 0] S1x9x256.size inb_S1x12720x256_S1x9x256_0_12675_0).shape.Idx,
      (k0_pay192 (k0_pay191 (k0_pay4 x0 x1) (k0_pay5 x0 x2) (k0_pay6 x3))) x = blockFn x0 x1 x2 x3 ((Rect.unit (s := S1x12720x256) ![0, 12675, 0] S1x9x256.size inb_S1x12720x256_S1x9x256_0_12675_0).emb x) :=
  piece_ok x0 x1 x2 x3 (len := 9) 150 12675 (by omega) rfl (by norm_num [PairIndex.off]) _
    (fun u r e k1 k2 hk1 hk2 => seg_apply 151 150 (k0_pay4 x0 x1) (k0_pay5 x0 x2) (k0_pay6 x3) slices_S160x256_o151_0_S9x256 slices_S160x256_o150_0_S1x256 broadcasts_S1x256_S9x256 broadcasts_S1x256_S9x256 shapeCasts_S9x256_S1x9x256 u r e k1 k2 hk1 hk2)
    inb_S1x12720x256_S1x9x256_0_12675_0

/-- The store of first member 151: rows 12684 … 12691. -/
theorem pc151 (x0 : Vec Ideal S1x160x256 .f32) (x1 x2 : Vec Ideal S256x256 .f32) (x3 : Vec Ideal S256 .f32) :
    ∀ x : (Rect.unit (s := S1x12720x256) ![0, 12684, 0] S1x8x256.size inb_S1x12720x256_S1x8x256_0_12684_0).shape.Idx,
      (k0_pay193 (k0_pay4 x0 x1) (k0_pay5 x0 x2) (k0_pay6 x3)) x = blockFn x0 x1 x2 x3 ((Rect.unit (s := S1x12720x256) ![0, 12684, 0] S1x8x256.size inb_S1x12720x256_S1x8x256_0_12684_0).emb x) :=
  piece_ok x0 x1 x2 x3 (len := 8) 151 12684 (by omega) rfl (by norm_num [PairIndex.off]) _
    (fun u r e k1 k2 hk1 hk2 => seg_apply 152 151 (k0_pay4 x0 x1) (k0_pay5 x0 x2) (k0_pay6 x3) slices_S160x256_o152_0_S8x256 slices_S160x256_o151_0_S1x256 broadcasts_S1x256_S8x256 broadcasts_S1x256_S8x256 shapeCasts_S8x256_S1x8x256 u r e k1 k2 hk1 hk2)
    inb_S1x12720x256_S1x8x256_0_12684_0

/-- The store of first member 152: rows 12692 … 12698. -/
theorem pc152 (x0 : Vec Ideal S1x160x256 .f32) (x1 x2 : Vec Ideal S256x256 .f32) (x3 : Vec Ideal S256 .f32) :
    ∀ x : (Rect.unit (s := S1x12720x256) ![0, 12692, 0] S1x7x256.size inb_S1x12720x256_S1x7x256_0_12692_0).shape.Idx,
      (k0_pay194 (k0_pay4 x0 x1) (k0_pay5 x0 x2) (k0_pay6 x3)) x = blockFn x0 x1 x2 x3 ((Rect.unit (s := S1x12720x256) ![0, 12692, 0] S1x7x256.size inb_S1x12720x256_S1x7x256_0_12692_0).emb x) :=
  piece_ok x0 x1 x2 x3 (len := 7) 152 12692 (by omega) rfl (by norm_num [PairIndex.off]) _
    (fun u r e k1 k2 hk1 hk2 => seg_apply 153 152 (k0_pay4 x0 x1) (k0_pay5 x0 x2) (k0_pay6 x3) slices_S160x256_o153_0_S7x256 slices_S160x256_o152_0_S1x256 broadcasts_S1x256_S7x256 broadcasts_S1x256_S7x256 shapeCasts_S7x256_S1x7x256 u r e k1 k2 hk1 hk2)
    inb_S1x12720x256_S1x7x256_0_12692_0

/-- The store of first member 153: rows 12699 … 12704. -/
theorem pc153 (x0 : Vec Ideal S1x160x256 .f32) (x1 x2 : Vec Ideal S256x256 .f32) (x3 : Vec Ideal S256 .f32) :
    ∀ x : (Rect.unit (s := S1x12720x256) ![0, 12699, 0] S1x6x256.size inb_S1x12720x256_S1x6x256_0_12699_0).shape.Idx,
      (k0_pay195 (k0_pay4 x0 x1) (k0_pay5 x0 x2) (k0_pay6 x3)) x = blockFn x0 x1 x2 x3 ((Rect.unit (s := S1x12720x256) ![0, 12699, 0] S1x6x256.size inb_S1x12720x256_S1x6x256_0_12699_0).emb x) :=
  piece_ok x0 x1 x2 x3 (len := 6) 153 12699 (by omega) rfl (by norm_num [PairIndex.off]) _
    (fun u r e k1 k2 hk1 hk2 => seg_apply 154 153 (k0_pay4 x0 x1) (k0_pay5 x0 x2) (k0_pay6 x3) slices_S160x256_o154_0_S6x256 slices_S160x256_o153_0_S1x256 broadcasts_S1x256_S6x256 broadcasts_S1x256_S6x256 shapeCasts_S6x256_S1x6x256 u r e k1 k2 hk1 hk2)
    inb_S1x12720x256_S1x6x256_0_12699_0

/-- The store of first member 154: rows 12705 … 12709. -/
theorem pc154 (x0 : Vec Ideal S1x160x256 .f32) (x1 x2 : Vec Ideal S256x256 .f32) (x3 : Vec Ideal S256 .f32) :
    ∀ x : (Rect.unit (s := S1x12720x256) ![0, 12705, 0] S1x5x256.size inb_S1x12720x256_S1x5x256_0_12705_0).shape.Idx,
      (k0_pay196 (k0_pay4 x0 x1) (k0_pay5 x0 x2) (k0_pay6 x3)) x = blockFn x0 x1 x2 x3 ((Rect.unit (s := S1x12720x256) ![0, 12705, 0] S1x5x256.size inb_S1x12720x256_S1x5x256_0_12705_0).emb x) :=
  piece_ok x0 x1 x2 x3 (len := 5) 154 12705 (by omega) rfl (by norm_num [PairIndex.off]) _
    (fun u r e k1 k2 hk1 hk2 => seg_apply 155 154 (k0_pay4 x0 x1) (k0_pay5 x0 x2) (k0_pay6 x3) slices_S160x256_o155_0_S5x256 slices_S160x256_o154_0_S1x256 broadcasts_S1x256_S5x256 broadcasts_S1x256_S5x256 shapeCasts_S5x256_S1x5x256 u r e k1 k2 hk1 hk2)
    inb_S1x12720x256_S1x5x256_0_12705_0

/-- The store of first member 155: rows 12710 … 12713. -/
theorem pc155 (x0 : Vec Ideal S1x160x256 .f32) (x1 x2 : Vec Ideal S256x256 .f32) (x3 : Vec Ideal S256 .f32) :
    ∀ x : (Rect.unit (s := S1x12720x256) ![0, 12710, 0] S1x4x256.size inb_S1x12720x256_S1x4x256_0_12710_0).shape.Idx,
      (k0_pay198 (k0_pay6 x3) (k0_pay197 (k0_pay4 x0 x1) (k0_pay5 x0 x2))) x = blockFn x0 x1 x2 x3 ((Rect.unit (s := S1x12720x256) ![0, 12710, 0] S1x4x256.size inb_S1x12720x256_S1x4x256_0_12710_0).emb x) :=
  piece_ok x0 x1 x2 x3 (len := 4) 155 12710 (by omega) rfl (by norm_num [PairIndex.off]) _
    (fun u r e k1 k2 hk1 hk2 => seg_apply 156 155 (k0_pay4 x0 x1) (k0_pay5 x0 x2) (k0_pay6 x3) slices_S160x256_o156_0_S4x256 slices_S160x256_o155_0_S1x256 broadcasts_S1x256_S4x256 broadcasts_S1x256_S4x256 shapeCasts_S4x256_S1x4x256 u r e k1 k2 hk1 hk2)
    inb_S1x12720x256_S1x4x256_0_12710_0

/-- The store of first member 156: rows 12714 … 12716. -/
theorem pc156 (x0 : Vec Ideal S1x160x256 .f32) (x1 x2 : Vec Ideal S256x256 .f32) (x3 : Vec Ideal S256 .f32) :
    ∀ x : (Rect.unit (s := S1x12720x256) ![0, 12714, 0] S1x3x256.size inb_S1x12720x256_S1x3x256_0_12714_0).shape.Idx,
      (k0_pay199 (k0_pay4 x0 x1) (k0_pay5 x0 x2) (k0_pay6 x3)) x = blockFn x0 x1 x2 x3 ((Rect.unit (s := S1x12720x256) ![0, 12714, 0] S1x3x256.size inb_S1x12720x256_S1x3x256_0_12714_0).emb x) :=
  piece_ok x0 x1 x2 x3 (len := 3) 156 12714 (by omega) rfl (by norm_num [PairIndex.off]) _
    (fun u r e k1 k2 hk1 hk2 => seg_apply 157 156 (k0_pay4 x0 x1) (k0_pay5 x0 x2) (k0_pay6 x3) slices_S160x256_o157_0_S3x256 slices_S160x256_o156_0_S1x256 broadcasts_S1x256_S3x256 broadcasts_S1x256_S3x256 shapeCasts_S3x256_S1x3x256 u r e k1 k2 hk1 hk2)
    inb_S1x12720x256_S1x3x256_0_12714_0

/-- The store of first member 157: rows 12717 … 12718. -/
theorem pc157 (x0 : Vec Ideal S1x160x256 .f32) (x1 x2 : Vec Ideal S256x256 .f32) (x3 : Vec Ideal S256 .f32) :
    ∀ x : (Rect.unit (s := S1x12720x256) ![0, 12717, 0] S1x2x256.size inb_S1x12720x256_S1x2x256_0_12717_0).shape.Idx,
      (k0_pay1 ((k0_pay6 x3)) (k0_pay200 (k0_pay4 x0 x1) (k0_pay5 x0 x2))) x = blockFn x0 x1 x2 x3 ((Rect.unit (s := S1x12720x256) ![0, 12717, 0] S1x2x256.size inb_S1x12720x256_S1x2x256_0_12717_0).emb x) :=
  piece_ok x0 x1 x2 x3 (len := 2) 157 12717 (by omega) rfl (by norm_num [PairIndex.off]) _
    (fun u r e k1 k2 hk1 hk2 => seg_apply 158 157 (k0_pay4 x0 x1) (k0_pay5 x0 x2) (k0_pay6 x3) slices_S160x256_o158_0_S2x256 slices_S160x256_o157_0_S1x256 broadcasts_S1x256_S2x256 broadcasts_S1x256_S2x256 shapeCasts_S2x256_S1x2x256 u r e k1 k2 hk1 hk2)
    inb_S1x12720x256_S1x2x256_0_12717_0

/-- The store of first member 158: rows 12719 … 12719. -/
theorem pc158 (x0 : Vec Ideal S1x160x256 .f32) (x1 x2 : Vec Ideal S256x256 .f32) (x3 : Vec Ideal S256 .f32) :
    ∀ x : (Rect.unit (s := S1x12720x256) ![0, 12719, 0] S1x1x256.size inb_S1x12720x256_S1x1x256_0_12719_0).shape.Idx,
      (k0_pay2 ((k0_pay4 x0 x1)) ((k0_pay5 x0 x2)) ((k0_pay6 x3))) x = blockFn x0 x1 x2 x3 ((Rect.unit (s := S1x12720x256) ![0, 12719, 0] S1x1x256.size inb_S1x12720x256_S1x1x256_0_12719_0).emb x) :=
  piece_ok x0 x1 x2 x3 (len := 1) 158 12719 (by omega) rfl (by norm_num [PairIndex.off]) _
    (fun u r e k1 k2 hk1 hk2 => seg1_apply 159 158 (k0_pay4 x0 x1) (k0_pay5 x0 x2) (k0_pay6 x3) slices_S160x256_o159_0_S1x256 slices_S160x256_o158_0_S1x256 shapeCasts_S1x256_S1x1x256 u r e k1 k2 hk1 hk2)
    inb_S1x12720x256_S1x1x256_0_12719_0

end Cert.KernelIdeal.KernelValue

end
-- ==== Proof.KernelBlock.lean ====
/-
  The block the body leaves is the block function. The body's run ends with 159 stores; the store of first member i
  holds, at row r of its rectangle and feature e, row i + 1 + r of the lower projection plus row i of the upper one plus
  the bias at e, and sits at rows off i … of the packed axis, where position off i + r holds the pair (i, i + 1 + r): so
  each store is the block function restricted to its rectangle. The stores cover the block, so what they leave, read
  back, is the block function everywhere.
-/
import proofs.«138512_j66692252172937_2_alg».proof.Proof.KernelSeg
import proofs.«138512_j66692252172937_2_alg».proof.Proof.KernelPieces
import proofs.«138512_j66692252172937_2_alg».proof.Proof.KernelStores1
import proofs.«138512_j66692252172937_2_alg».proof.Proof.KernelStores2
import proofs.«138512_j66692252172937_2_alg».proof.Proof.KernelStores3
import proofs.«138512_j66692252172937_2_alg».proof.Proof.KernelStores4
import proofs.«138512_j66692252172937_2_alg».proof.Proof.KernelIdealFrameP
import Idealize.ShloMosaic.Lib.Pipeline.Value

set_option maxRecDepth 16384

noncomputable section

namespace Cert.KernelIdeal.KernelValue

open Cert.KernelIdeal Cert.KernelIdeal.Gen Idealize.ShloMosaic Idealize.ShloMosaic.TcCoe Idealize.ShloMosaic.ValueIdx

/-! ## Each store is the block function on its rectangle (KernelStores1 … 4) -/

/-- Every store of the list is the block function on its rectangle. -/
theorem pieces_ok (x0 : Vec Ideal S1x160x256 .f32) (x1 x2 : Vec Ideal S256x256 .f32) (x3 : Vec Ideal S256 .f32) :
    ∀ p ∈ Pieces.pieces (F := Ideal) x0 x1 x2 x3, ∀ x : p.1.shape.Idx, p.2 x = blockFn x0 x1 x2 x3 (p.1.emb x) := by
  unfold Pieces.pieces
  refine List.forall_mem_cons.mpr ⟨pc158 x0 x1 x2 x3, ?_⟩
  refine List.forall_mem_cons.mpr ⟨pc157 x0 x1 x2 x3, ?_⟩
  refine List.forall_mem_cons.mpr ⟨pc156 x0 x1 x2 x3, ?_⟩
  refine List.forall_mem_cons.mpr ⟨pc155 x0 x1 x2 x3, ?_⟩
  refine List.forall_mem_cons.mpr ⟨pc154 x0 x1 x2 x3, ?_⟩
  refine List.forall_mem_cons.mpr ⟨pc153 x0 x1 x2 x3, ?_⟩
  refine List.forall_mem_cons.mpr ⟨pc152 x0 x1 x2 x3, ?_⟩
  refine List.forall_mem_cons.mpr ⟨pc151 x0 x1 x2 x3, ?_⟩
  refine List.forall_mem_cons.mpr ⟨pc150 x0 x1 x2 x3, ?_⟩
  refine List.forall_mem_cons.mpr ⟨pc149 x0 x1 x2 x3, ?_⟩
  refine List.forall_mem_cons.mpr ⟨pc148 x0 x1 x2 x3, ?_⟩
  refine List.forall_mem_cons.mpr ⟨pc147 x0 x1 x2 x3, ?_⟩
  refine List.forall_mem_cons.mpr ⟨pc146 x0 x1 x2 x3, ?_⟩
  refine List.forall_mem_cons.mpr ⟨pc145 x0 x1 x2 x3, ?_⟩
  refine List.forall_mem_cons.mpr ⟨pc144 x0 x1 x2 x3, ?_⟩
  refine List.forall_mem_cons.mpr ⟨pc143 x0 x1 x2 x3, ?_⟩
  refine List.forall_mem_cons.mpr ⟨pc142 x0 x1 x2 x3, ?_⟩
  refine List.forall_mem_cons.mpr ⟨pc141 x0 x1 x2 x3, ?_⟩
  refine List.forall_mem_cons.mpr ⟨pc140 x0 x1 x2 x3, ?_⟩
  refine List.forall_mem_cons.mpr ⟨pc139 x0 x1 x2 x3, ?_⟩
  refine List.forall_mem_cons.mpr ⟨pc138 x0 x1 x2 x3, ?_⟩
  refine List.forall_mem_cons.mpr ⟨pc137 x0 x1 x2 x3, ?_⟩
  refine List.forall_mem_cons.mpr ⟨pc136 x0 x1 x2 x3, ?_⟩
  refine List.forall_mem_cons.mpr ⟨pc135 x0 x1 x2 x3, ?_⟩
  refine List.forall_mem_cons.mpr ⟨pc134 x0 x1 x2 x3, ?_⟩
  refine List.forall_mem_cons.mpr ⟨pc133 x0 x1 x2 x3, ?_⟩
  refine List.forall_mem_cons.mpr ⟨pc132 x0 x1 x2 x3, ?_⟩
  refine List.forall_mem_cons.mpr ⟨pc131 x0 x1 x2 x3, ?_⟩
  refine List.forall_mem_cons.mpr ⟨pc130 x0 x1 x2 x3, ?_⟩
  refine List.forall_mem_cons.mpr ⟨pc129 x0 x1 x2 x3, ?_⟩
  refine List.forall_mem_cons.mpr ⟨pc128 x0 x1 x2 x3, ?_⟩
  refine List.forall_mem_cons.mpr ⟨pc127 x0 x1 x2 x3, ?_⟩
  refine List.forall_mem_cons.mpr ⟨pc126 x0 x1 x2 x3, ?_⟩
  refine List.forall_mem_cons.mpr ⟨pc125 x0 x1 x2 x3, ?_⟩
  refine List.forall_mem_cons.mpr ⟨pc124 x0 x1 x2 x3, ?_⟩
  refine List.forall_mem_cons.mpr ⟨pc123 x0 x1 x2 x3, ?_⟩
  refine List.forall_mem_cons.mpr ⟨pc122 x0 x1 x2 x3, ?_⟩
  refine List.forall_mem_cons.mpr ⟨pc121 x0 x1 x2 x3, ?_⟩
  refine List.forall_mem_cons.mpr ⟨pc120 x0 x1 x2 x3, ?_⟩
  refine List.forall_mem_cons.mpr ⟨pc119 x0 x1 x2 x3, ?_⟩
  refine List.forall_mem_cons.mpr ⟨pc118 x0 x1 x2 x3, ?_⟩
  refine List.forall_mem_cons.mpr ⟨pc117 x0 x1 x2 x3, ?_⟩
  refine List.forall_mem_cons.mpr ⟨pc116 x0 x1 x2 x3, ?_⟩
  refine List.forall_mem_cons.mpr ⟨pc115 x0 x1 x2 x3, ?_⟩
  refine List.forall_mem_cons.mpr ⟨pc114 x0 x1 x2 x3, ?_⟩
  refine List.forall_mem_cons.mpr ⟨pc113 x0 x1 x2 x3, ?_⟩
  refine List.forall_mem_cons.mpr ⟨pc112 x0 x1 x2 x3, ?_⟩
  refine List.forall_mem_cons.mpr ⟨pc111 x0 x1 x2 x3, ?_⟩
  refine List.forall_mem_cons.mpr ⟨pc110 x0 x1 x2 x3, ?_⟩
  refine List.forall_mem_cons.mpr ⟨pc109 x0 x1 x2 x3, ?_⟩
  refine List.forall_mem_cons.mpr ⟨pc108 x0 x1 x2 x3, ?_⟩
  refine List.forall_mem_cons.mpr ⟨pc107 x0 x1 x2 x3, ?_⟩
  refine List.forall_mem_cons.mpr ⟨pc106 x0 x1 x2 x3, ?_⟩
  refine List.forall_mem_cons.mpr ⟨pc105 x0 x1 x2 x3, ?_⟩
  refine List.forall_mem_cons.mpr ⟨pc104 x0 x1 x2 x3, ?_⟩
  refine List.forall_mem_cons.mpr ⟨pc103 x0 x1 x2 x3, ?_⟩
  refine List.forall_mem_cons.mpr ⟨pc102 x0 x1 x2 x3, ?_⟩
  refine List.forall_mem_cons.mpr ⟨pc101 x0 x1 x2 x3, ?_⟩
  refine List.forall_mem_cons.mpr ⟨pc100 x0 x1 x2 x3, ?_⟩
  refine List.forall_mem_cons.mpr ⟨pc99 x0 x1 x2 x3, ?_⟩
  refine List.forall_mem_cons.mpr ⟨pc98 x0 x1 x2 x3, ?_⟩
  refine List.forall_mem_cons.mpr ⟨pc97 x0 x1 x2 x3, ?_⟩
  refine List.forall_mem_cons.mpr ⟨pc96 x0 x1 x2 x3, ?_⟩
  refine List.forall_mem_cons.mpr ⟨pc95 x0 x1 x2 x3, ?_⟩
  refine List.forall_mem_cons.mpr ⟨pc94 x0 x1 x2 x3, ?_⟩
  refine List.forall_mem_cons.mpr ⟨pc93 x0 x1 x2 x3, ?_⟩
  refine List.forall_mem_cons.mpr ⟨pc92 x0 x1 x2 x3, ?_⟩
  refine List.forall_mem_cons.mpr ⟨pc91 x0 x1 x2 x3, ?_⟩
  refine List.forall_mem_cons.mpr ⟨pc90 x0 x1 x2 x3, ?_⟩
  refine List.forall_mem_cons.mpr ⟨pc89 x0 x1 x2 x3, ?_⟩
  refine List.forall_mem_cons.mpr ⟨pc88 x0 x1 x2 x3, ?_⟩
  refine List.forall_mem_cons.mpr ⟨pc87 x0 x1 x2 x3, ?_⟩
  refine List.forall_mem_cons.mpr ⟨pc86 x0 x1 x2 x3, ?_⟩
  refine List.forall_mem_cons.mpr ⟨pc85 x0 x1 x2 x3, ?_⟩
  refine List.forall_mem_cons.mpr ⟨pc84 x0 x1 x2 x3, ?_⟩
  refine List.forall_mem_cons.mpr ⟨pc83 x0 x1 x2 x3, ?_⟩
  refine List.forall_mem_cons.mpr ⟨pc82 x0 x1 x2 x3, ?_⟩
  refine List.forall_mem_cons.mpr ⟨pc81 x0 x1 x2 x3, ?_⟩
  refine List.forall_mem_cons.mpr ⟨pc80 x0 x1 x2 x3, ?_⟩
  refine List.forall_mem_cons.mpr ⟨pc79 x0 x1 x2 x3, ?_⟩
  refine List.forall_mem_cons.mpr ⟨pc78 x0 x1 x2 x3, ?_⟩
  refine List.forall_mem_cons.mpr ⟨pc77 x0 x1 x2 x3, ?_⟩
  refine List.forall_mem_cons.mpr ⟨pc76 x0 x1 x2 x3, ?_⟩
  refine List.forall_mem_cons.mpr ⟨pc75 x0 x1 x2 x3, ?_⟩
  refine List.forall_mem_cons.mpr ⟨pc74 x0 x1 x2 x3, ?_⟩
  refine List.forall_mem_cons.mpr ⟨pc73 x0 x1 x2 x3, ?_⟩
  refine List.forall_mem_cons.mpr ⟨pc72 x0 x1 x2 x3, ?_⟩
  refine List.forall_mem_cons.mpr ⟨pc71 x0 x1 x2 x3, ?_⟩
  refine List.forall_mem_cons.mpr ⟨pc70 x0 x1 x2 x3, ?_⟩
  refine List.forall_mem_cons.mpr ⟨pc69 x0 x1 x2 x3, ?_⟩
  refine List.forall_mem_cons.mpr ⟨pc68 x0 x1 x2 x3, ?_⟩
  refine List.forall_mem_cons.mpr ⟨pc67 x0 x1 x2 x3, ?_⟩
  refine List.forall_mem_cons.mpr ⟨pc66 x0 x1 x2 x3, ?_⟩
  refine List.forall_mem_cons.mpr ⟨pc65 x0 x1 x2 x3, ?_⟩
  refine List.forall_mem_cons.mpr ⟨pc64 x0 x1 x2 x3, ?_⟩
  refine List.forall_mem_cons.mpr ⟨pc63 x0 x1 x2 x3, ?_⟩
  refine List.forall_mem_cons.mpr ⟨pc62 x0 x1 x2 x3, ?_⟩
  refine List.forall_mem_cons.mpr ⟨pc61 x0 x1 x2 x3, ?_⟩
  refine List.forall_mem_cons.mpr ⟨pc60 x0 x1 x2 x3, ?_⟩
  refine List.forall_mem_cons.mpr ⟨pc59 x0 x1 x2 x3, ?_⟩
  refine List.forall_mem_cons.mpr ⟨pc58 x0 x1 x2 x3, ?_⟩
  refine List.forall_mem_cons.mpr ⟨pc57 x0 x1 x2 x3, ?_⟩
  refine List.forall_mem_cons.mpr ⟨pc56 x0 x1 x2 x3, ?_⟩
  refine List.forall_mem_cons.mpr ⟨pc55 x0 x1 x2 x3, ?_⟩
  refine List.forall_mem_cons.mpr ⟨pc54 x0 x1 x2 x3, ?_⟩
  refine List.forall_mem_cons.mpr ⟨pc53 x0 x1 x2 x3, ?_⟩
  refine List.forall_mem_cons.mpr ⟨pc52 x0 x1 x2 x3, ?_⟩
  refine List.forall_mem_cons.mpr ⟨pc51 x0 x1 x2 x3, ?_⟩
  refine List.forall_mem_cons.mpr ⟨pc50 x0 x1 x2 x3, ?_⟩
  refine List.forall_mem_cons.mpr ⟨pc49 x0 x1 x2 x3, ?_⟩
  refine List.forall_mem_cons.mpr ⟨pc48 x0 x1 x2 x3, ?_⟩
  refine List.forall_mem_cons.mpr ⟨pc47 x0 x1 x2 x3, ?_⟩
  refine List.forall_mem_cons.mpr ⟨pc46 x0 x1 x2 x3, ?_⟩
  refine List.forall_mem_cons.mpr ⟨pc45 x0 x1 x2 x3, ?_⟩
  refine List.forall_mem_cons.mpr ⟨pc44 x0 x1 x2 x3, ?_⟩
  refine List.forall_mem_cons.mpr ⟨pc43 x0 x1 x2 x3, ?_⟩
  refine List.forall_mem_cons.mpr ⟨pc42 x0 x1 x2 x3, ?_⟩
  refine List.forall_mem_cons.mpr ⟨pc41 x0 x1 x2 x3, ?_⟩
  refine List.forall_mem_cons.mpr ⟨pc40 x0 x1 x2 x3, ?_⟩
  refine List.forall_mem_cons.mpr ⟨pc39 x0 x1 x2 x3, ?_⟩
  refine List.forall_mem_cons.mpr ⟨pc38 x0 x1 x2 x3, ?_⟩
  refine List.forall_mem_cons.mpr ⟨pc37 x0 x1 x2 x3, ?_⟩
  refine List.forall_mem_cons.mpr ⟨pc36 x0 x1 x2 x3, ?_⟩
  refine List.forall_mem_cons.mpr ⟨pc35 x0 x1 x2 x3, ?_⟩
  refine List.forall_mem_cons.mpr ⟨pc34 x0 x1 x2 x3, ?_⟩
  refine List.forall_mem_cons.mpr ⟨pc33 x0 x1 x2 x3, ?_⟩
  refine List.forall_mem_cons.mpr ⟨pc32 x0 x1 x2 x3, ?_⟩
  refine List.forall_mem_cons.mpr ⟨pc31 x0 x1 x2 x3, ?_⟩
  refine List.forall_mem_cons.mpr ⟨pc30 x0 x1 x2 x3, ?_⟩
  refine List.forall_mem_cons.mpr ⟨pc29 x0 x1 x2 x3, ?_⟩
  refine List.forall_mem_cons.mpr ⟨pc28 x0 x1 x2 x3, ?_⟩
  refine List.forall_mem_cons.mpr ⟨pc27 x0 x1 x2 x3, ?_⟩
  refine List.forall_mem_cons.mpr ⟨pc26 x0 x1 x2 x3, ?_⟩
  refine List.forall_mem_cons.mpr ⟨pc25 x0 x1 x2 x3, ?_⟩
  refine List.forall_mem_cons.mpr ⟨pc24 x0 x1 x2 x3, ?_⟩
  refine List.forall_mem_cons.mpr ⟨pc23 x0 x1 x2 x3, ?_⟩
  refine List.forall_mem_cons.mpr ⟨pc22 x0 x1 x2 x3, ?_⟩
  refine List.forall_mem_cons.mpr ⟨pc21 x0 x1 x2 x3, ?_⟩
  refine List.forall_mem_cons.mpr ⟨pc20 x0 x1 x2 x3, ?_⟩
  refine List.forall_mem_cons.mpr ⟨pc19 x0 x1 x2 x3, ?_⟩
  refine List.forall_mem_cons.mpr ⟨pc18 x0 x1 x2 x3, ?_⟩
  refine List.forall_mem_cons.mpr ⟨pc17 x0 x1 x2 x3, ?_⟩
  refine List.forall_mem_cons.mpr ⟨pc16 x0 x1 x2 x3, ?_⟩
  refine List.forall_mem_cons.mpr ⟨pc15 x0 x1 x2 x3, ?_⟩
  refine List.forall_mem_cons.mpr ⟨pc14 x0 x1 x2 x3, ?_⟩
  refine List.forall_mem_cons.mpr ⟨pc13 x0 x1 x2 x3, ?_⟩
  refine List.forall_mem_cons.mpr ⟨pc12 x0 x1 x2 x3, ?_⟩
  refine List.forall_mem_cons.mpr ⟨pc11 x0 x1 x2 x3, ?_⟩
  refine List.forall_mem_cons.mpr ⟨pc10 x0 x1 x2 x3, ?_⟩
  refine List.forall_mem_cons.mpr ⟨pc9 x0 x1 x2 x3, ?_⟩
  refine List.forall_mem_cons.mpr ⟨pc8 x0 x1 x2 x3, ?_⟩
  refine List.forall_mem_cons.mpr ⟨pc7 x0 x1 x2 x3, ?_⟩
  refine List.forall_mem_cons.mpr ⟨pc6 x0 x1 x2 x3, ?_⟩
  refine List.forall_mem_cons.mpr ⟨pc5 x0 x1 x2 x3, ?_⟩
  refine List.forall_mem_cons.mpr ⟨pc4 x0 x1 x2 x3, ?_⟩
  refine List.forall_mem_cons.mpr ⟨pc3 x0 x1 x2 x3, ?_⟩
  refine List.forall_mem_cons.mpr ⟨pc2 x0 x1 x2 x3, ?_⟩
  refine List.forall_mem_cons.mpr ⟨pc1 x0 x1 x2 x3, ?_⟩
  refine List.forall_mem_cons.mpr ⟨pc0 x0 x1 x2 x3, ?_⟩
  exact fun _ h => absurd h List.not_mem_nil

/-! ## What the body leaves in the output's buffer -/

/-- The contents the run leaves in the output's staging buffer are the block function of the four loaded blocks. -/
theorem out0_A_4_eq (c : Dev nD) (i : grid0.Coords) (arg1 : Memref sig .tc .vmem S1x160x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S1x12720x256 .f32) (harg5 : arg5.IsWhole)
    (x0 : Vec Ideal S1x160x256 .f32) (x1 x2 : Vec Ideal S256x256 .f32) (x3 : Vec Ideal S256 .f32) :
    GenP.out0_A_4 (F := Ideal) c i arg1 harg1 arg2 harg2 arg3 harg3 arg4 harg4 arg5 harg5 x0 x1 x2 x3 = blockFn x0 x1 x2 x3 := by
  unfold GenP.out0_A_4
  rw [View.read_writes_junk_eq_canon, Pieces.run_pieces]
  funext y
  exact View.canon_apply_of_pieces (blockFn x0 x1 x2 x3) _ (pieces_ok x0 x1 x2 x3) y (Pieces.cover x0 x1 x2 x3 y)

end Cert.KernelIdeal.KernelValue

end
-- ==== Proof.KernelInputs.lean ====
/-
  What the kernel's four operand blocks are at grid point t, read in the three argument arrays. The first operand's block
  is batch t of x; the second and the third are the upper and the lower half of the weight W (rows 0..255 and rows
  256..511, cut out of W before the grid starts), the same at every point; the fourth is the bias. A block's coordinate in its array is
  the block index times the block's size plus the coordinate inside the block.
-/
import proofs.«138512_j66692252172937_2_alg».proof.Proof.Gen.KernelIdeal.Frame.Runs
import Idealize.ShloMosaic.Lib.Pipeline.Value
import Idealize.ShloMosaic.Lib.ValueIdx
import Idealize.ShloMosaic.Lib.Tactic

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The windows' block indices at grid point t: the batch t on the leading axis of the first operand and of the result,
    zero everywhere else. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0
    ∧ t.val < 8 :=
  (by decide +kernel : ∀ t : Fin grid0.N, _)

/-- The upper half of the weight as the region finds it: rows 0..255 of the second argument. -/
theorem V_upper (c : Dev nD) : (V m c main_v0 : S256x256.Idx → EReal)
    = extractStridedSlice S256x256 ![0, 0] (m ((c : Thread nD τ).loc main_arg1)) slices_S512x256_S256x256_0_0 := by
  dsimp only [Gen.V, Gen.hostOps0]; after_results

/-- The lower half of the weight as the region finds it: rows 256..511 of the second argument. -/
theorem V_lower (c : Dev nD) : (V m c main_v1 : S256x256.Idx → EReal)
    = extractStridedSlice S256x256 ![256, 0] (m ((c : Thread nD τ).loc main_arg1)) slices_S512x256_S256x256_256_0 := by
  dsimp only [Gen.V, Gen.hostOps0]; after_results

/-- The first operand's block at point t is batch t of the first argument. -/
theorem iblk0_apply (c : Dev nD) (t : Fin cfg0.N) (b : Fin 8) (hb : b.val = t.val) (s : Fin 160) (d : Fin 256) :
    (iblk m c 0 t : Vec Ideal S1x160x256 .f32) (ix3 0 s d)
      = (m ((c : Thread nD τ).loc main_arg0) : S8x160x256.Idx → EReal) (ix3 b s d) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = b.val; rw [e0, hb]; omega
  | ⟨1, _⟩ => show win0_0.index t (1 : Fin 3) * 160 + 1 * s.val = s.val; rw [e1]; omega
  | ⟨2, _⟩ => show win0_0.index t (2 : Fin 3) * 256 + 1 * d.val = d.val; rw [e2]; omega

/-- The second operand's block at every point is rows 0..255 of the weight. -/
theorem iblk1_apply (c : Dev nD) (t : Fin cfg0.N) (d : Fin 256) (e : Fin 256) :
    (iblk m c 1 t : Vec Ideal S256x256 .f32) (ix2 d e)
      = (m ((c : Thread nD τ).loc main_arg1) : S512x256.Idx → EReal) (ix2 (⟨d.val, by have := d.isLt; omega⟩ : Fin 512) e) := by
  obtain ⟨-, -, -, e0, e1, -⟩ := idx_facts t
  unfold iblk
  rw [View.read_apply]
  show V m c main_v0 _ = _
  rw [V_upper]
  refine extractStridedSlice_apply _ _ _ _ _ fun a => ?_
  match a with
  | ⟨0, _⟩ => show d.val = 0 + (win0_1.index t (0 : Fin 2) * 256 + 1 * d.val); rw [e0]; omega
  | ⟨1, _⟩ => show e.val = 0 + (win0_1.index t (1 : Fin 2) * 256 + 1 * e.val); rw [e1]; omega

/-- The third operand's block at every point is rows 256..511 of the weight. -/
theorem iblk2_apply (c : Dev nD) (t : Fin cfg0.N) (d : Fin 256) (e : Fin 256) :
    (iblk m c 2 t : Vec Ideal S256x256 .f32) (ix2 d e)
      = (m ((c : Thread nD τ).loc main_arg1) : S512x256.Idx → EReal) (ix2 (⟨256 + d.val, by have := d.isLt; omega⟩ : Fin 512) e) := by
  obtain ⟨-, -, -, -, -, e0, e1, -⟩ := idx_facts t
  unfold iblk
  rw [View.read_apply]
  show V m c main_v1 _ = _
  rw [V_lower]
  refine extractStridedSlice_apply _ _ _ _ _ fun a => ?_
  match a with
  | ⟨0, _⟩ => show 256 + d.val = 256 + (win0_2.index t (0 : Fin 2) * 256 + 1 * d.val); rw [e0]; omega
  | ⟨1, _⟩ => show e.val = 0 + (win0_2.index t (1 : Fin 2) * 256 + 1 * e.val); rw [e1]; omega

/-- The fourth operand's block at every point is the bias. -/
theorem iblk3_apply (c : Dev nD) (t : Fin cfg0.N) (e : Fin 256) :
    (iblk m c 3 t : Vec Ideal S256 .f32) (ix1 e)
      = (m ((c : Thread nD τ).loc main_arg2) : S256.Idx → EReal) (ix1 e) := by
  obtain ⟨-, -, -, -, -, -, -, e0, -⟩ := idx_facts t
  unfold iblk
  rw [View.read_apply]
  show V m c main_arg2 _ = _
  rw [V_main_arg2]
  refine congrArg _ (funext fun a => Fin.ext ?_)
  match a with
  | ⟨0, _⟩ => show win0_3.index t (0 : Fin 1) * 256 + 1 * e.val = e.val; rw [e0]; omega

end Cert.KernelIdeal.KernelValue

end
-- ==== Proof.KernelValue.lean ====
/-
  From the kernel's blocks to its whole result array. The block the body leaves at grid point t is, at pair position p
  and feature e, the row x[t, col p, :] against column e of the lower half of W, plus the row x[t, row p, :] against column
  e of the upper half, plus the bias at e: block t of the specification's function G of the three arguments. The eight
  blocks [1, 12720, 256] tile the array [8, 12720, 256] (the index with batch b lies in point b's block), so the array
  after the run is G; last, the run with the result so named and the arguments unchanged.
-/
import proofs.«138512_j66692252172937_2_alg».proof.Proof.KernelIdealFrameP
import proofs.«138512_j66692252172937_2_alg».proof.Proof.Spec
import proofs.«138512_j66692252172937_2_alg».proof.Proof.KernelBlock
import proofs.«138512_j66692252172937_2_alg».proof.Proof.KernelInputs
import Idealize.ShloMosaic.Lib.Pipeline.Value
import Idealize.ShloMosaic.Lib.ValueIdx
import Idealize.ShloMosaic.Lib.Tactic

noncomputable section

namespace Cert.KernelIdeal.KernelValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block's function of the four operand blocks is the specification's function of the three arguments, once
    each operand block is read in its argument: batch b of the first, the two halves of the second, the third. -/
theorem blockFn_eq_G (x : S8x160x256.Idx → EReal) (W : S512x256.Idx → EReal) (bias : S256.Idx → EReal)
    (x0 : Vec Ideal S1x160x256 .f32) (x1 x2 : Vec Ideal S256x256 .f32) (x3 : Vec Ideal S256 .f32) (b : Fin 8)
    (h0 : ∀ (s : Fin 160) (d : Fin 256), x0 (ix3 0 s d) = x (ix3 b s d))
    (h1 : ∀ (d e : Fin 256), x1 (ix2 d e) = W (ix2 (⟨d.val, by have := d.isLt; omega⟩ : Fin 512) e))
    (h2 : ∀ (d e : Fin 256), x2 (ix2 d e) = W (ix2 (⟨256 + d.val, by have := d.isLt; omega⟩ : Fin 512) e))
    (h3 : ∀ e : Fin 256, x3 (ix1 e) = bias (ix1 e))
    (p : Fin 12720) (e : Fin 256) :
    blockFn x0 x1 x2 x3 (ix3 0 p e) = PairSpec.G x W bias (ix3 b p e) := by
  show ((∑ d : Fin 256, x0 (ix3 0 (PairSpec.colF p) d) * x2 (ix2 d e))
      + (∑ d : Fin 256, x0 (ix3 0 (PairSpec.rowF p) d) * x1 (ix2 d e))) + x3 (ix1 e)
    = ((∑ d : Fin 256, x (ix3 b (PairSpec.colF p) d) * W (ix2 (⟨256 + d.val, by have := d.isLt; omega⟩ : Fin 512) e))
      + (∑ d : Fin 256, x (ix3 b (PairSpec.rowF p) d) * W (ix2 (⟨d.val, by have := d.isLt; omega⟩ : Fin 512) e))) + bias (ix1 e)
  rw [h3]
  congr 2
  · exact Finset.sum_congr rfl fun d _ => by rw [h0, h2]
  · exact Finset.sum_congr rfl fun d _ => by rw [h0, h1]

/-- The same at any index of the block and any index of the result array with the same pair position and feature
    in batch b. -/
theorem blockFn_eq_G_at (x : S8x160x256.Idx → EReal) (W : S512x256.Idx → EReal) (bias : S256.Idx → EReal)
    (x0 : Vec Ideal S1x160x256 .f32) (x1 x2 : Vec Ideal S256x256 .f32) (x3 : Vec Ideal S256 .f32) (b : Fin 8)
    (h0 : ∀ (s : Fin 160) (d : Fin 256), x0 (ix3 0 s d) = x (ix3 b s d))
    (h1 : ∀ (d e : Fin 256), x1 (ix2 d e) = W (ix2 (⟨d.val, by have := d.isLt; omega⟩ : Fin 512) e))
    (h2 : ∀ (d e : Fin 256), x2 (ix2 d e) = W (ix2 (⟨256 + d.val, by have := d.isLt; omega⟩ : Fin 512) e))
    (h3 : ∀ e : Fin 256, x3 (ix1 e) = bias (ix1 e))
    (y : S1x12720x256.Idx) (j : S8x12720x256.Idx)
    (hj0 : (j 0).val = b.val) (hj1 : (j 1).val = (y 1).val) (hj2 : (j 2).val = (y 2).val) :
    blockFn x0 x1 x2 x3 y = PairSpec.G x W bias j := by
  obtain ⟨a, p, e, rfl⟩ : ∃ (a : Fin 1) (p : Fin 12720) (e : Fin 256), y = ix3 a p e := ⟨y 0, y 1, y 2, eq_ix3 y⟩
  obtain ⟨b', p', e', rfl⟩ : ∃ (b' : Fin 8) (p' : Fin 12720) (e' : Fin 256), j = ix3 b' p' e' := ⟨j 0, j 1, j 2, eq_ix3 j⟩
  obtain rfl : a = 0 := Subsingleton.elim _ _
  obtain rfl : b' = b := Fin.ext hj0
  obtain rfl : p' = p := Fin.ext hj1
  obtain rfl : e' = e := Fin.ext hj2
  exact blockFn_eq_G x W bias x0 x1 x2 x3 b' h0 h1 h2 h3 p' e'

/-- The block's function of point t's operand blocks is block t of the specification's function of the three arguments. -/
theorem cut_blockFn (c : Dev nD) (t : Fin cfg0.N) :
    (cfg0.win 4).cut (grid0.coords t) (blockFn (iblk m c 0 t) (iblk m c 1 t) (iblk m c 2 t) (iblk m c 3 t))
      = ((cfg0.win 4).blk t).view.read (Elt Ideal) (PairSpec.G (m ((c : Thread nD τ).loc main_arg0)) (m ((c : Thread nD τ).loc main_arg1)) (m ((c : Thread nD τ).loc main_arg2))) := by
  obtain ⟨-, -, -, -, -, -, -, -, e0, e1, e2, ht⟩ := idx_facts t
  funext y
  show blockFn (iblk m c 0 t) (iblk m c 1 t) (iblk m c 2 t) (iblk m c 3 t) ((cfg0.win 4).xinj (grid0.coords t) y)
    = PairSpec.G (m ((c : Thread nD τ).loc main_arg0)) (m ((c : Thread nD τ).loc main_arg1)) (m ((c : Thread nD τ).loc main_arg2)) (((cfg0.win 4).blk t).view.emb y)
  have hy0 : (y 0).val < 1 := (y 0).isLt
  refine blockFn_eq_G_at (m ((c : Thread nD τ).loc main_arg0)) (m ((c : Thread nD τ).loc main_arg1)) (m ((c : Thread nD τ).loc main_arg2))
    (iblk m c 0 t) (iblk m c 1 t) (iblk m c 2 t) (iblk m c 3 t) ⟨t.val, ht⟩
    (fun s d => iblk0_apply m c t ⟨t.val, ht⟩ rfl s d) (fun d e => iblk1_apply m c t d e) (fun d e => iblk2_apply m c t d e)
    (fun e => iblk3_apply m c t e) ((cfg0.win 4).xinj (grid0.coords t) y) (((cfg0.win 4).blk t).view.emb y) ?_ ?_ ?_
  · show win0_4.index t (0 : Fin 3) * 1 + 1 * (y 0).val = t.val; rw [e0]; omega
  · show win0_4.index t (1 : Fin 3) * 12720 + 1 * (y 1).val = (y 1).val; rw [e1]; omega
  · show win0_4.index t (2 : Fin 3) * 256 + 1 * (y 2).val = (y 2).val; rw [e2]; omega

/-- What point t writes back to the result array: the contents the body leaves in the output's buffer at that point,
    read through the point's block. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)) := by
  show (cfg0.win 4).cut (grid0.coords t) ((dats m 0 c).after 4 t) = _
  rw [after0_4]
  rfl

/-- The frame's run with the result array named: after it the result buffer holds the array the eight points' write-backs
    build, and the three arguments are as launched (the first and third are staged by input windows that never write
    back; the second is not staged at all). -/
theorem run_blocks (ρ : Dev nD → PrngReg) : θ_run (defs (F := Ideal)) (onTc (τ := τ) (main (F := Ideal))) ⟨m, fun _ => 0, ρ⟩ fun r => ∀ c : Dev nD,
      r.2.mem ((c : Thread nD τ).loc main_v2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c)))⟩)
    (run_main m ρ)

/-- What point t writes back is block t of the specification's function of the three arguments. -/
theorem flushed_eq (c : Dev nD) (t : Fin cfg0.N) :
    (dats m 0 c).flushed 4 t = ((cfg0.win 4).blk t).view.read (Elt Ideal) (PairSpec.G (m ((c : Thread nD τ).loc main_arg0)) (m ((c : Thread nD τ).loc main_arg1)) (m ((c : Thread nD τ).loc main_arg2))) :=
  (flushed4_A m c t).trans ((congrArg ((cfg0.win 4).cut (grid0.coords t))
    (out0_A_4_eq c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t))).trans (cut_blockFn m c t))

/-- An index of the result array is in point t's block iff each coordinate is in the block's range on its axis. -/
theorem mem_blk (t : Fin cfg0.N) (i : S8x12720x256.Idx) :
    i ∈ ((cfg0.win 4).blk t).view.set ↔ ∀ a : Fin 3, win0_4.index t a * S1x12720x256.size a ≤ (i a).val
      ∧ (i a).val < win0_4.index t a * S1x12720x256.size a + S1x12720x256.size a := by
  show i ∈ ((View.whole main_v2).slice (win0_4.rect t)).set ↔ _
  rw [View.set_slice_whole, Rect.mem_set_unit]
  exact Iff.rfl

/-- The eight blocks tile the result array: the index with batch b is in point b's block. -/
theorem cover (i : S8x12720x256.Idx) :
    ∃ t : Fin cfg0.N, (cfg0.win 4).flush t = true ∧ i ∈ ((cfg0.win 4).blk t).view.set := by
  have hi0 : (i 0).val < 8 := (i 0).isLt
  have hi1 : (i 1).val < 12720 := (i 1).isLt
  have hi2 : (i 2).val < 256 := (i 2).isLt
  obtain ⟨t, ht⟩ : ∃ t : Fin cfg0.N, t.val = (i 0).val :=
    ⟨⟨(i 0).val, by rw [show cfg0.N = 8 from N_0]; exact hi0⟩, rfl⟩
  refine ⟨t, flush0_4 t, ?_⟩
  obtain ⟨-, -, -, -, -, -, -, -, e0, e1, e2, -⟩ := idx_facts t
  rw [mem_blk]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 12720 ≤ (i 1).val ∧ (i 1).val < win0_4.index t (1 : Fin 3) * 12720 + 12720; rw [e1]; omega
  | ⟨2, _⟩ => show win0_4.index t (2 : Fin 3) * 256 ≤ (i 2).val ∧ (i 2).val < win0_4.index t (2 : Fin 3) * 256 + 256; rw [e2]; omega

/-- The result array after the run is the specification's function of the three arguments. -/
theorem final (c : Dev nD) : (dats m 0 c).arrAt 4 cfg0.N = (PairSpec.G (m ((c : Thread nD τ).loc main_arg0)) (m ((c : Thread nD τ).loc main_arg1)) (m ((c : Thread nD τ).loc main_arg2))) :=
  (dats m 0 c).arrAt_eq_of_cover 4 (PairSpec.G (m ((c : Thread nD τ).loc main_arg0)) (m ((c : Thread nD τ).loc main_arg1)) (m ((c : Thread nD τ).loc main_arg2))) (fun t _ => flushed_eq m c t) cover

/-- The kernel's run: the result array holds the specification's function of the arguments, which are unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v2) = (PairSpec.G (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelValue

end
-- ==== Proof.RefRunOps.lean ====
/-
  The reference program as one straight line: the operations of @main in order, every call replaced by the callee's
  operations over that call's buffers (the callee's parameters read as the call's operands), cut into four consecutive
  stages. @main is the run of the concatenation; every operation touches TensorCore buffers only; so every weakly fair
  execution terminates with each buffer at the fold of the operations over the launch contents.
-/
import proofs.«138512_j66692252172937_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The pair table: the strictly upper triangular mask, its running count along the flattened axis, the clamp and the wrap, the count per value, and the running sum of the counts. Operations 1 to 39 of the line. -/
abbrev opsA : List (HloOp τ sig (Elt F)) :=
  [ StableHlo.nullary main_cst (constant S_ .f32 0x3F800000#32),
    StableHlo.unary main_cst main_v0 (broadcastInDim S160x160 ![] bcast_S_S160x160 : (⟨S_, .f32⟩ : BufTy).Contents (Elt F) → (⟨S160x160, .f32⟩ : BufTy).Contents (Elt F)),
    StableHlo.TRef.nullary main_call0.v0 (iotaInDim S160x160 32 0),
    StableHlo.TRef.nullary main_call0.c (constantI S_ 32 0#32),
    StableHlo.TRef.unary main_call0.c main_call0.v1 (broadcastInDim S160x160 ![] bcast_S_S160x160),
    StableHlo.TRef.binary main_call0.v0 main_call0.v1 main_call0.v2 addi,
    StableHlo.TRef.nullary main_call0.v3 (iotaInDim S160x160 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S160x160 ![] bcast_S_S160x160),
    StableHlo.TRef.ternary main_call0.v4 main_call0.v5 (.of main_v0 : StableHlo.TRef sig ⟨S160x160, .f32⟩) main_call0.v6 select,
    StableHlo.nullary main_cst_0 (constant S_ .f32 0x00000000#32),
    StableHlo.unary main_cst_0 main_v2 (broadcastInDim S160x160 ![] bcast_S_S160x160 : (⟨S_, .f32⟩ : BufTy).Contents (Elt F) → (⟨S160x160, .f32⟩ : BufTy).Contents (Elt F)),
    StableHlo.binary main_v1 main_v2 main_v3 (cmpf .une : (⟨S160x160, .f32⟩ : BufTy).Contents (Elt F) → (⟨S160x160, .f32⟩ : BufTy).Contents (Elt F) → (⟨S160x160, .i1⟩ : BufTy).Contents (Elt F)),
    StableHlo.TRef.reshape (.of main_v3 : StableHlo.TRef sig ⟨S160x160, .i1⟩) main_call1.v0 rfl shapeCasts_S160x160_S25600,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![25600] ![1] ![25599] ![0] x v reduceWindows_S25600_S25600_w25600s1p25599_0 h_S_),
    StableHlo.nullary main_c (constantI S_ 32 0#32),
    StableHlo.unary main_c main_v5 (broadcastInDim S12720 ![] bcast_S_S12720 : (⟨S_, .i32⟩ : BufTy).Contents (Elt F) → (⟨S12720, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S25600 ![] bcast_S_S25600),
    StableHlo.TRef.binary main_call2.v1 (.of main_v4 : StableHlo.TRef sig ⟨S25600, .i32⟩) main_call2.v2 maxsi,
    StableHlo.nullary main_c_2 (constantI S_ 32 0#32),
    StableHlo.unary main_c_2 main_v7 (broadcastInDim S25600 ![] bcast_S_S25600 : (⟨S_, .i32⟩ : BufTy).Contents (Elt F) → (⟨S25600, .i32⟩ : BufTy).Contents (Elt F)),
    StableHlo.binary main_v6 main_v7 main_v8 (cmpi .slt : (⟨S25600, .i32⟩ : BufTy).Contents (Elt F) → (⟨S25600, .i32⟩ : BufTy).Contents (Elt F) → (⟨S25600, .i1⟩ : BufTy).Contents (Elt F)),
    StableHlo.nullary main_c_3 (constantI S_ 32 12720#32),
    StableHlo.unary main_c_3 main_v9 (broadcastInDim S25600 ![] bcast_S_S25600 : (⟨S_, .i32⟩ : BufTy).Contents (Elt F) → (⟨S25600, .i32⟩ : BufTy).Contents (Elt F)),
    StableHlo.binary main_v6 main_v9 main_v10 (addi : (⟨S25600, .i32⟩ : BufTy).Contents (Elt F) → (⟨S25600, .i32⟩ : BufTy).Contents (Elt F) → (⟨S25600, .i32⟩ : BufTy).Contents (Elt F)),
    StableHlo.ternary main_v8 main_v10 main_v6 main_v11 (select : (⟨S25600, .i1⟩ : BufTy).Contents (Elt F) → (⟨S25600, .i32⟩ : BufTy).Contents (Elt F) → (⟨S25600, .i32⟩ : BufTy).Contents (Elt F) → (⟨S25600, .i32⟩ : BufTy).Contents (Elt F)),
    StableHlo.unary main_v11 main_v12 (broadcastInDim S25600x1 ![0] bcast_S25600_S25600x1_0 : (⟨S25600, .i32⟩ : BufTy).Contents (Elt F) → (⟨S25600x1, .i32⟩ : BufTy).Contents (Elt F)),
    StableHlo.nullary main_c_4 (constantI S_ 32 1#32),
    StableHlo.unary main_c_4 main_v13 (broadcastInDim S25600 ![] bcast_S_S25600 : (⟨S_, .i32⟩ : BufTy).Contents (Elt F) → (⟨S25600, .i32⟩ : BufTy).Contents (Elt F)),
    StableHlo.ternary main_v5 main_v12 main_v13 main_v14 ((fun x i u => Host.scatter scatter_S12720_S25600x1_S25600_n_0_0_1 IntOp.addi x i u) : (⟨S12720, .i32⟩ : BufTy).Contents (Elt F) → (⟨S25600x1, .i32⟩ : BufTy).Contents (Elt F) → (⟨S25600, .i32⟩ : BufTy).Contents (Elt F) → (⟨S12720, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v14 : StableHlo.TRef sig ⟨S12720, .i32⟩) main_call3.call0.v0 main_call3.call0.v1 (fun x v => Host.reduceWindow IntOp.addi ![12720] ![1] ![12719] ![0] x v reduceWindows_S12720_S12720_w12720s1p12719_0 h_S_) ]

/-- The first members: the running sum divided by 160 rounding down, then its remainder by 160. Operations 40 to 78 of the line. -/
abbrev opsB : List (HloOp τ sig (Elt F)) :=
  [ StableHlo.nullary main_c_5 (constantI S_ 32 160#32),
    StableHlo.TRef.unary (.of main_c_5 : StableHlo.TRef sig ⟨S_, .i32⟩) main_call4.v0 (broadcastInDim S12720 ![] bcast_S_S12720),
    StableHlo.TRef.binary (.of main_v15 : StableHlo.TRef sig ⟨S12720, .i32⟩) main_call4.v0 main_call4.v1 Host.divsi,
    StableHlo.TRef.unary (.of main_v15 : StableHlo.TRef sig ⟨S12720, .i32⟩) main_call4.v2 signi,
    StableHlo.TRef.unary (.of main_c_5 : StableHlo.TRef sig ⟨S_, .i32⟩) main_call4.v3 signi,
    StableHlo.TRef.unary main_call4.v3 main_call4.v4 (broadcastInDim S12720 ![] bcast_S_S12720),
    StableHlo.TRef.binary main_call4.v2 main_call4.v4 main_call4.v5 (cmpi .ne),
    StableHlo.TRef.unary (.of main_c_5 : StableHlo.TRef sig ⟨S_, .i32⟩) main_call4.v6 (broadcastInDim S12720 ![] bcast_S_S12720),
    StableHlo.TRef.binary (.of main_v15 : StableHlo.TRef sig ⟨S12720, .i32⟩) main_call4.v6 main_call4.v7 Host.remsi,
    StableHlo.TRef.nullary main_call4.c (constantI S_ 32 0#32),
    StableHlo.TRef.unary main_call4.c main_call4.v8 (broadcastInDim S12720 ![] bcast_S_S12720),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S12720 ![] bcast_S_S12720),
    StableHlo.TRef.binary main_call4.v1 main_call4.v11 main_call4.v12 subi,
    StableHlo.TRef.ternary main_call4.v10 main_call4.v12 main_call4.v1 main_call4.call0.v0 select,
    StableHlo.nullary main_c_6 (constantI S_ 32 160#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S12720 ![] bcast_S_S12720),
    StableHlo.TRef.binary (.of main_v16 : StableHlo.TRef sig ⟨S12720, .i32⟩) main_call5.v3 main_call5.v4 Host.remsi,
    StableHlo.TRef.nullary main_call5.c_1 (constantI S_ 32 0#32),
    StableHlo.TRef.unary main_call5.c_1 main_call5.v5 (broadcastInDim S12720 ![] bcast_S_S12720),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S12720 ![] bcast_S_S12720),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S12720 ![] bcast_S_S12720),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S12720 ![] bcast_S_S12720),
    StableHlo.TRef.binary main_call5.v4 main_call5.v13 main_call5.v14 addi,
    StableHlo.TRef.ternary main_call5.v12 main_call5.v14 main_call5.v4 main_call5.v15 select ]

/-- The second members: the running sum divided by 1 rounding down, then its remainder by 160. Operations 79 to 117 of the line. -/
abbrev opsC : List (HloOp τ sig (Elt F)) :=
  [ StableHlo.nullary main_c_7 (constantI S_ 32 1#32),
    StableHlo.TRef.unary (.of main_c_7 : StableHlo.TRef sig ⟨S_, .i32⟩) main_call6.v0 (broadcastInDim S12720 ![] bcast_S_S12720),
    StableHlo.TRef.binary (.of main_v15 : StableHlo.TRef sig ⟨S12720, .i32⟩) main_call6.v0 main_call6.v1 Host.divsi,
    StableHlo.TRef.unary (.of main_v15 : StableHlo.TRef sig ⟨S12720, .i32⟩) main_call6.v2 signi,
    StableHlo.TRef.unary (.of main_c_7 : StableHlo.TRef sig ⟨S_, .i32⟩) main_call6.v3 signi,
    StableHlo.TRef.unary main_call6.v3 main_call6.v4 (broadcastInDim S12720 ![] bcast_S_S12720),
    StableHlo.TRef.binary main_call6.v2 main_call6.v4 main_call6.v5 (cmpi .ne),
    StableHlo.TRef.unary (.of main_c_7 : StableHlo.TRef sig ⟨S_, .i32⟩) main_call6.v6 (broadcastInDim S12720 ![] bcast_S_S12720),
    StableHlo.TRef.binary (.of main_v15 : StableHlo.TRef sig ⟨S12720, .i32⟩) main_call6.v6 main_call6.v7 Host.remsi,
    StableHlo.TRef.nullary main_call6.c (constantI S_ 32 0#32),
    StableHlo.TRef.unary main_call6.c main_call6.v8 (broadcastInDim S12720 ![] bcast_S_S12720),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S12720 ![] bcast_S_S12720),
    StableHlo.TRef.binary main_call6.v1 main_call6.v11 main_call6.v12 subi,
    StableHlo.TRef.ternary main_call6.v10 main_call6.v12 main_call6.v1 main_call6.call0.v0 select,
    StableHlo.nullary main_c_8 (constantI S_ 32 160#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S12720 ![] bcast_S_S12720),
    StableHlo.TRef.binary (.of main_v18 : StableHlo.TRef sig ⟨S12720, .i32⟩) main_call7.v3 main_call7.v4 Host.remsi,
    StableHlo.TRef.nullary main_call7.c_1 (constantI S_ 32 0#32),
    StableHlo.TRef.unary main_call7.c_1 main_call7.v5 (broadcastInDim S12720 ![] bcast_S_S12720),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S12720 ![] bcast_S_S12720),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S12720 ![] bcast_S_S12720),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S12720 ![] bcast_S_S12720),
    StableHlo.TRef.binary main_call7.v4 main_call7.v13 main_call7.v14 addi,
    StableHlo.TRef.ternary main_call7.v12 main_call7.v14 main_call7.v4 main_call7.v15 select ]

/-- The two projections, the rows gathered at the two members, their sum and the bias. Operations 118 to 143 of the line. -/
abbrev opsD : List (HloOp τ sig (Elt F)) :=
  [ StableHlo.unary main_arg1 main_v20 ((extractStridedSlice S256x256 ![0, 0] · slices_S512x256_S256x256_0_0) : (⟨S512x256, .f32⟩ : BufTy).Contents (Elt F) → (⟨S256x256, .f32⟩ : BufTy).Contents (Elt F)),
    StableHlo.unary main_arg1 main_v21 ((extractStridedSlice S256x256 ![256, 0] · slices_S512x256_S256x256_256_0) : (⟨S512x256, .f32⟩ : BufTy).Contents (Elt F) → (⟨S256x256, .f32⟩ : BufTy).Contents (Elt F)),
    StableHlo.binary main_arg0 main_v20 main_v22 ((fun l r => Host.dotGeneral dot_S8x160x256_S256x256_S8x160x256_2_0_01_1_n_n none l r) : (⟨S8x160x256, .f32⟩ : BufTy).Contents (Elt F) → (⟨S256x256, .f32⟩ : BufTy).Contents (Elt F) → (⟨S8x160x256, .f32⟩ : BufTy).Contents (Elt F)),
    StableHlo.binary main_arg0 main_v21 main_v23 ((fun l r => Host.dotGeneral dot_S8x160x256_S256x256_S8x160x256_2_0_01_1_n_n none l r) : (⟨S8x160x256, .f32⟩ : BufTy).Contents (Elt F) → (⟨S256x256, .f32⟩ : BufTy).Contents (Elt F) → (⟨S8x160x256, .f32⟩ : BufTy).Contents (Elt F)),
    StableHlo.nullary main_c_9 (constantI S_ 32 0#32),
    StableHlo.unary main_c_9 main_v24 (broadcastInDim S12720 ![] bcast_S_S12720 : (⟨S_, .i32⟩ : BufTy).Contents (Elt F) → (⟨S12720, .i32⟩ : BufTy).Contents (Elt F)),
    StableHlo.binary main_v17 main_v24 main_v25 (cmpi .slt : (⟨S12720, .i32⟩ : BufTy).Contents (Elt F) → (⟨S12720, .i32⟩ : BufTy).Contents (Elt F) → (⟨S12720, .i1⟩ : BufTy).Contents (Elt F)),
    StableHlo.nullary main_c_10 (constantI S_ 32 160#32),
    StableHlo.unary main_c_10 main_v26 (broadcastInDim S12720 ![] bcast_S_S12720 : (⟨S_, .i32⟩ : BufTy).Contents (Elt F) → (⟨S12720, .i32⟩ : BufTy).Contents (Elt F)),
    StableHlo.binary main_v17 main_v26 main_v27 (addi : (⟨S12720, .i32⟩ : BufTy).Contents (Elt F) → (⟨S12720, .i32⟩ : BufTy).Contents (Elt F) → (⟨S12720, .i32⟩ : BufTy).Contents (Elt F)),
    StableHlo.ternary main_v25 main_v27 main_v17 main_v28 (select : (⟨S12720, .i1⟩ : BufTy).Contents (Elt F) → (⟨S12720, .i32⟩ : BufTy).Contents (Elt F) → (⟨S12720, .i32⟩ : BufTy).Contents (Elt F) → (⟨S12720, .i32⟩ : BufTy).Contents (Elt F)),
    StableHlo.unary main_v28 main_v29 (broadcastInDim S12720x1 ![0] bcast_S12720_S12720x1_0 : (⟨S12720, .i32⟩ : BufTy).Contents (Elt F) → (⟨S12720x1, .i32⟩ : BufTy).Contents (Elt F)),
    StableHlo.binary main_v22 main_v29 main_v30 ((fun x i => Host.gather gather_S8x160x256_S12720x1_S8x12720x256_02_1_n_n_1_1_81256 x i) : (⟨S8x160x256, .f32⟩ : BufTy).Contents (Elt F) → (⟨S12720x1, .i32⟩ : BufTy).Contents (Elt F) → (⟨S8x12720x256, .f32⟩ : BufTy).Contents (Elt F)),
    StableHlo.nullary main_c_11 (constantI S_ 32 0#32),
    StableHlo.unary main_c_11 main_v31 (broadcastInDim S12720 ![] bcast_S_S12720 : (⟨S_, .i32⟩ : BufTy).Contents (Elt F) → (⟨S12720, .i32⟩ : BufTy).Contents (Elt F)),
    StableHlo.binary main_v19 main_v31 main_v32 (cmpi .slt : (⟨S12720, .i32⟩ : BufTy).Contents (Elt F) → (⟨S12720, .i32⟩ : BufTy).Contents (Elt F) → (⟨S12720, .i1⟩ : BufTy).Contents (Elt F)),
    StableHlo.nullary main_c_12 (constantI S_ 32 160#32),
    StableHlo.unary main_c_12 main_v33 (broadcastInDim S12720 ![] bcast_S_S12720 : (⟨S_, .i32⟩ : BufTy).Contents (Elt F) → (⟨S12720, .i32⟩ : BufTy).Contents (Elt F)),
    StableHlo.binary main_v19 main_v33 main_v34 (addi : (⟨S12720, .i32⟩ : BufTy).Contents (Elt F) → (⟨S12720, .i32⟩ : BufTy).Contents (Elt F) → (⟨S12720, .i32⟩ : BufTy).Contents (Elt F)),
    StableHlo.ternary main_v32 main_v34 main_v19 main_v35 (select : (⟨S12720, .i1⟩ : BufTy).Contents (Elt F) → (⟨S12720, .i32⟩ : BufTy).Contents (Elt F) → (⟨S12720, .i32⟩ : BufTy).Contents (Elt F) → (⟨S12720, .i32⟩ : BufTy).Contents (Elt F)),
    StableHlo.unary main_v35 main_v36 (broadcastInDim S12720x1 ![0] bcast_S12720_S12720x1_0 : (⟨S12720, .i32⟩ : BufTy).Contents (Elt F) → (⟨S12720x1, .i32⟩ : BufTy).Contents (Elt F)),
    StableHlo.binary main_v23 main_v36 main_v37 ((fun x i => Host.gather gather_S8x160x256_S12720x1_S8x12720x256_02_1_n_n_1_1_81256 x i) : (⟨S8x160x256, .f32⟩ : BufTy).Contents (Elt F) → (⟨S12720x1, .i32⟩ : BufTy).Contents (Elt F) → (⟨S8x12720x256, .f32⟩ : BufTy).Contents (Elt F)),
    StableHlo.binary main_v30 main_v37 main_v38 (addf : (⟨S8x12720x256, .f32⟩ : BufTy).Contents (Elt F) → (⟨S8x12720x256, .f32⟩ : BufTy).Contents (Elt F) → (⟨S8x12720x256, .f32⟩ : BufTy).Contents (Elt F)),
    StableHlo.unary main_arg2 main_v39 (broadcastInDim S1x1x256 ![2] bcast_S256_S1x1x256_2 : (⟨S256, .f32⟩ : BufTy).Contents (Elt F) → (⟨S1x1x256, .f32⟩ : BufTy).Contents (Elt F)),
    StableHlo.unary main_v39 main_v40 (broadcastInDim S8x12720x256 ![0, 1, 2] bcast_S1x1x256_S8x12720x256_0_1_2 : (⟨S1x1x256, .f32⟩ : BufTy).Contents (Elt F) → (⟨S8x12720x256, .f32⟩ : BufTy).Contents (Elt F)),
    StableHlo.binary main_v38 main_v40 main_v41 (addf : (⟨S8x12720x256, .f32⟩ : BufTy).Contents (Elt F) → (⟨S8x12720x256, .f32⟩ : BufTy).Contents (Elt F) → (⟨S8x12720x256, .f32⟩ : BufTy).Contents (Elt F)) ]

/-- The whole line. -/
abbrev ops : List (HloOp τ sig (Elt F)) := opsA ++ opsB ++ opsC ++ opsD

-- one hundred and forty-three binds re-associated: the rewrite under the chain recurses once per statement
set_option maxRecDepth 16384 in
/-- @main is that line: the callees' definitions unfolded at their calls and the records at their fields, both sides
    are one chain of steps once sequencing is re-associated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., nullary_bufs_sub .., nullary_bufs_sub .., unary_bufs_sub ..,
    binary_bufs_sub .., nullary_bufs_sub .., binary_bufs_sub .., nullary_bufs_sub .., unary_bufs_sub ..,
    ternary_bufs_sub .., nullary_bufs_sub .., unary_bufs_sub .., binary_bufs_sub .., reshape_bufs_sub ..,
    unary_bufs_sub .., nullary_bufs_sub .., unary_bufs_sub .., binary_bufs_sub .., nullary_bufs_sub ..,
    unary_bufs_sub .., nullary_bufs_sub .., unary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., nullary_bufs_sub .., unary_bufs_sub ..,
    ternary_bufs_sub .., nullary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., unary_bufs_sub .., unary_bufs_sub ..,
    unary_bufs_sub .., binary_bufs_sub .., unary_bufs_sub .., binary_bufs_sub .., nullary_bufs_sub ..,
    unary_bufs_sub .., binary_bufs_sub .., binary_bufs_sub .., nullary_bufs_sub .., unary_bufs_sub ..,
    binary_bufs_sub .., ternary_bufs_sub .., nullary_bufs_sub .., unary_bufs_sub .., nullary_bufs_sub ..,
    binary_bufs_sub .., nullary_bufs_sub .., ternary_bufs_sub .., unary_bufs_sub .., binary_bufs_sub ..,
    nullary_bufs_sub .., unary_bufs_sub .., binary_bufs_sub .., nullary_bufs_sub .., unary_bufs_sub ..,
    binary_bufs_sub .., nullary_bufs_sub .., binary_bufs_sub .., unary_bufs_sub .., binary_bufs_sub ..,
    binary_bufs_sub .., unary_bufs_sub .., binary_bufs_sub .., ternary_bufs_sub ..⟩

theorem opsC_sub : (opsC : List (HloOp τ sig (Elt F))).Forall fun op => op.bufs ⊆ tcRefs τ sig :=
  ⟨nullary_bufs_sub .., unary_bufs_sub .., binary_bufs_sub .., unary_bufs_sub .., unary_bufs_sub ..,
    unary_bufs_sub .., binary_bufs_sub .., unary_bufs_sub .., binary_bufs_sub .., nullary_bufs_sub ..,
    unary_bufs_sub .., binary_bufs_sub .., binary_bufs_sub .., nullary_bufs_sub .., unary_bufs_sub ..,
    binary_bufs_sub .., ternary_bufs_sub .., nullary_bufs_sub .., unary_bufs_sub .., nullary_bufs_sub ..,
    binary_bufs_sub .., nullary_bufs_sub .., ternary_bufs_sub .., unary_bufs_sub .., binary_bufs_sub ..,
    nullary_bufs_sub .., unary_bufs_sub .., binary_bufs_sub .., nullary_bufs_sub .., unary_bufs_sub ..,
    binary_bufs_sub .., nullary_bufs_sub .., binary_bufs_sub .., unary_bufs_sub .., binary_bufs_sub ..,
    binary_bufs_sub .., unary_bufs_sub .., binary_bufs_sub .., ternary_bufs_sub ..⟩

theorem opsD_sub : (opsD : List (HloOp τ sig (Elt F))).Forall fun op => op.bufs ⊆ tcRefs τ sig :=
  ⟨unary_bufs_sub .., unary_bufs_sub .., binary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., binary_bufs_sub .., unary_bufs_sub .., unary_bufs_sub ..,
    binary_bufs_sub ..⟩

theorem ops_sub : (ops : List (HloOp τ sig (Elt F))).Forall fun op => op.bufs ⊆ tcRefs τ sig :=
  List.forall_append.mpr ⟨List.forall_append.mpr ⟨List.forall_append.mpr ⟨opsA_sub, opsB_sub⟩, opsC_sub⟩, opsD_sub⟩

/-- Every operation of the line determines its results. -/
theorem ops_fresh : ∀ op ∈ (ops : List (HloOp τ sig (Elt F))), op.fresh = ∅ := by
  intro op h
  simp only [List.mem_append] at h
  rcases h with ((h | h) | h) | h <;>
    (repeat (cases h with | head => rfl | tail _ h => ?_)) <;> exact nomatch h

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HandRun

end
-- ==== Proof.RefStages.lean ====
/-
  The reference's result as a composition of pure stages, in the order its program computes them.

  The pair table is built at run time: a 160 × 160 array of ones with its lower triangle (diagonal included) zeroed,
  compared with zero to give the mask "row < column"; the running count of the mask along the flattened axis; a count,
  for every v < 12720, of the flattened positions whose running count is v; the running sum of those counts, which at p
  is the number of flattened positions whose running count is at most p; and its quotient and remainder by 160, the two
  members of the p-th pair. The result gathers the rows of the two projections at those members, adds them, and adds
  the bias.
-/
import proofs.«138512_j66692252172937_2_alg».proof.Proof.Gen.ReferenceIdeal
import Idealize.ShloMosaic.PureOps.Ideal

noncomputable section

namespace Cert.ReferenceIdeal.Stages

open Cert.ReferenceIdeal Cert.ReferenceIdeal.Gen Idealize.ShloMosaic

/-- A scalar word spread over the 12720 positions. -/
abbrev spread (d : IVec S_ 32) : IVec S12720 32 := broadcastInDim S12720 ![] bcast_S_S12720 d

/-- Ones above the diagonal, zeros on and below it. -/
def triuF : FVec Ideal S160x160 .f32 :=
  select
    (cmpi .sge (addi (iotaInDim S160x160 32 0) (broadcastInDim S160x160 ![] bcast_S_S160x160 (constantI S_ 32 0#32)))
      (iotaInDim S160x160 32 1))
    (broadcastInDim S160x160 ![] bcast_S_S160x160 (constant (F := Ideal) S_ .f32 0x00000000#32))
    (broadcastInDim S160x160 ![] bcast_S_S160x160 (constant (F := Ideal) S_ .f32 0x3F800000#32))

/-- The mask: one bit per cell, set where the cell is not zero, that is where row < column. -/
def maskB : IVec S160x160 1 :=
  cmpf .une triuF (broadcastInDim S160x160 ![] bcast_S_S160x160 (constant (F := Ideal) S_ .f32 0x00000000#32))

/-- The mask flattened and widened to 32-bit words. -/
def maskW : IVec S25600 32 := extui 32 (shapeCast S25600 maskB shapeCasts_S160x160_S25600) natLt_1_32

/-- The running count of the mask: at k, the number of set cells at flattened positions up to and including k. -/
def csum : IVec S25600 32 :=
  Host.reduceWindow IntOp.addi ![25600] ![1] ![25599] ![0] maskW
    (broadcastInDim S_ ![] bcast_S_S_ (constantI S_ 32 0#32)) reduceWindows_S25600_S25600_w25600s1p25599_0 h_S_

/-- The running count clamped below at zero. -/
def clipped : IVec S25600 32 := maxsi (broadcastInDim S25600 ![] bcast_S_S25600 (id (constantI S_ 32 0#32))) csum

/-- A negative value wrapped by 12720 (none is negative). -/
def wrapped : IVec S25600 32 :=
  select (cmpi .slt clipped (broadcastInDim S25600 ![] bcast_S_S25600 (constantI S_ 32 0#32)))
    (addi clipped (broadcastInDim S25600 ![] bcast_S_S25600 (constantI S_ 32 12720#32))) clipped

/-- For every v < 12720, the number of flattened positions whose running count is v (a count of 12720 is dropped). -/
def binc : IVec S12720 32 :=
  Host.scatter scatter_S12720_S25600x1_S25600_n_0_0_1 IntOp.addi
    (broadcastInDim S12720 ![] bcast_S_S12720 (constantI S_ 32 0#32))
    (broadcastInDim S25600x1 ![0] bcast_S25600_S25600x1_0 wrapped)
    (broadcastInDim S25600 ![] bcast_S_S25600 (constantI S_ 32 1#32))

/-- At p, the number of flattened positions whose running count is at most p. -/
def flatIdx : IVec S12720 32 :=
  Host.reduceWindow IntOp.addi ![12720] ![1] ![12719] ![0] binc
    (broadcastInDim S_ ![] bcast_S_S_ (constantI S_ 32 0#32)) reduceWindows_S12720_S12720_w12720s1p12719_0 h_S_

/-- The truncated quotient of a by the word d. -/
def quotT (a : IVec S12720 32) (d : IVec S_ 32) : IVec S12720 32 := Host.divsi a (spread d)

/-- The quotient rounded towards minus infinity: the truncated quotient, less one where the signs differ and the
    remainder is not zero. -/
def floorDiv (a : IVec S12720 32) (d : IVec S_ 32) : IVec S12720 32 :=
  select
    (andi (cmpi .ne (signi a) (spread (signi d))) (cmpi .ne (Host.remsi a (spread d)) (spread (constantI S_ 32 0#32))))
    (subi (quotT a d) (spread (constantI S_ 32 1#32))) (quotT a d)

/-- The divisor with zero replaced by one. -/
def safeDiv (d : IVec S_ 32) : IVec S_ 32 := select (cmpi .eq (id d) (constantI S_ 32 0#32)) (constantI S_ 32 1#32) (id d)

/-- The truncated remainder of a by the safe divisor. -/
def remT (a : IVec S12720 32) (d : IVec S_ 32) : IVec S12720 32 := Host.remsi a (spread (safeDiv d))

/-- The remainder with the sign of the divisor: the truncated remainder, plus the divisor where it is not zero and its
    sign differs from the divisor's. -/
def floorRem (a : IVec S12720 32) (d : IVec S_ 32) : IVec S12720 32 :=
  select
    (andi
      (cmpi .ne (cmpi .slt (remT a d) (spread (constantI S_ 32 0#32)))
        (broadcastInDim S12720 ![] bcast_S_S12720 (cmpi .slt (safeDiv d) (constantI S_ 32 0#32))))
      (cmpi .ne (remT a d) (spread (constantI S_ 32 0#32))))
    (addi (remT a d) (spread (safeDiv d))) (remT a d)

/-- The first members: (flatIdx / 160) mod 160. -/
def rowW : IVec S12720 32 := floorRem (floorDiv flatIdx (constantI S_ 32 160#32)) (constantI S_ 32 160#32)

/-- The second members: (flatIdx / 1) mod 160. -/
def colW : IVec S12720 32 := floorRem (floorDiv flatIdx (constantI S_ 32 1#32)) (constantI S_ 32 160#32)

/-- A negative row number wrapped by 160 (none is negative), laid out as a column of start indices. -/
def startIdx (a : IVec S12720 32) : IVec S12720x1 32 :=
  broadcastInDim S12720x1 ![0] bcast_S12720_S12720x1_0
    (select (cmpi .slt a (spread (constantI S_ 32 0#32))) (addi a (spread (constantI S_ 32 160#32))) a)

/-- The rows of x projected by the upper half of the weight. -/
def xa (x : FVec Ideal S8x160x256 .f32) (W : FVec Ideal S512x256 .f32) : FVec Ideal S8x160x256 .f32 :=
  Host.dotGeneral dot_S8x160x256_S256x256_S8x160x256_2_0_01_1_n_n none x
    (extractStridedSlice S256x256 ![0, 0] W slices_S512x256_S256x256_0_0)

/-- The rows of x projected by the lower half of the weight. -/
def xb (x : FVec Ideal S8x160x256 .f32) (W : FVec Ideal S512x256 .f32) : FVec Ideal S8x160x256 .f32 :=
  Host.dotGeneral dot_S8x160x256_S256x256_S8x160x256_2_0_01_1_n_n none x
    (extractStridedSlice S256x256 ![256, 0] W slices_S512x256_S256x256_256_0)

/-- The reference's result. -/
def out (x : FVec Ideal S8x160x256 .f32) (W : FVec Ideal S512x256 .f32) (b : FVec Ideal S256 .f32) :
    FVec Ideal S8x12720x256 .f32 :=
  addf
    (addf
      (Host.gather gather_S8x160x256_S12720x1_S8x12720x256_02_1_n_n_1_1_81256 (xa x W) (startIdx rowW))
      (Host.gather gather_S8x160x256_S12720x1_S8x12720x256_02_1_n_n_1_1_81256 (xb x W) (startIdx colW)))
    (broadcastInDim S8x12720x256 ![0, 1, 2] bcast_S1x1x256_S8x12720x256_0_1_2
      (broadcastInDim S1x1x256 ![2] bcast_S256_S1x1x256_2 b))

end Cert.ReferenceIdeal.Stages

end
-- ==== Proof.RefRunSplit.lean ====
/-
  Cutting a line of operations. The fold over a concatenation is the second part's fold after the first's, so a line
  cut at any position is read back part by part: the later part from whatever the earlier part leaves.
-/
import Idealize.ShloMosaic.Lib.StableHlo.Run

namespace Cert.ReferenceIdeal.HandRun

open Idealize.ShloMosaic Idealize.SL.Sem Idealize.ShloMosaic.StableHlo

variable {τ : Topo} {sig : RefSig} {Val : EltTy → Type}

/-- The fold over a concatenation is the second line's fold after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first k operations: the rest's fold after the first k's. -/
theorem after_take_drop (l : List (HloOp τ sig Val)) (k : Nat) (V : Valuation τ sig Val) :
    after l V = after (l.drop k) (after (l.take k) V) := by
  rw [← after_append, List.take_append_drop]

end Cert.ReferenceIdeal.HandRun
-- ==== Proof.RefRunA.lean ====
/-
  The first stage read back. Whatever the buffers held before, after the first thirty-nine operations the buffer of
  the second running sum holds the flat indices of the pair table. The stage is cut where its intermediates are
  complete: the triangular table after the eleventh operation, the mask after the fourteenth, the first running sum
  after the nineteenth, the three operands of the count per value after the thirty-fifth, the count itself after the
  thirty-sixth. Each part is read back on its own, every part but the first from whatever the buffers it reads hold;
  composed, the parts give the named stages. The count per value is a fold over all 25600 positions: its operation is
  read back by the general equation for an operation of three operands, so that the fold is never opened. The three
  arguments are not written.
-/
import proofs.«138512_j66692252172937_2_alg».proof.Proof.RefRunOps
import proofs.«138512_j66692252172937_2_alg».proof.Proof.RefStages
import proofs.«138512_j66692252172937_2_alg».proof.Proof.RefRunSplit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the window sums, the scatter and the gathers are folds over their operands' elements; the equations below never look
-- inside them
attribute [local irreducible] Host.reduceWindow Host.scatter Host.gather

/-- The mask of a table t: set where t is not zero. -/
def maskOf (t : FVec Ideal S160x160 .f32) : IVec S160x160 1 :=
  cmpf .une t (broadcastInDim S160x160 ![] bcast_S_S160x160 (constant (F := Ideal) S_ .f32 0x00000000#32))

/-- The running count of a mask mb along the flattened axis. -/
def csumOf (mb : IVec S160x160 1) : IVec S25600 32 :=
  Host.reduceWindow IntOp.addi ![25600] ![1] ![25599] ![0]
    (extui 32 (shapeCast S25600 mb shapeCasts_S160x160_S25600) natLt_1_32)
    (broadcastInDim S_ ![] bcast_S_S_ (constantI S_ 32 0#32)) reduceWindows_S25600_S25600_w25600s1p25599_0 h_S_

/-- A running count c clamped below at zero and wrapped by 12720 where negative. -/
def wrappedOf (c : IVec S25600 32) : IVec S25600 32 :=
  select
    (cmpi .slt (maxsi (broadcastInDim S25600 ![] bcast_S_S25600 (id (constantI S_ 32 0#32))) c)
      (broadcastInDim S25600 ![] bcast_S_S25600 (constantI S_ 32 0#32)))
    (addi (maxsi (broadcastInDim S25600 ![] bcast_S_S25600 (id (constantI S_ 32 0#32))) c)
      (broadcastInDim S25600 ![] bcast_S_S25600 (constantI S_ 32 12720#32)))
    (maxsi (broadcastInDim S25600 ![] bcast_S_S25600 (id (constantI S_ 32 0#32))) c)

/-- The running sum of a count per value h. -/
def flatIdxOf (h : IVec S12720 32) : IVec S12720 32 :=
  Host.reduceWindow IntOp.addi ![12720] ![1] ![12719] ![0] h
    (broadcastInDim S_ ![] bcast_S_S_ (constantI S_ 32 0#32)) reduceWindows_S12720_S12720_w12720s1p12719_0 h_S_

/-- The named flat indices, with every intermediate spelt from the triangular table. -/
theorem flatIdx_eq :
    Stages.flatIdx
      = flatIdxOf (Host.scatter scatter_S12720_S25600x1_S25600_n_0_0_1 IntOp.addi (broadcastInDim S12720 ![] bcast_S_S12720 (constantI S_ 32 0#32))
          (broadcastInDim S25600x1 ![0] bcast_S25600_S25600x1_0 (wrappedOf (csumOf (maskOf Stages.triuF))))
          (broadcastInDim S25600 ![] bcast_S_S25600 (constantI S_ 32 1#32))) := rfl

set_option maxRecDepth 8192 in
set_option maxHeartbeats 400000 in
/-- The triangular table: the first eleven operations. -/
theorem stageA_triu (V : Valuation τ sig (Elt Ideal)) :
    after ((opsA (F := Ideal)).take 11) V (main_v1 : DevRef τ sig) = Stages.triuF := by
  rfl

set_option maxRecDepth 8192 in
set_option maxHeartbeats 400000 in
/-- The mask, from whatever the table's buffer holds: the next three operations. -/
theorem stageA_mask (W : Valuation τ sig (Elt Ideal)) :
    after (((opsA (F := Ideal)).drop 11).take 3) W (main_v3 : DevRef τ sig) = maskOf (W (main_v1 : DevRef τ sig)) := by
  rfl

set_option maxRecDepth 8192 in
set_option maxHeartbeats 400000 in
/-- The first running sum, from whatever the mask's buffer holds: the next five operations. -/
theorem stageA_csum (W : Valuation τ sig (Elt Ideal)) :
    after ((((opsA (F := Ideal)).drop 11).drop 3).take 5) W (main_v4 : DevRef τ sig) = csumOf (W (main_v3 : DevRef τ sig)) := by
  rfl

set_option maxRecDepth 8192 in
set_option maxHeartbeats 400000 in
/-- The start of the count per value, all zeros: among the next sixteen operations. -/
theorem stageA_v5 (W : Valuation τ sig (Elt Ideal)) :
    after (((((opsA (F := Ideal)).drop 11).drop 3).drop 5).take 16) W (main_v5 : DevRef τ sig) = (broadcastInDim S12720 ![] bcast_S_S12720 (constantI S_ 32 0#32)) := by
  rfl

set_option maxRecDepth 8192 in
set_option maxHeartbeats 400000 in
/-- The values to count, from whatever the first running sum's buffer holds: among the same sixteen operations. -/
theorem stageA_v12 (W : Valuation τ sig (Elt Ideal)) :
    after (((((opsA (F := Ideal)).drop 11).drop 3).drop 5).take 16) W (main_v12 : DevRef τ sig)
      = broadcastInDim S25600x1 ![0] bcast_S25600_S25600x1_0 (wrappedOf (W (main_v4 : DevRef τ sig))) := by
  rfl

set_option maxRecDepth 8192 in
set_option maxHeartbeats 400000 in
/-- The amounts to add, all ones: among the same sixteen operations. -/
theorem stageA_v13 (W : Valuation τ sig (Elt Ideal)) :
    after (((((opsA (F := Ideal)).drop 11).drop 3).drop 5).take 16) W (main_v13 : DevRef τ sig) = (broadcastInDim S25600 ![] bcast_S_S25600 (constantI S_ 32 1#32)) := by
  rfl

/-- The count per value, from whatever its three operands' buffers hold: the thirty-sixth operation, by the general
    equation for an operation of three operands. -/
theorem stageA_scatter (W : Valuation τ sig (Elt Ideal)) :
    after ((((((opsA (F := Ideal)).drop 11).drop 3).drop 5).drop 16).take 1) W (main_v14 : DevRef τ sig)
      = Host.scatter scatter_S12720_S25600x1_S25600_n_0_0_1 IntOp.addi (W (main_v5 : DevRef τ sig)) (W (main_v12 : DevRef τ sig)) (W (main_v13 : DevRef τ sig)) := by
  have h := StableHlo.ternary_result (τ := τ) main_v5 main_v12 main_v13 main_v14
    ((fun x i u => Host.scatter scatter_S12720_S25600x1_S25600_n_0_0_1 IntOp.addi x i u) : (⟨S12720, .i32⟩ : BufTy).Contents (Elt Ideal) → (⟨S25600x1, .i32⟩ : BufTy).Contents (Elt Ideal) → (⟨S25600, .i32⟩ : BufTy).Contents (Elt Ideal) → (⟨S12720, .i32⟩ : BufTy).Contents (Elt Ideal))
    (by exact ⟨by decide, rfl⟩) (by exact ⟨by decide, rfl⟩) (by exact ⟨by decide, rfl⟩) (by exact ⟨by decide, rfl⟩) W
  exact h

set_option maxRecDepth 8192 in
set_option maxHeartbeats 400000 in
/-- The second running sum, from whatever the count's buffer holds: the last three operations. -/
theorem stageA_flat (W : Valuation τ sig (Elt Ideal)) :
    after ((((((opsA (F := Ideal)).drop 11).drop 3).drop 5).drop 16).drop 1) W (main_v15 : DevRef τ sig) = flatIdxOf (W (main_v14 : DevRef τ sig)) := by
  rfl

/-- The running sum of the counts is the table's flat indices. -/
theorem stageA_v15 (V : Valuation τ sig (Elt Ideal)) :
    after (opsA (F := Ideal)) V (main_v15 : DevRef τ sig) = Stages.flatIdx := by
  rw [after_take_drop (opsA (F := Ideal)) 11 V, after_take_drop ((opsA (F := Ideal)).drop 11) 3, after_take_drop (((opsA (F := Ideal)).drop 11).drop 3) 5, after_take_drop ((((opsA (F := Ideal)).drop 11).drop 3).drop 5) 16,
    after_take_drop (((((opsA (F := Ideal)).drop 11).drop 3).drop 5).drop 16) 1, stageA_flat, stageA_scatter, stageA_v5, stageA_v12, stageA_v13, stageA_csum, stageA_mask,
    stageA_triu]
  exact flatIdx_eq.symm

/-- No operation of the stage writes the argument 0. -/
theorem stageA_arg0 (V : Valuation τ sig (Elt Ideal)) :
    after (opsA (F := Ideal)) V (main_arg0 : DevRef τ sig) = V (main_arg0 : DevRef τ sig) := by
  after_results_simp

/-- No operation of the stage writes the argument 1. -/
theorem stageA_arg1 (V : Valuation τ sig (Elt Ideal)) :
    after (opsA (F := Ideal)) V (main_arg1 : DevRef τ sig) = V (main_arg1 : DevRef τ sig) := by
  after_results_simp

/-- No operation of the stage writes the argument 2. -/
theorem stageA_arg2 (V : Valuation τ sig (Elt Ideal)) :
    after (opsA (F := Ideal)) V (main_arg2 : DevRef τ sig) = V (main_arg2 : DevRef τ sig) := by
  after_results_simp

end Cert.ReferenceIdeal.HandRun

end
-- ==== Proof.RefRunB.lean ====
/-
  The second and third stages read back: each divides the buffer of flat indices by a constant rounding down and takes
  the remainder by 160 with the divisor's sign, reading that one buffer and the constants it writes itself. Each stage
  is cut after its seventeenth operation, where the rounded-down quotient is complete: the first part is the quotient
  from the flat indices, the second the remainder from whatever the quotient's buffer holds. The second stage leaves
  the flat indices in place for the third; the third leaves the second's result in place; neither writes an argument.
-/
import proofs.«138512_j66692252172937_2_alg».proof.Proof.RefRunOps
import proofs.«138512_j66692252172937_2_alg».proof.Proof.RefStages
import proofs.«138512_j66692252172937_2_alg».proof.Proof.RefRunSplit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the window sums, the scatter and the gathers are folds over their operands' elements; the equations below never look
-- inside them
attribute [local irreducible] Host.reduceWindow Host.scatter Host.gather

set_option maxRecDepth 8192 in
set_option maxHeartbeats 400000 in
/-- The quotient by 160 rounded down, from the flat indices: the first seventeen operations. -/
theorem stageB_quot (V : Valuation τ sig (Elt Ideal)) :
    after ((opsB (F := Ideal)).take 17) V (main_v16 : DevRef τ sig)
      = Stages.floorDiv (V (main_v15 : DevRef τ sig)) (constantI S_ 32 160#32) := by
  rfl

set_option maxRecDepth 8192 in
set_option maxHeartbeats 400000 in
/-- The remainder by 160 with the divisor's sign, from whatever the quotient's buffer holds: the other twenty-two. -/
theorem stageB_rem (W : Valuation τ sig (Elt Ideal)) :
    after ((opsB (F := Ideal)).drop 17) W (main_v17 : DevRef τ sig)
      = Stages.floorRem (W (main_v16 : DevRef τ sig)) (constantI S_ 32 160#32) := by
  rfl

/-- The first members, from the flat indices. -/
theorem stageB_v17 (V : Valuation τ sig (Elt Ideal)) :
    after (opsB (F := Ideal)) V (main_v17 : DevRef τ sig)
      = Stages.floorRem (Stages.floorDiv (V (main_v15 : DevRef τ sig)) (constantI S_ 32 160#32)) (constantI S_ 32 160#32) := by
  rw [after_take_drop (opsB (F := Ideal)) 17 V, stageB_rem, stageB_quot]

/-- The flat indices stay where they are. -/
theorem stageB_v15 (V : Valuation τ sig (Elt Ideal)) :
    after (opsB (F := Ideal)) V (main_v15 : DevRef τ sig) = V (main_v15 : DevRef τ sig) := by
  after_results_simp

/-- No operation of the stage writes the argument 0. -/
theorem stageB_arg0 (V : Valuation τ sig (Elt Ideal)) :
    after (opsB (F := Ideal)) V (main_arg0 : DevRef τ sig) = V (main_arg0 : DevRef τ sig) := by
  after_results_simp

/-- No operation of the stage writes the argument 1. -/
theorem stageB_arg1 (V : Valuation τ sig (Elt Ideal)) :
    after (opsB (F := Ideal)) V (main_arg1 : DevRef τ sig) = V (main_arg1 : DevRef τ sig) := by
  after_results_simp

/-- No operation of the stage writes the argument 2. -/
theorem stageB_arg2 (V : Valuation τ sig (Elt Ideal)) :
    after (opsB (F := Ideal)) V (main_arg2 : DevRef τ sig) = V (main_arg2 : DevRef τ sig) := by
  after_results_simp

set_option maxRecDepth 8192 in
set_option maxHeartbeats 400000 in
/-- The quotient by 1 rounded down, from the flat indices: the first seventeen operations. -/
theorem stageC_quot (V : Valuation τ sig (Elt Ideal)) :
    after ((opsC (F := Ideal)).take 17) V (main_v18 : DevRef τ sig)
      = Stages.floorDiv (V (main_v15 : DevRef τ sig)) (constantI S_ 32 1#32) := by
  rfl

set_option maxRecDepth 8192 in
set_option maxHeartbeats 400000 in
/-- The remainder by 160 with the divisor's sign, from whatever the quotient's buffer holds: the other twenty-two. -/
theorem stageC_rem (W : Valuation τ sig (Elt Ideal)) :
    after ((opsC (F := Ideal)).drop 17) W (main_v19 : DevRef τ sig)
      = Stages.floorRem (W (main_v18 : DevRef τ sig)) (constantI S_ 32 160#32) := by
  rfl

/-- The second members, from the flat indices. -/
theorem stageC_v19 (V : Valuation τ sig (Elt Ideal)) :
    after (opsC (F := Ideal)) V (main_v19 : DevRef τ sig)
      = Stages.floorRem (Stages.floorDiv (V (main_v15 : DevRef τ sig)) (constantI S_ 32 1#32)) (constantI S_ 32 160#32) := by
  rw [after_take_drop (opsC (F := Ideal)) 17 V, stageC_rem, stageC_quot]

/-- The first members stay where they are. -/
theorem stageC_v17 (V : Valuation τ sig (Elt Ideal)) :
    after (opsC (F := Ideal)) V (main_v17 : DevRef τ sig) = V (main_v17 : DevRef τ sig) := by
  after_results_simp

/-- No operation of the stage writes the argument 0. -/
theorem stageC_arg0 (V : Valuation τ sig (Elt Ideal)) :
    after (opsC (F := Ideal)) V (main_arg0 : DevRef τ sig) = V (main_arg0 : DevRef τ sig) := by
  after_results_simp

/-- No operation of the stage writes the argument 1. -/
theorem stageC_arg1 (V : Valuation τ sig (Elt Ideal)) :
    after (opsC (F := Ideal)) V (main_arg1 : DevRef τ sig) = V (main_arg1 : DevRef τ sig) := by
  after_results_simp

/-- No operation of the stage writes the argument 2. -/
theorem stageC_arg2 (V : Valuation τ sig (Elt Ideal)) :
    after (opsC (F := Ideal)) V (main_arg2 : DevRef τ sig) = V (main_arg2 : DevRef τ sig) := by
  after_results_simp

end Cert.ReferenceIdeal.HandRun

end
-- ==== Proof.RefRunD.lean ====
/-
  The last stage read back: the two projections of the first argument by the halves of the second, the rows gathered at
  the two members (each wrapped by 160 where negative and laid out as a column of start indices), their sum, and the
  third argument spread over the result.
-/
import proofs.«138512_j66692252172937_2_alg».proof.Proof.RefRunOps
import proofs.«138512_j66692252172937_2_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

-- the window sums, the scatter and the gathers are folds over their operands' elements; the equations below never look
-- inside them
attribute [local irreducible] Host.reduceWindow Host.scatter Host.gather

set_option maxRecDepth 8192 in
set_option maxHeartbeats 400000 in
/-- The result, from the arguments and the two members. -/
theorem stageD_v41 (V : Valuation τ sig (Elt Ideal)) :
    after (opsD (F := Ideal)) V (main_v41 : DevRef τ sig)
      = addf
          (addf
            (Host.gather gather_S8x160x256_S12720x1_S8x12720x256_02_1_n_n_1_1_81256 (Stages.xa (V (main_arg0 : DevRef τ sig)) (V (main_arg1 : DevRef τ sig)))
              (Stages.startIdx (V (main_v17 : DevRef τ sig))))
            (Host.gather gather_S8x160x256_S12720x1_S8x12720x256_02_1_n_n_1_1_81256 (Stages.xb (V (main_arg0 : DevRef τ sig)) (V (main_arg1 : DevRef τ sig)))
              (Stages.startIdx (V (main_v19 : DevRef τ sig)))))
          (broadcastInDim S8x12720x256 ![0, 1, 2] bcast_S1x1x256_S8x12720x256_0_1_2
            (broadcastInDim S1x1x256 ![2] bcast_S256_S1x1x256_2 (V (main_arg2 : DevRef τ sig)))) := by
  simp only [after_cons, after_nil]
  rfl

/-- No operation of the stage writes the argument 0. -/
theorem stageD_arg0 (V : Valuation τ sig (Elt Ideal)) :
    after (opsD (F := Ideal)) V (main_arg0 : DevRef τ sig) = V (main_arg0 : DevRef τ sig) := by
  after_results_simp

/-- No operation of the stage writes the argument 1. -/
theorem stageD_arg1 (V : Valuation τ sig (Elt Ideal)) :
    after (opsD (F := Ideal)) V (main_arg1 : DevRef τ sig) = V (main_arg1 : DevRef τ sig) := by
  after_results_simp

/-- No operation of the stage writes the argument 2. -/
theorem stageD_arg2 (V : Valuation τ sig (Elt Ideal)) :
    after (opsD (F := Ideal)) V (main_arg2 : DevRef τ sig) = V (main_arg2 : DevRef τ sig) := by
  after_results_simp

end Cert.ReferenceIdeal.HandRun

end
-- ==== Proof.RefRun.lean ====
/-
  The reference's run read back. The line is four stages one after the other, so its fold is the stages' folds
  composed; the last stage's result is a function of the arguments and of the two members, which the second and third
  stages compute from the flat indices the first stage leaves, and no stage writes an argument or a buffer a later
  stage reads from an earlier one. Composed, the result buffer holds the named composition of the pure stages at the
  arguments' launch contents.
-/
import proofs.«138512_j66692252172937_2_alg».proof.Proof.RefRunOps
import proofs.«138512_j66692252172937_2_alg».proof.Proof.RefStages
import proofs.«138512_j66692252172937_2_alg».proof.Proof.RefRunA
import proofs.«138512_j66692252172937_2_alg».proof.Proof.RefRunB
import proofs.«138512_j66692252172937_2_alg».proof.Proof.RefRunD

noncomputable section

namespace Cert.ReferenceIdeal.HandRun

open Cert.ReferenceIdeal Cert.ReferenceIdeal.Gen Idealize.ShloMosaic Idealize.ShloMosaic.TcCoe Idealize.SL.Sem Idealize.ShloMosaic.StableHlo

-- the window sums, the scatter and the gathers are folds over their operands' elements; the equations below never look
-- inside them
attribute [local irreducible] Host.reduceWindow Host.scatter Host.gather

/-- The fold of the whole line is the four stages' folds in turn. -/
theorem after_ops (V : Valuation τ sig (Elt Ideal)) :
    after (ops (F := Ideal)) V = after opsD (after opsC (after opsB (after opsA V))) := by
  show after (((opsA ++ opsB) ++ opsC) ++ opsD) V = _
  rw [after_append, after_append, after_append]

/-- The result buffer after the line holds the reference's result at the arguments. -/
theorem out_eq (V : Valuation τ sig (Elt Ideal)) :
    after (ops (F := Ideal)) V (main_v41 : DevRef τ sig)
      = Stages.out (V (main_arg0 : DevRef τ sig)) (V (main_arg1 : DevRef τ sig)) (V (main_arg2 : DevRef τ sig)) := by
  rw [after_ops, stageD_v41, stageC_arg0, stageC_arg1, stageC_arg2, stageC_v17, stageC_v19,
    stageB_arg0, stageB_arg1, stageB_arg2, stageB_v17, stageB_v15, stageA_arg0, stageA_arg1, stageA_arg2, stageA_v15]
  rfl

/-- The line leaves the argument 0 as it was. -/
theorem arg0_eq (V : Valuation τ sig (Elt Ideal)) :
    after (ops (F := Ideal)) V (main_arg0 : DevRef τ sig) = V (main_arg0 : DevRef τ sig) := by
  rw [after_ops, stageD_arg0, stageC_arg0, stageB_arg0, stageA_arg0]

/-- The line leaves the argument 1 as it was. -/
theorem arg1_eq (V : Valuation τ sig (Elt Ideal)) :
    after (ops (F := Ideal)) V (main_arg1 : DevRef τ sig) = V (main_arg1 : DevRef τ sig) := by
  rw [after_ops, stageD_arg1, stageC_arg1, stageB_arg1, stageA_arg1]

/-- The line leaves the argument 2 as it was. -/
theorem arg2_eq (V : Valuation τ sig (Elt Ideal)) :
    after (ops (F := Ideal)) V (main_arg2 : DevRef τ sig) = V (main_arg2 : DevRef τ sig) := by
  rw [after_ops, stageD_arg2, stageC_arg2, stageB_arg2, stageA_arg2]

/-- At the compiled mesh, from any memory with zero counters: every weakly fair execution of @main terminates with the
    result buffer at the reference's result of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = Stages.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v41).trans (out_eq _), (h c main_arg0).trans (arg0_eq _),
      (h c main_arg1).trans (arg1_eq _), (h c main_arg2).trans (arg2_eq _)⟩)
    (run_main m ρ)

end Cert.ReferenceIdeal.HandRun

end
-- ==== Proof.RefProj.lean ====
/-
  The reference's two projections read at an entry: the host's product of x [8,160,256] with a 256 × 256 slice of the
  weight, contracted over the last axis of x and the first of the slice, is at (b, s, e) the sum over d of
  x(b, s, d) · W(o + d, e), with o = 0 for the upper half and o = 256 for the lower half.
-/
import proofs.«138512_j66692252172937_2_alg».proof.Proof.RefStages
import proofs.«138512_j66692252172937_2_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- The host's product of x with a 256 × 256 matrix, at an entry. -/
theorem dot_apply (x : FVec Ideal S8x160x256 .f32) (V : FVec Ideal S256x256 .f32) (b : Fin 8) (s : Fin 160) (e : Fin 256) :
    Host.dotGeneral dot_S8x160x256_S256x256_S8x160x256_2_0_01_1_n_n none x V (ix3 b s e)
      = ∑ d : Fin 256, x (ix3 b s d) * V (ix2 d e) := by
  simp only [Host.dotGeneral]
  rw [Ideal.dotGeneral_apply]
  rw [← Equiv.sum_comp (contrEquiv1 dot_S8x160x256_S256x256_S8x160x256_2_0_01_1_n_n 256 rfl rfl).symm]
  refine Finset.sum_congr rfl fun d _ => ?_
  have hk := contrEquiv1_symm_val dot_S8x160x256_S256x256_S8x160x256_2_0_01_1_n_n 256 rfl rfl d
  have hl : dot_S8x160x256_S256x256_S8x160x256_2_0_01_1_n_n.lhsIdx (ix3 b s e)
      ((contrEquiv1 dot_S8x160x256_S256x256_S8x160x256_2_0_01_1_n_n 256 rfl rfl).symm d) = ix3 b s d := by
    funext a
    apply Fin.ext
    match a with
    | ⟨0, _⟩ => rfl
    | ⟨1, _⟩ => rfl
    | ⟨2, _⟩ => exact hk
  have hr : dot_S8x160x256_S256x256_S8x160x256_2_0_01_1_n_n.rhsIdx (ix3 b s e)
      ((contrEquiv1 dot_S8x160x256_S256x256_S8x160x256_2_0_01_1_n_n 256 rfl rfl).symm d) = ix2 d e := by
    funext a
    apply Fin.ext
    match a with
    | ⟨0, _⟩ => exact hk
    | ⟨1, _⟩ => rfl
  rw [hl, hr]

/-- The upper projection at an entry is the specification's. -/
theorem xa_apply (x : FVec Ideal S8x160x256 .f32) (W : FVec Ideal S512x256 .f32) (b : Fin 8) (s : Fin 160) (e : Fin 256) :
    Stages.xa x W (ix3 b s e) = PairSpec.projA x W b s e := by
  unfold Stages.xa PairSpec.projA
  rw [dot_apply]
  refine Finset.sum_congr rfl fun d _ => ?_
  congr 1
  refine extractStridedSlice_apply _ _ _ _ _ fun a => ?_
  match a with
  | ⟨0, _⟩ => exact (Nat.zero_add _).symm
  | ⟨1, _⟩ => exact (Nat.zero_add _).symm

/-- The lower projection at an entry is the specification's. -/
theorem xb_apply (x : FVec Ideal S8x160x256 .f32) (W : FVec Ideal S512x256 .f32) (b : Fin 8) (s : Fin 160) (e : Fin 256) :
    Stages.xb x W (ix3 b s e) = PairSpec.projB x W b s e := by
  unfold Stages.xb PairSpec.projB
  rw [dot_apply]
  refine Finset.sum_congr rfl fun d _ => ?_
  congr 1
  refine extractStridedSlice_apply _ _ _ _ _ fun a => ?_
  match a with
  | ⟨0, _⟩ => rfl
  | ⟨1, _⟩ => exact (Nat.zero_add _).symm

end Cert.ReferenceIdeal.RefValue

end
-- ==== Proof.RefBias.lean ====
/-
  The bias spread over the result: a vector [256] laid along the last axis of [1, 1, 256] and then repeated over the 8
  batches and the 12720 pair positions reads, at (b, p, e), the vector at e.
-/
import proofs.«138512_j66692252172937_2_alg».proof.Proof.RefStages
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- The spread bias at an entry. -/
theorem bias_apply {α : Type} (v : S256.Idx → α) (b : Fin 8) (p : Fin 12720) (e : Fin 256) :
    broadcastInDim S8x12720x256 ![0, 1, 2] bcast_S1x1x256_S8x12720x256_0_1_2
      (broadcastInDim S1x1x256 ![2] bcast_S256_S1x1x256_2 v) (ix3 b p e) = v (ix1 e) := by
  rw [broadcastInDim_apply _ _ _ _ (ix3 (0 : Fin 1) (0 : Fin 1) e) (fun a => by
    match a with
    | ⟨0, _⟩ => rfl
    | ⟨1, _⟩ => rfl
    | ⟨2, _⟩ => rfl)]
  rw [broadcastInDim_apply _ _ _ _ (ix1 e) (fun a => by
    match a with
    | ⟨0, _⟩ => rfl)]

end Cert.ReferenceIdeal.RefValue

end
-- ==== Proof.WordFacts.lean ====
/-
  Signed 32-bit word arithmetic on small non-negative values.

  For a word x below 2^31 and a divisor d with 0 < d < 2^31, the signed quotient and remainder of x by the word d
  are the natural quotient and remainder. The quotient rounded towards minus infinity (the truncated quotient, less one
  where the signs differ and the remainder is not zero) and the remainder with the divisor's sign (the truncated
  remainder, plus the divisor where it is not zero and its sign differs from the divisor's) then take no correction:
  the signs agree when x is positive, the remainder is zero when x is zero, and the truncated remainder is never
  negative.
-/
import Idealize.ShloMosaic.PureOps.Vector

namespace Cert.ReferenceIdeal.RefValue

open Idealize.ShloMosaic

/-- The sign of a word: 0, -1 or 1. -/
def sgnW (x : BitVec 32) : BitVec 32 := if x = 0 then 0 else if x.msb then -1 else 1

/-- The quotient rounded towards minus infinity, on words. -/
def floorDivW (x D : BitVec 32) : BitVec 32 :=
  Scalar.select
    (IntOp.andi (IntOp.cmpi .ne (sgnW x) (sgnW D)) (IntOp.cmpi .ne (IntOp.remsi .host x D) 0#32))
    (IntOp.subi (IntOp.divsi .host x D) 1#32) (IntOp.divsi .host x D)

/-- The divisor with zero replaced by one. -/
def safeDivW (D : BitVec 32) : BitVec 32 := Scalar.select (IntOp.cmpi .eq D 0#32) 1#32 D

/-- The remainder with the sign of the divisor, on words. -/
def floorRemW (x D : BitVec 32) : BitVec 32 :=
  Scalar.select
    (IntOp.andi
      (IntOp.cmpi .ne (IntOp.cmpi .slt (IntOp.remsi .host x (safeDivW D)) 0#32) (IntOp.cmpi .slt (safeDivW D) 0#32))
      (IntOp.cmpi .ne (IntOp.remsi .host x (safeDivW D)) 0#32))
    (IntOp.addi (IntOp.remsi .host x (safeDivW D)) (safeDivW D)) (IntOp.remsi .host x (safeDivW D))

/-- A negative word wrapped by 160. -/
def wrapW (x : BitVec 32) : BitVec 32 := Scalar.select (IntOp.cmpi .slt x 0#32) (IntOp.addi x 160#32) x

theorem toNat_ofNat_small (d : ℕ) (hd' : d < 2 ^ 31) : (BitVec.ofNat 32 d).toNat = d := by
  rw [BitVec.toNat_ofNat]; omega

theorem msb_false_of_lt (x : BitVec 32) (hx : x.toNat < 2 ^ 31) : x.msb = false := by
  rw [BitVec.msb_eq_false_iff_two_mul_lt]; omega

theorem ofNat_ne_zero (d : ℕ) (hd : 0 < d) (hd' : d < 2 ^ 31) : BitVec.ofNat 32 d ≠ 0#32 := by
  intro h
  have := congrArg BitVec.toNat h
  rw [toNat_ofNat_small d hd'] at this
  simp at this; omega

theorem ofNat_ne_neg_one (d : ℕ) (hd' : d < 2 ^ 31) : BitVec.ofNat 32 d ≠ (-1 : BitVec 32) := by
  intro h
  have := congrArg BitVec.toNat h
  rw [toNat_ofNat_small d hd'] at this
  have h1 : (-1 : BitVec 32).toNat = 4294967295 := by decide
  rw [h1] at this; omega

theorem not_corner (x : BitVec 32) (d : ℕ) (hd : 0 < d) (hd' : d < 2 ^ 31) :
    ¬ IntOp.SDivCorner x (BitVec.ofNat 32 d) := by
  rintro (h | ⟨_, h⟩)
  · exact ofNat_ne_zero d hd hd' h
  · exact ofNat_ne_neg_one d hd' h

/-- The signed quotient of a small non-negative word by a small positive one is the natural quotient. -/
theorem divsi_small (x : BitVec 32) (d : ℕ) (hd : 0 < d) (hd' : d < 2 ^ 31) (hx : x.toNat < 2 ^ 31) :
    IntOp.divsi .host x (BitVec.ofNat 32 d) = BitVec.ofNat 32 (x.toNat / d) := by
  unfold IntOp.divsi
  rw [if_neg (not_corner x d hd hd'), BitVec.sdiv_eq, msb_false_of_lt x hx,
    msb_false_of_lt _ (by rw [toNat_ofNat_small d hd']; exact hd')]
  apply BitVec.eq_of_toNat_eq
  show (x / BitVec.ofNat 32 d).toNat = _
  rw [BitVec.toNat_udiv, toNat_ofNat_small d hd', BitVec.toNat_ofNat]
  exact (Nat.mod_eq_of_lt (lt_of_le_of_lt (Nat.div_le_self _ _) (by omega))).symm

/-- The signed remainder of a small non-negative word by a small positive one is the natural remainder. -/
theorem remsi_small (x : BitVec 32) (d : ℕ) (hd : 0 < d) (hd' : d < 2 ^ 31) (hx : x.toNat < 2 ^ 31) :
    IntOp.remsi .host x (BitVec.ofNat 32 d) = BitVec.ofNat 32 (x.toNat % d) := by
  unfold IntOp.remsi
  rw [if_neg (not_corner x d hd hd'), BitVec.srem_eq, msb_false_of_lt x hx,
    msb_false_of_lt _ (by rw [toNat_ofNat_small d hd']; exact hd')]
  apply BitVec.eq_of_toNat_eq
  show (x % BitVec.ofNat 32 d).toNat = _
  rw [BitVec.toNat_umod, toNat_ofNat_small d hd', BitVec.toNat_ofNat]
  exact (Nat.mod_eq_of_lt (lt_trans (Nat.mod_lt _ hd) (by omega))).symm

theorem sgnW_pos (x : BitVec 32) (hx0 : x ≠ 0#32) (hx : x.toNat < 2 ^ 31) : sgnW x = 1 := by
  unfold sgnW
  have h0 : ¬ x = 0 := hx0
  rw [if_neg h0, msb_false_of_lt x hx]; rfl

theorem cmpi_ne_self {w : ℕ} (x : BitVec w) : IntOp.cmpi .ne x x = 0#1 := by
  simp [IntOp.cmpi]

theorem andi_zero_left (c : BitVec 1) : IntOp.andi 0#1 c = 0#1 := by simp [IntOp.andi]

theorem andi_zero_right (c : BitVec 1) : IntOp.andi c 0#1 = 0#1 := by simp [IntOp.andi]

theorem select_zero' {α : Type} (a b : α) : Scalar.select 0#1 a b = b := if_neg (by decide)

theorem slt_zero_small (x : BitVec 32) (hx : x.toNat < 2 ^ 31) : IntOp.cmpi .slt x 0#32 = 0#1 := by
  show BitVec.ofBool (x.slt 0#32) = 0#1
  rw [BitVec.slt_zero_eq_msb, msb_false_of_lt x hx]; rfl

/-- On a small non-negative word and a small positive divisor the floor quotient is the natural quotient. -/
theorem floorDivW_small (x : BitVec 32) (d : ℕ) (hd : 0 < d) (hd' : d < 2 ^ 31) (hx : x.toNat < 2 ^ 31) :
    floorDivW x (BitVec.ofNat 32 d) = BitVec.ofNat 32 (x.toNat / d) := by
  unfold floorDivW
  have hc : IntOp.andi (IntOp.cmpi .ne (sgnW x) (sgnW (BitVec.ofNat 32 d)))
      (IntOp.cmpi .ne (IntOp.remsi .host x (BitVec.ofNat 32 d)) 0#32) = 0#1 := by
    by_cases hx0 : x = 0#32
    · rw [remsi_small x d hd hd' hx, hx0]
      have : (BitVec.ofNat 32 ((0#32 : BitVec 32).toNat % d)) = 0#32 := by simp
      rw [this, cmpi_ne_self, andi_zero_right]
    · rw [sgnW_pos x hx0 hx,
        sgnW_pos _ (ofNat_ne_zero d hd hd') (by rw [toNat_ofNat_small d hd']; exact hd'),
        cmpi_ne_self, andi_zero_left]
  rw [hc, select_zero', divsi_small x d hd hd' hx]

theorem safeDivW_small (d : ℕ) (hd : 0 < d) (hd' : d < 2 ^ 31) : safeDivW (BitVec.ofNat 32 d) = BitVec.ofNat 32 d := by
  unfold safeDivW
  have : IntOp.cmpi .eq (BitVec.ofNat 32 d) 0#32 = 0#1 := by
    show BitVec.ofBool (BitVec.ofNat 32 d == 0#32) = 0#1
    rw [beq_eq_false_iff_ne.mpr (ofNat_ne_zero d hd hd')]; rfl
  rw [this, select_zero']

/-- On a small non-negative word and a small positive divisor the floor remainder is the natural remainder. -/
theorem floorRemW_small (x : BitVec 32) (d : ℕ) (hd : 0 < d) (hd' : d < 2 ^ 31) (hx : x.toNat < 2 ^ 31) :
    floorRemW x (BitVec.ofNat 32 d) = BitVec.ofNat 32 (x.toNat % d) := by
  unfold floorRemW
  rw [safeDivW_small d hd hd', remsi_small x d hd hd' hx]
  have hr : (BitVec.ofNat 32 (x.toNat % d)).toNat < 2 ^ 31 := by
    have : x.toNat % d < d := Nat.mod_lt _ hd
    rw [toNat_ofNat_small _ (by omega)]; omega
  rw [slt_zero_small _ hr, slt_zero_small _ (by rw [toNat_ofNat_small d hd']; exact hd'), cmpi_ne_self,
    andi_zero_left, select_zero']

/-- A small non-negative word is not wrapped, and reads back as the number it holds. -/
theorem wrapW_small (r : ℕ) (hr : r < 2 ^ 31) : wrapW (BitVec.ofNat 32 r) = BitVec.ofNat 32 r := by
  unfold wrapW
  rw [slt_zero_small _ (by rw [toNat_ofNat_small r hr]; exact hr), select_zero']

theorem toInt_toNat_small (r : ℕ) (hr : r < 2 ^ 31) : (BitVec.ofNat 32 r).toInt.toNat = r := by
  rw [BitVec.toNat_toInt_of_msb _ (msb_false_of_lt _ (by rw [toNat_ofNat_small r hr]; exact hr)),
    toNat_ofNat_small r hr]

end Cert.ReferenceIdeal.RefValue
-- ==== Proof.RefWords.lean ====
/-
  The word arithmetic of the reference's index chain, read at a position.

  The quotient rounded towards minus infinity and the remainder with the divisor's sign, by a constant positive word, of
  an array whose entry at the position is a small non-negative word, are the natural quotient and remainder of that
  entry. The two members of the p-th pair, (f / 160) mod 160 and (f / 1) mod 160 for the flattened position f < 25600,
  are therefore f / 160 and f mod 160; and the column of start indices, which wraps a negative word by 160, reads a
  word below 160 back as the number it holds.
-/
import proofs.«138512_j66692252172937_2_alg».proof.Proof.RefStages
import proofs.«138512_j66692252172937_2_alg».proof.Proof.WordFacts
import Idealize.ShloMosaic.Lib.ValueIdx
import Idealize.ShloMosaic.Lib.Pipeline.Value

namespace Cert.ReferenceIdeal.RefValue

open Cert.ReferenceIdeal Cert.ReferenceIdeal.Gen Idealize.ShloMosaic

/-- The floor quotient by a constant word, read at a position, is the word operation on the entry. -/
theorem floorDiv_read (a : IVec S12720 32) (D : BitVec 32) (i : S12720.Idx) :
    Stages.floorDiv a (constantI S_ 32 D) i = floorDivW (a i) D := rfl

/-- The floor remainder by a constant word, read at a position, is the word operation on the entry. -/
theorem floorRem_read (a : IVec S12720 32) (D : BitVec 32) (i : S12720.Idx) :
    Stages.floorRem a (constantI S_ 32 D) i = floorRemW (a i) D := rfl

/-- The floor quotient of a small non-negative entry by a positive constant is the natural quotient. -/
theorem floorDiv_apply (a : IVec S12720 32) (d : ℕ) (hd : 0 < d) (hd' : d < 2 ^ 31) (p : Fin 12720)
    (ha : (a (ValueIdx.ix1 p)).toNat < 2 ^ 31) :
    Stages.floorDiv a (constantI S_ 32 (BitVec.ofNat 32 d)) (ValueIdx.ix1 p)
      = BitVec.ofNat 32 ((a (ValueIdx.ix1 p)).toNat / d) :=
  (floorDiv_read a _ _).trans (floorDivW_small _ d hd hd' ha)

/-- The floor remainder of a small non-negative entry by a positive constant is the natural remainder. -/
theorem floorRem_apply (a : IVec S12720 32) (d : ℕ) (hd : 0 < d) (hd' : d < 2 ^ 31) (p : Fin 12720)
    (ha : (a (ValueIdx.ix1 p)).toNat < 2 ^ 31) :
    Stages.floorRem a (constantI S_ 32 (BitVec.ofNat 32 d)) (ValueIdx.ix1 p)
      = BitVec.ofNat 32 ((a (ValueIdx.ix1 p)).toNat % d) :=
  (floorRem_read a _ _).trans (floorRemW_small _ d hd hd' ha)

/-- The first member of the p-th pair is f / 160, for the flattened position f < 25600. -/
theorem rowW_apply_of (p : Fin 12720) (f : ℕ) (hf : (Stages.flatIdx (ValueIdx.ix1 p)).toNat = f) (hlt : f < 25600) :
    Stages.rowW (ValueIdx.ix1 p) = BitVec.ofNat 32 (f / 160) := by
  have hq : Stages.floorDiv Stages.flatIdx (constantI S_ 32 160#32) (ValueIdx.ix1 p) = BitVec.ofNat 32 (f / 160) := by
    have h := floorDiv_apply Stages.flatIdx 160 (by omega) (by omega) p (by rw [hf]; omega)
    rw [hf] at h; exact h
  have hqn : (Stages.floorDiv Stages.flatIdx (constantI S_ 32 160#32) (ValueIdx.ix1 p)).toNat = f / 160 := by
    rw [hq]; exact toNat_ofNat_small _ (by omega)
  have h := floorRem_apply (Stages.floorDiv Stages.flatIdx (constantI S_ 32 160#32)) 160 (by omega) (by omega) p
    (by rw [hqn]; omega)
  rw [hqn] at h
  have hm : f / 160 % 160 = f / 160 := by omega
  rw [hm] at h; exact h

/-- The second member of the p-th pair is f mod 160, for the flattened position f < 25600. -/
theorem colW_apply_of (p : Fin 12720) (f : ℕ) (hf : (Stages.flatIdx (ValueIdx.ix1 p)).toNat = f) (hlt : f < 25600) :
    Stages.colW (ValueIdx.ix1 p) = BitVec.ofNat 32 (f % 160) := by
  have hq : Stages.floorDiv Stages.flatIdx (constantI S_ 32 1#32) (ValueIdx.ix1 p) = BitVec.ofNat 32 f := by
    have h := floorDiv_apply Stages.flatIdx 1 (by omega) (by omega) p (by rw [hf]; omega)
    rw [hf, Nat.div_one] at h; exact h
  have hqn : (Stages.floorDiv Stages.flatIdx (constantI S_ 32 1#32) (ValueIdx.ix1 p)).toNat = f := by
    rw [hq]; exact toNat_ofNat_small _ (by omega)
  have h := floorRem_apply (Stages.floorDiv Stages.flatIdx (constantI S_ 32 1#32)) 160 (by omega) (by omega) p
    (by rw [hqn]; omega)
  rw [hqn] at h; exact h

/-- The column of start indices, read at row p, is the wrapped entry at p. -/
theorem startIdx_read (a : IVec S12720 32) (p : Fin 12720) :
    Stages.startIdx a (ValueIdx.ix2 p (0 : Fin 1)) = wrapW (a (ValueIdx.ix1 p)) :=
  (broadcastInDim_apply ![0] bcast_S12720_S12720x1_0 _ (ValueIdx.ix2 p (0 : Fin 1)) (ValueIdx.ix1 p)
    (fun b => match b with | ⟨0, _⟩ => rfl)).trans rfl

/-- A word below 160 in the column of start indices reads back as the number it holds. -/
theorem startIdx_apply_of (a : IVec S12720 32) (p : Fin 12720) (r : ℕ) (hr : r < 160)
    (ha : a (ValueIdx.ix1 p) = BitVec.ofNat 32 r) :
    (Stages.startIdx a (ValueIdx.ix2 p (0 : Fin 1))).toInt.toNat = r := by
  rw [startIdx_read, ha, wrapW_small r (by omega)]
  exact toInt_toNat_small r (by omega)

end Cert.ReferenceIdeal.RefValue
-- ==== Proof.RefCountArith.lean ====
/-
  Facts about single 32-bit words (signed comparisons and maxima of words that are small and not negative) and
  counting identities over initial segments of the naturals: a sum of 0/1 indicators over the positions up to k is the
  number of positions up to k with the property; the sum over v ≤ p of the sizes of the fibres of a function over v is
  the number of points whose value is at most p.
-/
import Mathlib.Tactic
import Idealize.ShloMosaic.PureOps.Float

namespace Cert.ReferenceIdeal.RefArith

open Idealize.ShloMosaic

/-! ## Words -/

/-- A natural below 2^31 as a 32-bit word has itself as its unsigned value. -/
theorem toNat_ofNat_small {n : ℕ} (h : n < 2 ^ 31) : (BitVec.ofNat 32 n).toNat = n := by
  rw [BitVec.toNat_ofNat]; exact Nat.mod_eq_of_lt (by omega)

/-- A word whose unsigned value is below 2^31 has that value as its signed value. -/
theorem toInt_small {x : BitVec 32} (h : x.toNat < 2 ^ 31) : x.toInt = (x.toNat : ℤ) :=
  BitVec.toInt_eq_toNat_of_lt (by omega)

/-- A natural below 2^31 as a 32-bit word has itself as its signed value. -/
theorem toInt_ofNat_small {n : ℕ} (h : n < 2 ^ 31) : (BitVec.ofNat 32 n).toInt = (n : ℤ) := by
  rw [toInt_small (by rw [toNat_ofNat_small h]; exact h), toNat_ofNat_small h]

/-- The signed test "r + 0 ≥ c" on two words below 160. -/
theorem cmpi_sge_small {r c : ℕ} (hr : r < 160) (hc : c < 160) :
    IntOp.cmpi .sge (IntOp.addi (BitVec.ofNat 32 r) 0#32) (BitVec.ofNat 32 c) = if c ≤ r then 1#1 else 0#1 := by
  unfold IntOp.cmpi IntOp.addi
  rw [BitVec.add_zero]
  show BitVec.ofBool ((BitVec.ofNat 32 c).sle (BitVec.ofNat 32 r)) = _
  rw [BitVec.sle_eq_decide, toInt_ofNat_small (by omega), toInt_ofNat_small (by omega)]
  by_cases h : c ≤ r
  · rw [if_pos h, decide_eq_true (by exact_mod_cast h)]; rfl
  · rw [if_neg h, decide_eq_false (by exact_mod_cast h)]; rfl

/-- A word below 2^31 is not negative. -/
theorem slt_zero_small {x : BitVec 32} (h : x.toNat < 2 ^ 31) : x.slt 0#32 = false := by
  rw [BitVec.slt_zero_eq_msb, BitVec.msb_eq_false_iff_two_mul_lt]; omega

/-- The signed maximum of zero and a word below 2^31 is the word. -/
theorem maxsi_zero_small {x : BitVec 32} (h : x.toNat < 2 ^ 31) : IntOp.maxsi 0#32 x = x := by
  unfold IntOp.maxsi; rw [slt_zero_small h]; rfl

/-- The signed test "x < 0" fails on a word below 2^31. -/
theorem cmpi_slt_zero_small {x : BitVec 32} (h : x.toNat < 2 ^ 31) : IntOp.cmpi .slt x 0#32 = 0#1 := by
  unfold IntOp.cmpi
  show BitVec.ofBool (x.slt 0#32) = _
  rw [slt_zero_small h]; rfl

/-! ## Counting -/

/-- The positions below n that are at most k < n are the positions up to k. -/
theorem filter_le_range {n k : ℕ} (hk : k < n) : (Finset.range n).filter (fun l => l ≤ k) = Finset.range (k + 1) := by
  ext l; simp only [Finset.mem_filter, Finset.mem_range]; omega

/-- A sum over the positions below n of a term present only up to k < n is the sum over the positions up to k. -/
theorem sum_fin_le {n k : ℕ} (hk : k < n) (g : ℕ → ℕ) :
    (∑ l : Fin n, if l.val ≤ k then g l.val else 0) = ∑ l ∈ Finset.range (k + 1), g l := by
  rw [Fin.sum_univ_eq_sum_range (fun l => if l ≤ k then g l else 0) n, ← Finset.sum_filter, filter_le_range hk]

/-- The sum of the indicators of P over the positions up to k is the number of positions up to k with P. -/
theorem sum_fin_le_ind {n k : ℕ} (hk : k < n) (P : ℕ → Prop) [DecidablePred P] :
    (∑ l : Fin n, if l.val ≤ k then (if P l.val then 1 else 0) else 0) = ((Finset.range (k + 1)).filter P).card := by
  rw [sum_fin_le hk (fun l => if P l then 1 else 0), Finset.card_filter]

/-- The sum of the indicators of "c e = v" over e < E is the size of the fibre of c over v. -/
theorem sum_fin_fibre (E : ℕ) (c : ℕ → ℕ) (v : ℕ) :
    (∑ e : Fin E, if c e.val = v then 1 else 0) = ((Finset.range E).filter (fun e => c e = v)).card := by
  rw [Fin.sum_univ_eq_sum_range (fun e => if c e = v then 1 else 0) E, Finset.card_filter]

/-- The sizes of the fibres of c over the values up to p < N add up to the number of points with value at most p. -/
theorem sum_fin_le_fibre {N p : ℕ} (hp : p < N) (E : ℕ) (c : ℕ → ℕ) :
    (∑ v : Fin N, if v.val ≤ p then ((Finset.range E).filter (fun e => c e = v.val)).card else 0)
      = ((Finset.range E).filter (fun e => c e ≤ p)).card := by
  rw [sum_fin_le hp (fun v => ((Finset.range E).filter (fun e => c e = v)).card),
    Finset.sum_card_fiberwise_eq_card_filter]
  congr 1
  ext e; simp only [Finset.mem_filter, Finset.mem_range]; omega

/-- The number of positions up to k with a property is at most k + 1. -/
theorem card_filter_range_le (k : ℕ) (P : ℕ → Prop) [DecidablePred P] : ((Finset.range (k + 1)).filter P).card ≤ k + 1 :=
  (Finset.card_filter_le _ _).trans (by rw [Finset.card_range])

/-- The number of positions below E with a property is at most E. -/
theorem card_filter_range_le' (E : ℕ) (P : ℕ → Prop) [DecidablePred P] : ((Finset.range E).filter P).card ≤ E :=
  (Finset.card_filter_le _ _).trans (by rw [Finset.card_range])

end Cert.ReferenceIdeal.RefArith
-- ==== Proof.LibCumsumWindow.lean ====
/-
  A running sum over a vector as the host computes it: a sliding window as long as the vector, padded on the low side by
  the vector's length less one, summed with wrapping 32-bit addition from zero. At position j the window covers exactly
  the positions 0..j of the vector (the rest of it is padding), so the result is the sum of the first j + 1 entries,
  modulo 2^32. General in the length.
-/
import Idealize.ShloMosaic.PureOps.Contract
import Idealize.ShloMosaic.Lib.ValueIdx

namespace LibCumsumWindow

open Idealize.ShloMosaic Idealize.ShloMosaic.ValueIdx

/-- A left fold of wrapping 32-bit additions is, as a natural number, the start plus the sum of the terms, modulo 2^32. -/
theorem foldl_addi_toNat {ι : Type} (g : ι → BitVec 32) (l : List ι) (v : BitVec 32) :
    (l.foldl (fun r k => IntOp.addi r (g k)) v).toNat = (v.toNat + (l.map fun k => (g k).toNat).sum) % 2 ^ 32 := by
  induction l generalizing v with
  | nil => simp [Nat.mod_eq_of_lt v.isLt]
  | cons a l ih =>
    rw [List.foldl_cons, ih]
    simp only [IntOp.addi, BitVec.toNat_add, List.map_cons, List.sum_cons]
    omega

/-- The index set of a vector is its one coordinate's range. -/
def idxEquiv1 {n : ℕ} : (⟨1, ![n]⟩ : Shape).Idx ≃ Fin n where
  toFun i := i 0
  invFun := ix1
  left_inv i := (eq_ix1 i).symm
  right_inv _ := rfl

/-- A shifted, truncated sum: the terms with lo ≤ j + k, read at j + k − lo, are the terms at 0..j. -/
theorem sum_window_shift {n lo : ℕ} (hlo : lo + 1 = n) (j : ℕ) (hj : j < n) (F : ℕ → ℕ) :
    ∑ k ∈ Finset.range n, (if lo ≤ j + k then F (j + k - lo) else 0)
      = ∑ l ∈ Finset.range n, (if l ≤ j then F l else 0) := by
  rw [← Finset.sum_filter, ← Finset.sum_filter]
  refine Finset.sum_nbij' (fun k => j + k - lo) (fun l => l + lo - j) ?_ ?_ ?_ ?_ ?_
  all_goals (intro a ha; simp only [Finset.mem_filter, Finset.mem_range] at ha ⊢; try omega)

/-- The window sum at j is the sum of the entries at positions up to and including j, modulo 2^32. -/
theorem reduceWindow_addi_prefix {n lo : ℕ} (hlo : lo + 1 = n)
    (x : (⟨1, ![n]⟩ : Shape).Idx → BitVec 32) (init : (⟨0, ![]⟩ : Shape).Idx → BitVec 32) (hinit : ∀ i, init i = 0#32)
    (h : (⟨1, ![n]⟩ : Shape).ReduceWindows (![n] : Fin 1 → ℕ) ![1] ![lo] ![0] ⟨1, ![n]⟩)
    (hu : 0 < (⟨0, ![]⟩ : Shape).numel) (j : Fin n) :
    (Host.reduceWindow IntOp.addi (![n] : Fin 1 → ℕ) ![1] ![lo] ![0] x init h hu (ix1 j)).toNat
      = (∑ l : Fin n, if l.val ≤ j.val then (x (ix1 l)).toNat else 0) % 2 ^ 32 := by
  have hv : init (Shape.Idx.first hu) = 0#32 := hinit _
  let xx : ℕ → ℕ := fun m => if hm : m < n then (x (ix1 ⟨m, hm⟩)).toNat else 0
  have hxx : ∀ (m : ℕ) (hm : m < n), xx m = (x (ix1 ⟨m, hm⟩)).toNat := fun m hm => by simp [xx, hm]
  dsimp only [Host.reduceWindow]
  rw [foldl_addi_toNat, hv, ← Fin.sum_univ_def, show (0#32).toNat = 0 from rfl, Nat.zero_add]
  congr 1
  rw [← Equiv.sum_comp (⟨1, ![n]⟩ : Shape).rowMajor, ← Equiv.sum_comp (idxEquiv1 (n := n)).symm]
  calc _ = ∑ k : Fin n, (if lo ≤ j.val + k.val then xx (j.val + k.val - lo) else 0) := by
        refine Finset.sum_congr rfl fun k _ => ?_
        simp only [Equiv.symm_apply_apply]
        split_ifs with hin hk hk
        · rw [hxx _ (by have := j.isLt; have := k.isLt; omega)]
          congr 2
          funext a
          match a with
          | ⟨0, _⟩ =>
            apply Fin.ext
            show j.val * 1 + k.val - lo = j.val + k.val - lo
            rw [Nat.mul_one]
        · have h0 : lo ≤ j.val * 1 + k.val := (hin 0).1
          omega
        · refine absurd (fun a => ?_) hin
          match a with
          | ⟨0, _⟩ =>
            have := j.isLt
            have := k.isLt
            exact ⟨(by show lo ≤ j.val * 1 + k.val; omega), (by show j.val * 1 + k.val - lo < n; omega)⟩
        · rfl
    _ = ∑ k ∈ Finset.range n, (if lo ≤ j.val + k then xx (j.val + k - lo) else 0) :=
        Fin.sum_univ_eq_sum_range (fun k => if lo ≤ j.val + k then xx (j.val + k - lo) else 0) n
    _ = ∑ l ∈ Finset.range n, (if l ≤ j.val then xx l else 0) := sum_window_shift hlo j.val j.isLt xx
    _ = ∑ l : Fin n, (if l.val ≤ j.val then xx l.val else 0) :=
        (Fin.sum_univ_eq_sum_range (fun l => if l ≤ j.val then xx l else 0) n).symm
    _ = _ := by
        refine Finset.sum_congr rfl fun l _ => ?_
        rw [hxx l.val l.isLt]

end LibCumsumWindow
-- ==== Proof.LibScatterCount.lean ====
/-
  A host scatter with an adding body, scalar 32-bit updates [E] aimed by an index column [E, 1] into a vector [N]
  (a histogram: what counting occurrences lowers to). The entry at i ends at the operand's entry plus the sum of the
  updates whose index word, read signed, is exactly i, modulo 2^32; an update whose index is negative or at least N is
  dropped. General in N and E.
-/
import Idealize.ShloMosaic.PureOps.ShapeOps
import Idealize.ShloMosaic.PureOps.Dims
import Idealize.ShloMosaic.Lib.ValueIdx

namespace LibScatterCount

open Idealize.ShloMosaic Idealize.ShloMosaic.ValueIdx

/-- A left fold of conditional wrapping 32-bit additions is, as a natural number, the start plus the sum of the terms
    whose condition holds, modulo 2^32. -/
theorem foldl_cond_addi_toNat {ι : Type} (c : ι → Prop) [DecidablePred c] (g : ι → BitVec 32) (l : List ι)
    (v : BitVec 32) :
    (l.foldl (fun r k => if c k then IntOp.addi r (g k) else r) v).toNat
      = (v.toNat + (l.map fun k => if c k then (g k).toNat else 0).sum) % 2 ^ 32 := by
  induction l generalizing v with
  | nil => simp [Nat.mod_eq_of_lt v.isLt]
  | cons a l ih =>
    rw [List.foldl_cons, ih, List.map_cons, List.sum_cons]
    by_cases ha : c a
    · simp only [if_pos ha, IntOp.addi, BitVec.toNat_add]; omega
    · simp only [if_neg ha, Nat.zero_add]

/-- A left fold of steps on functions, read at one entry, when each step changes that entry by a conditional update
    that reads that entry alone: the fold of the conditional updates from the entry. -/
theorem foldl_apply_of_step {α ι κ : Type} (step : (κ → α) → ι → κ → α) (I : κ) (c : ι → Prop) [DecidablePred c]
    (f : α → α → α) (val : ι → α) (hstep : ∀ r n, step r n I = if c n then f (r I) (val n) else r I)
    (l : List ι) (x : κ → α) :
    (l.foldl step x) I = l.foldl (fun r n => if c n then f r (val n) else r) (x I) := by
  induction l generalizing x with
  | nil => rfl
  | cons a l ih => rw [List.foldl_cons, List.foldl_cons, ih, hstep]

/-- Every coordinate of a rank-1 index is its one coordinate. -/
theorem ix1_val {n : ℕ} (e : Fin n) (a : Fin 1) : ((ix1 e) a).val = e.val := by
  match a with
  | ⟨0, _⟩ => rfl

/-- The index set of a vector is its one coordinate's range. -/
def idxEquiv1 {n : ℕ} : (⟨1, ![n]⟩ : Shape).Idx ≃ Fin n where
  toFun i := i 0
  invFun := ix1
  left_inv i := (eq_ix1 i).symm
  right_inv _ := rfl

/-- The index vector the update at e reads is row e of the index column, so the start of its one-entry window is that word read signed. -/
theorem start_eq {N E : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ 32) (e : Fin E) (a : Fin 1) :
    d.start (ix1 e) idx a = (idx (ix2 e (0 : Fin 1))).toInt := by
  obtain ⟨uwd, iwd, sdto, ivd, wf⟩ := d
  dsimp only at h1 h2 h3 h4
  subst h1 h2 h3 h4
  have ha0 : a = 0 := Fin.fin_one_eq_zero a
  subst ha0
  unfold ScatterDims.start
  split_ifs with ha
  · refine congrArg (fun z => (idx z).toInt) ?_
    funext b
    apply Fin.ext
    match b with
    | ⟨0, _⟩ =>
      simp only [ScatterDims.siIdx, ScatterDims.siCoord]
      rw [dif_neg (show ¬ ((0 : ℕ) = 1) by decide)]
      exact ix1_val e _
    | ⟨1, _⟩ =>
      simp only [ScatterDims.siIdx]
      rw [dif_pos trivial]
      simp
  · exact absurd (List.mem_singleton.2 rfl) ha

/-- With the operand's one axis inserted there is no window axis: the window coordinate is zero. -/
theorem window_eq {N E : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (e : Fin E) (a : Fin 1) :
    d.window (ix1 e) a = 0 := by
  obtain ⟨uwd, iwd, sdto, ivd, wf⟩ := d
  dsimp only at h1 h2 h3 h4
  subst h1 h2 h3 h4
  have ha0 : a = 0 := Fin.fin_one_eq_zero a
  subst ha0
  unfold ScatterDims.window
  split_ifs with ha
  · exfalso
    simp [ScatterDims.sKept, Shape.kept] at ha
  · rfl

/-- The update at e lands on entry i exactly when its index word, read signed, is i. -/
theorem resultIdx?_eq_some_iff {N E : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ 32) (e : Fin E) (i : Fin N) :
    d.resultIdx? (ix1 e) idx = some (ix1 i) ↔ (idx (ix2 e (0 : Fin 1))).toInt = (i.val : ℤ) := by
  have hs := start_eq d h1 h2 h3 h4 idx e
  have hw := window_eq d h1 h2 h3 h4 e
  unfold ScatterDims.resultIdx?
  constructor
  · intro hres
    split_ifs at hres with hc
    have h0v : (d.start (ix1 e) idx 0 + ((d.window (ix1 e) 0 : ℕ) : ℤ)).toNat = i.val :=
      congrArg Fin.val (congrFun (Option.some.inj hres) 0)
    have hc0 := (hc 0).1
    rw [hs, hw] at h0v hc0
    omega
  · intro heq
    have hc : ∀ a : Fin (⟨1, ![N]⟩ : Shape).rank,
        0 ≤ d.start (ix1 e) idx a + ((d.window (ix1 e) a : ℕ) : ℤ) ∧
          d.start (ix1 e) idx a + ((d.window (ix1 e) a : ℕ) : ℤ) < (((⟨1, ![N]⟩ : Shape).size a : ℕ) : ℤ) := by
      intro a
      have hN : (⟨1, ![N]⟩ : Shape).size a = N := by
        match a with
        | ⟨0, _⟩ => rfl
      rw [hs, hw, heq, hN]
      have := i.isLt
      constructor <;> omega
    rw [dif_pos hc]
    refine congrArg some (funext fun a => Fin.ext ?_)
    show (d.start (ix1 e) idx a + ((d.window (ix1 e) a : ℕ) : ℤ)).toNat = (ix1 i a).val
    rw [hs, hw, heq, ix1_val]
    omega

/-- The scattered sum read at an entry. -/
theorem scatter_addi_apply {N E : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → BitVec 32) (idx : IVec ⟨2, ![E, 1]⟩ 32)
    (upd : (⟨1, ![E]⟩ : Shape).Idx → BitVec 32) (i : Fin N) :
    (Host.scatter d IntOp.addi x idx upd (ix1 i)).toNat
      = ((x (ix1 i)).toNat
          + ∑ e : Fin E, if (idx (ix2 e (0 : Fin 1))).toInt = (i.val : ℤ) then (upd (ix1 e)).toNat else 0) % 2 ^ 32 := by
  unfold Host.scatter
  rw [foldl_apply_of_step (I := ix1 i)
        (c := fun n => d.resultIdx? ((⟨1, ![E]⟩ : Shape).rowMajor.symm n) idx = some (ix1 i))
        (f := IntOp.addi) (val := fun n => upd ((⟨1, ![E]⟩ : Shape).rowMajor.symm n))]
  · rw [foldl_cond_addi_toNat, ← Fin.sum_univ_def]
    congr 2
    rw [← Equiv.sum_comp (⟨1, ![E]⟩ : Shape).rowMajor, ← Equiv.sum_comp (idxEquiv1 (n := E)).symm]
    refine Finset.sum_congr rfl fun e _ => ?_
    simp only [Equiv.symm_apply_apply]
    show (if d.resultIdx? (ix1 e) idx = some (ix1 i) then (upd (ix1 e)).toNat else 0) = _
    simp only [resultIdx?_eq_some_iff d h1 h2 h3 h4 idx e i]
  · intro r n
    cases hres : d.resultIdx? ((⟨1, ![E]⟩ : Shape).rowMajor.symm n) idx with
    | none => simp
    | some i₀ =>
      by_cases hi : ix1 i = i₀
      · subst hi
        simp
      · simp [hi, Ne.symm hi]

end LibScatterCount
-- ==== Proof.RefCount.lean ====
/-
  The counting part of the reference's index chain, stage by stage and read at explicit coordinates.

  The mask of the 160 × 160 square is set exactly at the cells with row < column; flattened row-major, position k is the
  cell (k / 160, k % 160). The running count of the mask at k is therefore cnt k, the number of positions l ≤ k with
  l / 160 < l % 160; it is at most 25600, so the 32-bit sums do not wrap, the clamp below at zero and the wrap of negative
  values change nothing, and read signed it is the same number. The scattered count at v is the number of positions
  k < 25600 with cnt k = v; the running sum of those counts at p is the number of positions with cnt k ≤ p, which is the
  flattened position of the p-th pair (i, j), i < j < 160, in row-major order.
-/
import proofs.«138512_j66692252172937_2_alg».proof.Proof.RefStages
import proofs.«138512_j66692252172937_2_alg».proof.Proof.RefCountArith
import proofs.«138512_j66692252172937_2_alg».proof.Proof.LibCumsumWindow
import proofs.«138512_j66692252172937_2_alg».proof.Proof.LibScatterCount
import proofs.«138512_j66692252172937_2_alg».proof.Proof.PairIndex
import Idealize.ShloMosaic.Lib.ValueLayout
import Idealize.ShloMosaic.Lib.IdealHost

noncomputable section

namespace Cert.ReferenceIdeal.RefValue

open Cert.ReferenceIdeal Cert.ReferenceIdeal.Gen Idealize.ShloMosaic Idealize.ShloMosaic.ValueIdx
open Cert.ReferenceIdeal.RefArith

/-- The number of flattened positions up to and including k that lie strictly above the diagonal. -/
def cnt (k : ℕ) : ℕ := ((Finset.range (k + 1)).filter (fun l => l / 160 < l % 160)).card

theorem cnt_le (k : ℕ) : cnt k ≤ k + 1 := card_filter_range_le k _

/-- The triangle of ones at a cell: zero on and below the diagonal, one above it. -/
theorem triuF_apply (r c : Fin 160) : Stages.triuF (ix2 r c) = if c.val ≤ r.val then (0 : EReal) else 1 := by
  unfold Stages.triuF
  rw [select_apply]
  show Scalar.select (IntOp.cmpi .sge (IntOp.addi (BitVec.ofNat 32 r.val) 0#32) (BitVec.ofNat 32 c.val))
    (Ideal.ofBits .f32 0x00000000#32) (Ideal.ofBits .f32 0x3F800000#32) = _
  rw [cmpi_sge_small r.isLt c.isLt, Ideal.ofBits_zero_f32, Ideal.ofBits_one_f32]
  by_cases h : c.val ≤ r.val
  · rw [if_pos h, if_pos h, select_one]
  · rw [if_neg h, if_neg h, select_zero]

/-- The mask at a cell: set exactly where the row is below the column. -/
theorem maskB_apply (r c : Fin 160) : Stages.maskB (ix2 r c) = if r.val < c.val then 1#1 else 0#1 := by
  unfold Stages.maskB
  rw [cmpf_apply]
  show Ideal.cmp .une (Stages.triuF (ix2 r c)) (Ideal.ofBits .f32 0x00000000#32) = _
  rw [triuF_apply, Ideal.ofBits_zero_f32]
  unfold Ideal.cmp
  by_cases h : c.val ≤ r.val
  · rw [if_pos h, if_neg (by omega)]; simp
  · rw [if_neg h, if_pos (by omega)]; simp

/-- The flattened position k of the square is the cell (k / 160, k % 160): the widened mask there. -/
theorem maskW_apply (k : Fin 25600) :
    Stages.maskW (ix1 k) = if k.val / 160 < k.val % 160 then 1#32 else 0#32 := by
  unfold Stages.maskW
  rw [extui_apply]
  have hc := shapeCast_apply Stages.maskB shapeCasts_S160x160_S25600 (ix1 k)
    (ix2 (n0 := 160) (n1 := 160) ⟨k.val / 160, by have := k.isLt; omega⟩ ⟨k.val % 160, Nat.mod_lt _ (by norm_num)⟩)
    (by
      rw [Shape.rowMajor_val_two, Shape.rowMajor_val_one]
      show k.val / 160 * 160 + k.val % 160 = k.val
      omega)
  rw [hc, maskB_apply]
  show (if k.val / 160 < k.val % 160 then 1#1 else 0#1).setWidth 32 = _
  by_cases h : k.val / 160 < k.val % 160
  · rw [if_pos h, if_pos h]; rfl
  · rw [if_neg h, if_neg h]; rfl

theorem maskW_toNat (k : Fin 25600) :
    (Stages.maskW (ix1 k)).toNat = if k.val / 160 < k.val % 160 then 1 else 0 := by
  rw [maskW_apply]
  by_cases h : k.val / 160 < k.val % 160
  · rw [if_pos h, if_pos h]; rfl
  · rw [if_neg h, if_neg h]; rfl

/-- The running count at k is the number of positions up to k above the diagonal. -/
theorem csum_toNat (k : Fin 25600) : (Stages.csum (ix1 k)).toNat = cnt k.val := by
  unfold Stages.csum
  refine (LibCumsumWindow.reduceWindow_addi_prefix (n := 25600) (lo := 25599) rfl Stages.maskW _ (fun _ => rfl) _ _ k).trans ?_
  have h : (∑ l : Fin 25600, if l.val ≤ k.val then (Stages.maskW (ix1 l)).toNat else 0) = cnt k.val := by
    unfold cnt
    rw [← sum_fin_le_ind k.isLt (fun l => l / 160 < l % 160)]
    refine Finset.sum_congr rfl (fun l _ => ?_)
    rw [maskW_toNat]
  rw [h]
  exact Nat.mod_eq_of_lt (by have := cnt_le k.val; have := k.isLt; omega)

theorem csum_lt (k : Fin 25600) : (Stages.csum (ix1 k)).toNat < 2 ^ 31 := by
  rw [csum_toNat]; have := cnt_le k.val; have := k.isLt; omega

/-- Clamping below at zero changes nothing: the running count is not negative. -/
theorem clipped_apply (k : Fin 25600) : Stages.clipped (ix1 k) = Stages.csum (ix1 k) := by
  unfold Stages.clipped
  show IntOp.maxsi 0#32 (Stages.csum (ix1 k)) = _
  exact maxsi_zero_small (csum_lt k)

/-- Wrapping negative values changes nothing: none is negative. -/
theorem wrapped_apply (k : Fin 25600) : Stages.wrapped (ix1 k) = Stages.csum (ix1 k) := by
  unfold Stages.wrapped
  rw [select_apply]
  show Scalar.select (IntOp.cmpi .slt (Stages.clipped (ix1 k)) 0#32)
    (IntOp.addi (Stages.clipped (ix1 k)) 12720#32) (Stages.clipped (ix1 k)) = _
  rw [clipped_apply, cmpi_slt_zero_small (csum_lt k), select_zero]

/-- The count at v is the number of flattened positions whose running count is v. -/
theorem binc_toNat (v : Fin 12720) :
    (Stages.binc (ix1 v)).toNat = ((Finset.range 25600).filter (fun e => cnt e = v.val)).card := by
  unfold Stages.binc
  refine (LibScatterCount.scatter_addi_apply (N := 12720) (E := 25600) scatter_S12720_S25600x1_S25600_n_0_0_1
    rfl rfl rfl rfl _ _ _ v).trans ?_
  have h0 : (broadcastInDim S12720 ![] bcast_S_S12720 (constantI S_ 32 0#32) (ix1 v)).toNat = 0 := rfl
  have hs : (∑ e : Fin 25600,
      if (broadcastInDim S25600x1 ![0] bcast_S25600_S25600x1_0 Stages.wrapped (ix2 e (0 : Fin 1))).toInt = (v.val : ℤ)
      then (broadcastInDim S25600 ![] bcast_S_S25600 (constantI S_ 32 1#32) (ix1 e)).toNat else 0)
      = ((Finset.range 25600).filter (fun e => cnt e = v.val)).card := by
    rw [← sum_fin_fibre 25600 cnt v.val]
    refine Finset.sum_congr rfl (fun e _ => ?_)
    have hw : broadcastInDim S25600x1 ![0] bcast_S25600_S25600x1_0 Stages.wrapped (ix2 e (0 : Fin 1))
        = Stages.csum (ix1 e) :=
      (broadcastInDim_apply ![0] bcast_S25600_S25600x1_0 Stages.wrapped (ix2 e (0 : Fin 1)) (ix1 e)
        (fun a => match a with | ⟨0, _⟩ => rfl)).trans (wrapped_apply e)
    have hu : (broadcastInDim S25600 ![] bcast_S_S25600 (constantI S_ 32 1#32) (ix1 e)).toNat = 1 := rfl
    rw [hw, hu, toInt_small (csum_lt e), csum_toNat]
    simp only [Nat.cast_inj]
  rw [h0, hs, Nat.zero_add]
  exact Nat.mod_eq_of_lt (by have := card_filter_range_le' 25600 (fun e => cnt e = v.val); omega)

/-- The running sum of the counts at p is the number of flattened positions whose running count is at most p: the
    flattened position of the p-th pair. -/
theorem flatIdx_toNat (p : Fin 12720) : (Stages.flatIdx (ValueIdx.ix1 p)).toNat = PairIndex.flat p.val := by
  unfold Stages.flatIdx
  refine (LibCumsumWindow.reduceWindow_addi_prefix (n := 12720) (lo := 12719) rfl Stages.binc _ (fun _ => rfl) _ _ p).trans ?_
  have h : (∑ v : Fin 12720, if v.val ≤ p.val then (Stages.binc (ix1 v)).toNat else 0)
      = ((Finset.range 25600).filter (fun e => cnt e ≤ p.val)).card := by
    rw [← sum_fin_le_fibre p.isLt 25600 cnt]
    refine Finset.sum_congr rfl (fun v _ => ?_)
    rw [binc_toNat]
  rw [h, Nat.mod_eq_of_lt (by have := card_filter_range_le' 25600 (fun e => cnt e ≤ p.val); omega)]
  exact PairIndex.count_le p.isLt

end Cert.ReferenceIdeal.RefValue
-- ==== Proof.LibMidGather.lean ====
/-
  Whole rows gathered along the middle axis of a rank-3 array: operand [B, S, D], start indices laid out [P, 1], result
  [B, P, D] (what x[:, idx, :] lowers to). The entry at (b, p, e) is the operand at (b, s, e) with s the p-th start
  index read signed and clamped into [0, S − 1]. General in every extent and in the index width.
-/
import Idealize.ShloMosaic.PureOps.ShapeOps
import Idealize.ShloMosaic.PureOps.Dims
import Idealize.ShloMosaic.Lib.ValueIdx

namespace LibMidGather

open Idealize.ShloMosaic Idealize.ShloMosaic.ValueIdx

/-- The gathered array read at an entry. -/
theorem gather_mid_apply {α : Type} {B S D P w : ℕ} (hS : 0 < S)
    (d : GatherDims ⟨3, ![B, S, D]⟩ ⟨2, ![P, 1]⟩ ⟨3, ![B, P, D]⟩)
    (h1 : d.offsetDims = [0, 2]) (h2 : d.collapsedSliceDims = [1]) (h3 : d.operandBatchingDims = [])
    (h4 : d.startIndicesBatchingDims = []) (h5 : d.startIndexMap = [1]) (h6 : d.indexVectorDim = 1)
    (h7 : d.sliceSizes = ![B, 1, D])
    (x : (⟨3, ![B, S, D]⟩ : Shape).Idx → α) (idx : IVec ⟨2, ![P, 1]⟩ w) (b : Fin B) (p : Fin P) (e : Fin D) :
    Host.gather d x idx (ix3 b p e)
      = x (ix3 b (⟨min (idx (ix2 p (0 : Fin 1))).toInt.toNat (S - 1), by omega⟩ : Fin S) e) := by
  -- the record's fields are the stated lists: work with the explicit record
  obtain ⟨od, cd, ob, sb, sm, iv, ss, wf⟩ := d
  simp only at h1 h2 h3 h4 h5 h6 h7
  subst h1 h2 h3 h4 h5 h6 h7
  -- the two operand indices agree coordinate by coordinate
  unfold Host.gather
  congr 1
  funext a
  refine Fin.ext ?_
  match a with
  | ⟨0, _⟩ =>
    -- axis 0: not in the start index map (start 0), not batching, first kept axis: the offset coordinate b
    show GatherDims.start _ _ idx 0 + GatherDims.batchCoord _ _ 0 + GatherDims.offCoord _ _ 0 = _
    rw [GatherDims.batchCoord_eq_zero _ _ _ List.not_mem_nil]
    unfold GatherDims.start
    split
    · rename_i ha
      exact absurd ha (show (0 : Fin 3) ∉ ([1] : List (Fin 3)) from by decide)
    · unfold GatherDims.offCoord
      split
      · simp only [Nat.zero_add]
        rfl
      · rename_i _ hb
        exact absurd (show (0 : Fin 3) ∈ (List.finRange 3).filter (· ∉ ([1] ++ [] : List (Fin 3))) from by decide) hb
  | ⟨1, _⟩ =>
    -- axis 1: collapsed (offset 0), not batching: the start index read at (p, 0), clamped into [0, S − 1]
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    split
    · rename_i ha
      have hsi : GatherDims.siIdx
          (⟨[0, 2], [1], [], [], [1], 1, ![B, 1, D], wf⟩ : GatherDims ⟨3, ![B, S, D]⟩ ⟨2, ![P, 1]⟩ ⟨3, ![B, P, D]⟩)
          (ix3 b p e) ⟨List.idxOf (1 : Fin 3) [1], List.idxOf_lt_length_iff.2 ha⟩ = ix2 p (0 : Fin 1) := by
        funext c; refine Fin.ext ?_
        match c with
        | ⟨0, _⟩ => rfl
        | ⟨1, _⟩ => rfl
      rw [hsi]
      rfl
    · rename_i ha
      exact absurd (show (1 : Fin 3) ∈ ([1] : List (Fin 3)) from by decide) ha
  | ⟨2, _⟩ =>
    -- axis 2: not in the start index map (start 0), not batching, second kept axis: the offset coordinate e
    show GatherDims.start _ _ idx 2 + GatherDims.batchCoord _ _ 2 + GatherDims.offCoord _ _ 2 = _
    rw [GatherDims.batchCoord_eq_zero _ _ _ List.not_mem_nil]
    unfold GatherDims.start
    split
    · rename_i ha
      exact absurd ha (show (2 : Fin 3) ∉ ([1] : List (Fin 3)) from by decide)
    · unfold GatherDims.offCoord
      split
      · simp only [Nat.zero_add]
        rfl
      · rename_i _ hb
        exact absurd (show (2 : Fin 3) ∈ (List.finRange 3).filter (· ∉ ([1] ++ [] : List (Fin 3))) from by decide) hb

end LibMidGather
-- ==== Proof.RefGather.lean ====
/-
  The reference's two gathers read at an entry. Each takes whole rows of a projected array [8, 160, 256] along its middle
  axis at a column of 12720 start indices: the entry at (b, p, e) is the operand at (b, s, e) with s the p-th start
  index read signed and clamped into [0, 159]. The start-index column holds, at (p, 0), the p-th row number, plus 160
  where it is negative.
-/
import proofs.«138512_j66692252172937_2_alg».proof.Proof.RefStages
import proofs.«138512_j66692252172937_2_alg».proof.Proof.LibMidGather

noncomputable section

namespace Cert.ReferenceIdeal.RefValue

open Cert.ReferenceIdeal Cert.ReferenceIdeal.Gen Idealize.ShloMosaic

/-- The gathered rows read at an entry: the operand's row at the clamped start index. -/
theorem gather_rows (x : FVec Ideal S8x160x256 .f32) (a : IVec S12720 32) (b : Fin 8) (p : Fin 12720) (e : Fin 256) :
    Host.gather gather_S8x160x256_S12720x1_S8x12720x256_02_1_n_n_1_1_81256 x (Stages.startIdx a) (ValueIdx.ix3 b p e)
      = x (ValueIdx.ix3 b (⟨min ((Stages.startIdx a) (ValueIdx.ix2 p (0 : Fin 1))).toInt.toNat 159, by omega⟩ : Fin 160) e) :=
  LibMidGather.gather_mid_apply (by decide) gather_S8x160x256_S12720x1_S8x12720x256_02_1_n_n_1_1_81256
    rfl rfl rfl rfl rfl rfl rfl x (Stages.startIdx a) b p e

/-- The start-index column read at (p, 0): the p-th word, plus 160 where it is negative. -/
theorem startIdx_apply (a : IVec S12720 32) (p : Fin 12720) :
    Stages.startIdx a (ValueIdx.ix2 p (0 : Fin 1))
      = (if (a (ValueIdx.ix1 p)).toInt < 0 then a (ValueIdx.ix1 p) + 160#32 else a (ValueIdx.ix1 p)) := by
  -- the column at (p, 0) reads the vector at p
  have hidx : Stages.startIdx a (ValueIdx.ix2 p (0 : Fin 1))
      = (select (cmpi .slt a (Stages.spread (constantI S_ 32 0#32)))
          (addi a (Stages.spread (constantI S_ 32 160#32))) a) (ValueIdx.ix1 p) := by
    unfold Stages.startIdx broadcastInDim
    congr 1
    funext c; refine Fin.ext ?_
    match c with
    | ⟨0, _⟩ => rfl
  rw [hidx]
  -- there the select compares the word with zero, signed
  show Scalar.select (IntOp.cmpi .slt (a (ValueIdx.ix1 p)) 0#32) (a (ValueIdx.ix1 p) + 160#32) (a (ValueIdx.ix1 p)) = _
  have h0 : (0#32).toInt = 0 := by decide
  have hc : IntOp.cmpi .slt (a (ValueIdx.ix1 p)) 0#32 = 1#1 ↔ (a (ValueIdx.ix1 p)).toInt < 0 := by
    rw [IntOp.cmpi_slt, h0]
  unfold Scalar.select
  by_cases h : (a (ValueIdx.ix1 p)).toInt < 0
  · rw [if_pos h]; exact if_pos (hc.mpr h)
  · rw [if_neg h]; exact if_neg (fun hh => h (hc.mp hh))

end Cert.ReferenceIdeal.RefValue

end
-- ==== Proof.RefValue.lean ====
/-
  The reference's result is the specification.

  At (b, p, e) the reference adds the row of the upper projection gathered at the first member of the p-th pair, the row
  of the lower projection gathered at its second member, and the bias. The two members come from the run-time table: the
  count of flattened positions whose running count is at most p is the flattened position 160·row p + col p of the p-th
  pair (PairIndex.count_le), so its quotient by 160 is row p and its remainder col p, both below 160, and the gather's
  clamp leaves them as they are. The specification adds the lower projection first: addition of extended reals is
  commutative.
-/
import proofs.«138512_j66692252172937_2_alg».proof.Proof.RefStages
import proofs.«138512_j66692252172937_2_alg».proof.Proof.Spec
import proofs.«138512_j66692252172937_2_alg».proof.Proof.RefProj
import proofs.«138512_j66692252172937_2_alg».proof.Proof.RefBias
import proofs.«138512_j66692252172937_2_alg».proof.Proof.RefWords
import proofs.«138512_j66692252172937_2_alg».proof.Proof.RefCount
import proofs.«138512_j66692252172937_2_alg».proof.Proof.RefGather

noncomputable section

namespace Cert.ReferenceIdeal.RefValue

open Cert.ReferenceIdeal Cert.ReferenceIdeal.Gen Idealize.ShloMosaic Idealize.ShloMosaic.ValueIdx

/-- The flattened position of a pair is below 25600. -/
theorem flat_lt {p : ℕ} (hp : p < 12720) : PairIndex.flat p < 25600 := by
  have h1 := PairIndex.row_lt_col hp
  have h2 := PairIndex.col_lt hp
  unfold PairIndex.flat
  omega

/-- The quotient of the flattened position by 160 is the first member. -/
theorem flat_div {p : ℕ} (hp : p < 12720) : PairIndex.flat p / 160 = PairIndex.row p := by
  have h2 := PairIndex.col_lt hp
  unfold PairIndex.flat
  omega

/-- The remainder of the flattened position by 160 is the second member. -/
theorem flat_mod {p : ℕ} (hp : p < 12720) : PairIndex.flat p % 160 = PairIndex.col p := by
  have h2 := PairIndex.col_lt hp
  unfold PairIndex.flat
  omega

/-- The first-member table at p is row p. -/
theorem rowW_apply (p : Fin 12720) : Stages.rowW (ix1 p) = BitVec.ofNat 32 (PairIndex.row p.val) := by
  rw [rowW_apply_of p _ (flatIdx_toNat p) (flat_lt p.isLt), flat_div p.isLt]

/-- The second-member table at p is col p. -/
theorem colW_apply (p : Fin 12720) : Stages.colW (ix1 p) = BitVec.ofNat 32 (PairIndex.col p.val) := by
  rw [colW_apply_of p _ (flatIdx_toNat p) (flat_lt p.isLt), flat_mod p.isLt]

/-- The row the gather reads for the first member. -/
theorem start_row (p : Fin 12720) :
    (⟨min (Stages.startIdx Stages.rowW (ix2 p (0 : Fin 1))).toInt.toNat 159, by omega⟩ : Fin 160) = PairSpec.rowF p := by
  have h1 := PairIndex.row_lt_col p.isLt
  have h2 := PairIndex.col_lt p.isLt
  apply Fin.ext
  show min _ 159 = min _ 159
  rw [startIdx_apply_of Stages.rowW p (PairIndex.row p.val) (by omega) (rowW_apply p)]

/-- The row the gather reads for the second member. -/
theorem start_col (p : Fin 12720) :
    (⟨min (Stages.startIdx Stages.colW (ix2 p (0 : Fin 1))).toInt.toNat 159, by omega⟩ : Fin 160) = PairSpec.colF p := by
  have h2 := PairIndex.col_lt p.isLt
  apply Fin.ext
  show min _ 159 = min _ 159
  rw [startIdx_apply_of Stages.colW p (PairIndex.col p.val) h2 (colW_apply p)]

/-- The reference's result is the specification, entry by entry. -/
theorem out_eq_G (x : FVec Ideal S8x160x256 .f32) (W : FVec Ideal S512x256 .f32) (b : FVec Ideal S256 .f32) :
    Stages.out x W b = PairSpec.G x W b := by
  funext j
  obtain ⟨bb, p, e, rfl⟩ : ∃ (bb : Fin 8) (p : Fin 12720) (e : Fin 256), j = ix3 bb p e := ⟨j 0, j 1, j 2, eq_ix3 j⟩
  unfold Stages.out PairSpec.G
  show (Host.gather gather_S8x160x256_S12720x1_S8x12720x256_02_1_n_n_1_1_81256 (Stages.xa x W) (Stages.startIdx Stages.rowW) (ix3 bb p e)
      + Host.gather gather_S8x160x256_S12720x1_S8x12720x256_02_1_n_n_1_1_81256 (Stages.xb x W) (Stages.startIdx Stages.colW) (ix3 bb p e))
      + broadcastInDim S8x12720x256 ![0, 1, 2] bcast_S1x1x256_S8x12720x256_0_1_2
          (broadcastInDim S1x1x256 ![2] bcast_S256_S1x1x256_2 b) (ix3 bb p e) = _
  rw [gather_rows, gather_rows, start_row, start_col, xa_apply, xb_apply, bias_apply]
  show (PairSpec.projA x W bb (PairSpec.rowF p) e + PairSpec.projB x W bb (PairSpec.colF p) e) + b (ix1 e)
      = (PairSpec.projB x W bb (PairSpec.colF p) e + PairSpec.projA x W bb (PairSpec.rowF p) e) + b (ix1 e)
  rw [add_comm (PairSpec.projA x W bb (PairSpec.rowF p) e)]

end Cert.ReferenceIdeal.RefValue

end
-- ==== Proof.lean ====
/-
  The five claims of the certificate.

  Both idealized programs compute, at batch b, pair position p and feature e, the sum of the row x[b, col p, :] projected
  by the lower half of the weight, the row x[b, row p, :] projected by the upper half, and the bias at e, where
  (row p, col p) is the p-th pair i < j < 160 in row-major order (PairSpec.G over PairIndex). The kernel reaches it by
  writing, for every first member i, the run of its partners j = i + 1 .. 159 at the literal place off i of the packed
  axis (KernelBlock, KernelValue); the reference by building the pair table at run time from a triangular mask, two
  running counts and a histogram, and gathering (RefRun, RefCount, RefWords, RefGather, RefValue). The two sides differ
  only in the order of one addition of extended reals, so no finiteness of the inputs is used. The frames of the two
  kernel programs are the frame proofs over the body's run; what they need of the body is that its 159 stores, rows
  off i … off i + 158 − i for i = 0 … 158, fill the block of 12720 rows, which holds because each starts where the one
  before ends (KernelPieces, WordPieces). The reference's frame is its run with the result dropped; no rewrite was made
  by the idealization, so there is nothing to preserve.
-/
import proofs.«138512_j66692252172937_2_alg».proof.Defs
import proofs.«138512_j66692252172937_2_alg».proof.Proof.Gen.Kernel
import proofs.«138512_j66692252172937_2_alg».proof.Proof.Gen.Kernel.Skeleton
import proofs.«138512_j66692252172937_2_alg».proof.Proof.Gen.Kernel.Launch
import proofs.«138512_j66692252172937_2_alg».proof.Proof.Gen.Kernel.Points
import proofs.«138512_j66692252172937_2_alg».proof.Proof.Gen.KernelIdeal
import proofs.«138512_j66692252172937_2_alg».proof.Proof.Gen.KernelIdeal.Skeleton
import proofs.«138512_j66692252172937_2_alg».proof.Proof.Gen.KernelIdeal.Launch
import proofs.«138512_j66692252172937_2_alg».proof.Proof.Gen.KernelIdeal.Points
import proofs.«138512_j66692252172937_2_alg».proof.Proof.Gen.ReferenceIdeal
import proofs.«138512_j66692252172937_2_alg».proof.Proof.Gen.Pre_finite_inputs
import proofs.«138512_j66692252172937_2_alg».proof.Proof.WordFrameP
import proofs.«138512_j66692252172937_2_alg».proof.Proof.KernelIdealFrameP
import proofs.«138512_j66692252172937_2_alg».proof.Proof.KernelValue
import proofs.«138512_j66692252172937_2_alg».proof.Proof.RefRun
import proofs.«138512_j66692252172937_2_alg».proof.Proof.RefValue
import Idealize.ShloMosaic.Adequacy
import Idealize.ShloMosaic.Init

noncomputable section

namespace Cert.Proof

open Idealize.ShloMosaic Idealize.SL.Sem

/-- The word-level kernel runs and leaves its arguments unchanged: the frame over the body's run, the block being
    covered by the run's stores (WordPieces). -/
theorem frame_kernel : Cert.frame_Kernel := fun m ρ _ => Cert.Kernel.GenP.frame m ρ

/-- The idealized kernel runs and leaves its arguments unchanged: the frame over the body's run, the block being
    covered by the run's stores (KernelPieces). -/
theorem frame_kernelIdeal : Cert.frame_KernelIdeal := fun m ρ _ => Cert.KernelIdeal.GenP.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.HandRun.run m ρ)

/-- From memories agreeing on the arguments the two idealized programs end with the same array: the specification at
    the shared arguments. -/
theorem algebraic : Cert.algebraic_KernelIdeal_ReferenceIdeal := by
  intro m ρ m' ρ' _ hagree
  refine ⟨fun c => PairSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2]
  exact Cert.ReferenceIdeal.RefValue.out_eq_G _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
